-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S15x128 : Shape := ⟨2, ![15, 128]⟩
abbrev S200x128 : Shape := ⟨2, ![200, 128]⟩
abbrev S_ : Shape := ⟨0, ![]⟩

class Facts : Prop where
  bcast_S_S15x128 : S_.BroadcastsInDim S15x128 (![] : Fin 0 → Fin S15x128.rank)
  reducesTo_S15x128_S_d0_1 : S15x128.ReducesTo [0, 1] S_
  h_S_ : 0 < S_.numel
  bcast_S_S200x128 : S_.BroadcastsInDim S200x128 (![] : Fin 0 → Fin S200x128.rank)
  reducesTo_S200x128_S_d0_1 : S200x128.ReducesTo [0, 1] S_
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S15x128 .f32) (main_arg2 : FVec F S200x128 .f32) : IVec S_ 1 :=
  let main_v0 : FVec F S15x128 .f32 := Host.absf main_arg1
  let main_cst : FVec F S_ .f32 := constant S_ .f32 0x7F800000#32
  let main_v1 : FVec F S15x128 .f32 := broadcastInDim S15x128 ![] bcast_S_S15x128 main_cst
  let main_v2 : IVec S15x128 1 := cmpf .olt main_v0 main_v1
  let main_c : IVec S_ 1 := constantI S_ 1 1#1
  let main_v3 : IVec S_ 1 := (fun x v => Host.reduce IntOp.andi x v reducesTo_S15x128_S_d0_1 h_S_) main_v2 main_c
  let main_v4 : FVec F S200x128 .f32 := Host.absf main_arg2
  let main_cst_0 : FVec F S_ .f32 := constant S_ .f32 0x7F800000#32
  let main_v5 : FVec F S200x128 .f32 := broadcastInDim S200x128 ![] bcast_S_S200x128 main_cst_0
  let main_v6 : IVec S200x128 1 := cmpf .olt main_v4 main_v5
  let main_c_1 : IVec S_ 1 := constantI S_ 1 1#1
  let main_v7 : IVec S_ 1 := (fun x v => Host.reduce IntOp.andi x v reducesTo_S200x128_S_d0_1 h_S_) main_v6 main_c_1
  let main_v8 : IVec S_ 1 := andi main_v3 main_v7
  let main_c_2 : IVec S_ 32 := constantI S_ 32 0#32
  let main_v9 : IVec S4096x200 32 := broadcastInDim S4096x200 ![] bcast_S_S4096x200 main_c_2
  let main_v10 : IVec S4096x200 1 := cmpi .sge main_arg0 main_v9
  let main_c_3 : IVec S_ 32 := constantI S_ 32 14#32
  let main_v11 : IVec S4096x200 32 := broadcastInDim S4096x200 ![] bcast_S_S4096x200 main_c_3
  let main_v12 : IVec S4096x200 1 := cmpi .sle main_arg0 main_v11
  let main_v13 : IVec S4096x200 1 := andi main_v10 main_v12
  let main_c_4 : IVec S_ 1 := constantI S_ 1 1#1
  let main_v14 : IVec S_ 1 := (fun x v => Host.reduce IntOp.andi x v reducesTo_S4096x200_S_d0_1 h_S_) main_v13 main_c_4
  let main_v15 : IVec S_ 1 := andi main_v8 main_v14
  main_v15
-- ==== Kernel.lean ====
abbrev S4096x200 : Shape := ⟨2, ![4096, 200]⟩
abbrev S15x128 : Shape := ⟨2, ![15, 128]⟩
abbrev S200x128 : Shape := ⟨2, ![200, 128]⟩
abbrev S_ : Shape := ⟨0, ![]⟩
abbrev S16x128 : Shape := ⟨2, ![16, 128]⟩
abbrev S200x16x128 : Shape := ⟨3, ![200, 16, 128]⟩
abbrev S1x16x128 : Shape := ⟨3, ![1, 16, 128]⟩
abbrev S200x1x128 : Shape := ⟨3, ![200, 1, 128]⟩
abbrev S3200x128 : Shape := ⟨2, ![3200, 128]⟩
abbrev S819200 : Shape := ⟨1, ![819200]⟩
abbrev S819200x128 : Shape := ⟨2, ![819200, 128]⟩
abbrev S25600 : Shape := ⟨1, ![25600]⟩
abbrev S64 : Shape := ⟨1, ![64]⟩
abbrev S64x128 : Shape := ⟨2, ![64, 128]⟩
abbrev S16 : Shape := ⟨1, ![16]⟩
abbrev S4096x200x128 : Shape := ⟨3, ![4096, 200, 128]⟩

abbrev nBuf : Table → Nat
  | .hbm => 11
  | .local .tc .vmem => 3
  | .shared => 1
  | .local .scVector .vmem => 17
  | _ => 0

abbrev bufTy : (tb : Table) → Fin (nBuf tb) → BufTy
  | .hbm, ⟨0, _⟩ => ⟨S4096x200, .i32⟩
  | .hbm, ⟨1, _⟩ => ⟨S15x128, .f32⟩
  | .hbm, ⟨2, _⟩ => ⟨S200x128, .f32⟩
  | .hbm, ⟨3, _⟩ => ⟨S_, .i32⟩
  | .hbm, ⟨4, _⟩ => ⟨S_, .f32⟩
  | .hbm, ⟨5, _⟩ => ⟨S16x128, .f32⟩
  | .hbm, ⟨6, _⟩ => ⟨S200x16x128, .f32⟩
  | .hbm, ⟨7, _⟩ => ⟨S3200x128, .f32⟩
  | .hbm, ⟨8, _⟩ => ⟨S819200, .i32⟩
  | .hbm, ⟨9, _⟩ => ⟨S819200x128, .f32⟩
  | .hbm, ⟨10, _⟩ => ⟨S4096x200x128, .f32⟩
  | .local .tc .vmem, ⟨0, _⟩ => ⟨S16x128, .f32⟩
  | .local .tc .vmem, ⟨1, _⟩ => ⟨S200x128, .f32⟩
  | .local .tc .vmem, ⟨2, _⟩ => ⟨S200x16x128, .f32⟩
  | .shared, ⟨0, _⟩ => ⟨S3200x128, .f32⟩
  | .local .scVector .vmem, ⟨0, _⟩ => ⟨S25600, .i32⟩
  | .local .scVector .vmem, ⟨1, _⟩ => ⟨S64, .i32⟩
  | .local .scVector .vmem, ⟨2, _⟩ => ⟨S64, .i32⟩
  | .local .scVector .vmem, ⟨3, _⟩ => ⟨S64, .i32⟩
  | .local .scVector .vmem, ⟨4, _⟩ => ⟨S64, .i32⟩
  | .local .scVector .vmem, ⟨5, _⟩ => ⟨S64, .i32⟩
  | .local .scVector .vmem, ⟨6, _⟩ => ⟨S64, .i32⟩
  | .local .scVector .vmem, ⟨7, _⟩ => ⟨S64, .i32⟩
  | .local .scVector .vmem, ⟨8, _⟩ => ⟨S64, .i32⟩
  | .local .scVector .vmem, ⟨9, _⟩ => ⟨S64x128, .f32⟩
  | .local .scVector .vmem, ⟨10, _⟩ => ⟨S64x128, .f32⟩
  | .local .scVector .vmem, ⟨11, _⟩ => ⟨S64x128, .f32⟩
  | .local .scVector .vmem, ⟨12, _⟩ => ⟨S64x128, .f32⟩
  | .local .scVector .vmem, ⟨13, _⟩ => ⟨S64x128, .f32⟩
  | .local .scVector .vmem, ⟨14, _⟩ => ⟨S64x128, .f32⟩
  | .local .scVector .vmem, ⟨15, _⟩ => ⟨S64x128, .f32⟩
  | .local .scVector .vmem, ⟨16, _⟩ => ⟨S64x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 21 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 5 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v3_scv : Ref sig .scVector := ⟨.hbm, 8, rfl⟩
abbrev main_v2_scv : Ref sig .scVector := ⟨.hbm, 7, rfl⟩
abbrev main_v4_scv : Ref sig .scVector := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_scratch1 : Ref sig .scVector := ⟨.shared, 0, rfl⟩
abbrev cc1_scratch0 : Ref sig .scVector := ⟨.vmem, 0, rfl⟩
abbrev cc1_scratch2 : Ref sig .scVector := ⟨.vmem, 1, rfl⟩
abbrev cc1_scratch3 : Ref sig .scVector := ⟨.vmem, 2, rfl⟩
abbrev cc1_scratch4 : Ref sig .scVector := ⟨.vmem, 3, rfl⟩
abbrev cc1_scratch5 : Ref sig .scVector := ⟨.vmem, 4, rfl⟩
abbrev cc1_scratch6 : Ref sig .scVector := ⟨.vmem, 5, rfl⟩
abbrev cc1_scratch7 : Ref sig .scVector := ⟨.vmem, 6, rfl⟩
abbrev cc1_scratch8 : Ref sig .scVector := ⟨.vmem, 7, rfl⟩
abbrev cc1_scratch9 : Ref sig .scVector := ⟨.vmem, 8, rfl⟩
abbrev cc1_scratch10 : Ref sig .scVector := ⟨.vmem, 9, rfl⟩
abbrev cc1_scratch11 : Ref sig .scVector := ⟨.vmem, 10, rfl⟩
abbrev cc1_scratch12 : Ref sig .scVector := ⟨.vmem, 11, rfl⟩
abbrev cc1_scratch13 : Ref sig .scVector := ⟨.vmem, 12, rfl⟩
abbrev cc1_scratch14 : Ref sig .scVector := ⟨.vmem, 13, rfl⟩
abbrev cc1_scratch15 : Ref sig .scVector := ⟨.vmem, 14, rfl⟩
abbrev cc1_scratch16 : Ref sig .scVector := ⟨.vmem, 15, rfl⟩
abbrev cc1_scratch17 : Ref sig .scVector := ⟨.vmem, 16, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S200x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
def k1_off2 (i : grid1.Coords) : Fin 2 → Nat :=
  let arg1 : BitVec 32 := BitVec.ofNat 32 (i 1).val
  let c200_i32_0 : BitVec 32 := 200#32
  let v6 : BitVec 32 := Scalar.muli arg1 c200_i32_0
  let c0_i32_406_r0 : BitVec 32 := 0#32
  ![v6.toNat, 0]
def k1_off3 (c0_i32_3 : BitVec 32) (c0_i32_5 : BitVec 32) : Fin 1 → Nat :=
  let c64_i32_4 : BitVec 32 := 64#32
  let v16 : BitVec 32 := Scalar.muli c0_i32_3 c64_i32_4
  let v17 : BitVec 32 := Scalar.addi v16 c0_i32_5
  let v18 : Index := Scalar.indexCast v17
  ![v18.toNat]
@[reducible] def k1_t1_loop : Scf.Loop 32 :=
  let c0_i32_292 : BitVec 32 := 0#32
  let c49_i32 : BitVec 32 := 49#32
  let v562 : BitVec 32 := Scalar.addi c0_i32_292 c49_i32
  let c1_i32_293 : BitVec 32 := 1#32
  ⟨c0_i32_292, v562, c1_i32_293⟩
def k1_off4 (i : grid1.Coords) (k1_t1 : Fin k1_t1_loop.trips) (c0_i32_407 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_292 : BitVec 32 := 0#32
  let c1_i32_293 : BitVec 32 := 1#32
  let arg40 : BitVec 32 := Scf.iv c0_i32_292 c1_i32_293 k1_t1
  let c8_i32_406 : BitVec 32 := 8#32
  let v667 : BitVec 32 := Scalar.muli arg40 c8_i32_406
  let v668 : BitVec 32 := Scalar.addi v667 c0_i32_407
  let c64_i32_410 : BitVec 32 := 64#32
  let v670 : BitVec 32 := Scalar.muli v668 c64_i32_410
  let v671 : BitVec 32 := Scalar.addi v2 v670
  let c0_i32_411 : BitVec 32 := 0#32
  ![v671.toNat, 0]
def k1_off5 (k1_t1 : Fin k1_t1_loop.trips) (c0_i32_463 : BitVec 32) (c0_i32_472 : BitVec 32) : Fin 1 → Nat :=
  let c0_i32_292 : BitVec 32 := 0#32
  let c1_i32_293 : BitVec 32 := 1#32
  let arg40 : BitVec 32 := Scf.iv c0_i32_292 c1_i32_293 k1_t1
  let c8_i32_462 : BitVec 32 := 8#32
  let v723 : BitVec 32 := Scalar.muli arg40 c8_i32_462
  let v724 : BitVec 32 := Scalar.addi v723 c0_i32_463
  let c8_i32_467 : BitVec 32 := 8#32
  let v729 : BitVec 32 := Scalar.addi v724 c8_i32_467
  let c64_i32_471 : BitVec 32 := 64#32
  let v736 : BitVec 32 := Scalar.muli v729 c64_i32_471
  let v737 : BitVec 32 := Scalar.addi v736 c0_i32_472
  let v738 : Index := Scalar.indexCast v737
  ![v738.toNat]
def k1_off6 (i : grid1.Coords) (c0_i32_296 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c49_i32_295 : BitVec 32 := 49#32
  let c8_i32 : BitVec 32 := 8#32
  let v563 : BitVec 32 := Scalar.muli c49_i32_295 c8_i32
  let v564 : BitVec 32 := Scalar.addi v563 c0_i32_296
  let c64_i32_299 : BitVec 32 := 64#32
  let v566 : BitVec 32 := Scalar.muli v564 c64_i32_299
  let v567 : BitVec 32 := Scalar.addi v2 v566
  let c0_i32_300 : BitVec 32 := 0#32
  ![v567.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  pads_S15x128_S16x128_010_000 : S15x128.Pads (![0, 0] : Fin 2 → Nat) ![1, 0] ![0, 0] S16x128
  h_S_ : 0 < S_.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S200x128_S200x128_0_0 : ∀ a, (![0, 0] : Fin 2 → Nat) a + S200x128.size a ≤ S200x128.size a
  h_S200x128 : 0 < S200x128.numel
  shapeCasts_S16x128_S1x16x128 : S16x128.ShapeCasts S1x16x128
  shapeCasts_S200x128_S200x1x128 : S200x128.ShapeCasts S200x1x128
  broadcasts_S1x16x128_S200x16x128 : S1x16x128.Broadcasts S200x16x128
  broadcasts_S200x1x128_S200x16x128 : S200x1x128.Broadcasts S200x16x128
  inb_S200x16x128_S200x16x128_0_0_0 : ∀ a, (![0, 0, 0] : Fin 3 → Nat) a + S200x16x128.size a ≤ S200x16x128.size a
  h_S200x16x128 : 0 < S200x16x128.numel
  shapeCasts_S200x16x128_S3200x128 : S200x16x128.ShapeCasts S3200x128
  shapeCasts_S4096x200_S819200 : S4096x200.ShapeCasts S819200
  iota_S16_d0_w32_scVector : S16.Iotas .scVector 32 [0]
  h_S16 : 0 < S16.numel
  shapeCasts_S16_S16 : S16.ShapeCasts S16
  inb_S64_S16_0 : ∀ a, (![0] : Fin 1 → Nat) a + S16.size a ≤ S64.size a
  inb_S64_S16_16 : ∀ a, (![16] : Fin 1 → Nat) a + S16.size a ≤ S64.size a
  inb_S64_S16_32 : ∀ a, (![32] : Fin 1 → Nat) a + S16.size a ≤ S64.size a
  inb_S64_S16_48 : ∀ a, (![48] : Fin 1 → Nat) a + S16.size a ≤ S64.size a
  inb_S3200x128_S3200x128_0_0 : ∀ a, (![0, 0] : Fin 2 → Nat) a + S3200x128.size a ≤ S3200x128.size a
  gathers_S3200x128_S64x128 : S3200x128.Gathers 0 S64x128
  shapeCasts_S819200x128_S4096x200x128 : S819200x128.ShapeCasts S4096x200x128
  hcc1_scratch18 : 3 + S_.numel ≤ 21
  hcc1_scratch19 : 4 + S_.numel ≤ 21
  hcc1_scratch20 : 5 + S_.numel ≤ 21
  hcc1_scratch21 : 6 + S_.numel ≤ 21
  hcc1_scratch22 : 7 + S_.numel ≤ 21
  hcc1_scratch23 : 8 + S_.numel ≤ 21
  hcc1_scratch24 : 9 + S_.numel ≤ 21
  hcc1_scratch25 : 10 + S_.numel ≤ 21
  hcc1_scratch26 : 11 + S_.numel ≤ 21
  hcc1_scratch27 : 12 + S_.numel ≤ 21
  hcc1_scratch28 : 13 + S_.numel ≤ 21
  hcc1_scratch29 : 14 + S_.numel ≤ 21
  hcc1_scratch30 : 15 + S_.numel ≤ 21
  hcc1_scratch31 : 16 + S_.numel ≤ 21
  hcc1_scratch32 : 17 + S_.numel ≤ 21
  hcc1_scratch33 : 18 + S_.numel ≤ 21
  hcc1_scratch34 : 19 + S_.numel ≤ 21
  hcc1_scoped0 : 20 + S_.numel ≤ 21
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hcore1 : grid1.bound 0 ≤ τ.nSC
  hsub1 : grid1.bound 1 ≤ τ.nSub
  k1_off1_inb : ∀ i : grid1.Coords, ∀ a, (k1_off1 i) a + S25600.size a ≤ S819200.size a
  k1_off2_inb : ∀ i : grid1.Coords, ∀ a, (k1_off2 i) a + S200x128.size a ≤ S3200x128.size a
  k1_off3_inb : ∀ (r₁ : Fin 8) (r₂ : Fin 4), ∀ a, (k1_off3 (BitVec.ofNat 32 r₁.val) (BitVec.ofNat 32 (16 * r₂.val))) a + S16.size a ≤ S25600.size a
  k1_t1_ok : k1_t1_loop.OK
  k1_off4_inb : ∀ (i : grid1.Coords) (k1_t1 : Fin k1_t1_loop.trips), ∀ (r : Fin 8), ∀ a, (k1_off4 i k1_t1 (BitVec.ofNat 32 r.val)) a + S64x128.size a ≤ S819200x128.size a
  k1_off5_inb : ∀ k1_t1 : Fin k1_t1_loop.trips, ∀ (r₁ : Fin 8) (r₂ : Fin 4), ∀ a, (k1_off5 k1_t1 (BitVec.ofNat 32 r₁.val) (BitVec.ofNat 32 (16 * r₂.val))) a + S16.size a ≤ S25600.size a
  k1_off6_inb : ∀ i : grid1.Coords, ∀ (r : Fin 8), ∀ a, (k1_off6 i (BitVec.ofNat 32 r.val)) a + S64x128.size a ≤ S819200x128.size a

variable [Facts₀]

abbrev cc1_scratch18 : DmaSems sig S_ := SemArray.consecutive 3 S_ hcc1_scratch18
abbrev cc1_scratch19 : DmaSems sig S_ := SemArray.consecutive 4 S_ hcc1_scratch19
abbrev cc1_scratch20 : DmaSems sig S_ := SemArray.consecutive 5 S_ hcc1_scratch20
abbrev cc1_scratch21 : DmaSems sig S_ := SemArray.consecutive 6 S_ hcc1_scratch21
abbrev cc1_scratch22 : DmaSems sig S_ := SemArray.consecutive 7 S_ hcc1_scratch22
abbrev cc1_scratch23 : DmaSems sig S_ := SemArray.consecutive 8 S_ hcc1_scratch23
abbrev cc1_scratch24 : DmaSems sig S_ := SemArray.consecutive 9 S_ hcc1_scratch24
abbrev cc1_scratch25 : DmaSems sig S_ := SemArray.consecutive 10 S_ hcc1_scratch25
abbrev cc1_scratch26 : DmaSems sig S_ := SemArray.consecutive 11 S_ hcc1_scratch26
abbrev cc1_scratch27 : DmaSems sig S_ := SemArray.consecutive 12 S_ hcc1_scratch27
abbrev cc1_scratch28 : DmaSems sig S_ := SemArray.consecutive 13 S_ hcc1_scratch28
abbrev cc1_scratch29 : DmaSems sig S_ := SemArray.consecutive 14 S_ hcc1_scratch29
abbrev cc1_scratch30 : DmaSems sig S_ := SemArray.consecutive 15 S_ hcc1_scratch30
abbrev cc1_scratch31 : DmaSems sig S_ := SemArray.consecutive 16 S_ hcc1_scratch31
abbrev cc1_scratch32 : DmaSems sig S_ := SemArray.consecutive 17 S_ hcc1_scratch32
abbrev cc1_scratch33 : DmaSems sig S_ := SemArray.consecutive 18 S_ hcc1_scratch33
abbrev cc1_scratch34 : DmaSems sig S_ := SemArray.consecutive 19 S_ hcc1_scratch34
abbrev cc1_scoped0 : DmaSems sig S_ := SemArray.consecutive 20 S_ hcc1_scoped0

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x200 : Shape := ⟨2, ![4096, 200]⟩
abbrev S15x128 : Shape := ⟨2, ![15, 128]⟩
abbrev S200x128 : Shape := ⟨2, ![200, 128]⟩
abbrev S200 : Shape := ⟨1, ![200]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩
abbrev S200x1 : Shape := ⟨2, ![200, 1]⟩
abbrev S1x1 : Shape := ⟨2, ![1, 1]⟩
abbrev S1x200x128 : Shape := ⟨3, ![1, 200, 128]⟩

abbrev nBuf : Space → Nat
  | .hbm => 56
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S15x128, .f32⟩
  | .hbm, ⟨2, _⟩ => ⟨S200x128, .f32⟩
  | .hbm, ⟨3, _⟩ => ⟨S200, .i32⟩
  | .hbm, ⟨4, _⟩ => ⟨S_, .i32⟩
  | .hbm, ⟨5, _⟩ => ⟨S4096x200, .i32⟩
  | .hbm, ⟨6, _⟩ => ⟨S4096x200, .i1⟩
  | .hbm, ⟨7, _⟩ => ⟨S_, .i32⟩
  | .hbm, ⟨8, _⟩ => ⟨S4096x200, .i32⟩
  | .hbm, ⟨9, _⟩ => ⟨S4096x200, .i32⟩
  | .hbm, ⟨10, _⟩ => ⟨S4096x200, .i32⟩
  | .hbm, ⟨11, _⟩ => ⟨S4096x200x1, .i32⟩
  | .hbm, ⟨12, _⟩ => ⟨S1, .i32⟩
  | .hbm, ⟨13, _⟩ => ⟨S_, .i32⟩
  | .hbm, ⟨14, _⟩ => ⟨S4096x200x1, .i32⟩
  | .hbm, ⟨15, _⟩ => ⟨S4096x200x1, .i1⟩
  | .hbm, ⟨16, _⟩ => ⟨S1x1x1, .i32⟩
  | .hbm, ⟨17, _⟩ => ⟨S4096x200x1, .i32⟩
  | .hbm, ⟨18, _⟩ => ⟨S4096x200x1, .i1⟩
  | .hbm, ⟨19, _⟩ => ⟨S4096x200x1, .i1⟩
  | .hbm, ⟨20, _⟩ => ⟨S_, .i1⟩
  | .hbm, ⟨21, _⟩ => ⟨S4096x200, .i1⟩
  | .hbm, ⟨22, _⟩ => ⟨S4096x200x128, .f32⟩
  | .hbm, ⟨23, _⟩ => ⟨S4096x200x128, .i1⟩
  | .hbm, ⟨24, _⟩ => ⟨S_, .f32⟩
  | .hbm, ⟨25, _⟩ => ⟨S4096x200x128, .f32⟩
  | .hbm, ⟨26, _⟩ => ⟨S4096x200x128, .f32⟩
  | .hbm, ⟨27, _⟩ => ⟨S_, .f32⟩
  | .hbm, ⟨28, _⟩ => ⟨S4096x200x128, .f32⟩
  | .hbm, ⟨29, _⟩ => ⟨S4096x200x128, .f32⟩
  | .hbm, ⟨30, _⟩ => ⟨S_, .i32⟩
  | .hbm, ⟨31, _⟩ => ⟨S200, .i32⟩
  | .hbm, ⟨32, _⟩ => ⟨S200, .i1⟩
  | .hbm, ⟨33, _⟩ => ⟨S_, .i32⟩
  | .hbm, ⟨34, _⟩ => ⟨S200, .i32⟩
  | .hbm, ⟨35, _⟩ => ⟨S200, .i32⟩
  | .hbm, ⟨36, _⟩ => ⟨S200, .i32⟩
  | .hbm, ⟨37, _⟩ => ⟨S200x1, .i32⟩
  | .hbm, ⟨38, _⟩ => ⟨S1, .i32⟩
  | .hbm, ⟨39, _⟩ => ⟨S_, .i32⟩
  | .hbm, ⟨40, _⟩ => ⟨S200x1, .i32⟩
  | .hbm, ⟨41, _⟩ => ⟨S200x1, .i1⟩
  | .hbm, ⟨42, _⟩ => ⟨S1x1, .i32⟩
  | .hbm, ⟨43, _⟩ => ⟨S200x1, .i32⟩
  | .hbm, ⟨44, _⟩ => ⟨S200x1, .i1⟩
  | .hbm, ⟨45, _⟩ => ⟨S200x1, .i1⟩
  | .hbm, ⟨46, _⟩ => ⟨S_, .i1⟩
  | .hbm, ⟨47, _⟩ => ⟨S200, .i1⟩
  | .hbm, ⟨48, _⟩ => ⟨S200x128, .f32⟩
  | .hbm, ⟨49, _⟩ => ⟨S200x128, .i1⟩
  | .hbm, ⟨50, _⟩ => ⟨S_, .f32⟩
  | .hbm, ⟨51, _⟩ => ⟨S200x128, .f32⟩
  | .hbm, ⟨52, _⟩ => ⟨S200x128, .f32⟩
  | .hbm, ⟨53, _⟩ => ⟨S1x200x128, .f32⟩
  | .hbm, ⟨54, _⟩ => ⟨S4096x200x128, .f32⟩
  | .hbm, ⟨55, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_v3 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  bcast_S_S200 : S_.BroadcastsInDim S200 (![] : Fin 0 → Fin S200.rank)
  bcast_S200_S200x1_0 : S200.BroadcastsInDim S200x1 (![0] : Fin 1 → Fin S200x1.rank)
  bcast_S_S200x1 : S_.BroadcastsInDim S200x1 (![] : Fin 0 → Fin S200x1.rank)
  bcast_S1_S1x1_1 : S1.BroadcastsInDim S1x1 (![1] : Fin 1 → Fin S1x1.rank)
  bcast_S1x1_S200x1_0_1 : S1x1.BroadcastsInDim S200x1 (![0, 1] : Fin 2 → Fin S200x1.rank)
  reducesTo_S200x1_S200_d1 : S200x1.ReducesTo [1] S200
  bcast_S200_S200x128_0 : S200.BroadcastsInDim S200x128 (![0] : Fin 1 → Fin S200x128.rank)
  bcast_S_S200x128 : S_.BroadcastsInDim S200x128 (![] : Fin 0 → Fin S200x128.rank)
  bcast_S200x128_S1x200x128_1_2 : S200x128.BroadcastsInDim S1x200x128 (![1, 2] : Fin 2 → Fin S1x200x128.rank)
  bcast_S1x200x128_S4096x200x128_0_1_2 : S1x200x128.BroadcastsInDim S4096x200x128 (![0, 1, 2] : Fin 3 → Fin S4096x200x128.rank)
  gather_S15x128_S4096x200x1_S4096x200x128_2_0_n_n_0_2_1128_wf : GatherDims.WF S15x128 S4096x200x1 S4096x200x128 [2] [0] [] [0] [] 2 ![1, 128]
  gather_S200x128_S200x1_S200x128_1_0_n_n_0_1_1128_wf : GatherDims.WF S200x128 S200x1 S200x128 [1] [0] [] [0] [] 1 ![1, 128]

variable [Facts₀]

def gather_S15x128_S4096x200x1_S4096x200x128_2_0_n_n_0_2_1128 : GatherDims S15x128 S4096x200x1 S4096x200x128 where
  offsetDims := [2]
  collapsedSliceDims := [0]
  operandBatchingDims := []
  startIndicesBatchingDims := []
  startIndexMap := [0]
  indexVectorDim := 2
  sliceSizes := ![1, 128]
  wf := gather_S15x128_S4096x200x1_S4096x200x128_2_0_n_n_0_2_1128_wf
def gather_S200x128_S200x1_S200x128_1_0_n_n_0_1_1128 : GatherDims S200x128 S200x1 S200x128 where
  offsetDims := [1]
  collapsedSliceDims := [0]
  operandBatchingDims := []
  startIndicesBatchingDims := []
  startIndexMap := [0]
  indexVectorDim := 1
  sliceSizes := ![1, 128]
  wf := gather_S200x128_S200x1_S200x128_1_0_n_n_0_1_1128_wf

class Facts : Prop extends Facts₀ where

variable [Facts]
-- ==== Proof.Spec.lean ====
/-
  The function both programs compute, stated once over the argument arrays.

  For a batch row b, a sequence position s and a feature d, the output entry is
      tok[x[b,s], d] · c + pos[s, d]
  where c is the binary32 value of the word 0x413504F3 (the float nearest √128), tok is the
  15-row token table, pos the 200-row position table and x[b,s] the token id at (b, s).
  A token id is read as the natural number of its word, capped at the last row 14 so that the
  function is total; on ids in [0, 14] the cap does nothing.
-/
import Idealize.ShloMosaic.PureOps
import Idealize.ShloMosaic.Lib.ValueIdx

noncomputable section

namespace Cert.Spec

open Idealize.ShloMosaic Idealize.ShloMosaic.ValueIdx

/-- The row of the token table a 32-bit id names: its value as a natural number, capped at 14. -/
def tokRow (v : BitVec 32) : Fin 15 := ⟨min v.toNat 14, by omega⟩

theorem tokRow_val_of_le (v : BitVec 32) (h : v.toNat ≤ 14) : (tokRow v).val = v.toNat := by
  simp only [tokRow]; omega

/-- out[b,s,d] = tok[x[b,s], d] · c + pos[s, d], at any float instance. -/
def G {F : FTy → Type} [FloatOps F]
    (x : IVec (⟨2, ![4096, 200]⟩ : Shape) 32)
    (tok : FVec F (⟨2, ![15, 128]⟩ : Shape) .f32)
    (pos : FVec F (⟨2, ![200, 128]⟩ : Shape) .f32) :
    FVec F (⟨3, ![4096, 200, 128]⟩ : Shape) .f32 :=
  fun i =>
    let b : Fin 4096 := i 0
    let s : Fin 200 := i 1
    let d : Fin 128 := i 2
    FloatOps.addf
      (FloatOps.mulf (tok (ix2 (tokRow (x (ix2 b s))) d)) (FloatOps.ofBits .f32 0x413504F3#32))
      (pos (ix2 s d))

theorem G_apply {F : FTy → Type} [FloatOps F]
    (x : IVec (⟨2, ![4096, 200]⟩ : Shape) 32)
    (tok : FVec F (⟨2, ![15, 128]⟩ : Shape) .f32)
    (pos : FVec F (⟨2, ![200, 128]⟩ : Shape) .f32)
    (b : Fin 4096) (s : Fin 200) (d : Fin 128) :
    G x tok pos (ix3 b s d) =
      FloatOps.addf
        (FloatOps.mulf (tok (ix2 (tokRow (x (ix2 b s))) d)) (FloatOps.ofBits .f32 0x413504F3#32))
        (pos (ix2 s d)) := rfl

end Cert.Spec

end
-- ==== Proof.KSpec.lean ====
/-
  The kernel's arithmetic as pure functions of arrays, at any float instance.

  * `fused`: the table the first stage builds, fused[p, v, d] = tokpad[v, d] · c + pos[p, d], written with the
    same vector operations as the stage's body (a cast of the 16-row table to one leading unit axis, of the position
    table to one middle unit axis, both broadcast to [200, 16, 128], a product with the splat of c and a sum).
  * `rowOf n v`: the row of the flattened table [3200, 128] that flat position n with token word v reads:
    (n mod 200) · 16 + v, the word capped at 15 so that the row exists for every word.
  * `gatherRows tab xf`: the array whose row n is row `rowOf n (xf n)` of `tab`.
-/
import Idealize.ShloMosaic.PureOps
import Idealize.ShloMosaic.Lib.ValueIdx

noncomputable section

namespace Cert.KSpec

open Idealize.ShloMosaic Idealize.ShloMosaic.ValueIdx

abbrev S16x128 : Shape := ⟨2, ![16, 128]⟩
abbrev S200x128 : Shape := ⟨2, ![200, 128]⟩
abbrev S1x16x128 : Shape := ⟨3, ![1, 16, 128]⟩
abbrev S200x1x128 : Shape := ⟨3, ![200, 1, 128]⟩
abbrev S200x16x128 : Shape := ⟨3, ![200, 16, 128]⟩
abbrev S3200x128 : Shape := ⟨2, ![3200, 128]⟩
abbrev S819200 : Shape := ⟨1, ![819200]⟩
abbrev S819200x128 : Shape := ⟨2, ![819200, 128]⟩

/-- fused[p, v, d] = tokpad[v, d] · c + pos[p, d], in the stage's own operations. -/
def fused {F : FTy → Type} [FloatOps F] (tokpad : FVec F S16x128 .f32) (pos : FVec F S200x128 .f32)
    (h1 : S16x128.ShapeCasts S16x128) (h2 : S16x128.ShapeCasts S1x16x128) (h3 : S200x128.ShapeCasts S200x1x128)
    (h4 : S1x16x128.Broadcasts S200x16x128) (h5 : S200x1x128.Broadcasts S200x16x128) : FVec F S200x16x128 .f32 :=
  addf (broadcastTo S200x16x128 (shapeCast S1x16x128 (mulf (shapeCast S16x128 tokpad h1) (broadcast S16x128 (Scalar.ofBits .f32 0x413504F3#32))) h2) h4)
    (broadcastTo S200x16x128 (shapeCast S200x1x128 pos h3) h5)

/-- The row of the flattened table that flat position `n` with token word `v` reads. -/
def rowOf (n : Nat) (v : BitVec 32) : Fin 3200 := ⟨(n % 200) * 16 + min v.toNat 15, by
  have := Nat.mod_lt n (show 0 < 200 by decide); omega⟩

theorem rowOf_val (n : Nat) (v : BitVec 32) (h : v.toNat ≤ 14) : (rowOf n v).val = (n % 200) * 16 + v.toNat := by
  simp only [rowOf]; omega

/-- Row n of the result is row `rowOf n (xf n)` of the table. -/
def gatherRows {F : FTy → Type} (tab : FVec F S3200x128 .f32) (xf : IVec S819200 32) : FVec F S819200x128 .f32 :=
  fun j =>
    let n : Fin 819200 := j 0
    let d : Fin 128 := j 1
    tab (ix2 (rowOf n.val (xf (ix1 n))) d)

theorem gatherRows_apply {F : FTy → Type} (tab : FVec F S3200x128 .f32) (xf : IVec S819200 32) (n : Fin 819200) (d : Fin 128) :
    gatherRows tab xf (ix2 n d) = tab (ix2 (rowOf n.val (xf (ix1 n))) d) := rfl

end Cert.KSpec

end
-- ==== Proof.SetupKI.lean ====
/-
  The launch set-up for the idealized kernel program: the configuration the launch theorem sees, the resource
  algebra, the arrays' contents as functions of the launch memory, the pieces the thirty-two tasks work on, the
  subcore barrier's schedule and what the launch handshakes carry.

  Contents. With x the token ids, tok and pos the two tables of the launch memory:
    XF   = x flattened to 819200 ids                       (what the flat id array holds at the call)
    TAB  = the fused table flattened to 3200 rows          (TAB[p·16 + v, d] = tokpad[v, d] · c + pos[p, d])
    OUTF = the rows gathered: OUTF[n, :] = TAB[(n mod 200)·16 + XF[n], :]
  Task (core, sub) has worker number w = sub·2 + core; it owns ids and output rows [w·25600, (w+1)·25600) and
  copies rows [sub·200, (sub+1)·200) of the table into its SparseCore's shared memory.

  The barrier carries the table: a task's arrival at task j's barrier semaphore hands j the j-th of sixteen read
  tokens of the rows that task copied, at TAB's contents; after its own wait a task holds its token of all 3200 rows.
-/
import proofs.«206439_g51874615001410_cont_9to1_m_433_33_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206439_g51874615001410_cont_9to1_m_433_33_alg».proof.Proof.Gen.KernelIdeal
import proofs.«206439_g51874615001410_cont_9to1_m_433_33_alg».proof.Proof.Gen.KernelIdeal.Skeleton
import proofs.«206439_g51874615001410_cont_9to1_m_433_33_alg».proof.Proof.Spec
import proofs.«206439_g51874615001410_cont_9to1_m_433_33_alg».proof.Proof.KSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells', the staging cells' of the first stage, the transfers' counters -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
instance EP_landsIn : (EP : Emb UP 𝕄).LandsIn (upEmb : UEmb _ 𝕄) := by unfold EP; infer_instance

/-! ## The launch memory, the arrays and their contents -/

variable (m : (ℓ : Loc nD τ sig) → Buf (Elt F) ℓ) (ρ : Dev nD → PrngReg)

abbrev xLoc (d : Dev nD) : Loc nD τ sig := (SparseCore.T d).loc main_arg0
abbrev tokLoc (d : Dev nD) : Loc nD τ sig := (SparseCore.T d).loc main_arg1
abbrev posLoc (d : Dev nD) : Loc nD τ sig := (SparseCore.T d).loc main_arg2
abbrev tabLoc (d : Dev nD) : Loc nD τ sig := (SparseCore.T d).loc main_v2
abbrev xfLoc (d : Dev nD) : Loc nD τ sig := (SparseCore.T d).loc main_v3
abbrev outLoc (d : Dev nD) : Loc nD τ sig := (SparseCore.T d).loc main_v4
abbrev resLoc (d : Dev nD) : Loc nD τ sig := (SparseCore.T d).loc main_v5

/-- SparseCore `c`'s shared table scratch, as every tile of it addresses it. -/
abbrev shRef (c : Fin τ.nSC) : DevRef τ sig := ⟨.shared, ⟨0, by decide⟩, c⟩
abbrev shLoc (d : Dev nD) (c : Fin τ.nSC) : Loc nD τ sig := (d, shRef c)

variable [FloatOps F] [hK : Cert.KernelIdeal.Facts]

/-- The flattened ids. -/
def XF (d : Dev nD) : Buf (Elt F) (xfLoc d) :=
  shapeCast S819200 (m (xLoc d) : IVec S4096x200 32) hK.shapeCasts_S4096x200_S819200
/-- The padded token table: the fifteen rows, then a row of the float of the integer zero. -/
def TOKPAD (d : Dev nD) : FVec F S16x128 .f32 :=
  pad S16x128 ![0, 0] ![1, 0] ![0, 0] (m (tokLoc d) : FVec F S15x128 .f32) (sitofp .f32 (constantI S_ 32 0#32) : FVec F S_ .f32)
    hK.pads_S15x128_S16x128_010_000 hK.h_S_
/-- The fused table, flattened to 3200 rows. -/
def TAB (d : Dev nD) : Buf (Elt F) (tabLoc d) :=
  shapeCast S3200x128
    (Cert.KSpec.fused (TOKPAD m d) (m (posLoc d) : FVec F S200x128 .f32) hK.shapeCasts_S16x128_S16x128 hK.shapeCasts_S16x128_S1x16x128
      hK.shapeCasts_S200x128_S200x1x128 hK.broadcasts_S1x16x128_S200x16x128 hK.broadcasts_S200x1x128_S200x16x128)
    hK.shapeCasts_S200x16x128_S3200x128
/-- The gathered rows. -/
def OUTF (d : Dev nD) : Buf (Elt F) (outLoc d) := Cert.KSpec.gatherRows (TAB m d) (XF m d)

/-! ## The pieces -/

theorem hdivX : 32 ∣ S819200.size 0 := ⟨25600, rfl⟩
theorem hdivO : 32 ∣ S819200x128.size 0 := ⟨25600, rfl⟩
theorem hdivT : 16 ∣ S3200x128.size 0 := ⟨200, rfl⟩
/-- Worker w's ids, its output rows; task i's rows of the table. -/
abbrev xPiece (w : Fin 32) : Finset S819200.Idx := (Rect.part (s := S819200) (a₀ := 0) hdivX w).set
abbrev oPiece (w : Fin 32) : Finset S819200x128.Idx := (Rect.part (s := S819200x128) (a₀ := 0) hdivO w).set
abbrev tPiece (i : Fin 16) : Finset S3200x128.Idx := (Rect.part (s := S3200x128) (a₀ := 0) hdivT i).set

/-- The worker number of task `i` on core `c`: i·2 + c. -/
def wid (c : Fin 2) (i : Fin 16) : Fin 32 := ⟨i.val * 2 + c.val, by omega⟩

theorem nSub_eq : τ.nSub = 16 := rfl
theorem nSC_eq : τ.nSC = 2 := rfl

/-- The half of the table in HBM that core `c` reads from. -/
def shr (c : Fin 2) : PosShare TreeShare := if c.val = 0 then (fullShare : PosShare TreeShare).left else (fullShare : PosShare TreeShare).right

/-- The table's contents, as the contents of a SparseCore's shared scratch. -/
def TABS (d : Dev nD) (c : Fin τ.nSC) : Buf (Elt F) (shLoc d c) := TAB m d

/-! ## The barrier cells -/

abbrev bcell (d : Dev nD) (c : Fin τ.nSC) (j : Fin τ.nSub) : GSem nD τ sig := (V d c j, .reg sc_bar0)

omit [FloatOps F] hK in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] hK in
@[simp] theorem isBar_bcell (d : Dev nD) (c : Fin τ.nSC) (j : Fin τ.nSub) : isBar (bcell d c j) = true := by simp [isBar]

/-- Task `n`'s rows of the shared table at the read token of task `j`, at the table's contents. -/
abbrev shTok (d : Dev nD) (c : Fin τ.nSC) (n j : Fin 16) : sProp 𝕄 :=
  shLoc d c ↦[tPiece n]{Transfers.shareTok fullShare 16 j} TABS m d c

/-- What the duty named `n` in task `j`'s round hands over. -/
def bPay (g : GSem nD τ sig) (n : ℕ) : sProp 𝕄 :=
  match g with
  | ((d, .scVector c j), _) => if h : n < 16 then shTok m d c ⟨n, h⟩ (Fin.cast nSub_eq j) else iprop(emp)
  | _ => iprop(emp)

/-- One round on each barrier cell: a unit duty per task of the SparseCore, named by its number. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a task owes for the barrier: a unit on every task's cell of its SparseCore, at the call's index. -/
def oxV (d : Dev nD) (c : Fin τ.nSC) : CellTallies nD τ sig (HIx 1) := ∑ j : Fin (grid1.bound 1), tallyAt (bcell d c (j.castLE hsub1)) (some 0) 1

omit [FloatOps F] hK in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] hK in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A task's barrier kit: every cell's invariant of its SparseCore, its duty token in every task's round, that each
    cell has reached round 0, its own position at the origin of its round, and the credit for its round's sixteen units. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

abbrev cC (c : Fin ((K (F := F)).nCore 0)) : Fin 2 := Fin.cast nCore_zero c
abbrev iC (i : Fin ((K (F := F)).nSub 0)) : Fin 16 := Fin.cast nSub_zero i

/-- A task's share of the call's operands before it runs: its ids, its output rows as launched, its rows of the table
    in HBM at its core's half, and its rows of the shared scratch at whatever they hold. -/
def goRes (d : Dev nD) (c : Fin 2) (sc : Fin τ.nSC) (i : Fin 16) : sProp 𝕄 :=
  iprop((xfLoc d ↦[xPiece (wid c i)]{fullShare} XF m d) ∗ (outLoc d ↦[oPiece (wid c i)]{fullShare} m (outLoc d))
    ∗ (tabLoc d ↦[tPiece i]{shr c} TAB m d) ∗ ∃ f, shLoc d sc ↦[tPiece i]{fullShare} f)
/-- and after: its output rows at the gathered rows; of the shared scratch its read token of the whole table and what it
    kept of its own rows. -/
def tdRes (d : Dev nD) (c : Fin 2) (sc : Fin τ.nSC) (i : Fin 16) : sProp 𝕄 :=
  iprop((xfLoc d ↦[xPiece (wid c i)]{fullShare} XF m d) ∗ (outLoc d ↦[oPiece (wid c i)]{fullShare} OUTF m d)
    ∗ (tabLoc d ↦[tPiece i]{shr c} TAB m d)
    ∗ (shLoc d sc ↦{Transfers.shareTok fullShare 16 i} TABS m d sc) ∗ (shLoc d sc ↦[tPiece i]{Transfers.shareDrop fullShare 16} TABS m d sc))

def P : (K (F := F)).Pay (nD := nD) (Val := Elt F) (Name := ℕ) (U := UU) where
  st := fun q d c => match q with
    | 0 => iprop((bigSep Finset.univ fun i : Fin 16 => iprop((xfLoc d ↦[xPiece (wid (cC c) i)]{fullShare} XF m d) ∗ (outLoc d ↦[oPiece (wid (cC c) i)]{fullShare} m (outLoc d))))
        ∗ (tabLoc d ↦{shr (cC c)} TAB m d))
  dn := fun q d c => match q with
    | 0 => iprop((bigSep Finset.univ fun i : Fin 16 => iprop((xfLoc d ↦[xPiece (wid (cC c) i)]{fullShare} XF m d) ∗ (outLoc d ↦[oPiece (wid (cC c) i)]{fullShare} OUTF m d)))
        ∗ (tabLoc d ↦{shr (cC c)} TAB m d))
  go := fun q d c i => match q with | 0 => goRes m d (cC c) (coreOf c) (iC i)
  td := fun q d c i => match q with | 0 => tdRes m d (cC c) (coreOf c) (iC i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => by unfold P; dsimp only; infer_instance
  dn q d c := match q with
    | 0 => by unfold P; dsimp only; infer_instance
  go q d c i := match q with
    | 0 => by unfold P goRes; dsimp only; infer_instance
  td q d c i := match q with
    | 0 => by unfold P tdRes; dsimp only; infer_instance

end Cert.Proof.KI

end
-- ==== Proof.TileResKI.lean ====
/-
  A vector subcore's own storage, item by item: its seventeen scratch buffers (the id scratch, eight index lists,
  eight row buffers) and its eighteen DMA semaphores (eight for the gathers, eight for the copies out, one for the
  id copy, one for the table copy), each taken out of the family the launch deals the task, the others kept aside.
-/
import proofs.«206439_g51874615001410_cont_9to1_m_433_33_alg».proof.Proof.SetupKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The task's scratch buffers, in the order of the kernel's scratch operands. -/
def scrL : List (Ref sig .scVector) :=
  [cc1_scratch0, cc1_scratch2, cc1_scratch3, cc1_scratch4, cc1_scratch5, cc1_scratch6, cc1_scratch7, cc1_scratch8, cc1_scratch9,
   cc1_scratch10, cc1_scratch11, cc1_scratch12, cc1_scratch13, cc1_scratch14, cc1_scratch15, cc1_scratch16, cc1_scratch17]
theorem scrL_nodup : scrL.Nodup := by decide

/-- The task's DMA semaphores: the gathers' eight, the copies-out's eight, the id copy's, the table copy's. -/
def semL : List (DmaSem sig) :=
  [cc1_scratch18.sem, cc1_scratch19.sem, cc1_scratch20.sem, cc1_scratch21.sem, cc1_scratch22.sem, cc1_scratch23.sem, cc1_scratch24.sem, cc1_scratch25.sem,
   cc1_scratch26.sem, cc1_scratch27.sem, cc1_scratch28.sem, cc1_scratch29.sem, cc1_scratch30.sem, cc1_scratch31.sem, cc1_scratch32.sem, cc1_scratch33.sem,
   cc1_scratch34.sem, cc1_scoped0.sem]
theorem semL_nodup : semL.Nodup := by decide

section Tile

variable (d : Dev nD) (c : Fin τ.nSC) (i : Fin τ.nSub)

def scrRefs : List (DevRef τ sig) := scrL.map (Proc.scVector c i).devRef
theorem scrRefs_nodup : (scrRefs c i).Nodup := scrL_nodup.map (Proc.devRef_injective _)
theorem scrRefs_sub : (scrRefs c i).toFinset ⊆ ownRefs (τ := τ) (sig := sig) (.scVector c i) := by
  intro b hb
  obtain ⟨r, hr, rfl⟩ := List.mem_map.mp (List.mem_toFinset.mp hb)
  simp only [scrL, List.mem_cons, List.mem_nil_iff, or_false] at hr
  rcases hr with rfl | rfl | rfl | rfl | rfl | rfl | rfl | rfl | rfl | rfl | rfl | rfl | rfl | rfl | rfl | rfl | rfl <;>
    exact SparseCore.Cfg.mem_ownRefs_of_owner rfl

def semCells : List (GSem nD τ sig) := semL.map fun s => ((V d c i : Thread nD τ), SemLoc.dma s)
theorem semCells_nodup : (semCells d c i).Nodup :=
  semL_nodup.map fun a b e => by injection (Prod.mk.inj e).2
theorem semCells_sub : (semCells d c i).toFinset ⊆ ownCells (V d c i) := by
  intro g hg
  obtain ⟨s, hs, rfl⟩ := List.mem_map.mp (List.mem_toFinset.mp hg)
  refine mem_ownCells.mpr ⟨rfl, ?_⟩
  have h : ∀ s ∈ semL, (SemLoc.dma s : SemLoc sig).isScoped .scVector = true := by decide
  exact h s hs

/-- The task's buffers: the seventeen scratches, each whole at some contents, and the rest. -/
theorem ownBufs_V :
    (ownBufs (V d c i) : sProp 𝕄)
      = iprop((bigSepL (scrRefs c i) fun b => iprop(∃ f, (((V d c i : Thread nD τ).1, b) : Loc nD τ sig) ↦{fullShare} f))
          ∗ bigSep (ownRefs (τ := τ) (.scVector c i) \ (scrRefs c i).toFinset) fun b => iprop(∃ f, (((V d c i : Thread nD τ).1, b) : Loc nD τ sig) ↦{fullShare} f)) := by
  unfold SparseCore.Cfg.ownBufs
  rw [SparseCore.bigSep_sdiff_split' (scrRefs_sub c i), bigSep_eq_bigSepL (scrRefs c i) (scrRefs_nodup c i)]

/-- The task's semaphores: the eighteen DMA semaphores at zero, and the rest. -/
theorem ownSems0_V :
    (ownSems0 (V d c i) : sProp 𝕄)
      = iprop((bigSepL (semCells d c i) fun g => semVal g 0) ∗ bigSep (ownCells (V d c i) \ (semCells d c i).toFinset) fun g => semVal g 0) := by
  unfold SparseCore.Cfg.ownSems0
  rw [SparseCore.bigSep_sdiff_split' (semCells_sub d c i), bigSep_eq_bigSepL (semCells d c i) (semCells_nodup d c i)]

/-- The same, each scratch as the body's whole memref holds it, one after the other. -/
theorem ownBufs_V_chain :
    (ownBufs (V d c i) : sProp 𝕄)
      = iprop(((∃ f, (Memref.whole cc1_scratch0 : Memref sig .scVector .vmem S25600 .i32).view.loc (V d c i) ↦{fullShare} f)
          ∗ (∃ f, (Memref.whole cc1_scratch2 : Memref sig .scVector .vmem S64 .i32).view.loc (V d c i) ↦{fullShare} f)
          ∗ (∃ f, (Memref.whole cc1_scratch3 : Memref sig .scVector .vmem S64 .i32).view.loc (V d c i) ↦{fullShare} f)
          ∗ (∃ f, (Memref.whole cc1_scratch4 : Memref sig .scVector .vmem S64 .i32).view.loc (V d c i) ↦{fullShare} f)
          ∗ (∃ f, (Memref.whole cc1_scratch5 : Memref sig .scVector .vmem S64 .i32).view.loc (V d c i) ↦{fullShare} f)
          ∗ (∃ f, (Memref.whole cc1_scratch6 : Memref sig .scVector .vmem S64 .i32).view.loc (V d c i) ↦{fullShare} f)
          ∗ (∃ f, (Memref.whole cc1_scratch7 : Memref sig .scVector .vmem S64 .i32).view.loc (V d c i) ↦{fullShare} f)
          ∗ (∃ f, (Memref.whole cc1_scratch8 : Memref sig .scVector .vmem S64 .i32).view.loc (V d c i) ↦{fullShare} f)
          ∗ (∃ f, (Memref.whole cc1_scratch9 : Memref sig .scVector .vmem S64 .i32).view.loc (V d c i) ↦{fullShare} f)
          ∗ (∃ f, (Memref.whole cc1_scratch10 : Memref sig .scVector .vmem S64x128 .f32).view.loc (V d c i) ↦{fullShare} f)
          ∗ (∃ f, (Memref.whole cc1_scratch11 : Memref sig .scVector .vmem S64x128 .f32).view.loc (V d c i) ↦{fullShare} f)
          ∗ (∃ f, (Memref.whole cc1_scratch12 : Memref sig .scVector .vmem S64x128 .f32).view.loc (V d c i) ↦{fullShare} f)
          ∗ (∃ f, (Memref.whole cc1_scratch13 : Memref sig .scVector .vmem S64x128 .f32).view.loc (V d c i) ↦{fullShare} f)
          ∗ (∃ f, (Memref.whole cc1_scratch14 : Memref sig .scVector .vmem S64x128 .f32).view.loc (V d c i) ↦{fullShare} f)
          ∗ (∃ f, (Memref.whole cc1_scratch15 : Memref sig .scVector .vmem S64x128 .f32).view.loc (V d c i) ↦{fullShare} f)
          ∗ (∃ f, (Memref.whole cc1_scratch16 : Memref sig .scVector .vmem S64x128 .f32).view.loc (V d c i) ↦{fullShare} f)
          ∗ (∃ f, (Memref.whole cc1_scratch17 : Memref sig .scVector .vmem S64x128 .f32).view.loc (V d c i) ↦{fullShare} f))
          ∗ bigSep (ownRefs (τ := τ) (.scVector c i) \ (scrRefs c i).toFinset) fun b => iprop(∃ f, (((V d c i : Thread nD τ).1, b) : Loc nD τ sig) ↦{fullShare} f)) :=
  (ownBufs_V d c i).trans rfl

/-- The same, each semaphore's counter one after the other. -/
theorem ownSems0_V_chain :
    (ownSems0 (V d c i) : sProp 𝕄)
      = iprop((semVal ((V d c i : Thread nD τ), SemLoc.dma cc1_scratch18.sem) 0
          ∗ semVal ((V d c i : Thread nD τ), SemLoc.dma cc1_scratch19.sem) 0
          ∗ semVal ((V d c i : Thread nD τ), SemLoc.dma cc1_scratch20.sem) 0
          ∗ semVal ((V d c i : Thread nD τ), SemLoc.dma cc1_scratch21.sem) 0
          ∗ semVal ((V d c i : Thread nD τ), SemLoc.dma cc1_scratch22.sem) 0
          ∗ semVal ((V d c i : Thread nD τ), SemLoc.dma cc1_scratch23.sem) 0
          ∗ semVal ((V d c i : Thread nD τ), SemLoc.dma cc1_scratch24.sem) 0
          ∗ semVal ((V d c i : Thread nD τ), SemLoc.dma cc1_scratch25.sem) 0
          ∗ semVal ((V d c i : Thread nD τ), SemLoc.dma cc1_scratch26.sem) 0
          ∗ semVal ((V d c i : Thread nD τ), SemLoc.dma cc1_scratch27.sem) 0
          ∗ semVal ((V d c i : Thread nD τ), SemLoc.dma cc1_scratch28.sem) 0
          ∗ semVal ((V d c i : Thread nD τ), SemLoc.dma cc1_scratch29.sem) 0
          ∗ semVal ((V d c i : Thread nD τ), SemLoc.dma cc1_scratch30.sem) 0
          ∗ semVal ((V d c i : Thread nD τ), SemLoc.dma cc1_scratch31.sem) 0
          ∗ semVal ((V d c i : Thread nD τ), SemLoc.dma cc1_scratch32.sem) 0
          ∗ semVal ((V d c i : Thread nD τ), SemLoc.dma cc1_scratch33.sem) 0
          ∗ semVal ((V d c i : Thread nD τ), SemLoc.dma cc1_scratch34.sem) 0
          ∗ semVal ((V d c i : Thread nD τ), SemLoc.dma cc1_scoped0.sem) 0)
          ∗ bigSep (ownCells (V d c i) \ (semCells d c i).toFinset) fun g => semVal g 0) :=
  (ownSems0_V d c i).trans rfl

end Tile

end Cert.Proof.KI

end
-- ==== Proof.IdxChunk.lean ====
/-
  One 16-lane chunk of the row numbers the gather reads, as pure word arithmetic.

  For a chunk whose first flat position inside the task is the word b, lane j holds
      ((b + j) rem 200) · 16 + xs[j]
  computed on 32-bit words: the lane number j is added to b, the signed remainder by 200 is taken, the product with 16 and
  the sum with the token id xs[j] follow. With b + 16 ≤ 25600 nothing wraps and b + j is a nonnegative word, so the
  signed remainder by the positive literal 200 is the natural-number remainder; (b + j) mod 200 < 200 and xs[j] ≤ 14
  keep the product and the sum below 3200. The lane is therefore the word of the natural number
      ((b + j) mod 200) · 16 + xs[j],
  which is the row `rowOf (b + j) (xs j)` of the flattened table. The same is stated for the ways the chain can arrive
  cut in two: the remainder given, the remainder's two operands given, the product given.
-/
import Idealize.ShloMosaic.PureOps
import Idealize.ShloMosaic.Lib.ValueIdx
import Idealize.ShloMosaic.Lib.Pipeline.Value
import Idealize.ShloMosaic.Lib.Affine
import proofs.«206439_g51874615001410_cont_9to1_m_433_33_alg».proof.Proof.KSpec

noncomputable section

namespace Cert.IdxChunk

open Idealize.ShloMosaic Idealize.ShloMosaic.ValueIdx Cert.KSpec

/-- One register of 16 lanes. -/
abbrev S16 : Shape := ⟨1, ![16]⟩

/-- A lane number is below 16. -/
theorem lane_lt (j : S16.Idx) : (j 0).val < 16 := (j 0).isLt

/-- A cast of a register to its own shape is the register. -/
theorem shapeCast_S16_self {α : Type} (v : S16.Idx → α) (hc : S16.ShapeCasts S16) : shapeCast S16 v hc = v :=
  shapeCast_self v hc

/-! ## The lane numbers and the positions -/

/-- Lane j of the lane-number register is the word j. -/
theorem lanes (hio : S16.Iotas .scVector 32 [0]) (j : S16.Idx) :
    iota .scVector S16 32 [0] hio j = BitVec.ofNat 32 (j 0).val :=
  iota_single_apply .scVector S16 32 0 hio j

/-- The word b + j read as a natural number, when b + 16 does not wrap. -/
theorem base_toNat (b : BitVec 32) (hb : b.toNat + 16 ≤ 25600) (j : S16.Idx) :
    (IntOp.addi b (BitVec.ofNat 32 (j 0).val)).toNat = b.toNat + (j 0).val := by
  have hj := lane_lt j
  show (b + BitVec.ofNat 32 (j 0).val).toNat = _
  rw [BitVec.toNat_add, BitVec.toNat_ofNat]
  omega

/-- Lane j of the positions b + lane is the word b + j. -/
theorem base_apply (b : BitVec 32) (hio : S16.Iotas .scVector 32 [0]) (j : S16.Idx) :
    addi (broadcast S16 b) (iota .scVector S16 32 [0] hio) j = IntOp.addi b (BitVec.ofNat 32 (j 0).val) := by
  show IntOp.addi b (iota .scVector S16 32 [0] hio j) = _
  rw [lanes]

/-- The signed remainder by 200 of a word that reads b + j is the word of (b + j) mod 200. -/
theorem rem200 (b : BitVec 32) (hb : b.toNat + 16 ≤ 25600) (j : S16.Idx) (w : BitVec 32)
    (hw : w.toNat = b.toNat + (j 0).val) :
    IntOp.remsi .vector w 200#32 = BitVec.ofNat 32 ((b.toNat + (j 0).val) % 200) := by
  have hj := lane_lt j
  have hm := Nat.mod_lt (b.toNat + (j 0).val) (show 0 < 200 by decide)
  apply BitVec.eq_of_toNat_eq
  rw [IntOp.toNat_remsi .vector (by omega) 200 (by decide) (by decide), BitVec.toNat_ofNat, hw]
  omega

/-- Lane j of the sequence positions: (b + j) mod 200. -/
theorem spos_apply (b : BitVec 32) (hb : b.toNat + 16 ≤ 25600) (hio : S16.Iotas .scVector 32 [0]) (j : S16.Idx) :
    remsi (addi (broadcast S16 b) (iota .scVector S16 32 [0] hio)) (broadcast S16 200#32) j
      = BitVec.ofNat 32 ((b.toNat + (j 0).val) % 200) := by
  show IntOp.remsi .vector (addi (broadcast S16 b) (iota .scVector S16 32 [0] hio) j) 200#32 = _
  rw [base_apply]
  exact rem200 b hb j _ (base_toNat b hb j)

/-- The same from the remainder's two operands given lane by lane. -/
theorem spos_of_parts (b : BitVec 32) (hb : b.toNat + 16 ≤ 25600) (s v : IVec S16 32)
    (hs : ∀ j, s j = IntOp.addi b (BitVec.ofNat 32 (j 0).val)) (hv : ∀ j, v j = 200#32) (j : S16.Idx) :
    remsi s v j = BitVec.ofNat 32 ((b.toNat + (j 0).val) % 200) := by
  show IntOp.remsi .vector (s j) (v j) = _
  rw [hs j, hv j]
  exact rem200 b hb j _ (base_toNat b hb j)

/-! ## The row numbers -/

/-- (n mod 200) · 16 + v on words is the word of the row `rowOf n v`, for an id v ≤ 14. -/
theorem word_row (n : Nat) (v : BitVec 32) (hv : v.toNat ≤ 14) :
    IntOp.addi (IntOp.muli (BitVec.ofNat 32 (n % 200)) 16#32) v = BitVec.ofNat 32 (rowOf n v).val := by
  have hm := Nat.mod_lt n (show 0 < 200 by decide)
  apply BitVec.eq_of_toNat_eq
  rw [rowOf_val n v hv]
  show (BitVec.ofNat 32 (n % 200) * BitVec.ofNat 32 16 + v).toNat = _
  rw [BitVec.toNat_add, BitVec.toNat_mul, BitVec.toNat_ofNat, BitVec.toNat_ofNat, BitVec.toNat_ofNat]
  omega

/-- The word of a row number reads back as the row number. -/
theorem row_toNat (n : Nat) (v : BitVec 32) : (BitVec.ofNat 32 (rowOf n v).val).toNat = (rowOf n v).val := by
  have := (rowOf n v).isLt
  rw [BitVec.toNat_ofNat]
  omega

/-- Lane j of the product with 16: ((b + j) mod 200) · 16, from the remainder given lane by lane. -/
theorem mul16_apply (b : BitVec 32) (sp : IVec S16 32)
    (hsp : ∀ j, sp j = BitVec.ofNat 32 ((b.toNat + (j 0).val) % 200)) (j : S16.Idx) :
    muli sp (broadcast S16 16#32) j = IntOp.muli (BitVec.ofNat 32 ((b.toNat + (j 0).val) % 200)) 16#32 := by
  show IntOp.muli (sp j) 16#32 = _
  rw [hsp j]

/-- The stored chunk from the remainder given lane by lane. -/
theorem idx_of_spos (b : BitVec 32) (hc : S16.ShapeCasts S16) (sp xs : IVec S16 32)
    (hsp : ∀ j, sp j = BitVec.ofNat 32 ((b.toNat + (j 0).val) % 200)) (hxs : ∀ j, (xs j).toNat ≤ 14) (j : S16.Idx) :
    shapeCast S16 (addi (muli sp (broadcast S16 16#32)) (shapeCast S16 xs hc)) hc j
      = BitVec.ofNat 32 (rowOf (b.toNat + (j 0).val) (xs j)).val := by
  rw [shapeCast_S16_self, shapeCast_S16_self]
  show IntOp.addi (IntOp.muli (sp j) 16#32) (xs j) = _
  rw [hsp j]
  exact word_row _ _ (hxs j)

/-- The stored chunk from the product and the cast ids given lane by lane. -/
theorem idx_of_mul (b : BitVec 32) (hc : S16.ShapeCasts S16) (m xc xs : IVec S16 32)
    (hm : ∀ j, m j = IntOp.muli (BitVec.ofNat 32 ((b.toNat + (j 0).val) % 200)) 16#32) (hxc : ∀ j, xc j = xs j)
    (hxs : ∀ j, (xs j).toNat ≤ 14) (j : S16.Idx) :
    shapeCast S16 (addi m xc) hc j = BitVec.ofNat 32 (rowOf (b.toNat + (j 0).val) (xs j)).val := by
  rw [shapeCast_S16_self]
  show IntOp.addi (m j) (xc j) = _
  rw [hm j, hxc j]
  exact word_row _ _ (hxs j)

/-- The stored chunk from the remainder's two operands given lane by lane. -/
theorem idx_of_parts (b : BitVec 32) (hb : b.toNat + 16 ≤ 25600) (hc : S16.ShapeCasts S16) (s v xs : IVec S16 32)
    (hs : ∀ j, s j = IntOp.addi b (BitVec.ofNat 32 (j 0).val)) (hv : ∀ j, v j = 200#32)
    (hxs : ∀ j, (xs j).toNat ≤ 14) (j : S16.Idx) :
    shapeCast S16 (addi (muli (remsi s v) (broadcast S16 16#32)) (shapeCast S16 xs hc)) hc j
      = BitVec.ofNat 32 (rowOf (b.toNat + (j 0).val) (xs j)).val :=
  idx_of_spos b hc (remsi s v) xs (spos_of_parts b hb s v hs hv) hxs j

/-- The same with the two operands given as the vectors they are. -/
theorem idx_of_parts_eq (b : BitVec 32) (hb : b.toNat + 16 ≤ 25600) (hio : S16.Iotas .scVector 32 [0])
    (hc : S16.ShapeCasts S16) (s v xs : IVec S16 32)
    (hs : s = addi (broadcast S16 b) (iota .scVector S16 32 [0] hio)) (hv : v = broadcast S16 200#32)
    (hxs : ∀ j, (xs j).toNat ≤ 14) (j : S16.Idx) :
    shapeCast S16 (addi (muli (remsi s v) (broadcast S16 16#32)) (shapeCast S16 xs hc)) hc j
      = BitVec.ofNat 32 (rowOf (b.toNat + (j 0).val) (xs j)).val :=
  idx_of_parts b hb hc s v xs (fun j => by rw [hs]; exact base_apply b hio j) (fun j => by rw [hv]; rfl) hxs j

/-- The stored chunk, whole: lane j is the word of the row `rowOf (b + j) (xs j)`. -/
theorem idx_apply (b : BitVec 32) (hb : b.toNat + 16 ≤ 25600) (hio : S16.Iotas .scVector 32 [0]) (hc : S16.ShapeCasts S16)
    (xs : IVec S16 32) (hxs : ∀ j, (xs j).toNat ≤ 14) (j : S16.Idx) :
    shapeCast S16 (addi (muli (remsi (addi (broadcast S16 b) (iota .scVector S16 32 [0] hio)) (broadcast S16 200#32))
        (broadcast S16 16#32)) (shapeCast S16 xs hc)) hc j
      = BitVec.ofNat 32 (rowOf (b.toNat + (j 0).val) (xs j)).val :=
  idx_of_spos b hc _ xs (spos_apply b hb hio) hxs j

/-- Read as a natural number the stored lane is the row number itself (so it is below 3200). -/
theorem idx_toNat (b : BitVec 32) (hb : b.toNat + 16 ≤ 25600) (hio : S16.Iotas .scVector 32 [0]) (hc : S16.ShapeCasts S16)
    (xs : IVec S16 32) (hxs : ∀ j, (xs j).toNat ≤ 14) (j : S16.Idx) :
    (shapeCast S16 (addi (muli (remsi (addi (broadcast S16 b) (iota .scVector S16 32 [0] hio)) (broadcast S16 200#32))
        (broadcast S16 16#32)) (shapeCast S16 xs hc)) hc j).toNat
      = (rowOf (b.toNat + (j 0).val) (xs j)).val := by
  rw [idx_apply b hb hio hc xs hxs j, row_toNat]

end Cert.IdxChunk

end
-- ==== Proof.GeomKI.lean ====
/-
  The geometry of the thirty-two tasks: which elements of the flat id array, of the flattened table and of the
  gathered rows each slice of a task's body covers.

  Task L = (core, sub) has worker number w = sub · 2 + core. Its ids and its output rows are rows
  [w · 25600, (w + 1) · 25600); its rows of the table are [sub · 200, (sub + 1) · 200). Its output rows are written
  in 400 chunks of 64 rows: chunk s covers rows [w · 25600 + s · 64, w · 25600 + s · 64 + 64), all 128 columns;
  trip k of the loop writes chunks 8k … 8k + 7 (k < 49) and the code after the loop chunks 392 … 399. The chunks of
  one worker are pairwise disjoint and cover its rows.
-/
import proofs.«206439_g51874615001410_cont_9to1_m_433_33_alg».proof.Proof.SetupKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## A task's coordinates and its worker number -/

theorem bound0 : grid1.bound 0 = 2 := rfl
theorem bound1 : grid1.bound 1 = 16 := rfl
abbrev cL (L : grid1.Coords) : Fin 2 := Fin.cast bound0 (L 0)
abbrev jL (L : grid1.Coords) : Fin 16 := Fin.cast bound1 (L 1)
abbrev wL (L : grid1.Coords) : Fin 32 := wid (cL L) (jL L)

theorem wL_val (L : grid1.Coords) : (wL L).val = (L 1).val * 2 + (L 0).val := rfl

/-- Two unit-stride rectangles with the same offsets and sizes are the same rectangle. -/
theorem unit_congr {s : Shape} {off off' size size' : Fin s.rank → Nat} {inb : ∀ a, off a + size a ≤ s.size a}
    {inb' : ∀ a, off' a + size' a ≤ s.size a} (ho : off = off') (hs : size = size') :
    Rect.unit off size inb = Rect.unit off' size' inb' := by
  subst ho hs; rfl

/-! ## The slices of a task's body -/

abbrev xRect (L : grid1.Coords) : Rect S819200 := Rect.unit (s := S819200) (k1_off1 L) S25600.size (k1_off1_inb L)
abbrev tRect (L : grid1.Coords) : Rect S3200x128 := Rect.unit (s := S3200x128) (k1_off2 L) S200x128.size (k1_off2_inb L)
abbrev oRectT (L : grid1.Coords) (k : Fin k1_t1_loop.trips) (r : Fin 8) : Rect S819200x128 :=
  Rect.unit (s := S819200x128) (k1_off4 L k (BitVec.ofNat 32 r.val)) S64x128.size (k1_off4_inb L k r)
abbrev oRectE (L : grid1.Coords) (r : Fin 8) : Rect S819200x128 :=
  Rect.unit (s := S819200x128) (k1_off6 L (BitVec.ofNat 32 r.val)) S64x128.size (k1_off6_inb L r)

/-- The task's ids in the flat id array. -/
abbrev xSl (L : grid1.Coords) : Memref sig .scVector .hbm S25600 .i32 :=
  (Memref.whole main_v3_scv).slice (xRect L) (fun _ => rfl)
/-- The task's rows of the table, in HBM and in the shared scratch of its core. -/
abbrev tSl (L : grid1.Coords) : Memref sig .scVector .hbm S200x128 .f32 :=
  (Memref.whole main_v2_scv).slice (tRect L) (fun _ => rfl)
abbrev shSl (L : grid1.Coords) : Memref sig .scVector .shared S200x128 .f32 :=
  (Memref.whole cc1_scratch1).slice (tRect L) (fun _ => rfl)
/-- The output chunk of slot r in trip k of the loop, and of slot r after the loop. -/
abbrev oSlT (L : grid1.Coords) (k : Fin k1_t1_loop.trips) (r : Fin 8) : Memref sig .scVector .hbm S64x128 .f32 :=
  (Memref.whole main_v4_scv).slice (oRectT L k r) (fun _ => rfl)
abbrev oSlE (L : grid1.Coords) (r : Fin 8) : Memref sig .scVector .hbm S64x128 .f32 :=
  (Memref.whole main_v4_scv).slice (oRectE L r) (fun _ => rfl)

/-! ## The ids and the table rows -/

theorem xRect_eq (L : grid1.Coords) : xRect L = Rect.part (s := S819200) (a₀ := 0) hdivX (wL L) := by
  have h0 := (L 0).isLt
  have h1 := (L 1).isLt
  refine unit_congr (funext fun a => ?_) (funext fun a => ?_)
  · rw [k1_off1_eq]
    match a with
    | ⟨0, _⟩ =>
      show 51200 * (L 1).val + 25600 * (L 0).val = ((L 1).val * 2 + (L 0).val) * (819200 / 32)
      omega
  · match a with
    | ⟨0, _⟩ => rfl

theorem tRect_eq (L : grid1.Coords) : tRect L = Rect.part (s := S3200x128) (a₀ := 0) hdivT (jL L) := by
  refine unit_congr (funext fun a => ?_) (funext fun a => ?_)
  · rw [k1_off2_eq]
    match a with
    | ⟨0, _⟩ =>
      show 200 * (L 1).val = (L 1).val * (3200 / 16)
      omega
    | ⟨1, _⟩ => rfl
  · match a with
    | ⟨0, _⟩ => rfl
    | ⟨1, _⟩ => rfl

theorem set_xSl (L : grid1.Coords) : (xSl L).view.set = xPiece (wL L) := by
  show ((View.whole (main_v3_scv : Ref sig .scVector)).slice (xRect L)).set = (Rect.part (s := S819200) (a₀ := 0) hdivX (wL L)).set
  rw [View.set_slice_whole, xRect_eq]

theorem set_tSl (L : grid1.Coords) : (tSl L).view.set = tPiece (jL L) := by
  show ((View.whole (main_v2_scv : Ref sig .scVector)).slice (tRect L)).set = (Rect.part (s := S3200x128) (a₀ := 0) hdivT (jL L)).set
  rw [View.set_slice_whole, tRect_eq]

theorem set_shSl (L : grid1.Coords) : (shSl L).view.set = tPiece (jL L) := by
  show ((View.whole (cc1_scratch1 : Ref sig .scVector)).slice (tRect L)).set = (Rect.part (s := S3200x128) (a₀ := 0) hdivT (jL L)).set
  rw [View.set_slice_whole, tRect_eq]

/-! ## The output chunks -/

theorem chunk_inb (w : Fin 32) (s : Fin 400) :
    ∀ a, (![w.val * 25600 + s.val * 64, 0] : Fin 2 → Nat) a + S64x128.size a ≤ S819200x128.size a := by
  have hw := w.isLt
  have hs := s.isLt
  refine Rect.inb₂ ?_ ?_
  · show w.val * 25600 + s.val * 64 + 64 ≤ 819200
    omega
  · show 0 + 128 ≤ 128
    omega

/-- Chunk s of worker w: 64 rows from row w · 25600 + s · 64, all 128 columns. -/
abbrev oChunkRect (w : Fin 32) (s : Fin 400) : Rect S819200x128 :=
  Rect.unit (s := S819200x128) ![w.val * 25600 + s.val * 64, 0] S64x128.size (chunk_inb w s)
def oChunk (w : Fin 32) (s : Fin 400) : Finset S819200x128.Idx := (oChunkRect w s).set

theorem trips_le (k : Fin k1_t1_loop.trips) : k.val < 49 := Nat.lt_of_lt_of_le k.isLt k1_t1_abs.2.1
theorem chunkT_lt (k : Fin k1_t1_loop.trips) (r : Fin 8) : k.val * 8 + r.val < 400 := by
  have := trips_le k; have := r.isLt; omega
theorem chunkE_lt (r : Fin 8) : 392 + r.val < 400 := by
  have := r.isLt; omega

theorem oRectT_eq (L : grid1.Coords) (k : Fin k1_t1_loop.trips) (r : Fin 8) :
    oRectT L k r = oChunkRect (wL L) ⟨k.val * 8 + r.val, chunkT_lt k r⟩ := by
  refine unit_congr (funext fun a => ?_) rfl
  rw [k1_off4_eq]
  match a with
  | ⟨0, _⟩ =>
    show 51200 * (L 1).val + 25600 * (L 0).val + 512 * k.val + 64 * r.val = ((L 1).val * 2 + (L 0).val) * 25600 + (k.val * 8 + r.val) * 64
    omega
  | ⟨1, _⟩ => rfl

theorem oRectE_eq (L : grid1.Coords) (r : Fin 8) :
    oRectE L r = oChunkRect (wL L) ⟨392 + r.val, chunkE_lt r⟩ := by
  refine unit_congr (funext fun a => ?_) rfl
  rw [k1_off6_eq]
  match a with
  | ⟨0, _⟩ =>
    show 51200 * (L 1).val + 25600 * (L 0).val + 64 * r.val + 25088 = ((L 1).val * 2 + (L 0).val) * 25600 + (392 + r.val) * 64
    omega
  | ⟨1, _⟩ => rfl

theorem set_oSlT (L : grid1.Coords) (k : Fin k1_t1_loop.trips) (r : Fin 8) :
    (oSlT L k r).view.set = oChunk (wL L) ⟨k.val * 8 + r.val, chunkT_lt k r⟩ := by
  show ((View.whole (main_v4_scv : Ref sig .scVector)).slice (oRectT L k r)).set = (oChunkRect (wL L) ⟨k.val * 8 + r.val, chunkT_lt k r⟩).set
  rw [View.set_slice_whole, oRectT_eq]

theorem set_oSlE (L : grid1.Coords) (r : Fin 8) :
    (oSlE L r).view.set = oChunk (wL L) ⟨392 + r.val, chunkE_lt r⟩ := by
  show ((View.whole (main_v4_scv : Ref sig .scVector)).slice (oRectE L r)).set = (oChunkRect (wL L) ⟨392 + r.val, chunkE_lt r⟩).set
  rw [View.set_slice_whole, oRectE_eq]

/-! ## The chunks of one worker are disjoint and cover its rows -/

theorem oChunk_disjoint (w : Fin 32) :
    ∀ s ∈ (Finset.univ : Finset (Fin 400)), ∀ s' ∈ (Finset.univ : Finset (Fin 400)), s ≠ s' → Disjoint (oChunk w s) (oChunk w s') := by
  intro s _ s' _ h
  have hne : s.val ≠ s'.val := fun e => h (Fin.ext e)
  show Disjoint (oChunkRect w s).set (oChunkRect w s').set
  refine Rect.unit_disjoint (0 : Fin 2) ?_
  show w.val * 25600 + s.val * 64 + 64 ≤ w.val * 25600 + s'.val * 64 ∨ w.val * 25600 + s'.val * 64 + 64 ≤ w.val * 25600 + s.val * 64
  omega

/-- Membership in a chunk, in numbers. -/
theorem mem_oChunk (w : Fin 32) (s : Fin 400) (i : S819200x128.Idx) :
    i ∈ oChunk w s ↔ w.val * 25600 + s.val * 64 ≤ (i 0).val ∧ (i 0).val < w.val * 25600 + s.val * 64 + 64 := by
  show i ∈ (oChunkRect w s).set ↔ _
  rw [Rect.mem_set_unit]
  constructor
  · intro h; exact h 0
  · intro h a
    match a with
    | ⟨0, _⟩ => exact h
    | ⟨1, _⟩ =>
      have h1 : (i 1).val < 128 := (i 1).isLt
      show 0 ≤ (i 1).val ∧ (i 1).val < 0 + 128
      omega

/-- Membership in a worker's rows, in numbers. -/
theorem mem_oPiece (w : Fin 32) (i : S819200x128.Idx) :
    i ∈ oPiece w ↔ w.val * 25600 ≤ (i 0).val ∧ (i 0).val < w.val * 25600 + 25600 := by
  show i ∈ (Rect.part (s := S819200x128) (a₀ := 0) hdivO w).set ↔ _
  rw [Rect.mem_set_unit]
  constructor
  · intro h
    have h0 := h 0
    change w.val * (819200 / 32) ≤ (i 0).val ∧ (i 0).val < w.val * (819200 / 32) + 819200 / 32 at h0
    omega
  · intro h a
    match a with
    | ⟨0, _⟩ =>
      show w.val * (819200 / 32) ≤ (i 0).val ∧ (i 0).val < w.val * (819200 / 32) + 819200 / 32
      omega
    | ⟨1, _⟩ =>
      have h1 : (i 1).val < 128 := (i 1).isLt
      show 0 * 128 ≤ (i 1).val ∧ (i 1).val < 0 * 128 + 128
      omega

theorem oChunk_cover (w : Fin 32) : (Finset.univ : Finset (Fin 400)).biUnion (oChunk w) = oPiece w := by
  ext i
  rw [mem_oPiece]
  simp only [Finset.mem_biUnion, Finset.mem_univ, true_and]
  constructor
  · intro hex
    obtain ⟨s, hs⟩ := hex
    have hs4 : s.val < 400 := s.isLt
    have hs' := (mem_oChunk w s i).mp hs
    clear hs
    generalize w.val * 25600 = W at hs' ⊢
    omega
  · intro h
    -- the chunk is the one the row's offset inside the worker's rows, divided by 64, names
    have key : ((i 0).val - w.val * 25600) / 64 < 400
        ∧ (w.val * 25600 + ((i 0).val - w.val * 25600) / 64 * 64 ≤ (i 0).val
          ∧ (i 0).val < w.val * 25600 + ((i 0).val - w.val * 25600) / 64 * 64 + 64) := by
      generalize w.val * 25600 = W at h ⊢
      omega
    exact ⟨⟨_, key.1⟩, (mem_oChunk w ⟨_, key.1⟩ i).mpr key.2⟩

/-- A worker's output rows held whole are its 400 chunks held one by one. -/
theorem out_chunks (d : Dev nD) (w : Fin 32) (f : Buf (Elt F) (outLoc d)) :
    (outLoc d ↦[oPiece w]{fullShare} f : sProp 𝕄) = bigSep Finset.univ fun s : Fin 400 => outLoc d ↦[oChunk w s]{fullShare} f := by
  rw [← pointsTo_biUnion Finset.univ (ℓ := outLoc d) (oChunk w) (oChunk_disjoint w), oChunk_cover]

/-! ## Where a slice's own index sits in its array -/

theorem xrow_lt (w : Fin 32) (n : Nat) (hn : n < 25600) : w.val * 25600 + n < 819200 := by
  have := w.isLt; omega
theorem trow_lt (j : Fin 16) (n : Nat) (hn : n < 200) : j.val * 200 + n < 3200 := by
  have := j.isLt; omega
theorem orow_lt (w : Fin 32) (s : Fin 400) (n : Nat) (hn : n < 64) : w.val * 25600 + s.val * 64 + n < 819200 := by
  have := w.isLt; have := s.isLt; omega

theorem emb_xSl (L : grid1.Coords) (y : S25600.Idx) :
    (xSl L).view.emb y = ix1 (⟨(wL L).val * 25600 + (y 0).val, xrow_lt (wL L) _ (y 0).isLt⟩ : Fin 819200) := by
  have h0 : k1_off1 L 0 = 51200 * (L 1).val + 25600 * (L 0).val := by rw [k1_off1_eq]; rfl
  funext a
  match a with
  | ⟨0, _⟩ =>
    refine Fin.ext ?_
    show k1_off1 L 0 + 1 * (y 0).val = ((L 1).val * 2 + (L 0).val) * 25600 + (y 0).val
    rw [h0]; omega

theorem emb_tRect (L : grid1.Coords) (y : S200x128.Idx) :
    (tRect L).emb y = ix2 (⟨(jL L).val * 200 + (y 0).val, trow_lt (jL L) _ (y 0).isLt⟩ : Fin 3200) (⟨(y 1).val, (y 1).isLt⟩ : Fin 128) := by
  have h0 : k1_off2 L 0 = 200 * (L 1).val := by rw [k1_off2_eq]; rfl
  have h1 : k1_off2 L 1 = 0 := by rw [k1_off2_eq]; rfl
  funext a
  match a with
  | ⟨0, _⟩ =>
    refine Fin.ext ?_
    show k1_off2 L 0 + 1 * (y 0).val = (L 1).val * 200 + (y 0).val
    rw [h0]; omega
  | ⟨1, _⟩ =>
    refine Fin.ext ?_
    show k1_off2 L 1 + 1 * (y 1).val = (y 1).val
    rw [h1]; omega

theorem emb_tSl (L : grid1.Coords) (y : S200x128.Idx) :
    (tSl L).view.emb y = ix2 (⟨(jL L).val * 200 + (y 0).val, trow_lt (jL L) _ (y 0).isLt⟩ : Fin 3200) (⟨(y 1).val, (y 1).isLt⟩ : Fin 128) :=
  emb_tRect L y

theorem emb_shSl (L : grid1.Coords) (y : S200x128.Idx) :
    (shSl L).view.emb y = ix2 (⟨(jL L).val * 200 + (y 0).val, trow_lt (jL L) _ (y 0).isLt⟩ : Fin 3200) (⟨(y 1).val, (y 1).isLt⟩ : Fin 128) :=
  emb_tRect L y

theorem emb_oSlT (L : grid1.Coords) (k : Fin k1_t1_loop.trips) (r : Fin 8) (y : S64x128.Idx) :
    (oSlT L k r).view.emb y
      = ix2 (⟨(wL L).val * 25600 + (k.val * 8 + r.val) * 64 + (y 0).val, orow_lt (wL L) ⟨k.val * 8 + r.val, chunkT_lt k r⟩ _ (y 0).isLt⟩ : Fin 819200)
          (⟨(y 1).val, (y 1).isLt⟩ : Fin 128) := by
  have h0 : k1_off4 L k (BitVec.ofNat 32 r.val) 0 = 51200 * (L 1).val + 25600 * (L 0).val + 512 * k.val + 64 * r.val := by
    rw [k1_off4_eq]; rfl
  have h1 : k1_off4 L k (BitVec.ofNat 32 r.val) 1 = 0 := by rw [k1_off4_eq]; rfl
  funext a
  match a with
  | ⟨0, _⟩ =>
    refine Fin.ext ?_
    show k1_off4 L k (BitVec.ofNat 32 r.val) 0 + 1 * (y 0).val = ((L 1).val * 2 + (L 0).val) * 25600 + (k.val * 8 + r.val) * 64 + (y 0).val
    rw [h0]; omega
  | ⟨1, _⟩ =>
    refine Fin.ext ?_
    show k1_off4 L k (BitVec.ofNat 32 r.val) 1 + 1 * (y 1).val = (y 1).val
    rw [h1]; omega

theorem emb_oSlE (L : grid1.Coords) (r : Fin 8) (y : S64x128.Idx) :
    (oSlE L r).view.emb y
      = ix2 (⟨(wL L).val * 25600 + (392 + r.val) * 64 + (y 0).val, orow_lt (wL L) ⟨392 + r.val, chunkE_lt r⟩ _ (y 0).isLt⟩ : Fin 819200)
          (⟨(y 1).val, (y 1).isLt⟩ : Fin 128) := by
  have h0 : k1_off6 L (BitVec.ofNat 32 r.val) 0 = 51200 * (L 1).val + 25600 * (L 0).val + 64 * r.val + 25088 := by
    rw [k1_off6_eq]; rfl
  have h1 : k1_off6 L (BitVec.ofNat 32 r.val) 1 = 0 := by rw [k1_off6_eq]; rfl
  funext a
  match a with
  | ⟨0, _⟩ =>
    refine Fin.ext ?_
    show k1_off6 L (BitVec.ofNat 32 r.val) 0 + 1 * (y 0).val = ((L 1).val * 2 + (L 0).val) * 25600 + (392 + r.val) * 64 + (y 0).val
    rw [h0]; omega
  | ⟨1, _⟩ =>
    refine Fin.ext ?_
    show k1_off6 L (BitVec.ofNat 32 r.val) 1 + 1 * (y 1).val = (y 1).val
    rw [h1]; omega

end Cert.Proof.KI

end
-- ==== Proof.SplitKI.lean ====
/-
  How one SparseCore's operands split among its sixteen tasks, and how its results gather from theirs.

  Before the tasks run the sequencer holds, of the call's operands: the ids and the output rows of its sixteen workers,
  its half share of the table in HBM, and (among its own buffers) the shared scratch whole at some contents.  Each task
  is handed its worker's ids and output rows, its 200 rows of the table in HBM at that half share, and its 200 rows of
  the shared scratch.  After the tasks the shared scratch comes back as sixteen read tokens of the whole table (one per
  task) and, per task, the remainder share of its own 200 rows, all at the table's contents: the remainders join to the
  remainder share of the whole scratch, and remainder and tokens compose to the full share.
-/
import proofs.«206439_g51874615001410_cont_9to1_m_433_33_alg».proof.Proof.SetupKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The table's sixteen blocks of rows are pairwise disjoint and cover it -/

theorem tPiece_disjoint : ∀ i ∈ (Finset.univ : Finset (Fin 16)), ∀ j ∈ (Finset.univ : Finset (Fin 16)), i ≠ j → Disjoint (tPiece i) (tPiece j) :=
  fun _ _ _ _ h => Rect.part_disjoint hdivT h

theorem tPiece_cover : (Finset.univ : Finset (Fin 16)).biUnion tPiece = Finset.univ := Rect.biUnion_part hdivT

/-- The table in HBM at a share is its sixteen blocks of rows at that share. -/
theorem tab_rows (d : Dev nD) (q : PosShare TreeShare) (f : Buf (Elt F) (tabLoc d)) :
    (tabLoc d ↦{q} f : sProp 𝕄) = bigSep Finset.univ fun i : Fin 16 => tabLoc d ↦[tPiece i]{q} f := by
  rw [← pointsTo_biUnion Finset.univ (ℓ := tabLoc d) tPiece tPiece_disjoint, tPiece_cover]; try rfl

/-- The same for a SparseCore's shared scratch. -/
theorem sh_rows (d : Dev nD) (c : Fin τ.nSC) (q : PosShare TreeShare) (f : Buf (Elt F) (shLoc d c)) :
    (shLoc d c ↦{q} f : sProp 𝕄) = bigSep Finset.univ fun i : Fin 16 => shLoc d c ↦[tPiece i]{q} f := by
  rw [← pointsTo_biUnion Finset.univ (ℓ := shLoc d c) tPiece tPiece_disjoint, tPiece_cover]; try rfl

/-- A family over the call's tasks is the family over sixteen. -/
theorem bigSep_tasks (Φ : Fin 16 → sProp 𝕄) :
    (bigSep Finset.univ fun i : Fin ((K (F := F)).nSub 0) => Φ (iC i)) = bigSep Finset.univ Φ :=
  bigSep_congr fun _ _ => congrArg Φ (Fin.ext rfl)

/-- The shared scratch is among the sequencer's own buffers: it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

variable [FloatOps F] [hK : Cert.KernelIdeal.Facts]

/-- The remainders of the sixteen blocks and the sixteen read tokens are the shared scratch whole, at the table. -/
theorem sh_join (d : Dev nD) (c : Fin τ.nSC) :
    iprop((bigSep Finset.univ fun i : Fin 16 => shLoc d c ↦{Transfers.shareTok fullShare 16 i} TABS m d c)
      ∗ (bigSep Finset.univ fun i : Fin 16 => shLoc d c ↦[tPiece i]{Transfers.shareDrop fullShare 16} TABS m d c))
      ⊢ (iprop(∃ f, shLoc d c ↦{fullShare} f) : sProp 𝕄) := by
  rw [← sh_rows d c (Transfers.shareDrop fullShare 16) (TABS m d c)]
  iintro ⟨Htok, Hdrop⟩
  iexists TABS m d c
  iapply (Transfers.pointsTo_toks_join (ℓ := shLoc d c) (S := Finset.univ) (f := TABS m d c) fullShare 16)
  isplitl [Hdrop]; · iexact Hdrop
  iexact Htok

theorem vecSplit : (K (F := F)).VecSplit (P m) 0 := by
  intro d c
  show iprop(iprop((bigSep Finset.univ fun i : Fin 16 => iprop((xfLoc d ↦[xPiece (wid (cC c) i)]{fullShare} XF m d) ∗ (outLoc d ↦[oPiece (wid (cC c) i)]{fullShare} m (outLoc d))))
        ∗ (tabLoc d ↦{shr (cC c)} TAB m d)) ∗ ownBufs (S d (coreOf c)))
    ⊢ |={Set.univ}=> iprop((bigSep Finset.univ fun i : Fin ((K (F := F)).nSub 0) => goRes m d (cC c) (coreOf c) (iC i))
      ∗ ((bigSep Finset.univ fun i : Fin ((K (F := F)).nSub 0) => tdRes m d (cC c) (coreOf c) (iC i))
        -∗ iprop(iprop((bigSep Finset.univ fun i : Fin 16 => iprop((xfLoc d ↦[xPiece (wid (cC c) i)]{fullShare} XF m d) ∗ (outLoc d ↦[oPiece (wid (cC c) i)]{fullShare} OUTF m d)))
            ∗ (tabLoc d ↦{shr (cC c)} TAB m d)) ∗ ownBufs (S d (coreOf c)))))
  rw [bigSep_tasks (F := F) (fun i => goRes m d (cC c) (coreOf c) i), bigSep_tasks (F := F) (fun i => tdRes m d (cC c) (coreOf c) i)]
  unfold goRes tdRes
  simp only [bigSep_sep']
  rw [ownBufs_S, tab_rows]
  iintro ⟨⟨⟨Hx, Ho⟩, Ht⟩, ⟨%fsh, Hsh⟩, Hrest⟩; imodintro
  isplitl [Hx Ho Ht Hsh]
  · isplitl [Hx]; · iexact Hx
    isplitl [Ho]; · iexact Ho
    isplitl [Ht]; · iexact Ht
    ihave Hsh' := ((Entails.of_eq (sh_rows d (coreOf c) fullShare fsh)).trans (SparseCore.ent (bigSep_mono (Φ := fun i => (shLoc d (coreOf c) ↦[tPiece i]{fullShare} fsh : sProp 𝕄))
      (Ψ := fun i => iprop(∃ f, shLoc d (coreOf c) ↦[tPiece i]{fullShare} f))
      fun i _ => BI.BIClass.exists_intro (Φ := fun f => (shLoc d (coreOf c) ↦[tPiece i]{fullShare} f : sProp 𝕄)) fsh))) $$ Hsh
    iexact Hsh'
  iintro ⟨Hx, Ho, Ht, Htok, Hdrop⟩
  isplitl [Hx Ho Ht]
  · isplitl [Hx Ho]
    · isplitl [Hx]; · iexact Hx
      iexact Ho
    iexact Ht
  isplitl [Htok Hdrop]
  · iapply (sh_join m d (coreOf c)); isplitl [Htok]; · iexact Htok
    iexact Hdrop
  iexact Hrest

end Cert.Proof.KI

end
-- ==== Proof.BarrierKI.lean ====
/-
  The table across the subcore barrier.

  Before a task arrives at the barrier it holds its own 200 rows of its SparseCore's shared table whole, at the table's
  contents.  It cuts that share into sixteen read tokens and a remainder: token j is the payload of its duty in task
  j's round, the remainder it keeps.  After its own wait it has received, from each of the sixteen tasks n, read token
  (its own number) of task n's rows; the sixteen blocks of rows cover the table, so together they are its read token
  of the whole shared table.
-/
import proofs.«206439_g51874615001410_cont_9to1_m_433_33_alg».proof.Proof.SplitKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F] [hK : Cert.KernelIdeal.Facts]

theorem gridBound1 : grid1.bound 1 = 16 := rfl

/-- A family over the tasks of the grid is the family over sixteen. -/
theorem bigSep_grid (Φ : Fin 16 → sProp 𝕄) :
    (bigSep Finset.univ fun j : Fin (grid1.bound 1) => Φ (Fin.cast gridBound1 j)) = bigSep Finset.univ Φ :=
  bigSep_congr fun _ _ => congrArg Φ (Fin.ext rfl)

/-- and one over the tasks of a SparseCore likewise. -/
theorem bigSep_subs (Φ : Fin 16 → sProp 𝕄) :
    (bigSep Finset.univ fun n : Fin τ.nSub => Φ (Fin.cast nSub_eq n)) = bigSep Finset.univ Φ :=
  bigSep_congr fun _ _ => congrArg Φ (Fin.ext rfl)

/-- What the duty named by task i hands over in task j's round: task i's rows at read token j. -/
theorem payload_eq (d : Dev nD) (c : Fin τ.nSC) (j i : Fin τ.nSub) :
    (bRd (F := F) m).payload (bcell d c j) 0 i.val
      = (shLoc d c ↦[tPiece (Fin.cast nSub_eq i)]{Transfers.shareTok fullShare 16 (Fin.cast nSub_eq j)} TABS m d c : sProp 𝕄) := by
  show bPay m (bcell d c j) i.val = _
  unfold bPay
  show (if h : i.val < 16 then shTok m d c ⟨i.val, h⟩ (Fin.cast nSub_eq j) else iprop(emp)) = _
  rw [dif_pos (show i.val < 16 from i.isLt)]
  rfl

theorem barrier_pay (d : Dev nD) (c : Fin τ.nSC) (i : Fin τ.nSub) :
    iprop((bigSep Finset.univ fun j : Fin (grid1.bound 1) => dutyTok EB (bcell d c (j.castLE hsub1)) 0 i.val)
        ∗ (bigSep Finset.univ fun j : Fin (grid1.bound 1) => reached EB (bcell d c (j.castLE hsub1)) 0)
        ∗ (shLoc d c ↦[tPiece (Fin.cast nSub_eq i)]{fullShare} TABS m d c))
      ⊢ (iprop((bigSep Finset.univ fun j : Fin (grid1.bound 1) => iprop(dutyTok EB (bcell d c (j.castLE hsub1)) 0 i.val
              ∗ (bRd (F := F) m).payload (bcell d c (j.castLE hsub1)) 0 i.val ∗ reached EB (bcell d c (j.castLE hsub1)) 0))
          ∗ (shLoc d c ↦[tPiece (Fin.cast nSub_eq i)]{Transfers.shareDrop fullShare 16} TABS m d c)) : sProp 𝕄) := by
  have hpay : (bigSep Finset.univ fun j : Fin (grid1.bound 1) => (bRd (F := F) m).payload (bcell d c (j.castLE hsub1)) 0 i.val)
      = bigSep Finset.univ fun j : Fin 16 => (shLoc d c ↦[tPiece (Fin.cast nSub_eq i)]{Transfers.shareTok fullShare 16 j} TABS m d c : sProp 𝕄) := by
    rw [← bigSep_grid (F := F) (fun j => (shLoc d c ↦[tPiece (Fin.cast nSub_eq i)]{Transfers.shareTok fullShare 16 j} TABS m d c : sProp 𝕄))]
    exact bigSep_congr fun j _ => payload_eq m d c (j.castLE hsub1) i
  rw [bigSep_sep', bigSep_sep', hpay]
  iintro ⟨Htok, Hr, Hsh⟩
  ihave H := (Transfers.pointsTo_toks_split (ℓ := shLoc d c) (S := tPiece (Fin.cast nSub_eq i)) (f := TABS m d c) fullShare 16) $$ Hsh
  icases H with ⟨Hdrop, Hpays⟩
  isplitr [Hdrop]
  · isplitl [Htok]; · iexact Htok
    isplitl [Hpays]; · iexact Hpays
    iexact Hr
  iexact Hdrop

theorem barrier_get (d : Dev nD) (c : Fin τ.nSC) (i : Fin τ.nSub) :
    (bigSep ((bRd (F := F) m).duties (bcell d c i) 0 \ ∅) fun n => (bRd (F := F) m).payload (bcell d c i) 0 n)
      ⊢ (shLoc d c ↦{Transfers.shareTok fullShare 16 (Fin.cast nSub_eq i)} TABS m d c : sProp 𝕄) := by
  rw [Finset.sdiff_empty, bRd_duties₀ m d c i, SparseCore.bigSep_image_of_injOn (fun a _ b _ e => Fin.val_injective e),
    sh_rows d c (Transfers.shareTok fullShare 16 (Fin.cast nSub_eq i)) (TABS m d c),
    ← bigSep_subs (F := F) (fun n => (shLoc d c ↦[tPiece n]{Transfers.shareTok fullShare 16 (Fin.cast nSub_eq i)} TABS m d c : sProp 𝕄))]
  exact Entails.of_eq (bigSep_congr fun n _ => payload_eq m d c i n)

end Cert.Proof.KI

end
-- ==== Proof.BookKI.lean ====
/-
  The bookkeeping of a task's shares and chunks.

  A. The gathers read the whole shared table.  A share q of it is cut into eleven read tokens and a remainder; the
     eight gathers' transfers complete on the cells numbered 3 to 10, and each is lent the token of its cell's number,
     so tokens 3 to 10 are held over the table as the body addresses it, and the remainder with tokens 0, 1, 2 is set
     aside.
  B. A worker's 25600 output rows are 400 chunks of 64 rows.  After k groups of eight chunks, chunks below 8k are done
     and chunks from 8k on are still to do; a group takes its eight chunks out of the to-do part and puts them into
     the done part.  Nothing is done at the start, and after fifty groups the done part is all the worker's rows.
-/
import proofs.«206439_g51874615001410_cont_9to1_m_433_33_alg».proof.Proof.GeomKI
import proofs.«206439_g51874615001410_cont_9to1_m_433_33_alg».proof.Proof.SplitKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F] [hK : Cert.KernelIdeal.Facts]

/-! ## A. The gathers' source -/

/-- The whole shared table, as the body addresses it at every gather: the whole scratch sliced at the origin to its full size. -/
abbrev shW : Memref sig .scVector .shared S3200x128 .f32 :=
  (Memref.whole cc1_scratch1).slice (Rect.unit (s := S3200x128) ![0, 0] S3200x128.size hK.inb_S3200x128_S3200x128_0_0) (fun _ => rfl)

theorem set_shW : (shW).view.set = Finset.univ := by
  show ((View.whole (cc1_scratch1 : Ref sig .scVector)).slice (Rect.unit (s := S3200x128) ![0, 0] S3200x128.size hK.inb_S3200x128_S3200x128_0_0)).set = _
  rw [View.set_slice_whole]
  ext i
  simp only [Finset.mem_univ, iff_true]
  rw [Rect.mem_set_unit]
  intro a
  match a with
  | ⟨0, _⟩ =>
    have h0 : (i 0).val < 3200 := (i 0).isLt
    show 0 ≤ (i 0).val ∧ (i 0).val < 0 + 3200
    omega
  | ⟨1, _⟩ =>
    have h1 : (i 1).val < 128 := (i 1).isLt
    show 0 ≤ (i 1).val ∧ (i 1).val < 0 + 128
    omega

/-- Held over the table as the body addresses it is held over the shared scratch whole. -/
theorem pts_shW (d : Dev nD) (c : Fin τ.nSC) (i : Fin τ.nSub) (q : PosShare TreeShare) (f : Buf (Elt F) (shLoc d c)) :
    ((shW).view.loc (V d c i) ↦[(shW).view.set]{q} f : sProp 𝕄) = (shLoc d c ↦{q} f) := by
  rw [set_shW]; rfl

/-- What is set aside of a share of the shared table while the gathers run: the remainder after eleven tokens, and tokens 0, 1, 2. -/
def srcRest (d : Dev nD) (c : Fin τ.nSC) (q : PosShare TreeShare) (f : Buf (Elt F) (shLoc d c)) : sProp 𝕄 :=
  iprop((shLoc d c ↦{Transfers.shareDrop q 11} f) ∗ (shLoc d c ↦{Transfers.shareTokN q 0} f) ∗ (shLoc d c ↦{Transfers.shareTokN q 1} f)
    ∗ (shLoc d c ↦{Transfers.shareTokN q 2} f))

theorem range11 : Finset.range 11 = ([3, 4, 5, 6, 7, 8, 9, 10, 0, 1, 2] : List ℕ).toFinset := by decide

theorem src_toks (d : Dev nD) (c : Fin τ.nSC) (i : Fin τ.nSub) (q : PosShare TreeShare) (f : Buf (Elt F) (shLoc d c)) :
    (shLoc d c ↦{q} f : sProp 𝕄) ⊣⊢ iprop(((shW).view.loc (V d c i) ↦[(shW).view.set]{Transfers.shareTokN q 3} f)
      ∗ ((shW).view.loc (V d c i) ↦[(shW).view.set]{Transfers.shareTokN q 4} f)
      ∗ ((shW).view.loc (V d c i) ↦[(shW).view.set]{Transfers.shareTokN q 5} f)
      ∗ ((shW).view.loc (V d c i) ↦[(shW).view.set]{Transfers.shareTokN q 6} f)
      ∗ ((shW).view.loc (V d c i) ↦[(shW).view.set]{Transfers.shareTokN q 7} f)
      ∗ ((shW).view.loc (V d c i) ↦[(shW).view.set]{Transfers.shareTokN q 8} f)
      ∗ ((shW).view.loc (V d c i) ↦[(shW).view.set]{Transfers.shareTokN q 9} f)
      ∗ ((shW).view.loc (V d c i) ↦[(shW).view.set]{Transfers.shareTokN q 10} f)
      ∗ srcRest d c q f) := by
  have e : ∀ q', ((shW).view.loc (V d c i) ↦[(shW).view.set]{q'} f : sProp 𝕄) = (shLoc d c ↦{q'} f) := fun q' => pts_shW d c i q' f
  rw [e, e, e, e, e, e, e, e]
  unfold srcRest
  have h : (shLoc d c ↦{q} f : sProp 𝕄) ⊣⊢ iprop((shLoc d c ↦{Transfers.shareDrop q 11} f)
      ∗ BI.bigSep (Finset.range 11) (fun n => (shLoc d c ↦{Transfers.shareTokN q n} f : sProp 𝕄))) := Transfers.pointsTo_toks_range q 11
  rw [bigSep_eq_bigSepL_of_eq ([3, 4, 5, 6, 7, 8, 9, 10, 0, 1, 2] : List ℕ) range11 (by decide)
    (fun n => (shLoc d c ↦{Transfers.shareTokN q n} f : sProp 𝕄))] at h
  constructor
  · refine h.1.trans ?_
    show iprop((shLoc d c ↦{Transfers.shareDrop q 11} f) ∗ (shLoc d c ↦{Transfers.shareTokN q 3} f) ∗ (shLoc d c ↦{Transfers.shareTokN q 4} f)
      ∗ (shLoc d c ↦{Transfers.shareTokN q 5} f) ∗ (shLoc d c ↦{Transfers.shareTokN q 6} f) ∗ (shLoc d c ↦{Transfers.shareTokN q 7} f)
      ∗ (shLoc d c ↦{Transfers.shareTokN q 8} f) ∗ (shLoc d c ↦{Transfers.shareTokN q 9} f) ∗ (shLoc d c ↦{Transfers.shareTokN q 10} f)
      ∗ (shLoc d c ↦{Transfers.shareTokN q 0} f) ∗ (shLoc d c ↦{Transfers.shareTokN q 1} f) ∗ (shLoc d c ↦{Transfers.shareTokN q 2} f)) ⊢ _
    iintro ⟨Hd, H3, H4, H5, H6, H7, H8, H9, H10, H0, H1, H2⟩
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hd]; · iexact Hd
    isplitl [H0]; · iexact H0
    isplitl [H1]; · iexact H1
    iexact H2
  · refine BI.Entails.trans ?_ h.2
    show _ ⊢ iprop((shLoc d c ↦{Transfers.shareDrop q 11} f) ∗ (shLoc d c ↦{Transfers.shareTokN q 3} f) ∗ (shLoc d c ↦{Transfers.shareTokN q 4} f)
      ∗ (shLoc d c ↦{Transfers.shareTokN q 5} f) ∗ (shLoc d c ↦{Transfers.shareTokN q 6} f) ∗ (shLoc d c ↦{Transfers.shareTokN q 7} f)
      ∗ (shLoc d c ↦{Transfers.shareTokN q 8} f) ∗ (shLoc d c ↦{Transfers.shareTokN q 9} f) ∗ (shLoc d c ↦{Transfers.shareTokN q 10} f)
      ∗ (shLoc d c ↦{Transfers.shareTokN q 0} f) ∗ (shLoc d c ↦{Transfers.shareTokN q 1} f) ∗ (shLoc d c ↦{Transfers.shareTokN q 2} f))
    iintro ⟨H3, H4, H5, H6, H7, H8, H9, H10, Hd, H0, H1, H2⟩
    isplitl [Hd]; · iexact Hd
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H0]; · iexact H0
    isplitl [H1]; · iexact H1
    iexact H2

/-! ## B. The output rows: done and to do -/

/-- The chunks done after k groups of eight, and those still to do. -/
def doneIx (k : Nat) : Finset (Fin 400) := Finset.univ.filter fun s : Fin 400 => s.val < k * 8
def todoIx (k : Nat) : Finset (Fin 400) := Finset.univ.filter fun s : Fin 400 => k * 8 ≤ s.val

/-- The output rows of worker w done after k groups, and those still to do. -/
def outDone (w : Fin 32) (k : Nat) : Finset S819200x128.Idx := (Finset.univ.filter fun s : Fin 400 => s.val < k * 8).biUnion (oChunk w)
def outTodo (w : Fin 32) (k : Nat) : Finset S819200x128.Idx := (Finset.univ.filter fun s : Fin 400 => k * 8 ≤ s.val).biUnion (oChunk w)

theorem outDone_eq (w : Fin 32) (k : Nat) : outDone w k = (doneIx k).biUnion (oChunk w) := rfl
theorem outTodo_eq (w : Fin 32) (k : Nat) : outTodo w k = (todoIx k).biUnion (oChunk w) := rfl

/-- The eight chunks of group k. -/
def grp (k : Nat) (hk : k < 50) : List (Fin 400) :=
  [⟨k * 8 + 0, by omega⟩, ⟨k * 8 + 1, by omega⟩, ⟨k * 8 + 2, by omega⟩, ⟨k * 8 + 3, by omega⟩,
   ⟨k * 8 + 4, by omega⟩, ⟨k * 8 + 5, by omega⟩, ⟨k * 8 + 6, by omega⟩, ⟨k * 8 + 7, by omega⟩]

theorem grp_nodup (k : Nat) (hk : k < 50) : (grp k hk).Nodup := by
  unfold grp
  simp only [List.nodup_cons, List.mem_cons, List.mem_nil_iff, or_false, Fin.mk.injEq, List.not_mem_nil, not_false_eq_true, List.nodup_nil, and_true, not_or]
  omega

theorem mem_grp (k : Nat) (hk : k < 50) (s : Fin 400) : s ∈ (grp k hk).toFinset ↔ k * 8 ≤ s.val ∧ s.val < (k + 1) * 8 := by
  unfold grp
  simp only [List.toFinset_cons, List.toFinset_nil, Finset.mem_insert, Finset.notMem_empty, or_false, Fin.ext_iff]
  omega

theorem todo_step (k : Nat) (hk : k < 50) : todoIx k = (grp k hk).toFinset ∪ todoIx (k + 1) := by
  ext s
  rw [Finset.mem_union, mem_grp]
  simp only [todoIx, Finset.mem_filter, Finset.mem_univ, true_and]
  omega

theorem todo_disj (k : Nat) (hk : k < 50) : Disjoint (grp k hk).toFinset (todoIx (k + 1)) := by
  rw [Finset.disjoint_left]
  intro s hs hs'
  rw [mem_grp] at hs
  simp only [todoIx, Finset.mem_filter, Finset.mem_univ, true_and] at hs'
  omega

theorem done_step (k : Nat) (hk : k < 50) : doneIx (k + 1) = doneIx k ∪ (grp k hk).toFinset := by
  ext s
  rw [Finset.mem_union, mem_grp]
  simp only [doneIx, Finset.mem_filter, Finset.mem_univ, true_and]
  omega

theorem done_disj (k : Nat) (hk : k < 50) : Disjoint (doneIx k) (grp k hk).toFinset := by
  rw [Finset.disjoint_left]
  intro s hs hs'
  rw [mem_grp] at hs'
  simp only [doneIx, Finset.mem_filter, Finset.mem_univ, true_and] at hs
  omega

theorem doneIx_zero : doneIx 0 = ∅ := by
  unfold doneIx
  exact Finset.filter_eq_empty_iff.mpr fun s _ h => by omega
theorem todoIx_zero : todoIx 0 = Finset.univ := by
  unfold todoIx
  exact Finset.filter_eq_self.mpr fun s _ => by omega
theorem doneIx_fifty : doneIx 50 = Finset.univ := by
  unfold doneIx
  exact Finset.filter_eq_self.mpr fun s _ => by have := s.isLt; omega

/-- Rows held over a family of chunks are the chunks held one by one. -/
theorem pts_chunks (d : Dev nD) (w : Fin 32) (S : Finset (Fin 400)) (f : Buf (Elt F) (outLoc d)) :
    (outLoc d ↦[S.biUnion (oChunk w)]{fullShare} f : sProp 𝕄) = bigSep S fun s => outLoc d ↦[oChunk w s]{fullShare} f :=
  pointsTo_biUnion S (ℓ := outLoc d) (oChunk w) fun s _ s' _ h => oChunk_disjoint w s (Finset.mem_univ _) s' (Finset.mem_univ _) h

/-- At the start nothing is done and all the worker's rows are to do. -/
theorem out_init (d : Dev nD) (w : Fin 32) (f g : Buf (Elt F) (outLoc d)) :
    (outLoc d ↦[oPiece w]{fullShare} f : sProp 𝕄) ⊢ iprop((outLoc d ↦[outDone w 0]{fullShare} g) ∗ (outLoc d ↦[outTodo w 0]{fullShare} f)) := by
  rw [outDone_eq, outTodo_eq, doneIx_zero, todoIx_zero, Finset.biUnion_empty, pointsTo_empty, oChunk_cover]
  iintro H
  isplitr; · iempintro
  iexact H

/-- The to-do part gives up the eight chunks of group k. -/
theorem todo_take (d : Dev nD) (w : Fin 32) (k : Nat) (hk : k < 50) (f : Buf (Elt F) (outLoc d)) :
    (outLoc d ↦[outTodo w k]{fullShare} f : sProp 𝕄)
      = iprop((bigSepL (grp k hk) fun s => (outLoc d ↦[oChunk w s]{fullShare} f : sProp 𝕄)) ∗ (outLoc d ↦[outTodo w (k + 1)]{fullShare} f)) := by
  rw [outTodo_eq, outTodo_eq, pts_chunks, pts_chunks, todo_step k hk, SparseCore.bigSep_union' (todo_disj k hk), bigSep_eq_bigSepL (grp k hk) (grp_nodup k hk)]

/-- The done part takes them in. -/
theorem done_put (d : Dev nD) (w : Fin 32) (k : Nat) (hk : k < 50) (g : Buf (Elt F) (outLoc d)) :
    (outLoc d ↦[outDone w (k + 1)]{fullShare} g : sProp 𝕄)
      = iprop((outLoc d ↦[outDone w k]{fullShare} g) ∗ (bigSepL (grp k hk) fun s => (outLoc d ↦[oChunk w s]{fullShare} g : sProp 𝕄))) := by
  rw [outDone_eq, outDone_eq, pts_chunks, pts_chunks, done_step k hk, SparseCore.bigSep_union' (done_disj k hk), bigSep_eq_bigSepL (grp k hk) (grp_nodup k hk)]

theorem out_take (d : Dev nD) (w : Fin 32) (k : Nat) (hk : k < 50) (f : Buf (Elt F) (outLoc d)) :
    (outLoc d ↦[outTodo w k]{fullShare} f : sProp 𝕄) ⊣⊢ iprop((outLoc d ↦[oChunk w ⟨k * 8 + 0, by omega⟩]{fullShare} f)
      ∗ (outLoc d ↦[oChunk w ⟨k * 8 + 1, by omega⟩]{fullShare} f)
      ∗ (outLoc d ↦[oChunk w ⟨k * 8 + 2, by omega⟩]{fullShare} f)
      ∗ (outLoc d ↦[oChunk w ⟨k * 8 + 3, by omega⟩]{fullShare} f)
      ∗ (outLoc d ↦[oChunk w ⟨k * 8 + 4, by omega⟩]{fullShare} f)
      ∗ (outLoc d ↦[oChunk w ⟨k * 8 + 5, by omega⟩]{fullShare} f)
      ∗ (outLoc d ↦[oChunk w ⟨k * 8 + 6, by omega⟩]{fullShare} f)
      ∗ (outLoc d ↦[oChunk w ⟨k * 8 + 7, by omega⟩]{fullShare} f)
      ∗ (outLoc d ↦[outTodo w (k + 1)]{fullShare} f)) := by
  rw [todo_take d w k hk f]
  constructor
  · show iprop(((outLoc d ↦[oChunk w ⟨k * 8 + 0, by omega⟩]{fullShare} f)
      ∗ (outLoc d ↦[oChunk w ⟨k * 8 + 1, by omega⟩]{fullShare} f)
      ∗ (outLoc d ↦[oChunk w ⟨k * 8 + 2, by omega⟩]{fullShare} f)
      ∗ (outLoc d ↦[oChunk w ⟨k * 8 + 3, by omega⟩]{fullShare} f)
      ∗ (outLoc d ↦[oChunk w ⟨k * 8 + 4, by omega⟩]{fullShare} f)
      ∗ (outLoc d ↦[oChunk w ⟨k * 8 + 5, by omega⟩]{fullShare} f)
      ∗ (outLoc d ↦[oChunk w ⟨k * 8 + 6, by omega⟩]{fullShare} f)
      ∗ (outLoc d ↦[oChunk w ⟨k * 8 + 7, by omega⟩]{fullShare} f))
      ∗ (outLoc d ↦[outTodo w (k + 1)]{fullShare} f)) ⊢ _
    iintro ⟨⟨H0, H1, H2, H3, H4, H5, H6, H7⟩, HR⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HR
  · show _ ⊢ iprop(((outLoc d ↦[oChunk w ⟨k * 8 + 0, by omega⟩]{fullShare} f)
      ∗ (outLoc d ↦[oChunk w ⟨k * 8 + 1, by omega⟩]{fullShare} f)
      ∗ (outLoc d ↦[oChunk w ⟨k * 8 + 2, by omega⟩]{fullShare} f)
      ∗ (outLoc d ↦[oChunk w ⟨k * 8 + 3, by omega⟩]{fullShare} f)
      ∗ (outLoc d ↦[oChunk w ⟨k * 8 + 4, by omega⟩]{fullShare} f)
      ∗ (outLoc d ↦[oChunk w ⟨k * 8 + 5, by omega⟩]{fullShare} f)
      ∗ (outLoc d ↦[oChunk w ⟨k * 8 + 6, by omega⟩]{fullShare} f)
      ∗ (outLoc d ↦[oChunk w ⟨k * 8 + 7, by omega⟩]{fullShare} f))
      ∗ (outLoc d ↦[outTodo w (k + 1)]{fullShare} f))
    iintro ⟨H0, H1, H2, H3, H4, H5, H6, H7, HR⟩
    isplitr [HR]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact HR

theorem out_put (d : Dev nD) (w : Fin 32) (k : Nat) (hk : k < 50) (g : Buf (Elt F) (outLoc d)) :
    iprop((outLoc d ↦[outDone w k]{fullShare} g) ∗ (outLoc d ↦[oChunk w ⟨k * 8 + 0, by omega⟩]{fullShare} g)
      ∗ (outLoc d ↦[oChunk w ⟨k * 8 + 1, by omega⟩]{fullShare} g)
      ∗ (outLoc d ↦[oChunk w ⟨k * 8 + 2, by omega⟩]{fullShare} g)
      ∗ (outLoc d ↦[oChunk w ⟨k * 8 + 3, by omega⟩]{fullShare} g)
      ∗ (outLoc d ↦[oChunk w ⟨k * 8 + 4, by omega⟩]{fullShare} g)
      ∗ (outLoc d ↦[oChunk w ⟨k * 8 + 5, by omega⟩]{fullShare} g)
      ∗ (outLoc d ↦[oChunk w ⟨k * 8 + 6, by omega⟩]{fullShare} g)
      ∗ (outLoc d ↦[oChunk w ⟨k * 8 + 7, by omega⟩]{fullShare} g))
      ⊢ (outLoc d ↦[outDone w (k + 1)]{fullShare} g : sProp 𝕄) := by
  rw [done_put d w k hk g]
  exact BI.Entails.refl _

/-- After fifty groups the done part is all the worker's rows. -/
theorem out_fin (d : Dev nD) (w : Fin 32) (g : Buf (Elt F) (outLoc d)) :
    (outLoc d ↦[outDone w 50]{fullShare} g : sProp 𝕄) ⊢ outLoc d ↦[oPiece w]{fullShare} g := by
  rw [outDone_eq, doneIx_fifty, oChunk_cover]

end Cert.Proof.KI

end
-- ==== Proof.ValsKI.lean ====
/-
  What the buffers of a task's body hold, as closed functions of the launch memory.

  * The id scratch after the task's ids are copied into it holds the worker's 25600 ids; a 16-id load at offset o
    reads ids o … o + 15 of them.
  * An index list of 64 words written by four stores of 16 words at offsets 0, 16, 32 and 48 is one function of the
    position, whatever it held before.
  * Quarter q of the index list of step st, computed from the 16 ids a load reads, is the list of row numbers
    rowOf (st · 64 + r) (id at that position) at positions q … q + 15.
  * The task's 200 rows of the shared table, after the copy of the same rows of the table in HBM, hold the table.
  * A gather over the table and the index list of step st lands the step's 64 gathered rows: row y of the destination is
    row rowOf (st · 64 + y) (id) of the table, and rowOf (w · 25600 + n) = rowOf n because 25600 = 128 · 200.
  * The copy of those rows into chunk st of the worker's output rows leaves the chunk at the gathered rows.
-/
import proofs.«206439_g51874615001410_cont_9to1_m_433_33_alg».proof.Proof.GeomKI
import Idealize.ShloMosaic.Lib.Writes
import proofs.«206439_g51874615001410_cont_9to1_m_433_33_alg».proof.Proof.IdxChunk

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)
variable [FloatOps F] [hK : Cert.KernelIdeal.Facts]

/-! ## The id scratch after its copy -/

/-- Worker w's 25600 ids, as the contents of a task's id scratch. -/
def XVf (d : Dev nD) (w : Fin 32) : S25600.Idx → BitVec 32 :=
  fun n => (XF m d) (ix1 (⟨w.val * 25600 + (n 0).val, xrow_lt w _ (n 0).isLt⟩ : Fin 819200))

theorem XVf_apply (d : Dev nD) (w : Fin 32) (n : S25600.Idx) :
    XVf m d w n = (XF m d) (ix1 (⟨w.val * 25600 + (n 0).val, xrow_lt w _ (n 0).isLt⟩ : Fin 819200)) := rfl

/-- The scratch after the copy of the task's ids into it, whatever it held before, holds the worker's ids. -/
theorem xv_landed (d : Dev nD) (L : grid1.Coords)
    (f0 : Buf (Elt F) ((Memref.whole cc1_scratch0 : Memref sig .scVector .vmem S25600 .i32).view.loc (V d ((L 0).castLE hcore1) ((L 1).castLE hsub1)))) :
    View.write (Elt F) (Memref.whole cc1_scratch0 : Memref sig .scVector .vmem S25600 .i32).view f0
        (ReadAs.same.apply (View.read (Elt F) (xSl L).view (XF m d))) Finset.univ
      = XVf m d (wL L) := by
  show View.write (Elt F) (View.whole (cc1_scratch0 : Ref sig .scVector)) f0 (View.read (Elt F) (xSl L).view (XF m d)) Finset.univ = _
  rw [View.write_whole_univ]
  funext n
  rw [View.read_apply, emb_xSl]
  rfl

theorem xchunk_off (off : Fin 1 → Nat) (o : Nat) (ho : off 0 = o) (h : ∀ a, off a + S16.size a ≤ S25600.size a) : o + 16 ≤ 25600 := by
  have h0 : off 0 + 16 ≤ 25600 := h 0
  omega
theorem xchunk_lt (w : Fin 32) (o n : Nat) (ho : o + 16 ≤ 25600) (hn : n < 16) : w.val * 25600 + o + n < 819200 := by
  have := w.isLt; omega

/-- A 16-id load from the scratch at offset o reads the worker's ids o … o + 15. -/
theorem xv_chunk (d : Dev nD) (w : Fin 32) (off : Fin 1 → Nat) (o : Nat) (ho : off 0 = o)
    (h : ∀ a, off a + S16.size a ≤ S25600.size a) (j : S16.Idx) :
    View.readAt (Elt F) (Memref.whole cc1_scratch0 : Memref sig .scVector .vmem S25600 .i32).view
        (Rect.unit (s := S25600) off S16.size h).toLoadRect (XVf m d w) j
      = (XF m d) (ix1 (⟨w.val * 25600 + o + (j 0).val, xchunk_lt w o _ (xchunk_off off o ho h) (j 0).isLt⟩ : Fin 819200)) := by
  rw [View.readAt_apply]
  show XVf m d w ((Rect.unit (s := S25600) off S16.size h).toLoadRect.idx j) = _
  rw [XVf_apply]
  refine congrArg (XF m d) (congrArg ix1 (Fin.ext ?_))
  show w.val * 25600 + (off 0 + 1 * (j 0).val) = w.val * 25600 + o + (j 0).val
  omega

/-! ## An index list after its four stores -/

theorem idx_lt (o : Nat) (n : Nat) (ho : o + 16 ≤ 64) (hn : n < 16) : o + n < 64 := by omega

/-- Where lane x of the 16-word store at offset o sits among the 64 words. -/
theorem emb_unit16 (o : Nat) (ho : o + 16 ≤ 64) (h : ∀ a, (![o] : Fin 1 → Nat) a + S16.size a ≤ S64.size a) (x : S16.Idx) :
    (Rect.unit (s := S64) ![o] S16.size h).emb x = ix1 (⟨o + (x 0).val, idx_lt o _ ho (x 0).isLt⟩ : Fin 64) := by
  funext a
  match a with
  | ⟨0, _⟩ =>
    refine Fin.ext ?_
    show o + 1 * (x 0).val = o + (x 0).val
    omega

/-- Four 16-word stores at offsets 0, 16, 32, 48 whose payloads are the four quarters of one function G leave, read
    through the view, the function G — whatever the 64 words held before, through whichever view of that shape. -/
theorem idx_writes_read {κ : Kind} {sp : Space} (v : View sig κ sp S64 .i32) (fi : v.ty.Contents (Elt F))
    (h0 : ∀ a, (![0] : Fin 1 → Nat) a + S16.size a ≤ S64.size a) (h1 : ∀ a, (![16] : Fin 1 → Nat) a + S16.size a ≤ S64.size a)
    (h2 : ∀ a, (![32] : Fin 1 → Nat) a + S16.size a ≤ S64.size a) (h3 : ∀ a, (![48] : Fin 1 → Nat) a + S16.size a ≤ S64.size a)
    (p0 p1 p2 p3 : S16.Idx → BitVec 32) (G : S64.Idx → BitVec 32)
    (hp0 : ∀ j : S16.Idx, p0 j = G (ix1 (⟨0 + (j 0).val, idx_lt 0 _ (by decide) (j 0).isLt⟩ : Fin 64)))
    (hp1 : ∀ j : S16.Idx, p1 j = G (ix1 (⟨16 + (j 0).val, idx_lt 16 _ (by decide) (j 0).isLt⟩ : Fin 64)))
    (hp2 : ∀ j : S16.Idx, p2 j = G (ix1 (⟨32 + (j 0).val, idx_lt 32 _ (by decide) (j 0).isLt⟩ : Fin 64)))
    (hp3 : ∀ j : S16.Idx, p3 j = G (ix1 (⟨48 + (j 0).val, idx_lt 48 _ (by decide) (j 0).isLt⟩ : Fin 64))) :
    v.read (Elt F) (v.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩])
      = G := by
  funext y
  refine View.read_writes_apply_of_pieces v fi G _ ?_ y ?_
  · intro p hp
    rcases List.mem_cons.mp hp with rfl | hp
    · intro x; exact (hp3 x).trans (congrArg G (emb_unit16 48 (by decide) h3 x).symm)
    rcases List.mem_cons.mp hp with rfl | hp
    · intro x; exact (hp2 x).trans (congrArg G (emb_unit16 32 (by decide) h2 x).symm)
    rcases List.mem_cons.mp hp with rfl | hp
    · intro x; exact (hp1 x).trans (congrArg G (emb_unit16 16 (by decide) h1 x).symm)
    rcases List.mem_cons.mp hp with rfl | hp
    · intro x; exact (hp0 x).trans (congrArg G (emb_unit16 0 (by decide) h0 x).symm)
    · exact absurd hp List.not_mem_nil
  · -- the four stores tile the 64 words
    have hy : (y 0).val < 64 := (y 0).isLt
    have hmem (o : Nat) (h : ∀ a, (![o] : Fin 1 → Nat) a + S16.size a ≤ S64.size a) (hlo : o ≤ (y 0).val) (hhi : (y 0).val < o + 16) :
        y ∈ (Rect.unit (s := S64) ![o] S16.size h).set := by
      refine Rect.mem_set_unit.mpr fun a => ?_
      match a with
      | ⟨0, _⟩ => exact ⟨hlo, hhi⟩
    by_cases c1 : (y 0).val < 16
    · exact ⟨⟨Rect.unit (s := S64) ![0] S16.size h0, p0⟩,
        List.mem_cons_of_mem _ (List.mem_cons_of_mem _ (List.mem_cons_of_mem _ List.mem_cons_self)), hmem 0 h0 (by omega) (by omega)⟩
    · by_cases c2 : (y 0).val < 32
      · exact ⟨⟨Rect.unit (s := S64) ![16] S16.size h1, p1⟩,
          List.mem_cons_of_mem _ (List.mem_cons_of_mem _ List.mem_cons_self), hmem 16 h1 (by omega) (by omega)⟩
      · by_cases c3 : (y 0).val < 48
        · exact ⟨⟨Rect.unit (s := S64) ![32] S16.size h2, p2⟩,
            List.mem_cons_of_mem _ List.mem_cons_self, hmem 32 h2 (by omega) (by omega)⟩
        · exact ⟨⟨Rect.unit (s := S64) ![48] S16.size h3, p3⟩, List.mem_cons_self, hmem 48 h3 (by omega) (by omega)⟩

/-! The same for each of the eight index lists, held whole: a whole buffer reads as its contents. -/
section IdxLists
variable (h0 : ∀ a, (![0] : Fin 1 → Nat) a + S16.size a ≤ S64.size a) (h1 : ∀ a, (![16] : Fin 1 → Nat) a + S16.size a ≤ S64.size a)
  (h2 : ∀ a, (![32] : Fin 1 → Nat) a + S16.size a ≤ S64.size a) (h3 : ∀ a, (![48] : Fin 1 → Nat) a + S16.size a ≤ S64.size a)
  (p0 p1 p2 p3 : S16.Idx → BitVec 32) (G : S64.Idx → BitVec 32)
  (hp0 : ∀ j : S16.Idx, p0 j = G (ix1 (⟨0 + (j 0).val, idx_lt 0 _ (by decide) (j 0).isLt⟩ : Fin 64)))
  (hp1 : ∀ j : S16.Idx, p1 j = G (ix1 (⟨16 + (j 0).val, idx_lt 16 _ (by decide) (j 0).isLt⟩ : Fin 64)))
  (hp2 : ∀ j : S16.Idx, p2 j = G (ix1 (⟨32 + (j 0).val, idx_lt 32 _ (by decide) (j 0).isLt⟩ : Fin 64)))
  (hp3 : ∀ j : S16.Idx, p3 j = G (ix1 (⟨48 + (j 0).val, idx_lt 48 _ (by decide) (j 0).isLt⟩ : Fin 64)))
include hp0 hp1 hp2 hp3

theorem idx_writes_2 (fi : (Memref.whole cc1_scratch2 : Memref sig .scVector .vmem S64 .i32).view.ty.Contents (Elt F)) :
    (Memref.whole cc1_scratch2 : Memref sig .scVector .vmem S64 .i32).view.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩]
      = G :=
  idx_writes_read (F := F) (View.whole (cc1_scratch2 : Ref sig .scVector)) fi h0 h1 h2 h3 p0 p1 p2 p3 G hp0 hp1 hp2 hp3

theorem idx_writes_3 (fi : (Memref.whole cc1_scratch3 : Memref sig .scVector .vmem S64 .i32).view.ty.Contents (Elt F)) :
    (Memref.whole cc1_scratch3 : Memref sig .scVector .vmem S64 .i32).view.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩]
      = G :=
  idx_writes_read (F := F) (View.whole (cc1_scratch3 : Ref sig .scVector)) fi h0 h1 h2 h3 p0 p1 p2 p3 G hp0 hp1 hp2 hp3

theorem idx_writes_4 (fi : (Memref.whole cc1_scratch4 : Memref sig .scVector .vmem S64 .i32).view.ty.Contents (Elt F)) :
    (Memref.whole cc1_scratch4 : Memref sig .scVector .vmem S64 .i32).view.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩]
      = G :=
  idx_writes_read (F := F) (View.whole (cc1_scratch4 : Ref sig .scVector)) fi h0 h1 h2 h3 p0 p1 p2 p3 G hp0 hp1 hp2 hp3

theorem idx_writes_5 (fi : (Memref.whole cc1_scratch5 : Memref sig .scVector .vmem S64 .i32).view.ty.Contents (Elt F)) :
    (Memref.whole cc1_scratch5 : Memref sig .scVector .vmem S64 .i32).view.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩]
      = G :=
  idx_writes_read (F := F) (View.whole (cc1_scratch5 : Ref sig .scVector)) fi h0 h1 h2 h3 p0 p1 p2 p3 G hp0 hp1 hp2 hp3

theorem idx_writes_6 (fi : (Memref.whole cc1_scratch6 : Memref sig .scVector .vmem S64 .i32).view.ty.Contents (Elt F)) :
    (Memref.whole cc1_scratch6 : Memref sig .scVector .vmem S64 .i32).view.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩]
      = G :=
  idx_writes_read (F := F) (View.whole (cc1_scratch6 : Ref sig .scVector)) fi h0 h1 h2 h3 p0 p1 p2 p3 G hp0 hp1 hp2 hp3

theorem idx_writes_7 (fi : (Memref.whole cc1_scratch7 : Memref sig .scVector .vmem S64 .i32).view.ty.Contents (Elt F)) :
    (Memref.whole cc1_scratch7 : Memref sig .scVector .vmem S64 .i32).view.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩]
      = G :=
  idx_writes_read (F := F) (View.whole (cc1_scratch7 : Ref sig .scVector)) fi h0 h1 h2 h3 p0 p1 p2 p3 G hp0 hp1 hp2 hp3

theorem idx_writes_8 (fi : (Memref.whole cc1_scratch8 : Memref sig .scVector .vmem S64 .i32).view.ty.Contents (Elt F)) :
    (Memref.whole cc1_scratch8 : Memref sig .scVector .vmem S64 .i32).view.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩]
      = G :=
  idx_writes_read (F := F) (View.whole (cc1_scratch8 : Ref sig .scVector)) fi h0 h1 h2 h3 p0 p1 p2 p3 G hp0 hp1 hp2 hp3

theorem idx_writes_9 (fi : (Memref.whole cc1_scratch9 : Memref sig .scVector .vmem S64 .i32).view.ty.Contents (Elt F)) :
    (Memref.whole cc1_scratch9 : Memref sig .scVector .vmem S64 .i32).view.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩]
      = G :=
  idx_writes_read (F := F) (View.whole (cc1_scratch9 : Ref sig .scVector)) fi h0 h1 h2 h3 p0 p1 p2 p3 G hp0 hp1 hp2 hp3

end IdxLists

/-! ## The task's rows of the shared table after the table copy -/

theorem jL_eq (L : grid1.Coords) : Fin.cast nSub_eq ((L 1).castLE hsub1) = jL L := Fin.ext rfl

/-- After the copy of the task's rows of the table from HBM into the shared scratch, those rows of the scratch hold the
    table, whatever the scratch held before. -/
theorem sh_landed (d : Dev nD) (L : grid1.Coords) (fsh : Buf (Elt F) (shLoc d ((L 0).castLE hcore1))) :
    (shLoc d ((L 0).castLE hcore1) ↦[tPiece (jL L)]{fullShare}
        ((shSl L).view.writes (Elt F) fsh [⟨Rect.whole S200x128, ReadAs.same.apply (View.read (Elt F) (tSl L).view (TAB m d))⟩]) : sProp 𝕄)
      ⊢ shLoc d ((L 0).castLE hcore1) ↦[tPiece (Fin.cast nSub_eq ((L 1).castLE hsub1))]{fullShare} TABS m d ((L 0).castLE hcore1) := by
  rw [jL_eq]
  refine Entails.of_eq (pointsTo_congr fun i hi => ?_)
  have hi' : i ∈ (shSl L).view.set := by rw [set_shSl]; exact hi
  obtain ⟨y, -, rfl⟩ := Finset.mem_map.mp hi'
  -- the one write goes through the whole slice: its own index y sits where the slice puts y
  have e : (shSl L).view.emb y = ((shSl L).view.slice (Rect.whole S200x128)).emb y := by
    show _ = (shSl L).view.emb ((Rect.whole S200x128).emb y)
    rw [Rect.emb_whole_apply]
  rw [View.writes_singleton]
  refine (congrArg _ e).trans ?_
  rw [View.write_emb_of_mem _ _ (Finset.mem_univ y)]
  show _ = TAB m d ((shSl L).view.emb y)
  rw [emb_shSl]
  show _root_.cast _ (View.read (Elt F) (tSl L).view (TAB m d) y) = _
  rw [View.read_apply, emb_tSl]
  rfl

/-! ## The index list and the rows of a step -/

/-- The 64 row numbers of chunk st of worker w: position r of the chunk is flat position st · 64 + r of the worker's
    ids, and its row is `rowOf` of that position and its id. -/
def IDXV (d : Dev nD) (w : Fin 32) (st : Fin 400) : S64.Idx → BitVec 32 :=
  fun r => BitVec.ofNat 32 (Cert.KSpec.rowOf (st.val * 64 + (r 0).val)
    ((XF m d) (ix1 (⟨w.val * 25600 + st.val * 64 + (r 0).val, orow_lt w st _ (r 0).isLt⟩ : Fin 819200)))).val

/-- The 64 gathered rows of chunk st of worker w. -/
def ROWSV (d : Dev nD) (w : Fin 32) (st : Fin 400) : S64x128.Idx → F .f32 :=
  fun y => (OUTF m d) (ix2 (⟨w.val * 25600 + st.val * 64 + (y 0).val, orow_lt w st _ (y 0).isLt⟩ : Fin 819200) (⟨(y 1).val, (y 1).isLt⟩ : Fin 128))

theorem IDXV_apply (d : Dev nD) (w : Fin 32) (st : Fin 400) (n : Fin 64) :
    IDXV m d w st (ix1 n) = BitVec.ofNat 32 (Cert.KSpec.rowOf (st.val * 64 + n.val)
      ((XF m d) (ix1 (⟨w.val * 25600 + st.val * 64 + n.val, orow_lt w st _ n.isLt⟩ : Fin 819200)))).val := rfl

/-- Every row number of the list is a row of the table. -/
theorem IDXV_lt (d : Dev nD) (w : Fin 32) (st : Fin 400) (x : S64.Idx) : (IDXV m d w st x).toNat < 3200 := by
  show (BitVec.ofNat 32 (Cert.KSpec.rowOf _ _).val).toNat < 3200
  rw [Cert.IdxChunk.row_toNat]
  exact (Cert.KSpec.rowOf _ _).isLt

/-- A flattened id is one of the ids. -/
theorem xf_le (d : Dev nD) (hx : ∀ j, ((m (xLoc d) : IVec S4096x200 32) j).toNat ≤ 14) (n : S819200.Idx) : ((XF m d) n).toNat ≤ 14 :=
  hx _

theorem lane16 (j : S16.Idx) : (j 0).val < 16 := (j 0).isLt
theorem stq_le (st : Fin 400) (q : Nat) (hq : q + 16 ≤ 64) : st.val * 64 + q + 16 ≤ 25600 := by
  have := st.isLt; omega

/-- The word of a row number, from the position and the id it is computed from, is the list's entry. -/
theorem idxv_of_row (d : Dev nD) (w : Fin 32) (st : Fin 400) (q : Nat) (hq : q + 16 ≤ 64) (j : S16.Idx) (n : Nat) (v : BitVec 32)
    (hn : n = st.val * 64 + q + (j 0).val)
    (hv : v = (XF m d) (ix1 (⟨w.val * 25600 + (st.val * 64 + q) + (j 0).val,
      xchunk_lt w (st.val * 64 + q) _ (stq_le st q hq) (lane16 j)⟩ : Fin 819200))) :
    BitVec.ofNat 32 (Cert.KSpec.rowOf n v).val = IDXV m d w st (ix1 (⟨q + (j 0).val, idx_lt q _ hq (lane16 j)⟩ : Fin 64)) := by
  have hj : (j 0).val < 16 := lane16 j
  have hn' : n = st.val * 64 + (q + (j 0).val) := by omega
  have hv' : v = (XF m d) (ix1 (⟨w.val * 25600 + st.val * 64 + (q + (j 0).val), orow_lt w st _ (idx_lt q _ hq hj)⟩ : Fin 819200)) := by
    rw [hv]
    refine congrArg (XF m d) (congrArg ix1 (Fin.ext ?_))
    show w.val * 25600 + (st.val * 64 + q) + (j 0).val = w.val * 25600 + st.val * 64 + (q + (j 0).val)
    omega
  rw [hn', hv']
  rfl

/-- The 16 ids a load at the offsets off reads from the id scratch holding worker w's ids. -/
abbrev xsOf (d : Dev nD) (w : Fin 32) (off : Fin 1 → Nat) (h : ∀ a, off a + S16.size a ≤ S25600.size a) : S16.Idx → BitVec 32 :=
  View.readAt (Elt F) (Memref.whole cc1_scratch0 : Memref sig .scVector .vmem S25600 .i32).view
    (Rect.unit (s := S25600) off S16.size h).toLoadRect (XVf m d w)

theorem xs_le (d : Dev nD) (w : Fin 32) (hxf : ∀ n, ((XF m d) n).toNat ≤ 14) (off : Fin 1 → Nat) (o : Nat) (ho : off 0 = o)
    (h : ∀ a, off a + S16.size a ≤ S25600.size a) (j : S16.Idx) : (xsOf m d w off h j).toNat ≤ 14 := by
  show (View.readAt (Elt F) (Memref.whole cc1_scratch0 : Memref sig .scVector .vmem S25600 .i32).view
    (Rect.unit (s := S25600) off S16.size h).toLoadRect (XVf m d w) j).toNat ≤ 14
  rw [xv_chunk m d w off o ho h j]; exact hxf _

theorem base_le (st : Fin 400) (q : Nat) (hq : q + 16 ≤ 64) (B : BitVec 32) (hB : B.toNat = st.val * 64 + q) : B.toNat + 16 ≤ 25600 := by
  have := st.isLt; omega

/-- Quarter q of the index list of step st, computed whole from the 16 ids the load reads. -/
theorem chunk_idxv (d : Dev nD) (w : Fin 32) (st : Fin 400) (q : Nat) (hq : q + 16 ≤ 64) (hxf : ∀ n, ((XF m d) n).toNat ≤ 14)
    (B : BitVec 32) (hB : B.toNat = st.val * 64 + q) (off : Fin 1 → Nat) (ho : off 0 = st.val * 64 + q)
    (h : ∀ a, off a + S16.size a ≤ S25600.size a) (hio : S16.Iotas .scVector 32 [0]) (hc : S16.ShapeCasts S16) (j : S16.Idx) :
    shapeCast S16 (addi (muli (remsi (addi (broadcast S16 B) (iota .scVector S16 32 [0] hio)) (broadcast S16 200#32)) (broadcast S16 16#32))
        (shapeCast S16 (View.readAt (Elt F) (Memref.whole cc1_scratch0 : Memref sig .scVector .vmem S25600 .i32).view
          (Rect.unit (s := S25600) off S16.size h).toLoadRect (XVf m d w)) hc)) hc j
      = IDXV m d w st (ix1 (⟨q + (j 0).val, idx_lt q _ hq (lane16 j)⟩ : Fin 64)) :=
  (Cert.IdxChunk.idx_apply B (base_le st q hq B hB) hio hc (xsOf m d w off h) (xs_le m d w hxf off _ ho h) j).trans
    (idxv_of_row m d w st q hq j _ _ (by rw [hB]) (xv_chunk m d w off _ ho h j))

/-- The same with the remainder given lane by lane, -/
theorem chunk_idxv_spos (d : Dev nD) (w : Fin 32) (st : Fin 400) (q : Nat) (hq : q + 16 ≤ 64) (hxf : ∀ n, ((XF m d) n).toNat ≤ 14)
    (B : BitVec 32) (hB : B.toNat = st.val * 64 + q) (off : Fin 1 → Nat) (ho : off 0 = st.val * 64 + q)
    (h : ∀ a, off a + S16.size a ≤ S25600.size a) (hc : S16.ShapeCasts S16)
    (sp : IVec S16 32) (hsp : ∀ j, sp j = BitVec.ofNat 32 ((B.toNat + (j 0).val) % 200)) (j : S16.Idx) :
    shapeCast S16 (addi (muli sp (broadcast S16 16#32))
        (shapeCast S16 (View.readAt (Elt F) (Memref.whole cc1_scratch0 : Memref sig .scVector .vmem S25600 .i32).view
          (Rect.unit (s := S25600) off S16.size h).toLoadRect (XVf m d w)) hc)) hc j
      = IDXV m d w st (ix1 (⟨q + (j 0).val, idx_lt q _ hq (lane16 j)⟩ : Fin 64)) :=
  (Cert.IdxChunk.idx_of_spos B hc sp (xsOf m d w off h) hsp (xs_le m d w hxf off _ ho h) j).trans
    (idxv_of_row m d w st q hq j _ _ (by rw [hB]) (xv_chunk m d w off _ ho h j))

/-- with the remainder's two operands given, -/
theorem chunk_idxv_parts (d : Dev nD) (w : Fin 32) (st : Fin 400) (q : Nat) (hq : q + 16 ≤ 64) (hxf : ∀ n, ((XF m d) n).toNat ≤ 14)
    (B : BitVec 32) (hB : B.toNat = st.val * 64 + q) (off : Fin 1 → Nat) (ho : off 0 = st.val * 64 + q)
    (h : ∀ a, off a + S16.size a ≤ S25600.size a) (hio : S16.Iotas .scVector 32 [0]) (hc : S16.ShapeCasts S16)
    (s v : IVec S16 32) (hs : s = addi (broadcast S16 B) (iota .scVector S16 32 [0] hio)) (hv : v = broadcast S16 200#32) (j : S16.Idx) :
    shapeCast S16 (addi (muli (remsi s v) (broadcast S16 16#32))
        (shapeCast S16 (View.readAt (Elt F) (Memref.whole cc1_scratch0 : Memref sig .scVector .vmem S25600 .i32).view
          (Rect.unit (s := S25600) off S16.size h).toLoadRect (XVf m d w)) hc)) hc j
      = IDXV m d w st (ix1 (⟨q + (j 0).val, idx_lt q _ hq (lane16 j)⟩ : Fin 64)) :=
  (Cert.IdxChunk.idx_of_parts_eq B (base_le st q hq B hB) hio hc s v (xsOf m d w off h) hs hv (xs_le m d w hxf off _ ho h) j).trans
    (idxv_of_row m d w st q hq j _ _ (by rw [hB]) (xv_chunk m d w off _ ho h j))

/-- and with the product and the cast ids given. -/
theorem chunk_idxv_mul (d : Dev nD) (w : Fin 32) (st : Fin 400) (q : Nat) (hq : q + 16 ≤ 64) (hxf : ∀ n, ((XF m d) n).toNat ≤ 14)
    (B : BitVec 32) (hB : B.toNat = st.val * 64 + q) (off : Fin 1 → Nat) (ho : off 0 = st.val * 64 + q)
    (h : ∀ a, off a + S16.size a ≤ S25600.size a) (hc : S16.ShapeCasts S16) (pm xc : IVec S16 32)
    (hm : ∀ j, pm j = IntOp.muli (BitVec.ofNat 32 ((B.toNat + (j 0).val) % 200)) 16#32)
    (hxc : ∀ j, xc j = View.readAt (Elt F) (Memref.whole cc1_scratch0 : Memref sig .scVector .vmem S25600 .i32).view
          (Rect.unit (s := S25600) off S16.size h).toLoadRect (XVf m d w) j) (j : S16.Idx) :
    shapeCast S16 (addi pm xc) hc j
      = IDXV m d w st (ix1 (⟨q + (j 0).val, idx_lt q _ hq (lane16 j)⟩ : Fin 64)) :=
  (Cert.IdxChunk.idx_of_mul B hc pm xc (xsOf m d w off h) hm hxc (xs_le m d w hxf off _ ho h) j).trans
    (idxv_of_row m d w st q hq j _ _ (by rw [hB]) (xv_chunk m d w off _ ho h j))

/-- Read through each of the eight index lists held whole, every entry is a row of the table. -/
theorem idxv_in_2 (d : Dev nD) (w : Fin 32) (st : Fin 400) :
    ∀ x, ((Memref.whole cc1_scratch2 : Memref sig .scVector .vmem S64 .i32).view.read (Elt F) (IDXV m d w st) x).toNat < 3200 :=
  fun x => IDXV_lt m d w st x
theorem idxv_in_3 (d : Dev nD) (w : Fin 32) (st : Fin 400) :
    ∀ x, ((Memref.whole cc1_scratch3 : Memref sig .scVector .vmem S64 .i32).view.read (Elt F) (IDXV m d w st) x).toNat < 3200 :=
  fun x => IDXV_lt m d w st x
theorem idxv_in_4 (d : Dev nD) (w : Fin 32) (st : Fin 400) :
    ∀ x, ((Memref.whole cc1_scratch4 : Memref sig .scVector .vmem S64 .i32).view.read (Elt F) (IDXV m d w st) x).toNat < 3200 :=
  fun x => IDXV_lt m d w st x
theorem idxv_in_5 (d : Dev nD) (w : Fin 32) (st : Fin 400) :
    ∀ x, ((Memref.whole cc1_scratch5 : Memref sig .scVector .vmem S64 .i32).view.read (Elt F) (IDXV m d w st) x).toNat < 3200 :=
  fun x => IDXV_lt m d w st x
theorem idxv_in_6 (d : Dev nD) (w : Fin 32) (st : Fin 400) :
    ∀ x, ((Memref.whole cc1_scratch6 : Memref sig .scVector .vmem S64 .i32).view.read (Elt F) (IDXV m d w st) x).toNat < 3200 :=
  fun x => IDXV_lt m d w st x
theorem idxv_in_7 (d : Dev nD) (w : Fin 32) (st : Fin 400) :
    ∀ x, ((Memref.whole cc1_scratch7 : Memref sig .scVector .vmem S64 .i32).view.read (Elt F) (IDXV m d w st) x).toNat < 3200 :=
  fun x => IDXV_lt m d w st x
theorem idxv_in_8 (d : Dev nD) (w : Fin 32) (st : Fin 400) :
    ∀ x, ((Memref.whole cc1_scratch8 : Memref sig .scVector .vmem S64 .i32).view.read (Elt F) (IDXV m d w st) x).toNat < 3200 :=
  fun x => IDXV_lt m d w st x
theorem idxv_in_9 (d : Dev nD) (w : Fin 32) (st : Fin 400) :
    ∀ x, ((Memref.whole cc1_scratch9 : Memref sig .scVector .vmem S64 .i32).view.read (Elt F) (IDXV m d w st) x).toNat < 3200 :=
  fun x => IDXV_lt m d w st x

/-! ## What a gather lands -/

/-- A write through the whole of a view reads back, through the view, as the payload. -/
theorem read_writes_whole {κ : Kind} {sp : Space} {s : Shape} {e : EltTy} (v : View sig κ sp s e) (f : v.ty.Contents (Elt F))
    (P : s.Idx → Elt F e) : v.read (Elt F) (v.writes (Elt F) f [⟨Rect.whole s, P⟩]) = P := by
  funext y
  have h := View.read_writes_cons_emb v f (Rect.whole s) P [] y
  rw [Rect.emb_whole_apply] at h
  exact h

/-- The row a position reads depends on the position only through its remainder by 200, and 25600 = 128 · 200. -/
theorem rowOf_add_mul (w n : Nat) (v : BitVec 32) : Cert.KSpec.rowOf (w * 25600 + n) v = Cert.KSpec.rowOf n v := by
  refine Fin.ext ?_
  show (w * 25600 + n) % 200 * 16 + min v.toNat 15 = n % 200 * 16 + min v.toNat 15
  have e : (w * 25600 + n) % 200 = n % 200 := by
    rw [show w * 25600 + n = n + 200 * (w * 128) by omega, Nat.add_mul_mod_self_left]
  rw [e]

theorem rowOf_add_mul' (w a b : Nat) (v : BitVec 32) : Cert.KSpec.rowOf (w * 25600 + a + b) v = Cert.KSpec.rowOf (a + b) v := by
  rw [Nat.add_assoc]; exact rowOf_add_mul _ _ _

/-- Entry k of a 64-word list in row-major order is its entry at position k. -/
theorem rowMajor_symm_S64 (k : Fin S64.numel) (hk : k.val < 64) : S64.rowMajor.symm k = ix1 (⟨k.val, hk⟩ : Fin 64) := by
  refine (Equiv.symm_apply_eq _).mpr (Fin.ext ?_)
  rw [Shape.rowMajor_val_one]

/-- The shared table as the gathers address it: all 3200 rows. -/
abbrev shWhole : Memref sig .scVector .shared S3200x128 .f32 :=
  (Memref.whole cc1_scratch1).slice (Rect.unit (s := S3200x128) ![0, 0] S3200x128.size inb_S3200x128_S3200x128_0_0) (fun _ => rfl)

/-- The gather's payload over the table and the index list of step st is the step's 64 gathered rows. -/
theorem gather_payload (d : Dev nD) (c : Fin τ.nSC) (w : Fin 32) (st : Fin 400) (hg : S3200x128.Gathers 0 S64x128)
    (hn : S64.numel = S64x128.size hg.axis') (hin : ∀ x, ((IDXV m d w st) x).toNat < S3200x128.size hg.axis) :
    SparseCore.gatherPayload hg (View.read (Elt F) (shWhole).view (TABS m d c)) (SparseCore.rows (F := F) (si := S64) (IDXV m d w st) hn hin)
      = ROWSV m d w st := by
  funext y
  have hy0 : (y 0).val < 64 := (y 0).isLt
  have hy1 : (y 1).val < 128 := (y 1).isLt
  -- the source index: the row the list names at the destination's row, the destination's own column
  have e : (shWhole).view.emb (hg.idx (SparseCore.rows (F := F) (si := S64) (IDXV m d w st) hn hin) y)
      = ix2 (Cert.KSpec.rowOf (w.val * 25600 + st.val * 64 + (y 0).val)
          ((XF m d) (ix1 (⟨w.val * 25600 + st.val * 64 + (y 0).val, orow_lt w st _ hy0⟩ : Fin 819200))))
          (⟨(y 1).val, hy1⟩ : Fin 128) := by
    funext a
    match a with
    | ⟨0, _⟩ =>
      refine Fin.ext ?_
      show 0 + 1 * (hg.idx (SparseCore.rows (F := F) (si := S64) (IDXV m d w st) hn hin) y hg.axis).val
        = (Cert.KSpec.rowOf (w.val * 25600 + st.val * 64 + (y 0).val)
            ((XF m d) (ix1 (⟨w.val * 25600 + st.val * 64 + (y 0).val, orow_lt w st _ hy0⟩ : Fin 819200)))).val
      rw [Shape.Gathers.idx_axis, rowOf_add_mul' w.val (st.val * 64) (y 0).val]
      show 0 + 1 * (IDXV m d w st (S64.rowMajor.symm ((y hg.axis').cast hn.symm))).toNat = _
      rw [rowMajor_symm_S64 ((y hg.axis').cast hn.symm) hy0]
      show 0 + 1 * (IDXV m d w st (ix1 (⟨(y 0).val, hy0⟩ : Fin 64))).toNat = _
      rw [IDXV_apply, Cert.IdxChunk.row_toNat]
      exact (show ∀ n : Nat, 0 + 1 * n = n by intro n; omega) _
    | ⟨1, _⟩ =>
      refine Fin.ext ?_
      show 0 + 1 * (hg.idx (SparseCore.rows (F := F) (si := S64) (IDXV m d w st) hn hin) y ⟨1, by decide⟩).val = (y 1).val
      rw [Shape.Gathers.idx_of_ne hg _ y ⟨1, by decide⟩ (by decide)]
      show 0 + 1 * (y 1).val = (y 1).val
      omega
  show View.read (Elt F) (shWhole).view (TABS m d c) (hg.idx (SparseCore.rows (F := F) (si := S64) (IDXV m d w st) hn hin) y) = _
  rw [View.read_apply, e]
  rfl

/-- What the gather of step st leaves, read through any view of the destination's shape: the step's rows. -/
theorem gather_landed_read {κ : Kind} {sp : Space} (v : View sig κ sp S64x128 .f32) (fr : v.ty.Contents (Elt F))
    (d : Dev nD) (c : Fin τ.nSC) (w : Fin 32) (st : Fin 400) (hg : S3200x128.Gathers 0 S64x128)
    (hn : S64.numel = S64x128.size hg.axis') (hin : ∀ x, ((IDXV m d w st) x).toNat < S3200x128.size hg.axis) :
    v.read (Elt F) (v.writes (Elt F) fr [⟨Rect.whole S64x128,
        SparseCore.gatherPayload hg (View.read (Elt F) (shWhole).view (TABS m d c)) (SparseCore.rows (F := F) (si := S64) (IDXV m d w st) hn hin)⟩])
      = ROWSV m d w st :=
  (read_writes_whole v fr _).trans (gather_payload m d c w st hg hn hin)

/-! The same for each of the eight row buffers held whole, its index list the one of the same slot. -/
theorem gather_landed_0 (d : Dev nD) (c : Fin τ.nSC) (w : Fin 32) (st : Fin 400) (hg : S3200x128.Gathers 0 S64x128)
    (hn : S64.numel = S64x128.size hg.axis')
    (hin : ∀ x, ((Memref.whole cc1_scratch2 : Memref sig .scVector .vmem S64 .i32).view.read (Elt F) (IDXV m d w st) x).toNat < S3200x128.size hg.axis)
    (fr : (Memref.whole cc1_scratch10 : Memref sig .scVector .vmem S64x128 .f32).view.ty.Contents (Elt F)) :
    (Memref.whole cc1_scratch10 : Memref sig .scVector .vmem S64x128 .f32).view.writes (Elt F) fr
        [⟨Rect.whole (cc1_scratch10 : Ref sig .scVector).ty.shape,
          SparseCore.gatherPayload hg (View.read (Elt F) (shWhole).view (TABS m d c))
            (SparseCore.rows (View.read (Elt F) (Memref.whole cc1_scratch2 : Memref sig .scVector .vmem S64 .i32).view (IDXV m d w st)) hn hin)⟩]
      = ROWSV m d w st :=
  gather_landed_read m (View.whole (cc1_scratch10 : Ref sig .scVector)) fr d c w st hg hn hin

theorem gather_landed_1 (d : Dev nD) (c : Fin τ.nSC) (w : Fin 32) (st : Fin 400) (hg : S3200x128.Gathers 0 S64x128)
    (hn : S64.numel = S64x128.size hg.axis')
    (hin : ∀ x, ((Memref.whole cc1_scratch3 : Memref sig .scVector .vmem S64 .i32).view.read (Elt F) (IDXV m d w st) x).toNat < S3200x128.size hg.axis)
    (fr : (Memref.whole cc1_scratch11 : Memref sig .scVector .vmem S64x128 .f32).view.ty.Contents (Elt F)) :
    (Memref.whole cc1_scratch11 : Memref sig .scVector .vmem S64x128 .f32).view.writes (Elt F) fr
        [⟨Rect.whole (cc1_scratch11 : Ref sig .scVector).ty.shape,
          SparseCore.gatherPayload hg (View.read (Elt F) (shWhole).view (TABS m d c))
            (SparseCore.rows (View.read (Elt F) (Memref.whole cc1_scratch3 : Memref sig .scVector .vmem S64 .i32).view (IDXV m d w st)) hn hin)⟩]
      = ROWSV m d w st :=
  gather_landed_read m (View.whole (cc1_scratch11 : Ref sig .scVector)) fr d c w st hg hn hin

theorem gather_landed_2 (d : Dev nD) (c : Fin τ.nSC) (w : Fin 32) (st : Fin 400) (hg : S3200x128.Gathers 0 S64x128)
    (hn : S64.numel = S64x128.size hg.axis')
    (hin : ∀ x, ((Memref.whole cc1_scratch4 : Memref sig .scVector .vmem S64 .i32).view.read (Elt F) (IDXV m d w st) x).toNat < S3200x128.size hg.axis)
    (fr : (Memref.whole cc1_scratch12 : Memref sig .scVector .vmem S64x128 .f32).view.ty.Contents (Elt F)) :
    (Memref.whole cc1_scratch12 : Memref sig .scVector .vmem S64x128 .f32).view.writes (Elt F) fr
        [⟨Rect.whole (cc1_scratch12 : Ref sig .scVector).ty.shape,
          SparseCore.gatherPayload hg (View.read (Elt F) (shWhole).view (TABS m d c))
            (SparseCore.rows (View.read (Elt F) (Memref.whole cc1_scratch4 : Memref sig .scVector .vmem S64 .i32).view (IDXV m d w st)) hn hin)⟩]
      = ROWSV m d w st :=
  gather_landed_read m (View.whole (cc1_scratch12 : Ref sig .scVector)) fr d c w st hg hn hin

theorem gather_landed_3 (d : Dev nD) (c : Fin τ.nSC) (w : Fin 32) (st : Fin 400) (hg : S3200x128.Gathers 0 S64x128)
    (hn : S64.numel = S64x128.size hg.axis')
    (hin : ∀ x, ((Memref.whole cc1_scratch5 : Memref sig .scVector .vmem S64 .i32).view.read (Elt F) (IDXV m d w st) x).toNat < S3200x128.size hg.axis)
    (fr : (Memref.whole cc1_scratch13 : Memref sig .scVector .vmem S64x128 .f32).view.ty.Contents (Elt F)) :
    (Memref.whole cc1_scratch13 : Memref sig .scVector .vmem S64x128 .f32).view.writes (Elt F) fr
        [⟨Rect.whole (cc1_scratch13 : Ref sig .scVector).ty.shape,
          SparseCore.gatherPayload hg (View.read (Elt F) (shWhole).view (TABS m d c))
            (SparseCore.rows (View.read (Elt F) (Memref.whole cc1_scratch5 : Memref sig .scVector .vmem S64 .i32).view (IDXV m d w st)) hn hin)⟩]
      = ROWSV m d w st :=
  gather_landed_read m (View.whole (cc1_scratch13 : Ref sig .scVector)) fr d c w st hg hn hin

theorem gather_landed_4 (d : Dev nD) (c : Fin τ.nSC) (w : Fin 32) (st : Fin 400) (hg : S3200x128.Gathers 0 S64x128)
    (hn : S64.numel = S64x128.size hg.axis')
    (hin : ∀ x, ((Memref.whole cc1_scratch6 : Memref sig .scVector .vmem S64 .i32).view.read (Elt F) (IDXV m d w st) x).toNat < S3200x128.size hg.axis)
    (fr : (Memref.whole cc1_scratch14 : Memref sig .scVector .vmem S64x128 .f32).view.ty.Contents (Elt F)) :
    (Memref.whole cc1_scratch14 : Memref sig .scVector .vmem S64x128 .f32).view.writes (Elt F) fr
        [⟨Rect.whole (cc1_scratch14 : Ref sig .scVector).ty.shape,
          SparseCore.gatherPayload hg (View.read (Elt F) (shWhole).view (TABS m d c))
            (SparseCore.rows (View.read (Elt F) (Memref.whole cc1_scratch6 : Memref sig .scVector .vmem S64 .i32).view (IDXV m d w st)) hn hin)⟩]
      = ROWSV m d w st :=
  gather_landed_read m (View.whole (cc1_scratch14 : Ref sig .scVector)) fr d c w st hg hn hin

theorem gather_landed_5 (d : Dev nD) (c : Fin τ.nSC) (w : Fin 32) (st : Fin 400) (hg : S3200x128.Gathers 0 S64x128)
    (hn : S64.numel = S64x128.size hg.axis')
    (hin : ∀ x, ((Memref.whole cc1_scratch7 : Memref sig .scVector .vmem S64 .i32).view.read (Elt F) (IDXV m d w st) x).toNat < S3200x128.size hg.axis)
    (fr : (Memref.whole cc1_scratch15 : Memref sig .scVector .vmem S64x128 .f32).view.ty.Contents (Elt F)) :
    (Memref.whole cc1_scratch15 : Memref sig .scVector .vmem S64x128 .f32).view.writes (Elt F) fr
        [⟨Rect.whole (cc1_scratch15 : Ref sig .scVector).ty.shape,
          SparseCore.gatherPayload hg (View.read (Elt F) (shWhole).view (TABS m d c))
            (SparseCore.rows (View.read (Elt F) (Memref.whole cc1_scratch7 : Memref sig .scVector .vmem S64 .i32).view (IDXV m d w st)) hn hin)⟩]
      = ROWSV m d w st :=
  gather_landed_read m (View.whole (cc1_scratch15 : Ref sig .scVector)) fr d c w st hg hn hin

theorem gather_landed_6 (d : Dev nD) (c : Fin τ.nSC) (w : Fin 32) (st : Fin 400) (hg : S3200x128.Gathers 0 S64x128)
    (hn : S64.numel = S64x128.size hg.axis')
    (hin : ∀ x, ((Memref.whole cc1_scratch8 : Memref sig .scVector .vmem S64 .i32).view.read (Elt F) (IDXV m d w st) x).toNat < S3200x128.size hg.axis)
    (fr : (Memref.whole cc1_scratch16 : Memref sig .scVector .vmem S64x128 .f32).view.ty.Contents (Elt F)) :
    (Memref.whole cc1_scratch16 : Memref sig .scVector .vmem S64x128 .f32).view.writes (Elt F) fr
        [⟨Rect.whole (cc1_scratch16 : Ref sig .scVector).ty.shape,
          SparseCore.gatherPayload hg (View.read (Elt F) (shWhole).view (TABS m d c))
            (SparseCore.rows (View.read (Elt F) (Memref.whole cc1_scratch8 : Memref sig .scVector .vmem S64 .i32).view (IDXV m d w st)) hn hin)⟩]
      = ROWSV m d w st :=
  gather_landed_read m (View.whole (cc1_scratch16 : Ref sig .scVector)) fr d c w st hg hn hin

theorem gather_landed_7 (d : Dev nD) (c : Fin τ.nSC) (w : Fin 32) (st : Fin 400) (hg : S3200x128.Gathers 0 S64x128)
    (hn : S64.numel = S64x128.size hg.axis')
    (hin : ∀ x, ((Memref.whole cc1_scratch9 : Memref sig .scVector .vmem S64 .i32).view.read (Elt F) (IDXV m d w st) x).toNat < S3200x128.size hg.axis)
    (fr : (Memref.whole cc1_scratch17 : Memref sig .scVector .vmem S64x128 .f32).view.ty.Contents (Elt F)) :
    (Memref.whole cc1_scratch17 : Memref sig .scVector .vmem S64x128 .f32).view.writes (Elt F) fr
        [⟨Rect.whole (cc1_scratch17 : Ref sig .scVector).ty.shape,
          SparseCore.gatherPayload hg (View.read (Elt F) (shWhole).view (TABS m d c))
            (SparseCore.rows (View.read (Elt F) (Memref.whole cc1_scratch9 : Memref sig .scVector .vmem S64 .i32).view (IDXV m d w st)) hn hin)⟩]
      = ROWSV m d w st :=
  gather_landed_read m (View.whole (cc1_scratch17 : Ref sig .scVector)) fr d c w st hg hn hin

/-! ## What a copy-out lands -/

/-- After the copy of a step's 64 rows into its chunk of the output, the chunk holds the gathered rows. -/
theorem out_landedT (d : Dev nD) (L : grid1.Coords) (k : Fin k1_t1_loop.trips) (r : Fin 8) (fo : Buf (Elt F) (outLoc d))
    (P : S64x128.Idx → F .f32) (hP : P = ROWSV m d (wL L) ⟨k.val * 8 + r.val, chunkT_lt k r⟩) :
    (outLoc d ↦[oChunk (wL L) ⟨k.val * 8 + r.val, chunkT_lt k r⟩]{fullShare}
        ((oSlT L k r).view.writes (Elt F) fo [⟨Rect.whole S64x128, P⟩]) : sProp 𝕄)
      ⊢ outLoc d ↦[oChunk (wL L) ⟨k.val * 8 + r.val, chunkT_lt k r⟩]{fullShare} OUTF m d := by
  subst hP
  refine Entails.of_eq (pointsTo_congr fun i hi => ?_)
  have hi' : i ∈ (oSlT L k r).view.set := by rw [set_oSlT]; exact hi
  obtain ⟨y, -, rfl⟩ := Finset.mem_map.mp hi'
  have e : (oSlT L k r).view.emb y = ((oSlT L k r).view.slice (Rect.whole S64x128)).emb y := by
    show _ = (oSlT L k r).view.emb ((Rect.whole S64x128).emb y)
    rw [Rect.emb_whole_apply]
  rw [View.writes_singleton]
  refine (congrArg _ e).trans ?_
  rw [View.write_emb_of_mem _ _ (Finset.mem_univ y)]
  show _ = OUTF m d ((oSlT L k r).view.emb y)
  rw [emb_oSlT]
  rfl

theorem out_landedE (d : Dev nD) (L : grid1.Coords) (r : Fin 8) (fo : Buf (Elt F) (outLoc d))
    (P : S64x128.Idx → F .f32) (hP : P = ROWSV m d (wL L) ⟨392 + r.val, chunkE_lt r⟩) :
    (outLoc d ↦[oChunk (wL L) ⟨392 + r.val, chunkE_lt r⟩]{fullShare}
        ((oSlE L r).view.writes (Elt F) fo [⟨Rect.whole S64x128, P⟩]) : sProp 𝕄)
      ⊢ outLoc d ↦[oChunk (wL L) ⟨392 + r.val, chunkE_lt r⟩]{fullShare} OUTF m d := by
  subst hP
  refine Entails.of_eq (pointsTo_congr fun i hi => ?_)
  have hi' : i ∈ (oSlE L r).view.set := by rw [set_oSlE]; exact hi
  obtain ⟨y, -, rfl⟩ := Finset.mem_map.mp hi'
  have e : (oSlE L r).view.emb y = ((oSlE L r).view.slice (Rect.whole S64x128)).emb y := by
    show _ = (oSlE L r).view.emb ((Rect.whole S64x128).emb y)
    rw [Rect.emb_whole_apply]
  rw [View.writes_singleton]
  refine (congrArg _ e).trans ?_
  rw [View.write_emb_of_mem _ _ (Finset.mem_univ y)]
  show _ = OUTF m d ((oSlE L r).view.emb y)
  rw [emb_oSlE]
  rfl

/-- With the payload spelt as the row buffer's contents read through the buffer held whole. -/
example (d : Dev nD) (L : grid1.Coords) (k : Fin k1_t1_loop.trips) (r : Fin 8) (fo : Buf (Elt F) (outLoc d)) :
    (outLoc d ↦[oChunk (wL L) ⟨k.val * 8 + r.val, chunkT_lt k r⟩]{fullShare}
        ((oSlT L k r).view.writes (Elt F) fo [⟨Rect.whole S64x128, ReadAs.same.apply (View.read (Elt F)
          (Memref.whole cc1_scratch10 : Memref sig .scVector .vmem S64x128 .f32).view (ROWSV m d (wL L) ⟨k.val * 8 + r.val, chunkT_lt k r⟩))⟩]) : sProp 𝕄)
      ⊢ outLoc d ↦[oChunk (wL L) ⟨k.val * 8 + r.val, chunkT_lt k r⟩]{fullShare} OUTF m d :=
  out_landedT m d L k r fo _ rfl

end Cert.Proof.KI

end
-- ==== Proof.InvKI.lean ====
/-
  The loop invariant of a task's body, and the small facts it is stated over.

  A task works through 400 steps of 64 positions in eight slots. A step's index list holds, for lane r, the fused row
  (n mod 200)·16 + x[n] of its position n; its gather brings those 64 rows of the shared table into the slot's row buffer;
  its copy-out writes them to the task's output rows. At the head of step group k (k = 0 … 49) every slot b has the gather of
  step 8k + b in flight — the index list, the row buffer and the slot's read token of the table travel with it — no copy-out
  is in flight, and the output rows of the steps below 8k hold the gathered rows while the others are as launched.
-/
import proofs.«206439_g51874615001410_cont_9to1_m_433_33_alg».proof.Proof.TileResKI
import proofs.«206439_g51874615001410_cont_9to1_m_433_33_alg».proof.Proof.IdxChunk
import proofs.«206439_g51874615001410_cont_9to1_m_433_33_alg».proof.Proof.GeomKI
import proofs.«206439_g51874615001410_cont_9to1_m_433_33_alg».proof.Proof.BarrierKI
import proofs.«206439_g51874615001410_cont_9to1_m_433_33_alg».proof.Proof.BookKI
import proofs.«206439_g51874615001410_cont_9to1_m_433_33_alg».proof.Proof.ValsKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) [FloatOps F] [hK : Cert.KernelIdeal.Facts]

section Tile

variable (d : Dev nD) (L : grid1.Coords)

abbrev cV (L : grid1.Coords) : Fin τ.nSC := (L 0).castLE hcore1
abbrev jV (L : grid1.Coords) : Fin τ.nSub := (L 1).castLE hsub1

/-- The task's ids, its rows of the table in HBM and in the shared scratch: held on the slices' own index sets, they are the pieces the launch handed over. -/
theorem pts_xSl (f : Buf (Elt F) (xfLoc d)) :
    ((xSl L).view.loc (V d (cV L) (jV L)) ↦[(xSl L).view.set]{fullShare} f : sProp 𝕄) = xfLoc d ↦[xPiece (wL L)]{fullShare} f := by
  rw [set_xSl]
theorem pts_tSl (q : PosShare TreeShare) (f : Buf (Elt F) (tabLoc d)) :
    ((tSl L).view.loc (V d (cV L) (jV L)) ↦[(tSl L).view.set]{q} f : sProp 𝕄) = tabLoc d ↦[tPiece (jL L)]{q} f := by
  rw [set_tSl]
theorem pts_shSl (q : PosShare TreeShare) (f : Buf (Elt F) (shLoc d (cV L))) :
    ((shSl L).view.loc (V d (cV L) (jV L)) ↦[(shSl L).view.set]{q} f : sProp 𝕄) = shLoc d (cV L) ↦[tPiece (jL L)]{q} f := by
  rw [set_shSl]; rfl

/-- An output chunk of a loop trip, and of the last step group, held on the slice's own index set, is the chunk of the task's rows. -/
theorem pts_oSlT (k : Fin k1_t1_loop.trips) (r : Fin 8) (f : Buf (Elt F) (outLoc d)) :
    ((oSlT L k r).view.loc (V d (cV L) (jV L)) ↦[(oSlT L k r).view.set]{fullShare} f : sProp 𝕄)
      = outLoc d ↦[oChunk (wL L) ⟨k.val * 8 + r.val, chunkT_lt k r⟩]{fullShare} f := by
  rw [set_oSlT]
theorem pts_oSlE (r : Fin 8) (f : Buf (Elt F) (outLoc d)) :
    ((oSlE L r).view.loc (V d (cV L) (jV L)) ↦[(oSlE L r).view.set]{fullShare} f : sProp 𝕄)
      = outLoc d ↦[oChunk (wL L) ⟨392 + r.val, chunkE_lt r⟩]{fullShare} f := by
  rw [set_oSlE]

/-- The task's first position as a word, and the lane numbers: what the body computes before its loop and passes into it. -/
abbrev vBase (L : grid1.Coords) : BitVec 32 := Scalar.muli (Scalar.addi (Scalar.muli (BitVec.ofNat 32 (L 1).val) 2#32) (BitVec.ofNat 32 (L 0).val)) 25600#32
abbrev vIota : IVec S16 32 := iota .scVector S16 32 [0] iota_S16_d0_w32_scVector

/-- The step number as an index below 400 (the steps a task runs are 0 … 399). -/
def stF (n : Nat) : Fin 400 := ⟨n % 400, Nat.mod_lt _ (by decide)⟩
theorem stF_val (n : Nat) (h : n < 400) : (stF n).val = n := Nat.mod_eq_of_lt h
theorem stF_eq (n : Nat) (h : n < 400) : stF n = ⟨n, h⟩ := Fin.ext (stF_val n h)

/-- At the head of step group `k`: the ids in their scratch; for every slot b the gather of step 8k + b in flight (its
    index list, its row buffer and its read token of the table travel with it); no copy-out in flight; the output rows of
    the steps below 8k written, the others as launched. -/
def inv (d : Dev nD) (L : grid1.Coords) (O : CellTallies nD τ sig (HIx 1)) (W : Waits sig (HIx 1)) (k : Nat) (_ : PUnit) : sProp 𝕄 :=
  iprop(Transfers.MayWaits (V d (cV L) (jV L)) (none : HIx 1) O
    ∗ ((Memref.whole cc1_scratch0 : Memref sig .scVector .vmem S25600 .i32).view.loc (V d (cV L) (jV L)) ↦{fullShare} XVf m d (wL L))
    ∗ (∃ fr : Buf (Elt F) ((Memref.whole cc1_scratch10 : Memref sig .scVector .vmem S64x128 .f32).view.loc (V d (cV L) (jV L))), (Transfers.Flight countersEmb (V d (cV L) (jV L)) (SemLoc.dma cc1_scratch18.sem) (default : HIx 1) 262144
      iprop((((Memref.whole cc1_scratch10 : Memref sig .scVector .vmem S64x128 .f32).view.loc (V d (cV L) (jV L)) ↦{fullShare}
            (Memref.whole cc1_scratch10 : Memref sig .scVector .vmem S64x128 .f32).view.writes (Elt F) fr [⟨Rect.whole (cc1_scratch10 : Ref sig .scVector).ty.shape, (SparseCore.gatherPayload gathers_S3200x128_S64x128 (View.read (Elt F) (shW).view (TABS m d (cV L))) (SparseCore.rows (View.read (Elt F) (Memref.whole cc1_scratch2 : Memref sig .scVector .vmem S64 .i32).view (IDXV m d (wL L) (stF (k * 8 + 0)))) (by decide) (idxv_in_2 m d (wL L) (stF (k * 8 + 0)))))⟩])
          ∗ ((Memref.whole cc1_scratch2 : Memref sig .scVector .vmem S64 .i32).view.loc (V d (cV L) (jV L)) ↦{fullShare} IDXV m d (wL L) (stF (k * 8 + 0))))
        ∗ ((shW).view.loc (V d (cV L) (jV L)) ↦[(shW).view.set]{Transfers.shareTokN (Transfers.shareTok fullShare 16 (Fin.cast nSub_eq (jV L))) 3} TABS m d (cV L)))) ∗ ((shW).view.loc (V d (cV L) (jV L)) ↦[(shW).view.set \ (shW).view.set]{Transfers.shareTokN (Transfers.shareTok fullShare 16 (Fin.cast nSub_eq (jV L))) 3} TABS m d (cV L)))
    ∗ (∃ fr : Buf (Elt F) ((Memref.whole cc1_scratch11 : Memref sig .scVector .vmem S64x128 .f32).view.loc (V d (cV L) (jV L))), (Transfers.Flight countersEmb (V d (cV L) (jV L)) (SemLoc.dma cc1_scratch19.sem) (default : HIx 1) 262144
      iprop((((Memref.whole cc1_scratch11 : Memref sig .scVector .vmem S64x128 .f32).view.loc (V d (cV L) (jV L)) ↦{fullShare}
            (Memref.whole cc1_scratch11 : Memref sig .scVector .vmem S64x128 .f32).view.writes (Elt F) fr [⟨Rect.whole (cc1_scratch11 : Ref sig .scVector).ty.shape, (SparseCore.gatherPayload gathers_S3200x128_S64x128 (View.read (Elt F) (shW).view (TABS m d (cV L))) (SparseCore.rows (View.read (Elt F) (Memref.whole cc1_scratch3 : Memref sig .scVector .vmem S64 .i32).view (IDXV m d (wL L) (stF (k * 8 + 1)))) (by decide) (idxv_in_3 m d (wL L) (stF (k * 8 + 1)))))⟩])
          ∗ ((Memref.whole cc1_scratch3 : Memref sig .scVector .vmem S64 .i32).view.loc (V d (cV L) (jV L)) ↦{fullShare} IDXV m d (wL L) (stF (k * 8 + 1))))
        ∗ ((shW).view.loc (V d (cV L) (jV L)) ↦[(shW).view.set]{Transfers.shareTokN (Transfers.shareTok fullShare 16 (Fin.cast nSub_eq (jV L))) 4} TABS m d (cV L)))) ∗ ((shW).view.loc (V d (cV L) (jV L)) ↦[(shW).view.set \ (shW).view.set]{Transfers.shareTokN (Transfers.shareTok fullShare 16 (Fin.cast nSub_eq (jV L))) 4} TABS m d (cV L)))
    ∗ (∃ fr : Buf (Elt F) ((Memref.whole cc1_scratch12 : Memref sig .scVector .vmem S64x128 .f32).view.loc (V d (cV L) (jV L))), (Transfers.Flight countersEmb (V d (cV L) (jV L)) (SemLoc.dma cc1_scratch20.sem) (default : HIx 1) 262144
      iprop((((Memref.whole cc1_scratch12 : Memref sig .scVector .vmem S64x128 .f32).view.loc (V d (cV L) (jV L)) ↦{fullShare}
            (Memref.whole cc1_scratch12 : Memref sig .scVector .vmem S64x128 .f32).view.writes (Elt F) fr [⟨Rect.whole (cc1_scratch12 : Ref sig .scVector).ty.shape, (SparseCore.gatherPayload gathers_S3200x128_S64x128 (View.read (Elt F) (shW).view (TABS m d (cV L))) (SparseCore.rows (View.read (Elt F) (Memref.whole cc1_scratch4 : Memref sig .scVector .vmem S64 .i32).view (IDXV m d (wL L) (stF (k * 8 + 2)))) (by decide) (idxv_in_4 m d (wL L) (stF (k * 8 + 2)))))⟩])
          ∗ ((Memref.whole cc1_scratch4 : Memref sig .scVector .vmem S64 .i32).view.loc (V d (cV L) (jV L)) ↦{fullShare} IDXV m d (wL L) (stF (k * 8 + 2))))
        ∗ ((shW).view.loc (V d (cV L) (jV L)) ↦[(shW).view.set]{Transfers.shareTokN (Transfers.shareTok fullShare 16 (Fin.cast nSub_eq (jV L))) 5} TABS m d (cV L)))) ∗ ((shW).view.loc (V d (cV L) (jV L)) ↦[(shW).view.set \ (shW).view.set]{Transfers.shareTokN (Transfers.shareTok fullShare 16 (Fin.cast nSub_eq (jV L))) 5} TABS m d (cV L)))
    ∗ (∃ fr : Buf (Elt F) ((Memref.whole cc1_scratch13 : Memref sig .scVector .vmem S64x128 .f32).view.loc (V d (cV L) (jV L))), (Transfers.Flight countersEmb (V d (cV L) (jV L)) (SemLoc.dma cc1_scratch21.sem) (default : HIx 1) 262144
      iprop((((Memref.whole cc1_scratch13 : Memref sig .scVector .vmem S64x128 .f32).view.loc (V d (cV L) (jV L)) ↦{fullShare}
            (Memref.whole cc1_scratch13 : Memref sig .scVector .vmem S64x128 .f32).view.writes (Elt F) fr [⟨Rect.whole (cc1_scratch13 : Ref sig .scVector).ty.shape, (SparseCore.gatherPayload gathers_S3200x128_S64x128 (View.read (Elt F) (shW).view (TABS m d (cV L))) (SparseCore.rows (View.read (Elt F) (Memref.whole cc1_scratch5 : Memref sig .scVector .vmem S64 .i32).view (IDXV m d (wL L) (stF (k * 8 + 3)))) (by decide) (idxv_in_5 m d (wL L) (stF (k * 8 + 3)))))⟩])
          ∗ ((Memref.whole cc1_scratch5 : Memref sig .scVector .vmem S64 .i32).view.loc (V d (cV L) (jV L)) ↦{fullShare} IDXV m d (wL L) (stF (k * 8 + 3))))
        ∗ ((shW).view.loc (V d (cV L) (jV L)) ↦[(shW).view.set]{Transfers.shareTokN (Transfers.shareTok fullShare 16 (Fin.cast nSub_eq (jV L))) 6} TABS m d (cV L)))) ∗ ((shW).view.loc (V d (cV L) (jV L)) ↦[(shW).view.set \ (shW).view.set]{Transfers.shareTokN (Transfers.shareTok fullShare 16 (Fin.cast nSub_eq (jV L))) 6} TABS m d (cV L)))
    ∗ (∃ fr : Buf (Elt F) ((Memref.whole cc1_scratch14 : Memref sig .scVector .vmem S64x128 .f32).view.loc (V d (cV L) (jV L))), (Transfers.Flight countersEmb (V d (cV L) (jV L)) (SemLoc.dma cc1_scratch22.sem) (default : HIx 1) 262144
      iprop((((Memref.whole cc1_scratch14 : Memref sig .scVector .vmem S64x128 .f32).view.loc (V d (cV L) (jV L)) ↦{fullShare}
            (Memref.whole cc1_scratch14 : Memref sig .scVector .vmem S64x128 .f32).view.writes (Elt F) fr [⟨Rect.whole (cc1_scratch14 : Ref sig .scVector).ty.shape, (SparseCore.gatherPayload gathers_S3200x128_S64x128 (View.read (Elt F) (shW).view (TABS m d (cV L))) (SparseCore.rows (View.read (Elt F) (Memref.whole cc1_scratch6 : Memref sig .scVector .vmem S64 .i32).view (IDXV m d (wL L) (stF (k * 8 + 4)))) (by decide) (idxv_in_6 m d (wL L) (stF (k * 8 + 4)))))⟩])
          ∗ ((Memref.whole cc1_scratch6 : Memref sig .scVector .vmem S64 .i32).view.loc (V d (cV L) (jV L)) ↦{fullShare} IDXV m d (wL L) (stF (k * 8 + 4))))
        ∗ ((shW).view.loc (V d (cV L) (jV L)) ↦[(shW).view.set]{Transfers.shareTokN (Transfers.shareTok fullShare 16 (Fin.cast nSub_eq (jV L))) 7} TABS m d (cV L)))) ∗ ((shW).view.loc (V d (cV L) (jV L)) ↦[(shW).view.set \ (shW).view.set]{Transfers.shareTokN (Transfers.shareTok fullShare 16 (Fin.cast nSub_eq (jV L))) 7} TABS m d (cV L)))
    ∗ (∃ fr : Buf (Elt F) ((Memref.whole cc1_scratch15 : Memref sig .scVector .vmem S64x128 .f32).view.loc (V d (cV L) (jV L))), (Transfers.Flight countersEmb (V d (cV L) (jV L)) (SemLoc.dma cc1_scratch23.sem) (default : HIx 1) 262144
      iprop((((Memref.whole cc1_scratch15 : Memref sig .scVector .vmem S64x128 .f32).view.loc (V d (cV L) (jV L)) ↦{fullShare}
            (Memref.whole cc1_scratch15 : Memref sig .scVector .vmem S64x128 .f32).view.writes (Elt F) fr [⟨Rect.whole (cc1_scratch15 : Ref sig .scVector).ty.shape, (SparseCore.gatherPayload gathers_S3200x128_S64x128 (View.read (Elt F) (shW).view (TABS m d (cV L))) (SparseCore.rows (View.read (Elt F) (Memref.whole cc1_scratch7 : Memref sig .scVector .vmem S64 .i32).view (IDXV m d (wL L) (stF (k * 8 + 5)))) (by decide) (idxv_in_7 m d (wL L) (stF (k * 8 + 5)))))⟩])
          ∗ ((Memref.whole cc1_scratch7 : Memref sig .scVector .vmem S64 .i32).view.loc (V d (cV L) (jV L)) ↦{fullShare} IDXV m d (wL L) (stF (k * 8 + 5))))
        ∗ ((shW).view.loc (V d (cV L) (jV L)) ↦[(shW).view.set]{Transfers.shareTokN (Transfers.shareTok fullShare 16 (Fin.cast nSub_eq (jV L))) 8} TABS m d (cV L)))) ∗ ((shW).view.loc (V d (cV L) (jV L)) ↦[(shW).view.set \ (shW).view.set]{Transfers.shareTokN (Transfers.shareTok fullShare 16 (Fin.cast nSub_eq (jV L))) 8} TABS m d (cV L)))
    ∗ (∃ fr : Buf (Elt F) ((Memref.whole cc1_scratch16 : Memref sig .scVector .vmem S64x128 .f32).view.loc (V d (cV L) (jV L))), (Transfers.Flight countersEmb (V d (cV L) (jV L)) (SemLoc.dma cc1_scratch24.sem) (default : HIx 1) 262144
      iprop((((Memref.whole cc1_scratch16 : Memref sig .scVector .vmem S64x128 .f32).view.loc (V d (cV L) (jV L)) ↦{fullShare}
            (Memref.whole cc1_scratch16 : Memref sig .scVector .vmem S64x128 .f32).view.writes (Elt F) fr [⟨Rect.whole (cc1_scratch16 : Ref sig .scVector).ty.shape, (SparseCore.gatherPayload gathers_S3200x128_S64x128 (View.read (Elt F) (shW).view (TABS m d (cV L))) (SparseCore.rows (View.read (Elt F) (Memref.whole cc1_scratch8 : Memref sig .scVector .vmem S64 .i32).view (IDXV m d (wL L) (stF (k * 8 + 6)))) (by decide) (idxv_in_8 m d (wL L) (stF (k * 8 + 6)))))⟩])
          ∗ ((Memref.whole cc1_scratch8 : Memref sig .scVector .vmem S64 .i32).view.loc (V d (cV L) (jV L)) ↦{fullShare} IDXV m d (wL L) (stF (k * 8 + 6))))
        ∗ ((shW).view.loc (V d (cV L) (jV L)) ↦[(shW).view.set]{Transfers.shareTokN (Transfers.shareTok fullShare 16 (Fin.cast nSub_eq (jV L))) 9} TABS m d (cV L)))) ∗ ((shW).view.loc (V d (cV L) (jV L)) ↦[(shW).view.set \ (shW).view.set]{Transfers.shareTokN (Transfers.shareTok fullShare 16 (Fin.cast nSub_eq (jV L))) 9} TABS m d (cV L)))
    ∗ (∃ fr : Buf (Elt F) ((Memref.whole cc1_scratch17 : Memref sig .scVector .vmem S64x128 .f32).view.loc (V d (cV L) (jV L))), (Transfers.Flight countersEmb (V d (cV L) (jV L)) (SemLoc.dma cc1_scratch25.sem) (default : HIx 1) 262144
      iprop((((Memref.whole cc1_scratch17 : Memref sig .scVector .vmem S64x128 .f32).view.loc (V d (cV L) (jV L)) ↦{fullShare}
            (Memref.whole cc1_scratch17 : Memref sig .scVector .vmem S64x128 .f32).view.writes (Elt F) fr [⟨Rect.whole (cc1_scratch17 : Ref sig .scVector).ty.shape, (SparseCore.gatherPayload gathers_S3200x128_S64x128 (View.read (Elt F) (shW).view (TABS m d (cV L))) (SparseCore.rows (View.read (Elt F) (Memref.whole cc1_scratch9 : Memref sig .scVector .vmem S64 .i32).view (IDXV m d (wL L) (stF (k * 8 + 7)))) (by decide) (idxv_in_9 m d (wL L) (stF (k * 8 + 7)))))⟩])
          ∗ ((Memref.whole cc1_scratch9 : Memref sig .scVector .vmem S64 .i32).view.loc (V d (cV L) (jV L)) ↦{fullShare} IDXV m d (wL L) (stF (k * 8 + 7))))
        ∗ ((shW).view.loc (V d (cV L) (jV L)) ↦[(shW).view.set]{Transfers.shareTokN (Transfers.shareTok fullShare 16 (Fin.cast nSub_eq (jV L))) 10} TABS m d (cV L)))) ∗ ((shW).view.loc (V d (cV L) (jV L)) ↦[(shW).view.set \ (shW).view.set]{Transfers.shareTokN (Transfers.shareTok fullShare 16 (Fin.cast nSub_eq (jV L))) 10} TABS m d (cV L)))
    ∗ semVal ((V d (cV L) (jV L) : Thread nD τ), SemLoc.dma cc1_scratch26.sem) 0
    ∗ semVal ((V d (cV L) (jV L) : Thread nD τ), SemLoc.dma cc1_scratch27.sem) 0
    ∗ semVal ((V d (cV L) (jV L) : Thread nD τ), SemLoc.dma cc1_scratch28.sem) 0
    ∗ semVal ((V d (cV L) (jV L) : Thread nD τ), SemLoc.dma cc1_scratch29.sem) 0
    ∗ semVal ((V d (cV L) (jV L) : Thread nD τ), SemLoc.dma cc1_scratch30.sem) 0
    ∗ semVal ((V d (cV L) (jV L) : Thread nD τ), SemLoc.dma cc1_scratch31.sem) 0
    ∗ semVal ((V d (cV L) (jV L) : Thread nD τ), SemLoc.dma cc1_scratch32.sem) 0
    ∗ semVal ((V d (cV L) (jV L) : Thread nD τ), SemLoc.dma cc1_scratch33.sem) 0
    ∗ (outLoc d ↦[outDone (wL L) k]{fullShare} OUTF m d)
    ∗ (outLoc d ↦[outTodo (wL L) k]{fullShare} m (outLoc d))
    ∗ ∃ W', ⌜∀ p ∈ W', p ∈ W ∨ p.2 = none ∨ p.2 = some (0 : Fin 1)⌝ ∗ owes (V d (cV L) (jV L)) O W')

end Tile

end Cert.Proof.KI

end
-- ==== Proof.TripKI.lean ====
/-
  One step group of a task's loop.

  For each slot the gather of step 8k + b is waited for and its 64 rows are sent to the output; then, slot by slot, the
  copy-out is waited for, the index list is refilled for step 8(k+1) + b — lane r of chunk q gets
  ((s·64 + q + r) mod 200)·16 + x[base + s·64 + q + r], which is the fused row of that position because the base is a
  multiple of 200 — and the gather is started again. The words the body computes (the chunk's first position, the load's
  offset) are decided over the 49 values of k. What lands in an output chunk is the gathered rows of its step, i.e. the
  rows of the final array; the group's eight chunks move from the rows still to write to the rows written.
-/
import proofs.«206439_g51874615001410_cont_9to1_m_433_33_alg».proof.Proof.InvKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) [FloatOps F] [hK : Cert.KernelIdeal.Facts]

section Tile

variable (d : Dev nD) (L : grid1.Coords)

set_option maxHeartbeats 4000000 in
/-- One step group: the eight gathers land and their rows go out, then each slot's copy-out is waited for, its index
    list refilled for the step eight further on and its gather started again. -/
theorem trip (O : CellTallies nD τ sig (HIx 1)) (W : Waits sig (HIx 1)) (hxf : ∀ n, ((XF m d) n).toNat ≤ 14)
    (k : Fin k1_t1_loop.trips) (u : Unit) :
    inv m d L O W k.val u ⊢
      wp frame (wpE (defs₀ (F := F)) 𝒱₀ (V d (cV L) (jV L)) none) Set.univ
        (k1_t1_body L (Memref.whole main_v3_scv) (Memref.isWhole_whole _) (Memref.whole main_v2_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scratch34 cc1_scoped0 (vBase L) vIota 496#32 k u)
        (inv m d L O W (k.val + 1)) := by
  have hk49 : k.val < 49 := trips_le k
  unfold k1_t1_body
  unfold inv
  iintro ⟨#Hmw, Hs0, ⟨%fr0, Hg0, Hk0⟩, ⟨%fr1, Hg1, Hk1⟩, ⟨%fr2, Hg2, Hk2⟩, ⟨%fr3, Hg3, Hk3⟩, ⟨%fr4, Hg4, Hk4⟩, ⟨%fr5, Hg5, Hk5⟩, ⟨%fr6, Hg6, Hk6⟩, ⟨%fr7, Hg7, Hk7⟩, Hq0, Hq1, Hq2, Hq3, Hq4, Hq5, Hq6, Hq7, Hdone, Htodo, %W', %hW', HO⟩
  ihave Hch := ((out_take (F := F) d (wL L) k.val (by omega) _).1) $$ Htodo
  icases Hch with ⟨Hc0, Hc1, Hc2, Hc3, Hc4, Hc5, Hc6, Hc7, Htodo⟩
  ihave Hc0' : ((oSlT L k 0).view.loc (V d (cV L) (jV L)) ↦[(oSlT L k 0).view.set]{fullShare} m (outLoc d)) $$ [Hc0]
  · iclear Hmw
    istop
    exact Entails.of_eq (pts_oSlT (F := F) d L k 0 _).symm
  ihave Hc1' : ((oSlT L k 1).view.loc (V d (cV L) (jV L)) ↦[(oSlT L k 1).view.set]{fullShare} m (outLoc d)) $$ [Hc1]
  · iclear Hmw
    istop
    exact Entails.of_eq (pts_oSlT (F := F) d L k 1 _).symm
  ihave Hc2' : ((oSlT L k 2).view.loc (V d (cV L) (jV L)) ↦[(oSlT L k 2).view.set]{fullShare} m (outLoc d)) $$ [Hc2]
  · iclear Hmw
    istop
    exact Entails.of_eq (pts_oSlT (F := F) d L k 2 _).symm
  ihave Hc3' : ((oSlT L k 3).view.loc (V d (cV L) (jV L)) ↦[(oSlT L k 3).view.set]{fullShare} m (outLoc d)) $$ [Hc3]
  · iclear Hmw
    istop
    exact Entails.of_eq (pts_oSlT (F := F) d L k 3 _).symm
  ihave Hc4' : ((oSlT L k 4).view.loc (V d (cV L) (jV L)) ↦[(oSlT L k 4).view.set]{fullShare} m (outLoc d)) $$ [Hc4]
  · iclear Hmw
    istop
    exact Entails.of_eq (pts_oSlT (F := F) d L k 4 _).symm
  ihave Hc5' : ((oSlT L k 5).view.loc (V d (cV L) (jV L)) ↦[(oSlT L k 5).view.set]{fullShare} m (outLoc d)) $$ [Hc5]
  · iclear Hmw
    istop
    exact Entails.of_eq (pts_oSlT (F := F) d L k 5 _).symm
  ihave Hc6' : ((oSlT L k 6).view.loc (V d (cV L) (jV L)) ↦[(oSlT L k 6).view.set]{fullShare} m (outLoc d)) $$ [Hc6]
  · iclear Hmw
    istop
    exact Entails.of_eq (pts_oSlT (F := F) d L k 6 _).symm
  ihave Hc7' : ((oSlT L k 7).view.loc (V d (cV L) (jV L)) ↦[(oSlT L k 7).view.set]{fullShare} m (outLoc d)) $$ [Hc7]
  · iclear Hmw
    istop
    exact Entails.of_eq (pts_oSlT (F := F) d L k 7 _).symm
  sl_exec
  ihave Hi0n : ((Memref.whole cc1_scratch2 : Memref sig .scVector .vmem S64 .i32).view.loc (V d (cV L) (jV L)) ↦{fullShare} IDXV m d (wL L) (stF ((k.val + 1) * 8 + 0))) $$ [Hg0_dst_and]
  · iclear Hmw
    istop
    exact Entails.of_eq (congrArg (fun f => ((Memref.whole cc1_scratch2 : Memref sig .scVector .vmem S64 .i32).view.loc (V d (cV L) (jV L)) ↦{fullShare} f : sProp 𝕄))
      (idx_writes_2 _ _ _ _ _ _ _ _ (IDXV m d (wL L) (stF ((k.val + 1) * 8 + 0)))
        (fun j => by
        first
          | exact chunk_idxv m d (wL L) (stF ((k.val + 1) * 8 + 0)) 0 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 0)) 0 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 0)) 0 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 0)) 0 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 0)) 16 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 0)) 16 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 0)) 16 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 0)) 16 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 0)) 32 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 0)) 32 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 0)) 32 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 0)) 32 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 0)) 48 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 0)) 48 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 0)) 48 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 0)) 48 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j) _))
  have hin0 : ∀ x, ((Memref.whole cc1_scratch2 : Memref sig .scVector .vmem S64 .i32).view.read (Elt F) (IDXV m d (wL L) (stF ((k.val + 1) * 8 + 0))) x).toNat < 3200 := idxv_in_2 m d (wL L) (stF ((k.val + 1) * 8 + 0))
  sl_exec
  ihave Hi1n : ((Memref.whole cc1_scratch3 : Memref sig .scVector .vmem S64 .i32).view.loc (V d (cV L) (jV L)) ↦{fullShare} IDXV m d (wL L) (stF ((k.val + 1) * 8 + 1))) $$ [Hg1_dst_and]
  · iclear Hmw
    istop
    exact Entails.of_eq (congrArg (fun f => ((Memref.whole cc1_scratch3 : Memref sig .scVector .vmem S64 .i32).view.loc (V d (cV L) (jV L)) ↦{fullShare} f : sProp 𝕄))
      (idx_writes_3 _ _ _ _ _ _ _ _ (IDXV m d (wL L) (stF ((k.val + 1) * 8 + 1)))
        (fun j => by
        first
          | exact chunk_idxv m d (wL L) (stF ((k.val + 1) * 8 + 1)) 0 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 1)) 0 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 1)) 0 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 1)) 0 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 1)) 16 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 1)) 16 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 1)) 16 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 1)) 16 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 1)) 32 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 1)) 32 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 1)) 32 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 1)) 32 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 1)) 48 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 1)) 48 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 1)) 48 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 1)) 48 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j) _))
  have hin1 : ∀ x, ((Memref.whole cc1_scratch3 : Memref sig .scVector .vmem S64 .i32).view.read (Elt F) (IDXV m d (wL L) (stF ((k.val + 1) * 8 + 1))) x).toNat < 3200 := idxv_in_3 m d (wL L) (stF ((k.val + 1) * 8 + 1))
  sl_exec
  ihave Hi2n : ((Memref.whole cc1_scratch4 : Memref sig .scVector .vmem S64 .i32).view.loc (V d (cV L) (jV L)) ↦{fullShare} IDXV m d (wL L) (stF ((k.val + 1) * 8 + 2))) $$ [Hg2_dst_and]
  · iclear Hmw
    istop
    exact Entails.of_eq (congrArg (fun f => ((Memref.whole cc1_scratch4 : Memref sig .scVector .vmem S64 .i32).view.loc (V d (cV L) (jV L)) ↦{fullShare} f : sProp 𝕄))
      (idx_writes_4 _ _ _ _ _ _ _ _ (IDXV m d (wL L) (stF ((k.val + 1) * 8 + 2)))
        (fun j => by
        first
          | exact chunk_idxv m d (wL L) (stF ((k.val + 1) * 8 + 2)) 0 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 2)) 0 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 2)) 0 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 2)) 0 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 2)) 16 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 2)) 16 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 2)) 16 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 2)) 16 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 2)) 32 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 2)) 32 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 2)) 32 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 2)) 32 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 2)) 48 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 2)) 48 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 2)) 48 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 2)) 48 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j) _))
  have hin2 : ∀ x, ((Memref.whole cc1_scratch4 : Memref sig .scVector .vmem S64 .i32).view.read (Elt F) (IDXV m d (wL L) (stF ((k.val + 1) * 8 + 2))) x).toNat < 3200 := idxv_in_4 m d (wL L) (stF ((k.val + 1) * 8 + 2))
  sl_exec
  ihave Hi3n : ((Memref.whole cc1_scratch5 : Memref sig .scVector .vmem S64 .i32).view.loc (V d (cV L) (jV L)) ↦{fullShare} IDXV m d (wL L) (stF ((k.val + 1) * 8 + 3))) $$ [Hg3_dst_and]
  · iclear Hmw
    istop
    exact Entails.of_eq (congrArg (fun f => ((Memref.whole cc1_scratch5 : Memref sig .scVector .vmem S64 .i32).view.loc (V d (cV L) (jV L)) ↦{fullShare} f : sProp 𝕄))
      (idx_writes_5 _ _ _ _ _ _ _ _ (IDXV m d (wL L) (stF ((k.val + 1) * 8 + 3)))
        (fun j => by
        first
          | exact chunk_idxv m d (wL L) (stF ((k.val + 1) * 8 + 3)) 0 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 3)) 0 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 3)) 0 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 3)) 0 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 3)) 16 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 3)) 16 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 3)) 16 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 3)) 16 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 3)) 32 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 3)) 32 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 3)) 32 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 3)) 32 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 3)) 48 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 3)) 48 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 3)) 48 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 3)) 48 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j) _))
  have hin3 : ∀ x, ((Memref.whole cc1_scratch5 : Memref sig .scVector .vmem S64 .i32).view.read (Elt F) (IDXV m d (wL L) (stF ((k.val + 1) * 8 + 3))) x).toNat < 3200 := idxv_in_5 m d (wL L) (stF ((k.val + 1) * 8 + 3))
  sl_exec
  ihave Hi4n : ((Memref.whole cc1_scratch6 : Memref sig .scVector .vmem S64 .i32).view.loc (V d (cV L) (jV L)) ↦{fullShare} IDXV m d (wL L) (stF ((k.val + 1) * 8 + 4))) $$ [Hg4_dst_and]
  · iclear Hmw
    istop
    exact Entails.of_eq (congrArg (fun f => ((Memref.whole cc1_scratch6 : Memref sig .scVector .vmem S64 .i32).view.loc (V d (cV L) (jV L)) ↦{fullShare} f : sProp 𝕄))
      (idx_writes_6 _ _ _ _ _ _ _ _ (IDXV m d (wL L) (stF ((k.val + 1) * 8 + 4)))
        (fun j => by
        first
          | exact chunk_idxv m d (wL L) (stF ((k.val + 1) * 8 + 4)) 0 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 4)) 0 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 4)) 0 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 4)) 0 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 4)) 16 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 4)) 16 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 4)) 16 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 4)) 16 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 4)) 32 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 4)) 32 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 4)) 32 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 4)) 32 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 4)) 48 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 4)) 48 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 4)) 48 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 4)) 48 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j) _))
  have hin4 : ∀ x, ((Memref.whole cc1_scratch6 : Memref sig .scVector .vmem S64 .i32).view.read (Elt F) (IDXV m d (wL L) (stF ((k.val + 1) * 8 + 4))) x).toNat < 3200 := idxv_in_6 m d (wL L) (stF ((k.val + 1) * 8 + 4))
  sl_exec
  ihave Hi5n : ((Memref.whole cc1_scratch7 : Memref sig .scVector .vmem S64 .i32).view.loc (V d (cV L) (jV L)) ↦{fullShare} IDXV m d (wL L) (stF ((k.val + 1) * 8 + 5))) $$ [Hg5_dst_and]
  · iclear Hmw
    istop
    exact Entails.of_eq (congrArg (fun f => ((Memref.whole cc1_scratch7 : Memref sig .scVector .vmem S64 .i32).view.loc (V d (cV L) (jV L)) ↦{fullShare} f : sProp 𝕄))
      (idx_writes_7 _ _ _ _ _ _ _ _ (IDXV m d (wL L) (stF ((k.val + 1) * 8 + 5)))
        (fun j => by
        first
          | exact chunk_idxv m d (wL L) (stF ((k.val + 1) * 8 + 5)) 0 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 5)) 0 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 5)) 0 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 5)) 0 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 5)) 16 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 5)) 16 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 5)) 16 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 5)) 16 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 5)) 32 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 5)) 32 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 5)) 32 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 5)) 32 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 5)) 48 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 5)) 48 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 5)) 48 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 5)) 48 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j) _))
  have hin5 : ∀ x, ((Memref.whole cc1_scratch7 : Memref sig .scVector .vmem S64 .i32).view.read (Elt F) (IDXV m d (wL L) (stF ((k.val + 1) * 8 + 5))) x).toNat < 3200 := idxv_in_7 m d (wL L) (stF ((k.val + 1) * 8 + 5))
  sl_exec
  ihave Hi6n : ((Memref.whole cc1_scratch8 : Memref sig .scVector .vmem S64 .i32).view.loc (V d (cV L) (jV L)) ↦{fullShare} IDXV m d (wL L) (stF ((k.val + 1) * 8 + 6))) $$ [Hg6_dst_and]
  · iclear Hmw
    istop
    exact Entails.of_eq (congrArg (fun f => ((Memref.whole cc1_scratch8 : Memref sig .scVector .vmem S64 .i32).view.loc (V d (cV L) (jV L)) ↦{fullShare} f : sProp 𝕄))
      (idx_writes_8 _ _ _ _ _ _ _ _ (IDXV m d (wL L) (stF ((k.val + 1) * 8 + 6)))
        (fun j => by
        first
          | exact chunk_idxv m d (wL L) (stF ((k.val + 1) * 8 + 6)) 0 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 6)) 0 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 6)) 0 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 6)) 0 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 6)) 16 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 6)) 16 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 6)) 16 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 6)) 16 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 6)) 32 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 6)) 32 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 6)) 32 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 6)) 32 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 6)) 48 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 6)) 48 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 6)) 48 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 6)) 48 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j) _))
  have hin6 : ∀ x, ((Memref.whole cc1_scratch8 : Memref sig .scVector .vmem S64 .i32).view.read (Elt F) (IDXV m d (wL L) (stF ((k.val + 1) * 8 + 6))) x).toNat < 3200 := idxv_in_8 m d (wL L) (stF ((k.val + 1) * 8 + 6))
  sl_exec
  ihave Hi7n : ((Memref.whole cc1_scratch9 : Memref sig .scVector .vmem S64 .i32).view.loc (V d (cV L) (jV L)) ↦{fullShare} IDXV m d (wL L) (stF ((k.val + 1) * 8 + 7))) $$ [Hg7_dst_and]
  · iclear Hmw
    istop
    exact Entails.of_eq (congrArg (fun f => ((Memref.whole cc1_scratch9 : Memref sig .scVector .vmem S64 .i32).view.loc (V d (cV L) (jV L)) ↦{fullShare} f : sProp 𝕄))
      (idx_writes_9 _ _ _ _ _ _ _ _ (IDXV m d (wL L) (stF ((k.val + 1) * 8 + 7)))
        (fun j => by
        first
          | exact chunk_idxv m d (wL L) (stF ((k.val + 1) * 8 + 7)) 0 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 7)) 0 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 7)) 0 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 7)) 0 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 7)) 16 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 7)) 16 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 7)) 16 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 7)) 16 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 7)) 32 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 7)) 32 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 7)) 32 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 7)) 32 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 7)) 48 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 7)) 48 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 7)) 48 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 7)) 48 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j) _))
  have hin7 : ∀ x, ((Memref.whole cc1_scratch9 : Memref sig .scVector .vmem S64 .i32).view.read (Elt F) (IDXV m d (wL L) (stF ((k.val + 1) * 8 + 7))) x).toNat < 3200 := idxv_in_9 m d (wL L) (stF ((k.val + 1) * 8 + 7))
  sl_exec
  sl_step
  ihave Hd0 : (outLoc d ↦[oChunk (wL L) ⟨k.val * 8 + 0, by omega⟩]{fullShare} OUTF m d) $$ [Hc0']
  · iclear Hmw
    istop
    exact (Entails.of_eq (pts_oSlT (F := F) d L k 0 _)).trans (out_landedT m d L k 0 _ _
      ((gather_landed_read m _ _ d (cV L) (wL L) (stF (k.val * 8 + 0)) _ _ _).trans (congrArg (ROWSV m d (wL L)) (stF_eq (k.val * 8 + 0) (by omega)))))
  ihave Hd1 : (outLoc d ↦[oChunk (wL L) ⟨k.val * 8 + 1, by omega⟩]{fullShare} OUTF m d) $$ [Hc1']
  · iclear Hmw
    istop
    exact (Entails.of_eq (pts_oSlT (F := F) d L k 1 _)).trans (out_landedT m d L k 1 _ _
      ((gather_landed_read m _ _ d (cV L) (wL L) (stF (k.val * 8 + 1)) _ _ _).trans (congrArg (ROWSV m d (wL L)) (stF_eq (k.val * 8 + 1) (by omega)))))
  ihave Hd2 : (outLoc d ↦[oChunk (wL L) ⟨k.val * 8 + 2, by omega⟩]{fullShare} OUTF m d) $$ [Hc2']
  · iclear Hmw
    istop
    exact (Entails.of_eq (pts_oSlT (F := F) d L k 2 _)).trans (out_landedT m d L k 2 _ _
      ((gather_landed_read m _ _ d (cV L) (wL L) (stF (k.val * 8 + 2)) _ _ _).trans (congrArg (ROWSV m d (wL L)) (stF_eq (k.val * 8 + 2) (by omega)))))
  ihave Hd3 : (outLoc d ↦[oChunk (wL L) ⟨k.val * 8 + 3, by omega⟩]{fullShare} OUTF m d) $$ [Hc3']
  · iclear Hmw
    istop
    exact (Entails.of_eq (pts_oSlT (F := F) d L k 3 _)).trans (out_landedT m d L k 3 _ _
      ((gather_landed_read m _ _ d (cV L) (wL L) (stF (k.val * 8 + 3)) _ _ _).trans (congrArg (ROWSV m d (wL L)) (stF_eq (k.val * 8 + 3) (by omega)))))
  ihave Hd4 : (outLoc d ↦[oChunk (wL L) ⟨k.val * 8 + 4, by omega⟩]{fullShare} OUTF m d) $$ [Hc4']
  · iclear Hmw
    istop
    exact (Entails.of_eq (pts_oSlT (F := F) d L k 4 _)).trans (out_landedT m d L k 4 _ _
      ((gather_landed_read m _ _ d (cV L) (wL L) (stF (k.val * 8 + 4)) _ _ _).trans (congrArg (ROWSV m d (wL L)) (stF_eq (k.val * 8 + 4) (by omega)))))
  ihave Hd5 : (outLoc d ↦[oChunk (wL L) ⟨k.val * 8 + 5, by omega⟩]{fullShare} OUTF m d) $$ [Hc5']
  · iclear Hmw
    istop
    exact (Entails.of_eq (pts_oSlT (F := F) d L k 5 _)).trans (out_landedT m d L k 5 _ _
      ((gather_landed_read m _ _ d (cV L) (wL L) (stF (k.val * 8 + 5)) _ _ _).trans (congrArg (ROWSV m d (wL L)) (stF_eq (k.val * 8 + 5) (by omega)))))
  ihave Hd6 : (outLoc d ↦[oChunk (wL L) ⟨k.val * 8 + 6, by omega⟩]{fullShare} OUTF m d) $$ [Hc6']
  · iclear Hmw
    istop
    exact (Entails.of_eq (pts_oSlT (F := F) d L k 6 _)).trans (out_landedT m d L k 6 _ _
      ((gather_landed_read m _ _ d (cV L) (wL L) (stF (k.val * 8 + 6)) _ _ _).trans (congrArg (ROWSV m d (wL L)) (stF_eq (k.val * 8 + 6) (by omega)))))
  ihave Hd7 : (outLoc d ↦[oChunk (wL L) ⟨k.val * 8 + 7, by omega⟩]{fullShare} OUTF m d) $$ [Hc7']
  · iclear Hmw
    istop
    exact (Entails.of_eq (pts_oSlT (F := F) d L k 7 _)).trans (out_landedT m d L k 7 _ _
      ((gather_landed_read m _ _ d (cV L) (wL L) (stF (k.val * 8 + 7)) _ _ _).trans (congrArg (ROWSV m d (wL L)) (stF_eq (k.val * 8 + 7) (by omega)))))
  ihave Hdone' := (out_put (F := F) d (wL L) k.val (by omega) (OUTF m d)) $$ [Hdone Hd0 Hd1 Hd2 Hd3 Hd4 Hd5 Hd6 Hd7]
  · isplitl [Hdone]; · iexact Hdone
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  ihave Hsl0 : (∃ fr : Buf (Elt F) ((Memref.whole cc1_scratch10 : Memref sig .scVector .vmem S64x128 .f32).view.loc (V d (cV L) (jV L))), (Transfers.Flight countersEmb (V d (cV L) (jV L)) (SemLoc.dma cc1_scratch18.sem) (default : HIx 1) 262144
      iprop((((Memref.whole cc1_scratch10 : Memref sig .scVector .vmem S64x128 .f32).view.loc (V d (cV L) (jV L)) ↦{fullShare}
            (Memref.whole cc1_scratch10 : Memref sig .scVector .vmem S64x128 .f32).view.writes (Elt F) fr [⟨Rect.whole (cc1_scratch10 : Ref sig .scVector).ty.shape, (SparseCore.gatherPayload gathers_S3200x128_S64x128 (View.read (Elt F) (shW).view (TABS m d (cV L))) (SparseCore.rows (View.read (Elt F) (Memref.whole cc1_scratch2 : Memref sig .scVector .vmem S64 .i32).view (IDXV m d (wL L) (stF ((k.val + 1) * 8 + 0)))) (by decide) (idxv_in_2 m d (wL L) (stF ((k.val + 1) * 8 + 0)))))⟩])
          ∗ ((Memref.whole cc1_scratch2 : Memref sig .scVector .vmem S64 .i32).view.loc (V d (cV L) (jV L)) ↦{fullShare} IDXV m d (wL L) (stF ((k.val + 1) * 8 + 0))))
        ∗ ((shW).view.loc (V d (cV L) (jV L)) ↦[(shW).view.set]{Transfers.shareTokN (Transfers.shareTok fullShare 16 (Fin.cast nSub_eq (jV L))) 3} TABS m d (cV L)))) ∗ ((shW).view.loc (V d (cV L) (jV L)) ↦[(shW).view.set \ (shW).view.set]{Transfers.shareTokN (Transfers.shareTok fullShare 16 (Fin.cast nSub_eq (jV L))) 3} TABS m d (cV L))) $$ [Hg0 Hk0]
  · iclear Hmw
    istop
    exact exists_intro_trans _ (BI.Entails.refl _)
  ihave Hsl1 : (∃ fr : Buf (Elt F) ((Memref.whole cc1_scratch11 : Memref sig .scVector .vmem S64x128 .f32).view.loc (V d (cV L) (jV L))), (Transfers.Flight countersEmb (V d (cV L) (jV L)) (SemLoc.dma cc1_scratch19.sem) (default : HIx 1) 262144
      iprop((((Memref.whole cc1_scratch11 : Memref sig .scVector .vmem S64x128 .f32).view.loc (V d (cV L) (jV L)) ↦{fullShare}
            (Memref.whole cc1_scratch11 : Memref sig .scVector .vmem S64x128 .f32).view.writes (Elt F) fr [⟨Rect.whole (cc1_scratch11 : Ref sig .scVector).ty.shape, (SparseCore.gatherPayload gathers_S3200x128_S64x128 (View.read (Elt F) (shW).view (TABS m d (cV L))) (SparseCore.rows (View.read (Elt F) (Memref.whole cc1_scratch3 : Memref sig .scVector .vmem S64 .i32).view (IDXV m d (wL L) (stF ((k.val + 1) * 8 + 1)))) (by decide) (idxv_in_3 m d (wL L) (stF ((k.val + 1) * 8 + 1)))))⟩])
          ∗ ((Memref.whole cc1_scratch3 : Memref sig .scVector .vmem S64 .i32).view.loc (V d (cV L) (jV L)) ↦{fullShare} IDXV m d (wL L) (stF ((k.val + 1) * 8 + 1))))
        ∗ ((shW).view.loc (V d (cV L) (jV L)) ↦[(shW).view.set]{Transfers.shareTokN (Transfers.shareTok fullShare 16 (Fin.cast nSub_eq (jV L))) 4} TABS m d (cV L)))) ∗ ((shW).view.loc (V d (cV L) (jV L)) ↦[(shW).view.set \ (shW).view.set]{Transfers.shareTokN (Transfers.shareTok fullShare 16 (Fin.cast nSub_eq (jV L))) 4} TABS m d (cV L))) $$ [Hg1 Hk1]
  · iclear Hmw
    istop
    exact exists_intro_trans _ (BI.Entails.refl _)
  ihave Hsl2 : (∃ fr : Buf (Elt F) ((Memref.whole cc1_scratch12 : Memref sig .scVector .vmem S64x128 .f32).view.loc (V d (cV L) (jV L))), (Transfers.Flight countersEmb (V d (cV L) (jV L)) (SemLoc.dma cc1_scratch20.sem) (default : HIx 1) 262144
      iprop((((Memref.whole cc1_scratch12 : Memref sig .scVector .vmem S64x128 .f32).view.loc (V d (cV L) (jV L)) ↦{fullShare}
            (Memref.whole cc1_scratch12 : Memref sig .scVector .vmem S64x128 .f32).view.writes (Elt F) fr [⟨Rect.whole (cc1_scratch12 : Ref sig .scVector).ty.shape, (SparseCore.gatherPayload gathers_S3200x128_S64x128 (View.read (Elt F) (shW).view (TABS m d (cV L))) (SparseCore.rows (View.read (Elt F) (Memref.whole cc1_scratch4 : Memref sig .scVector .vmem S64 .i32).view (IDXV m d (wL L) (stF ((k.val + 1) * 8 + 2)))) (by decide) (idxv_in_4 m d (wL L) (stF ((k.val + 1) * 8 + 2)))))⟩])
          ∗ ((Memref.whole cc1_scratch4 : Memref sig .scVector .vmem S64 .i32).view.loc (V d (cV L) (jV L)) ↦{fullShare} IDXV m d (wL L) (stF ((k.val + 1) * 8 + 2))))
        ∗ ((shW).view.loc (V d (cV L) (jV L)) ↦[(shW).view.set]{Transfers.shareTokN (Transfers.shareTok fullShare 16 (Fin.cast nSub_eq (jV L))) 5} TABS m d (cV L)))) ∗ ((shW).view.loc (V d (cV L) (jV L)) ↦[(shW).view.set \ (shW).view.set]{Transfers.shareTokN (Transfers.shareTok fullShare 16 (Fin.cast nSub_eq (jV L))) 5} TABS m d (cV L))) $$ [Hg2 Hk2]
  · iclear Hmw
    istop
    exact exists_intro_trans _ (BI.Entails.refl _)
  ihave Hsl3 : (∃ fr : Buf (Elt F) ((Memref.whole cc1_scratch13 : Memref sig .scVector .vmem S64x128 .f32).view.loc (V d (cV L) (jV L))), (Transfers.Flight countersEmb (V d (cV L) (jV L)) (SemLoc.dma cc1_scratch21.sem) (default : HIx 1) 262144
      iprop((((Memref.whole cc1_scratch13 : Memref sig .scVector .vmem S64x128 .f32).view.loc (V d (cV L) (jV L)) ↦{fullShare}
            (Memref.whole cc1_scratch13 : Memref sig .scVector .vmem S64x128 .f32).view.writes (Elt F) fr [⟨Rect.whole (cc1_scratch13 : Ref sig .scVector).ty.shape, (SparseCore.gatherPayload gathers_S3200x128_S64x128 (View.read (Elt F) (shW).view (TABS m d (cV L))) (SparseCore.rows (View.read (Elt F) (Memref.whole cc1_scratch5 : Memref sig .scVector .vmem S64 .i32).view (IDXV m d (wL L) (stF ((k.val + 1) * 8 + 3)))) (by decide) (idxv_in_5 m d (wL L) (stF ((k.val + 1) * 8 + 3)))))⟩])
          ∗ ((Memref.whole cc1_scratch5 : Memref sig .scVector .vmem S64 .i32).view.loc (V d (cV L) (jV L)) ↦{fullShare} IDXV m d (wL L) (stF ((k.val + 1) * 8 + 3))))
        ∗ ((shW).view.loc (V d (cV L) (jV L)) ↦[(shW).view.set]{Transfers.shareTokN (Transfers.shareTok fullShare 16 (Fin.cast nSub_eq (jV L))) 6} TABS m d (cV L)))) ∗ ((shW).view.loc (V d (cV L) (jV L)) ↦[(shW).view.set \ (shW).view.set]{Transfers.shareTokN (Transfers.shareTok fullShare 16 (Fin.cast nSub_eq (jV L))) 6} TABS m d (cV L))) $$ [Hg3 Hk3]
  · iclear Hmw
    istop
    exact exists_intro_trans _ (BI.Entails.refl _)
  ihave Hsl4 : (∃ fr : Buf (Elt F) ((Memref.whole cc1_scratch14 : Memref sig .scVector .vmem S64x128 .f32).view.loc (V d (cV L) (jV L))), (Transfers.Flight countersEmb (V d (cV L) (jV L)) (SemLoc.dma cc1_scratch22.sem) (default : HIx 1) 262144
      iprop((((Memref.whole cc1_scratch14 : Memref sig .scVector .vmem S64x128 .f32).view.loc (V d (cV L) (jV L)) ↦{fullShare}
            (Memref.whole cc1_scratch14 : Memref sig .scVector .vmem S64x128 .f32).view.writes (Elt F) fr [⟨Rect.whole (cc1_scratch14 : Ref sig .scVector).ty.shape, (SparseCore.gatherPayload gathers_S3200x128_S64x128 (View.read (Elt F) (shW).view (TABS m d (cV L))) (SparseCore.rows (View.read (Elt F) (Memref.whole cc1_scratch6 : Memref sig .scVector .vmem S64 .i32).view (IDXV m d (wL L) (stF ((k.val + 1) * 8 + 4)))) (by decide) (idxv_in_6 m d (wL L) (stF ((k.val + 1) * 8 + 4)))))⟩])
          ∗ ((Memref.whole cc1_scratch6 : Memref sig .scVector .vmem S64 .i32).view.loc (V d (cV L) (jV L)) ↦{fullShare} IDXV m d (wL L) (stF ((k.val + 1) * 8 + 4))))
        ∗ ((shW).view.loc (V d (cV L) (jV L)) ↦[(shW).view.set]{Transfers.shareTokN (Transfers.shareTok fullShare 16 (Fin.cast nSub_eq (jV L))) 7} TABS m d (cV L)))) ∗ ((shW).view.loc (V d (cV L) (jV L)) ↦[(shW).view.set \ (shW).view.set]{Transfers.shareTokN (Transfers.shareTok fullShare 16 (Fin.cast nSub_eq (jV L))) 7} TABS m d (cV L))) $$ [Hg4 Hk4]
  · iclear Hmw
    istop
    exact exists_intro_trans _ (BI.Entails.refl _)
  ihave Hsl5 : (∃ fr : Buf (Elt F) ((Memref.whole cc1_scratch15 : Memref sig .scVector .vmem S64x128 .f32).view.loc (V d (cV L) (jV L))), (Transfers.Flight countersEmb (V d (cV L) (jV L)) (SemLoc.dma cc1_scratch23.sem) (default : HIx 1) 262144
      iprop((((Memref.whole cc1_scratch15 : Memref sig .scVector .vmem S64x128 .f32).view.loc (V d (cV L) (jV L)) ↦{fullShare}
            (Memref.whole cc1_scratch15 : Memref sig .scVector .vmem S64x128 .f32).view.writes (Elt F) fr [⟨Rect.whole (cc1_scratch15 : Ref sig .scVector).ty.shape, (SparseCore.gatherPayload gathers_S3200x128_S64x128 (View.read (Elt F) (shW).view (TABS m d (cV L))) (SparseCore.rows (View.read (Elt F) (Memref.whole cc1_scratch7 : Memref sig .scVector .vmem S64 .i32).view (IDXV m d (wL L) (stF ((k.val + 1) * 8 + 5)))) (by decide) (idxv_in_7 m d (wL L) (stF ((k.val + 1) * 8 + 5)))))⟩])
          ∗ ((Memref.whole cc1_scratch7 : Memref sig .scVector .vmem S64 .i32).view.loc (V d (cV L) (jV L)) ↦{fullShare} IDXV m d (wL L) (stF ((k.val + 1) * 8 + 5))))
        ∗ ((shW).view.loc (V d (cV L) (jV L)) ↦[(shW).view.set]{Transfers.shareTokN (Transfers.shareTok fullShare 16 (Fin.cast nSub_eq (jV L))) 8} TABS m d (cV L)))) ∗ ((shW).view.loc (V d (cV L) (jV L)) ↦[(shW).view.set \ (shW).view.set]{Transfers.shareTokN (Transfers.shareTok fullShare 16 (Fin.cast nSub_eq (jV L))) 8} TABS m d (cV L))) $$ [Hg5 Hk5]
  · iclear Hmw
    istop
    exact exists_intro_trans _ (BI.Entails.refl _)
  ihave Hsl6 : (∃ fr : Buf (Elt F) ((Memref.whole cc1_scratch16 : Memref sig .scVector .vmem S64x128 .f32).view.loc (V d (cV L) (jV L))), (Transfers.Flight countersEmb (V d (cV L) (jV L)) (SemLoc.dma cc1_scratch24.sem) (default : HIx 1) 262144
      iprop((((Memref.whole cc1_scratch16 : Memref sig .scVector .vmem S64x128 .f32).view.loc (V d (cV L) (jV L)) ↦{fullShare}
            (Memref.whole cc1_scratch16 : Memref sig .scVector .vmem S64x128 .f32).view.writes (Elt F) fr [⟨Rect.whole (cc1_scratch16 : Ref sig .scVector).ty.shape, (SparseCore.gatherPayload gathers_S3200x128_S64x128 (View.read (Elt F) (shW).view (TABS m d (cV L))) (SparseCore.rows (View.read (Elt F) (Memref.whole cc1_scratch8 : Memref sig .scVector .vmem S64 .i32).view (IDXV m d (wL L) (stF ((k.val + 1) * 8 + 6)))) (by decide) (idxv_in_8 m d (wL L) (stF ((k.val + 1) * 8 + 6)))))⟩])
          ∗ ((Memref.whole cc1_scratch8 : Memref sig .scVector .vmem S64 .i32).view.loc (V d (cV L) (jV L)) ↦{fullShare} IDXV m d (wL L) (stF ((k.val + 1) * 8 + 6))))
        ∗ ((shW).view.loc (V d (cV L) (jV L)) ↦[(shW).view.set]{Transfers.shareTokN (Transfers.shareTok fullShare 16 (Fin.cast nSub_eq (jV L))) 9} TABS m d (cV L)))) ∗ ((shW).view.loc (V d (cV L) (jV L)) ↦[(shW).view.set \ (shW).view.set]{Transfers.shareTokN (Transfers.shareTok fullShare 16 (Fin.cast nSub_eq (jV L))) 9} TABS m d (cV L))) $$ [Hg6 Hk6]
  · iclear Hmw
    istop
    exact exists_intro_trans _ (BI.Entails.refl _)
  ihave Hsl7 : (∃ fr : Buf (Elt F) ((Memref.whole cc1_scratch17 : Memref sig .scVector .vmem S64x128 .f32).view.loc (V d (cV L) (jV L))), (Transfers.Flight countersEmb (V d (cV L) (jV L)) (SemLoc.dma cc1_scratch25.sem) (default : HIx 1) 262144
      iprop((((Memref.whole cc1_scratch17 : Memref sig .scVector .vmem S64x128 .f32).view.loc (V d (cV L) (jV L)) ↦{fullShare}
            (Memref.whole cc1_scratch17 : Memref sig .scVector .vmem S64x128 .f32).view.writes (Elt F) fr [⟨Rect.whole (cc1_scratch17 : Ref sig .scVector).ty.shape, (SparseCore.gatherPayload gathers_S3200x128_S64x128 (View.read (Elt F) (shW).view (TABS m d (cV L))) (SparseCore.rows (View.read (Elt F) (Memref.whole cc1_scratch9 : Memref sig .scVector .vmem S64 .i32).view (IDXV m d (wL L) (stF ((k.val + 1) * 8 + 7)))) (by decide) (idxv_in_9 m d (wL L) (stF ((k.val + 1) * 8 + 7)))))⟩])
          ∗ ((Memref.whole cc1_scratch9 : Memref sig .scVector .vmem S64 .i32).view.loc (V d (cV L) (jV L)) ↦{fullShare} IDXV m d (wL L) (stF ((k.val + 1) * 8 + 7))))
        ∗ ((shW).view.loc (V d (cV L) (jV L)) ↦[(shW).view.set]{Transfers.shareTokN (Transfers.shareTok fullShare 16 (Fin.cast nSub_eq (jV L))) 10} TABS m d (cV L)))) ∗ ((shW).view.loc (V d (cV L) (jV L)) ↦[(shW).view.set \ (shW).view.set]{Transfers.shareTokN (Transfers.shareTok fullShare 16 (Fin.cast nSub_eq (jV L))) 10} TABS m d (cV L))) $$ [Hg7 Hk7]
  · iclear Hmw
    istop
    exact exists_intro_trans _ (BI.Entails.refl _)
  isplitr; · iexact Hmw
  isplitl [Hs0]; · iexact Hs0
  isplitl [Hsl0]; · iexact Hsl0
  isplitl [Hsl1]; · iexact Hsl1
  isplitl [Hsl2]; · iexact Hsl2
  isplitl [Hsl3]; · iexact Hsl3
  isplitl [Hsl4]; · iexact Hsl4
  isplitl [Hsl5]; · iexact Hsl5
  isplitl [Hsl6]; · iexact Hsl6
  isplitl [Hsl7]; · iexact Hsl7
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hdone']; · iexact Hdone'
  isplitl [Htodo]; · iexact Htodo
  iexists _; isplitr
  swap; · iexact HO
  ipureintro; intro p hp
  simp only [Finset.mem_insert] at hp
  rcases hp with hp | hp | hp | hp | hp | hp | hp | hp | hp | hp | hp | hp | hp | hp | hp | hp | hp
  all_goals first | exact hW' p hp | exact .inr (.inl (hp ▸ rfl))

end Tile

end Cert.Proof.KI

end
-- ==== Proof.BodyKI.lean ====
/-
  A task's body, at a symbolic task: from what the launch hands it to what it hands back.

  The ids are copied into the id scratch and the task's 200 rows of the fused table into the shared table; at the subcore
  barrier those rows go out as sixteen read tokens and the sixteen tasks' tokens come back as one read token of the whole
  table, cut into one token per gather semaphore. Eight index lists are filled and eight gathers started; the loop runs 49
  step groups (TripKI); the last group's rows are sent out and waited for. Then every output row of the task holds
  OUTF[n, :] = TAB[(n mod 200)·16 + x[n], :], the tokens are joined back, and the scratch buffers and semaphores return
  as they must: buffers at some contents, counters at zero.
-/
import proofs.«206439_g51874615001410_cont_9to1_m_433_33_alg».proof.Proof.TripKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) [FloatOps F] [hK : Cert.KernelIdeal.Facts]

section Tile

variable (d : Dev nD) (L : grid1.Coords)

set_option maxHeartbeats 4000000 in
/-- The task of vector subcore (L 0, L 1): from its ids, its output rows as launched, its rows of the table in HBM and of
    the shared scratch, its scratch buffers and semaphores and its barrier kit, to its output rows at the gathered rows
    OUTF, its read token of the whole shared table and what it kept of its own rows, everything else returned. -/
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (hxf : ∀ n, ((XF m d) n).toNat ≤ 14) :
    iprop(levAts (K (F := F)).L (K (F := F)).lev ∗ bkit m d (cV L) (jV L)
        ∗ goRes m d (cL L) (cV L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__sc_body L (Memref.whole main_v3_scv) (Memref.isWhole_whole _) (Memref.whole main_v2_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scratch34 cc1_scoped0)
          fun _ => iprop(tdRes m d (cL L) (cV L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1__sc_body_eq_skeleton]; unfold cc1__sc_body_skel
  rw [k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton]
  unfold k1_part19_skel k1_part20_skel k1_part21_skel k1_part22_skel k1_part23_skel k1_part24_skel k1_part25_skel k1_part26_skel k1_part27_skel k1_part28_skel k1_part29_skel k1_part30_skel k1_part31_skel k1_part32_skel k1_part33_skel k1_part34_skel k1_part35_skel k1_part36_skel k1_part37_skel
  rw [(K (F := F)).scopedBufs_V hF d (cV L) (jV L), SparseCore.Cfg.scopedSems0_V (Val := Elt F) d (cV L) (jV L), ownSems0_V_chain, ownBufs_V_chain]
  unfold bkit goRes
  iintro ⟨#Hlv, ⟨⟨%κ, #Hinv⟩, Htoks, Hreach, Hat, Hcred⟩, ⟨Hx, Ho, Ht, %fsh, Hsh⟩, ⟨⟨⟨%f0, Hs0⟩, ⟨%fi0, Hi0⟩, ⟨%fi1, Hi1⟩, ⟨%fi2, Hi2⟩, ⟨%fi3, Hi3⟩, ⟨%fi4, Hi4⟩, ⟨%fi5, Hi5⟩, ⟨%fi6, Hi6⟩, ⟨%fi7, Hi7⟩, ⟨%fr0, Hr0⟩, ⟨%fr1, Hr1⟩, ⟨%fr2, Hr2⟩, ⟨%fr3, Hr3⟩, ⟨%fr4, Hr4⟩, ⟨%fr5, Hr5⟩, ⟨%fr6, Hr6⟩, ⟨%fr7, Hr7⟩⟩, Hbufs⟩, ⟨⟨Hg0, Hg1, Hg2, Hg3, Hg4, Hg5, Hg6, Hg7, Hq0, Hq1, Hq2, Hq3, Hq4, Hq5, Hq6, Hq7, Hxs, Hts⟩, Hsemr⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xSl (F := F) d L _).symm) $$ Hx
  ihave Ht' := (Entails.of_eq (pts_tSl (F := F) d L _ _).symm) $$ Ht
  ihave Hsh' := (Entails.of_eq (pts_shSl (F := F) d L _ _).symm) $$ Hsh
  sl_exec
  rw [bind_assoc]
  -- the ids have landed in the id scratch; the task's rows of the shared table hold the table
  ihave Hs0n : ((Memref.whole cc1_scratch0 : Memref sig .scVector .vmem S25600 .i32).view.loc (V d (cV L) (jV L)) ↦{fullShare} XVf m d (wL L)) $$ [Hs0]
  · iclear Hlv Hinv Hmw1 Hmw2
    istop
    exact Entails.of_eq (congrArg (fun f => ((Memref.whole cc1_scratch0 : Memref sig .scVector .vmem S25600 .i32).view.loc (V d (cV L) (jV L)) ↦{fullShare} f : sProp 𝕄)) (xv_landed m d L f0))
  ihave Hshp : (shLoc d (cV L) ↦[tPiece (Fin.cast nSub_eq (jV L))]{fullShare} TABS m d (cV L)) $$ [Hsh']
  · iclear Hlv Hinv Hmw1 Hmw2
    istop
    exact (Entails.of_eq (pts_shSl (F := F) d L _ _)).trans (sh_landed m d L _)
  -- the barrier: the rows go out as sixteen read tokens, the sixteen tasks' tokens come back as one of the whole table
  ihave Hpay := (barrier_pay m d (cV L) (jV L)) $$ [Htoks Hreach Hshp]
  · isplitl [Htoks]; · iexact Htoks
    isplitl [Hreach]; · iexact Hreach
    iexact Hshp
  icases Hpay with ⟨Htoks, Hdrop⟩
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hcred Hat]
  · isplitr; · iexact Hinv
    isplitl [HO]; · iexact HO
    isplitl [Htoks]; · iexact Htoks
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hshw := (barrier_get m d (cV L) (jV L)) $$ Hgot
  -- one read token of the table per gather semaphore
  ihave Htk := ((src_toks (F := F) d (cV L) (jV L) _ _).1) $$ Hshw
  icases Htk with ⟨Hk0, Hk1, Hk2, Hk3, Hk4, Hk5, Hk6, Hk7, Hkrest⟩
  -- the output rows: none done yet
  ihave Hout := (out_init (F := F) d (wL L) _ (OUTF m d)) $$ Ho
  icases Hout with ⟨Hdone, Htodo⟩
  sl_exec
  ihave Hi0n : ((Memref.whole cc1_scratch2 : Memref sig .scVector .vmem S64 .i32).view.loc (V d (cV L) (jV L)) ↦{fullShare} IDXV m d (wL L) ⟨0, by decide⟩) $$ [Hi0]
  · iclear Hlv Hinv Hmw1 Hmw2
    istop
    exact Entails.of_eq (congrArg (fun f => ((Memref.whole cc1_scratch2 : Memref sig .scVector .vmem S64 .i32).view.loc (V d (cV L) (jV L)) ↦{fullShare} f : sProp 𝕄))
      (idx_writes_2 _ _ _ _ _ _ _ _ (IDXV m d (wL L) ⟨0, by decide⟩)
        (fun j => by
        first
          | exact chunk_idxv m d (wL L) ⟨0, by decide⟩ 0 (by decide) hxf _ (by first | decide | rfl) _ (by first | rfl | decide) _ _ _ j
          | exact chunk_idxv_parts m d (wL L) ⟨0, by decide⟩ 0 (by decide) hxf _ (by first | decide | rfl) _ (by first | rfl | decide) _ _ _ _ _ rfl rfl j
          | exact chunk_idxv_spos m d (wL L) ⟨0, by decide⟩ 0 (by decide) hxf _ (by first | decide | rfl) _ (by first | rfl | decide) _ _ _ (fun j' => Cert.IdxChunk.spos_apply _ (by decide) _ j') j
          | exact chunk_idxv_mul m d (wL L) ⟨0, by decide⟩ 0 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨0, by decide⟩ 16 (by decide) hxf _ (by first | decide | rfl) _ (by first | rfl | decide) _ _ _ j
          | exact chunk_idxv_parts m d (wL L) ⟨0, by decide⟩ 16 (by decide) hxf _ (by first | decide | rfl) _ (by first | rfl | decide) _ _ _ _ _ rfl rfl j
          | exact chunk_idxv_spos m d (wL L) ⟨0, by decide⟩ 16 (by decide) hxf _ (by first | decide | rfl) _ (by first | rfl | decide) _ _ _ (fun j' => Cert.IdxChunk.spos_apply _ (by decide) _ j') j
          | exact chunk_idxv_mul m d (wL L) ⟨0, by decide⟩ 16 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨0, by decide⟩ 32 (by decide) hxf _ (by first | decide | rfl) _ (by first | rfl | decide) _ _ _ j
          | exact chunk_idxv_parts m d (wL L) ⟨0, by decide⟩ 32 (by decide) hxf _ (by first | decide | rfl) _ (by first | rfl | decide) _ _ _ _ _ rfl rfl j
          | exact chunk_idxv_spos m d (wL L) ⟨0, by decide⟩ 32 (by decide) hxf _ (by first | decide | rfl) _ (by first | rfl | decide) _ _ _ (fun j' => Cert.IdxChunk.spos_apply _ (by decide) _ j') j
          | exact chunk_idxv_mul m d (wL L) ⟨0, by decide⟩ 32 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨0, by decide⟩ 48 (by decide) hxf _ (by first | decide | rfl) _ (by first | rfl | decide) _ _ _ j
          | exact chunk_idxv_parts m d (wL L) ⟨0, by decide⟩ 48 (by decide) hxf _ (by first | decide | rfl) _ (by first | rfl | decide) _ _ _ _ _ rfl rfl j
          | exact chunk_idxv_spos m d (wL L) ⟨0, by decide⟩ 48 (by decide) hxf _ (by first | decide | rfl) _ (by first | rfl | decide) _ _ _ (fun j' => Cert.IdxChunk.spos_apply _ (by decide) _ j') j
          | exact chunk_idxv_mul m d (wL L) ⟨0, by decide⟩ 48 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j) _))
  have hin0 : ∀ x, ((Memref.whole cc1_scratch2 : Memref sig .scVector .vmem S64 .i32).view.read (Elt F) (IDXV m d (wL L) ⟨0, by decide⟩) x).toNat < 3200 := idxv_in_2 m d (wL L) ⟨0, by decide⟩
  sl_exec
  ihave Hi1n : ((Memref.whole cc1_scratch3 : Memref sig .scVector .vmem S64 .i32).view.loc (V d (cV L) (jV L)) ↦{fullShare} IDXV m d (wL L) ⟨1, by decide⟩) $$ [Hi1]
  · iclear Hlv Hinv Hmw1 Hmw2
    istop
    exact Entails.of_eq (congrArg (fun f => ((Memref.whole cc1_scratch3 : Memref sig .scVector .vmem S64 .i32).view.loc (V d (cV L) (jV L)) ↦{fullShare} f : sProp 𝕄))
      (idx_writes_3 _ _ _ _ _ _ _ _ (IDXV m d (wL L) ⟨1, by decide⟩)
        (fun j => by
        first
          | exact chunk_idxv m d (wL L) ⟨1, by decide⟩ 0 (by decide) hxf _ (by first | decide | rfl) _ (by first | rfl | decide) _ _ _ j
          | exact chunk_idxv_parts m d (wL L) ⟨1, by decide⟩ 0 (by decide) hxf _ (by first | decide | rfl) _ (by first | rfl | decide) _ _ _ _ _ rfl rfl j
          | exact chunk_idxv_spos m d (wL L) ⟨1, by decide⟩ 0 (by decide) hxf _ (by first | decide | rfl) _ (by first | rfl | decide) _ _ _ (fun j' => Cert.IdxChunk.spos_apply _ (by decide) _ j') j
          | exact chunk_idxv_mul m d (wL L) ⟨1, by decide⟩ 0 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨1, by decide⟩ 16 (by decide) hxf _ (by first | decide | rfl) _ (by first | rfl | decide) _ _ _ j
          | exact chunk_idxv_parts m d (wL L) ⟨1, by decide⟩ 16 (by decide) hxf _ (by first | decide | rfl) _ (by first | rfl | decide) _ _ _ _ _ rfl rfl j
          | exact chunk_idxv_spos m d (wL L) ⟨1, by decide⟩ 16 (by decide) hxf _ (by first | decide | rfl) _ (by first | rfl | decide) _ _ _ (fun j' => Cert.IdxChunk.spos_apply _ (by decide) _ j') j
          | exact chunk_idxv_mul m d (wL L) ⟨1, by decide⟩ 16 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨1, by decide⟩ 32 (by decide) hxf _ (by first | decide | rfl) _ (by first | rfl | decide) _ _ _ j
          | exact chunk_idxv_parts m d (wL L) ⟨1, by decide⟩ 32 (by decide) hxf _ (by first | decide | rfl) _ (by first | rfl | decide) _ _ _ _ _ rfl rfl j
          | exact chunk_idxv_spos m d (wL L) ⟨1, by decide⟩ 32 (by decide) hxf _ (by first | decide | rfl) _ (by first | rfl | decide) _ _ _ (fun j' => Cert.IdxChunk.spos_apply _ (by decide) _ j') j
          | exact chunk_idxv_mul m d (wL L) ⟨1, by decide⟩ 32 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨1, by decide⟩ 48 (by decide) hxf _ (by first | decide | rfl) _ (by first | rfl | decide) _ _ _ j
          | exact chunk_idxv_parts m d (wL L) ⟨1, by decide⟩ 48 (by decide) hxf _ (by first | decide | rfl) _ (by first | rfl | decide) _ _ _ _ _ rfl rfl j
          | exact chunk_idxv_spos m d (wL L) ⟨1, by decide⟩ 48 (by decide) hxf _ (by first | decide | rfl) _ (by first | rfl | decide) _ _ _ (fun j' => Cert.IdxChunk.spos_apply _ (by decide) _ j') j
          | exact chunk_idxv_mul m d (wL L) ⟨1, by decide⟩ 48 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j) _))
  have hin1 : ∀ x, ((Memref.whole cc1_scratch3 : Memref sig .scVector .vmem S64 .i32).view.read (Elt F) (IDXV m d (wL L) ⟨1, by decide⟩) x).toNat < 3200 := idxv_in_3 m d (wL L) ⟨1, by decide⟩
  sl_exec
  ihave Hi2n : ((Memref.whole cc1_scratch4 : Memref sig .scVector .vmem S64 .i32).view.loc (V d (cV L) (jV L)) ↦{fullShare} IDXV m d (wL L) ⟨2, by decide⟩) $$ [Hi2]
  · iclear Hlv Hinv Hmw1 Hmw2
    istop
    exact Entails.of_eq (congrArg (fun f => ((Memref.whole cc1_scratch4 : Memref sig .scVector .vmem S64 .i32).view.loc (V d (cV L) (jV L)) ↦{fullShare} f : sProp 𝕄))
      (idx_writes_4 _ _ _ _ _ _ _ _ (IDXV m d (wL L) ⟨2, by decide⟩)
        (fun j => by
        first
          | exact chunk_idxv m d (wL L) ⟨2, by decide⟩ 0 (by decide) hxf _ (by first | decide | rfl) _ (by first | rfl | decide) _ _ _ j
          | exact chunk_idxv_parts m d (wL L) ⟨2, by decide⟩ 0 (by decide) hxf _ (by first | decide | rfl) _ (by first | rfl | decide) _ _ _ _ _ rfl rfl j
          | exact chunk_idxv_spos m d (wL L) ⟨2, by decide⟩ 0 (by decide) hxf _ (by first | decide | rfl) _ (by first | rfl | decide) _ _ _ (fun j' => Cert.IdxChunk.spos_apply _ (by decide) _ j') j
          | exact chunk_idxv_mul m d (wL L) ⟨2, by decide⟩ 0 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨2, by decide⟩ 16 (by decide) hxf _ (by first | decide | rfl) _ (by first | rfl | decide) _ _ _ j
          | exact chunk_idxv_parts m d (wL L) ⟨2, by decide⟩ 16 (by decide) hxf _ (by first | decide | rfl) _ (by first | rfl | decide) _ _ _ _ _ rfl rfl j
          | exact chunk_idxv_spos m d (wL L) ⟨2, by decide⟩ 16 (by decide) hxf _ (by first | decide | rfl) _ (by first | rfl | decide) _ _ _ (fun j' => Cert.IdxChunk.spos_apply _ (by decide) _ j') j
          | exact chunk_idxv_mul m d (wL L) ⟨2, by decide⟩ 16 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨2, by decide⟩ 32 (by decide) hxf _ (by first | decide | rfl) _ (by first | rfl | decide) _ _ _ j
          | exact chunk_idxv_parts m d (wL L) ⟨2, by decide⟩ 32 (by decide) hxf _ (by first | decide | rfl) _ (by first | rfl | decide) _ _ _ _ _ rfl rfl j
          | exact chunk_idxv_spos m d (wL L) ⟨2, by decide⟩ 32 (by decide) hxf _ (by first | decide | rfl) _ (by first | rfl | decide) _ _ _ (fun j' => Cert.IdxChunk.spos_apply _ (by decide) _ j') j
          | exact chunk_idxv_mul m d (wL L) ⟨2, by decide⟩ 32 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨2, by decide⟩ 48 (by decide) hxf _ (by first | decide | rfl) _ (by first | rfl | decide) _ _ _ j
          | exact chunk_idxv_parts m d (wL L) ⟨2, by decide⟩ 48 (by decide) hxf _ (by first | decide | rfl) _ (by first | rfl | decide) _ _ _ _ _ rfl rfl j
          | exact chunk_idxv_spos m d (wL L) ⟨2, by decide⟩ 48 (by decide) hxf _ (by first | decide | rfl) _ (by first | rfl | decide) _ _ _ (fun j' => Cert.IdxChunk.spos_apply _ (by decide) _ j') j
          | exact chunk_idxv_mul m d (wL L) ⟨2, by decide⟩ 48 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j) _))
  have hin2 : ∀ x, ((Memref.whole cc1_scratch4 : Memref sig .scVector .vmem S64 .i32).view.read (Elt F) (IDXV m d (wL L) ⟨2, by decide⟩) x).toNat < 3200 := idxv_in_4 m d (wL L) ⟨2, by decide⟩
  sl_exec
  ihave Hi3n : ((Memref.whole cc1_scratch5 : Memref sig .scVector .vmem S64 .i32).view.loc (V d (cV L) (jV L)) ↦{fullShare} IDXV m d (wL L) ⟨3, by decide⟩) $$ [Hi3]
  · iclear Hlv Hinv Hmw1 Hmw2
    istop
    exact Entails.of_eq (congrArg (fun f => ((Memref.whole cc1_scratch5 : Memref sig .scVector .vmem S64 .i32).view.loc (V d (cV L) (jV L)) ↦{fullShare} f : sProp 𝕄))
      (idx_writes_5 _ _ _ _ _ _ _ _ (IDXV m d (wL L) ⟨3, by decide⟩)
        (fun j => by
        first
          | exact chunk_idxv m d (wL L) ⟨3, by decide⟩ 0 (by decide) hxf _ (by first | decide | rfl) _ (by first | rfl | decide) _ _ _ j
          | exact chunk_idxv_parts m d (wL L) ⟨3, by decide⟩ 0 (by decide) hxf _ (by first | decide | rfl) _ (by first | rfl | decide) _ _ _ _ _ rfl rfl j
          | exact chunk_idxv_spos m d (wL L) ⟨3, by decide⟩ 0 (by decide) hxf _ (by first | decide | rfl) _ (by first | rfl | decide) _ _ _ (fun j' => Cert.IdxChunk.spos_apply _ (by decide) _ j') j
          | exact chunk_idxv_mul m d (wL L) ⟨3, by decide⟩ 0 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨3, by decide⟩ 16 (by decide) hxf _ (by first | decide | rfl) _ (by first | rfl | decide) _ _ _ j
          | exact chunk_idxv_parts m d (wL L) ⟨3, by decide⟩ 16 (by decide) hxf _ (by first | decide | rfl) _ (by first | rfl | decide) _ _ _ _ _ rfl rfl j
          | exact chunk_idxv_spos m d (wL L) ⟨3, by decide⟩ 16 (by decide) hxf _ (by first | decide | rfl) _ (by first | rfl | decide) _ _ _ (fun j' => Cert.IdxChunk.spos_apply _ (by decide) _ j') j
          | exact chunk_idxv_mul m d (wL L) ⟨3, by decide⟩ 16 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨3, by decide⟩ 32 (by decide) hxf _ (by first | decide | rfl) _ (by first | rfl | decide) _ _ _ j
          | exact chunk_idxv_parts m d (wL L) ⟨3, by decide⟩ 32 (by decide) hxf _ (by first | decide | rfl) _ (by first | rfl | decide) _ _ _ _ _ rfl rfl j
          | exact chunk_idxv_spos m d (wL L) ⟨3, by decide⟩ 32 (by decide) hxf _ (by first | decide | rfl) _ (by first | rfl | decide) _ _ _ (fun j' => Cert.IdxChunk.spos_apply _ (by decide) _ j') j
          | exact chunk_idxv_mul m d (wL L) ⟨3, by decide⟩ 32 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨3, by decide⟩ 48 (by decide) hxf _ (by first | decide | rfl) _ (by first | rfl | decide) _ _ _ j
          | exact chunk_idxv_parts m d (wL L) ⟨3, by decide⟩ 48 (by decide) hxf _ (by first | decide | rfl) _ (by first | rfl | decide) _ _ _ _ _ rfl rfl j
          | exact chunk_idxv_spos m d (wL L) ⟨3, by decide⟩ 48 (by decide) hxf _ (by first | decide | rfl) _ (by first | rfl | decide) _ _ _ (fun j' => Cert.IdxChunk.spos_apply _ (by decide) _ j') j
          | exact chunk_idxv_mul m d (wL L) ⟨3, by decide⟩ 48 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j) _))
  have hin3 : ∀ x, ((Memref.whole cc1_scratch5 : Memref sig .scVector .vmem S64 .i32).view.read (Elt F) (IDXV m d (wL L) ⟨3, by decide⟩) x).toNat < 3200 := idxv_in_5 m d (wL L) ⟨3, by decide⟩
  sl_exec
  ihave Hi4n : ((Memref.whole cc1_scratch6 : Memref sig .scVector .vmem S64 .i32).view.loc (V d (cV L) (jV L)) ↦{fullShare} IDXV m d (wL L) ⟨4, by decide⟩) $$ [Hi4]
  · iclear Hlv Hinv Hmw1 Hmw2
    istop
    exact Entails.of_eq (congrArg (fun f => ((Memref.whole cc1_scratch6 : Memref sig .scVector .vmem S64 .i32).view.loc (V d (cV L) (jV L)) ↦{fullShare} f : sProp 𝕄))
      (idx_writes_6 _ _ _ _ _ _ _ _ (IDXV m d (wL L) ⟨4, by decide⟩)
        (fun j => by
        first
          | exact chunk_idxv m d (wL L) ⟨4, by decide⟩ 0 (by decide) hxf _ (by first | decide | rfl) _ (by first | rfl | decide) _ _ _ j
          | exact chunk_idxv_parts m d (wL L) ⟨4, by decide⟩ 0 (by decide) hxf _ (by first | decide | rfl) _ (by first | rfl | decide) _ _ _ _ _ rfl rfl j
          | exact chunk_idxv_spos m d (wL L) ⟨4, by decide⟩ 0 (by decide) hxf _ (by first | decide | rfl) _ (by first | rfl | decide) _ _ _ (fun j' => Cert.IdxChunk.spos_apply _ (by decide) _ j') j
          | exact chunk_idxv_mul m d (wL L) ⟨4, by decide⟩ 0 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨4, by decide⟩ 16 (by decide) hxf _ (by first | decide | rfl) _ (by first | rfl | decide) _ _ _ j
          | exact chunk_idxv_parts m d (wL L) ⟨4, by decide⟩ 16 (by decide) hxf _ (by first | decide | rfl) _ (by first | rfl | decide) _ _ _ _ _ rfl rfl j
          | exact chunk_idxv_spos m d (wL L) ⟨4, by decide⟩ 16 (by decide) hxf _ (by first | decide | rfl) _ (by first | rfl | decide) _ _ _ (fun j' => Cert.IdxChunk.spos_apply _ (by decide) _ j') j
          | exact chunk_idxv_mul m d (wL L) ⟨4, by decide⟩ 16 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨4, by decide⟩ 32 (by decide) hxf _ (by first | decide | rfl) _ (by first | rfl | decide) _ _ _ j
          | exact chunk_idxv_parts m d (wL L) ⟨4, by decide⟩ 32 (by decide) hxf _ (by first | decide | rfl) _ (by first | rfl | decide) _ _ _ _ _ rfl rfl j
          | exact chunk_idxv_spos m d (wL L) ⟨4, by decide⟩ 32 (by decide) hxf _ (by first | decide | rfl) _ (by first | rfl | decide) _ _ _ (fun j' => Cert.IdxChunk.spos_apply _ (by decide) _ j') j
          | exact chunk_idxv_mul m d (wL L) ⟨4, by decide⟩ 32 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨4, by decide⟩ 48 (by decide) hxf _ (by first | decide | rfl) _ (by first | rfl | decide) _ _ _ j
          | exact chunk_idxv_parts m d (wL L) ⟨4, by decide⟩ 48 (by decide) hxf _ (by first | decide | rfl) _ (by first | rfl | decide) _ _ _ _ _ rfl rfl j
          | exact chunk_idxv_spos m d (wL L) ⟨4, by decide⟩ 48 (by decide) hxf _ (by first | decide | rfl) _ (by first | rfl | decide) _ _ _ (fun j' => Cert.IdxChunk.spos_apply _ (by decide) _ j') j
          | exact chunk_idxv_mul m d (wL L) ⟨4, by decide⟩ 48 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j) _))
  have hin4 : ∀ x, ((Memref.whole cc1_scratch6 : Memref sig .scVector .vmem S64 .i32).view.read (Elt F) (IDXV m d (wL L) ⟨4, by decide⟩) x).toNat < 3200 := idxv_in_6 m d (wL L) ⟨4, by decide⟩
  sl_exec
  ihave Hi5n : ((Memref.whole cc1_scratch7 : Memref sig .scVector .vmem S64 .i32).view.loc (V d (cV L) (jV L)) ↦{fullShare} IDXV m d (wL L) ⟨5, by decide⟩) $$ [Hi5]
  · iclear Hlv Hinv Hmw1 Hmw2
    istop
    exact Entails.of_eq (congrArg (fun f => ((Memref.whole cc1_scratch7 : Memref sig .scVector .vmem S64 .i32).view.loc (V d (cV L) (jV L)) ↦{fullShare} f : sProp 𝕄))
      (idx_writes_7 _ _ _ _ _ _ _ _ (IDXV m d (wL L) ⟨5, by decide⟩)
        (fun j => by
        first
          | exact chunk_idxv m d (wL L) ⟨5, by decide⟩ 0 (by decide) hxf _ (by first | decide | rfl) _ (by first | rfl | decide) _ _ _ j
          | exact chunk_idxv_parts m d (wL L) ⟨5, by decide⟩ 0 (by decide) hxf _ (by first | decide | rfl) _ (by first | rfl | decide) _ _ _ _ _ rfl rfl j
          | exact chunk_idxv_spos m d (wL L) ⟨5, by decide⟩ 0 (by decide) hxf _ (by first | decide | rfl) _ (by first | rfl | decide) _ _ _ (fun j' => Cert.IdxChunk.spos_apply _ (by decide) _ j') j
          | exact chunk_idxv_mul m d (wL L) ⟨5, by decide⟩ 0 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨5, by decide⟩ 16 (by decide) hxf _ (by first | decide | rfl) _ (by first | rfl | decide) _ _ _ j
          | exact chunk_idxv_parts m d (wL L) ⟨5, by decide⟩ 16 (by decide) hxf _ (by first | decide | rfl) _ (by first | rfl | decide) _ _ _ _ _ rfl rfl j
          | exact chunk_idxv_spos m d (wL L) ⟨5, by decide⟩ 16 (by decide) hxf _ (by first | decide | rfl) _ (by first | rfl | decide) _ _ _ (fun j' => Cert.IdxChunk.spos_apply _ (by decide) _ j') j
          | exact chunk_idxv_mul m d (wL L) ⟨5, by decide⟩ 16 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨5, by decide⟩ 32 (by decide) hxf _ (by first | decide | rfl) _ (by first | rfl | decide) _ _ _ j
          | exact chunk_idxv_parts m d (wL L) ⟨5, by decide⟩ 32 (by decide) hxf _ (by first | decide | rfl) _ (by first | rfl | decide) _ _ _ _ _ rfl rfl j
          | exact chunk_idxv_spos m d (wL L) ⟨5, by decide⟩ 32 (by decide) hxf _ (by first | decide | rfl) _ (by first | rfl | decide) _ _ _ (fun j' => Cert.IdxChunk.spos_apply _ (by decide) _ j') j
          | exact chunk_idxv_mul m d (wL L) ⟨5, by decide⟩ 32 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨5, by decide⟩ 48 (by decide) hxf _ (by first | decide | rfl) _ (by first | rfl | decide) _ _ _ j
          | exact chunk_idxv_parts m d (wL L) ⟨5, by decide⟩ 48 (by decide) hxf _ (by first | decide | rfl) _ (by first | rfl | decide) _ _ _ _ _ rfl rfl j
          | exact chunk_idxv_spos m d (wL L) ⟨5, by decide⟩ 48 (by decide) hxf _ (by first | decide | rfl) _ (by first | rfl | decide) _ _ _ (fun j' => Cert.IdxChunk.spos_apply _ (by decide) _ j') j
          | exact chunk_idxv_mul m d (wL L) ⟨5, by decide⟩ 48 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j) _))
  have hin5 : ∀ x, ((Memref.whole cc1_scratch7 : Memref sig .scVector .vmem S64 .i32).view.read (Elt F) (IDXV m d (wL L) ⟨5, by decide⟩) x).toNat < 3200 := idxv_in_7 m d (wL L) ⟨5, by decide⟩
  sl_exec
  ihave Hi6n : ((Memref.whole cc1_scratch8 : Memref sig .scVector .vmem S64 .i32).view.loc (V d (cV L) (jV L)) ↦{fullShare} IDXV m d (wL L) ⟨6, by decide⟩) $$ [Hi6]
  · iclear Hlv Hinv Hmw1 Hmw2
    istop
    exact Entails.of_eq (congrArg (fun f => ((Memref.whole cc1_scratch8 : Memref sig .scVector .vmem S64 .i32).view.loc (V d (cV L) (jV L)) ↦{fullShare} f : sProp 𝕄))
      (idx_writes_8 _ _ _ _ _ _ _ _ (IDXV m d (wL L) ⟨6, by decide⟩)
        (fun j => by
        first
          | exact chunk_idxv m d (wL L) ⟨6, by decide⟩ 0 (by decide) hxf _ (by first | decide | rfl) _ (by first | rfl | decide) _ _ _ j
          | exact chunk_idxv_parts m d (wL L) ⟨6, by decide⟩ 0 (by decide) hxf _ (by first | decide | rfl) _ (by first | rfl | decide) _ _ _ _ _ rfl rfl j
          | exact chunk_idxv_spos m d (wL L) ⟨6, by decide⟩ 0 (by decide) hxf _ (by first | decide | rfl) _ (by first | rfl | decide) _ _ _ (fun j' => Cert.IdxChunk.spos_apply _ (by decide) _ j') j
          | exact chunk_idxv_mul m d (wL L) ⟨6, by decide⟩ 0 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨6, by decide⟩ 16 (by decide) hxf _ (by first | decide | rfl) _ (by first | rfl | decide) _ _ _ j
          | exact chunk_idxv_parts m d (wL L) ⟨6, by decide⟩ 16 (by decide) hxf _ (by first | decide | rfl) _ (by first | rfl | decide) _ _ _ _ _ rfl rfl j
          | exact chunk_idxv_spos m d (wL L) ⟨6, by decide⟩ 16 (by decide) hxf _ (by first | decide | rfl) _ (by first | rfl | decide) _ _ _ (fun j' => Cert.IdxChunk.spos_apply _ (by decide) _ j') j
          | exact chunk_idxv_mul m d (wL L) ⟨6, by decide⟩ 16 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨6, by decide⟩ 32 (by decide) hxf _ (by first | decide | rfl) _ (by first | rfl | decide) _ _ _ j
          | exact chunk_idxv_parts m d (wL L) ⟨6, by decide⟩ 32 (by decide) hxf _ (by first | decide | rfl) _ (by first | rfl | decide) _ _ _ _ _ rfl rfl j
          | exact chunk_idxv_spos m d (wL L) ⟨6, by decide⟩ 32 (by decide) hxf _ (by first | decide | rfl) _ (by first | rfl | decide) _ _ _ (fun j' => Cert.IdxChunk.spos_apply _ (by decide) _ j') j
          | exact chunk_idxv_mul m d (wL L) ⟨6, by decide⟩ 32 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨6, by decide⟩ 48 (by decide) hxf _ (by first | decide | rfl) _ (by first | rfl | decide) _ _ _ j
          | exact chunk_idxv_parts m d (wL L) ⟨6, by decide⟩ 48 (by decide) hxf _ (by first | decide | rfl) _ (by first | rfl | decide) _ _ _ _ _ rfl rfl j
          | exact chunk_idxv_spos m d (wL L) ⟨6, by decide⟩ 48 (by decide) hxf _ (by first | decide | rfl) _ (by first | rfl | decide) _ _ _ (fun j' => Cert.IdxChunk.spos_apply _ (by decide) _ j') j
          | exact chunk_idxv_mul m d (wL L) ⟨6, by decide⟩ 48 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j) _))
  have hin6 : ∀ x, ((Memref.whole cc1_scratch8 : Memref sig .scVector .vmem S64 .i32).view.read (Elt F) (IDXV m d (wL L) ⟨6, by decide⟩) x).toNat < 3200 := idxv_in_8 m d (wL L) ⟨6, by decide⟩
  sl_exec
  ihave Hi7n : ((Memref.whole cc1_scratch9 : Memref sig .scVector .vmem S64 .i32).view.loc (V d (cV L) (jV L)) ↦{fullShare} IDXV m d (wL L) ⟨7, by decide⟩) $$ [Hi7]
  · iclear Hlv Hinv Hmw1 Hmw2
    istop
    exact Entails.of_eq (congrArg (fun f => ((Memref.whole cc1_scratch9 : Memref sig .scVector .vmem S64 .i32).view.loc (V d (cV L) (jV L)) ↦{fullShare} f : sProp 𝕄))
      (idx_writes_9 _ _ _ _ _ _ _ _ (IDXV m d (wL L) ⟨7, by decide⟩)
        (fun j => by
        first
          | exact chunk_idxv m d (wL L) ⟨7, by decide⟩ 0 (by decide) hxf _ (by first | decide | rfl) _ (by first | rfl | decide) _ _ _ j
          | exact chunk_idxv_parts m d (wL L) ⟨7, by decide⟩ 0 (by decide) hxf _ (by first | decide | rfl) _ (by first | rfl | decide) _ _ _ _ _ rfl rfl j
          | exact chunk_idxv_spos m d (wL L) ⟨7, by decide⟩ 0 (by decide) hxf _ (by first | decide | rfl) _ (by first | rfl | decide) _ _ _ (fun j' => Cert.IdxChunk.spos_apply _ (by decide) _ j') j
          | exact chunk_idxv_mul m d (wL L) ⟨7, by decide⟩ 0 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨7, by decide⟩ 16 (by decide) hxf _ (by first | decide | rfl) _ (by first | rfl | decide) _ _ _ j
          | exact chunk_idxv_parts m d (wL L) ⟨7, by decide⟩ 16 (by decide) hxf _ (by first | decide | rfl) _ (by first | rfl | decide) _ _ _ _ _ rfl rfl j
          | exact chunk_idxv_spos m d (wL L) ⟨7, by decide⟩ 16 (by decide) hxf _ (by first | decide | rfl) _ (by first | rfl | decide) _ _ _ (fun j' => Cert.IdxChunk.spos_apply _ (by decide) _ j') j
          | exact chunk_idxv_mul m d (wL L) ⟨7, by decide⟩ 16 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨7, by decide⟩ 32 (by decide) hxf _ (by first | decide | rfl) _ (by first | rfl | decide) _ _ _ j
          | exact chunk_idxv_parts m d (wL L) ⟨7, by decide⟩ 32 (by decide) hxf _ (by first | decide | rfl) _ (by first | rfl | decide) _ _ _ _ _ rfl rfl j
          | exact chunk_idxv_spos m d (wL L) ⟨7, by decide⟩ 32 (by decide) hxf _ (by first | decide | rfl) _ (by first | rfl | decide) _ _ _ (fun j' => Cert.IdxChunk.spos_apply _ (by decide) _ j') j
          | exact chunk_idxv_mul m d (wL L) ⟨7, by decide⟩ 32 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨7, by decide⟩ 48 (by decide) hxf _ (by first | decide | rfl) _ (by first | rfl | decide) _ _ _ j
          | exact chunk_idxv_parts m d (wL L) ⟨7, by decide⟩ 48 (by decide) hxf _ (by first | decide | rfl) _ (by first | rfl | decide) _ _ _ _ _ rfl rfl j
          | exact chunk_idxv_spos m d (wL L) ⟨7, by decide⟩ 48 (by decide) hxf _ (by first | decide | rfl) _ (by first | rfl | decide) _ _ _ (fun j' => Cert.IdxChunk.spos_apply _ (by decide) _ j') j
          | exact chunk_idxv_mul m d (wL L) ⟨7, by decide⟩ 48 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j) _))
  have hin7 : ∀ x, ((Memref.whole cc1_scratch9 : Memref sig .scVector .vmem S64 .i32).view.read (Elt F) (IDXV m d (wL L) ⟨7, by decide⟩) x).toNat < 3200 := idxv_in_9 m d (wL L) ⟨7, by decide⟩
  sl_exec
  ihave Hmw3 := (show levAts (K (F := F)).L (K (F := F)).lev ⊢ Transfers.MayWaits (V d (cV L) (jV L)) (none : HIx 1) O from
    (K (F := F)).mayWaits_none (thr := V d (cV L) (jV L)) hO) $$ Hlv
  rw [bind_assoc]
  sl_for (inv m d L O W) $$ [Hmw3 Hs0n Hg0 Hk0 Hg1 Hk1 Hg2 Hk2 Hg3 Hk3 Hg4 Hk4 Hg5 Hk5 Hg6 Hk6 Hg7 Hk7 Hq0 Hq1 Hq2 Hq3 Hq4 Hq5 Hq6 Hq7 Hdone Htodo HO]
  case region =>
    intro k hk
    exact trip m d L O W hxf k hk
  · unfold inv
    ihave Hsl0 : (∃ fr : Buf (Elt F) ((Memref.whole cc1_scratch10 : Memref sig .scVector .vmem S64x128 .f32).view.loc (V d (cV L) (jV L))), (Transfers.Flight countersEmb (V d (cV L) (jV L)) (SemLoc.dma cc1_scratch18.sem) (default : HIx 1) 262144
      iprop((((Memref.whole cc1_scratch10 : Memref sig .scVector .vmem S64x128 .f32).view.loc (V d (cV L) (jV L)) ↦{fullShare}
            (Memref.whole cc1_scratch10 : Memref sig .scVector .vmem S64x128 .f32).view.writes (Elt F) fr [⟨Rect.whole (cc1_scratch10 : Ref sig .scVector).ty.shape, (SparseCore.gatherPayload gathers_S3200x128_S64x128 (View.read (Elt F) (shW).view (TABS m d (cV L))) (SparseCore.rows (View.read (Elt F) (Memref.whole cc1_scratch2 : Memref sig .scVector .vmem S64 .i32).view (IDXV m d (wL L) (stF (0 * 8 + 0)))) (by decide) (idxv_in_2 m d (wL L) (stF (0 * 8 + 0)))))⟩])
          ∗ ((Memref.whole cc1_scratch2 : Memref sig .scVector .vmem S64 .i32).view.loc (V d (cV L) (jV L)) ↦{fullShare} IDXV m d (wL L) (stF (0 * 8 + 0))))
        ∗ ((shW).view.loc (V d (cV L) (jV L)) ↦[(shW).view.set]{Transfers.shareTokN (Transfers.shareTok fullShare 16 (Fin.cast nSub_eq (jV L))) 3} TABS m d (cV L)))) ∗ ((shW).view.loc (V d (cV L) (jV L)) ↦[(shW).view.set \ (shW).view.set]{Transfers.shareTokN (Transfers.shareTok fullShare 16 (Fin.cast nSub_eq (jV L))) 3} TABS m d (cV L))) $$ [Hg0 Hk0]
    · iclear Hlv Hinv Hmw1 Hmw2 Hmw3
      istop
      exact exists_intro_trans _ (BI.Entails.refl _)
    ihave Hsl1 : (∃ fr : Buf (Elt F) ((Memref.whole cc1_scratch11 : Memref sig .scVector .vmem S64x128 .f32).view.loc (V d (cV L) (jV L))), (Transfers.Flight countersEmb (V d (cV L) (jV L)) (SemLoc.dma cc1_scratch19.sem) (default : HIx 1) 262144
      iprop((((Memref.whole cc1_scratch11 : Memref sig .scVector .vmem S64x128 .f32).view.loc (V d (cV L) (jV L)) ↦{fullShare}
            (Memref.whole cc1_scratch11 : Memref sig .scVector .vmem S64x128 .f32).view.writes (Elt F) fr [⟨Rect.whole (cc1_scratch11 : Ref sig .scVector).ty.shape, (SparseCore.gatherPayload gathers_S3200x128_S64x128 (View.read (Elt F) (shW).view (TABS m d (cV L))) (SparseCore.rows (View.read (Elt F) (Memref.whole cc1_scratch3 : Memref sig .scVector .vmem S64 .i32).view (IDXV m d (wL L) (stF (0 * 8 + 1)))) (by decide) (idxv_in_3 m d (wL L) (stF (0 * 8 + 1)))))⟩])
          ∗ ((Memref.whole cc1_scratch3 : Memref sig .scVector .vmem S64 .i32).view.loc (V d (cV L) (jV L)) ↦{fullShare} IDXV m d (wL L) (stF (0 * 8 + 1))))
        ∗ ((shW).view.loc (V d (cV L) (jV L)) ↦[(shW).view.set]{Transfers.shareTokN (Transfers.shareTok fullShare 16 (Fin.cast nSub_eq (jV L))) 4} TABS m d (cV L)))) ∗ ((shW).view.loc (V d (cV L) (jV L)) ↦[(shW).view.set \ (shW).view.set]{Transfers.shareTokN (Transfers.shareTok fullShare 16 (Fin.cast nSub_eq (jV L))) 4} TABS m d (cV L))) $$ [Hg1 Hk1]
    · iclear Hlv Hinv Hmw1 Hmw2 Hmw3
      istop
      exact exists_intro_trans _ (BI.Entails.refl _)
    ihave Hsl2 : (∃ fr : Buf (Elt F) ((Memref.whole cc1_scratch12 : Memref sig .scVector .vmem S64x128 .f32).view.loc (V d (cV L) (jV L))), (Transfers.Flight countersEmb (V d (cV L) (jV L)) (SemLoc.dma cc1_scratch20.sem) (default : HIx 1) 262144
      iprop((((Memref.whole cc1_scratch12 : Memref sig .scVector .vmem S64x128 .f32).view.loc (V d (cV L) (jV L)) ↦{fullShare}
            (Memref.whole cc1_scratch12 : Memref sig .scVector .vmem S64x128 .f32).view.writes (Elt F) fr [⟨Rect.whole (cc1_scratch12 : Ref sig .scVector).ty.shape, (SparseCore.gatherPayload gathers_S3200x128_S64x128 (View.read (Elt F) (shW).view (TABS m d (cV L))) (SparseCore.rows (View.read (Elt F) (Memref.whole cc1_scratch4 : Memref sig .scVector .vmem S64 .i32).view (IDXV m d (wL L) (stF (0 * 8 + 2)))) (by decide) (idxv_in_4 m d (wL L) (stF (0 * 8 + 2)))))⟩])
          ∗ ((Memref.whole cc1_scratch4 : Memref sig .scVector .vmem S64 .i32).view.loc (V d (cV L) (jV L)) ↦{fullShare} IDXV m d (wL L) (stF (0 * 8 + 2))))
        ∗ ((shW).view.loc (V d (cV L) (jV L)) ↦[(shW).view.set]{Transfers.shareTokN (Transfers.shareTok fullShare 16 (Fin.cast nSub_eq (jV L))) 5} TABS m d (cV L)))) ∗ ((shW).view.loc (V d (cV L) (jV L)) ↦[(shW).view.set \ (shW).view.set]{Transfers.shareTokN (Transfers.shareTok fullShare 16 (Fin.cast nSub_eq (jV L))) 5} TABS m d (cV L))) $$ [Hg2 Hk2]
    · iclear Hlv Hinv Hmw1 Hmw2 Hmw3
      istop
      exact exists_intro_trans _ (BI.Entails.refl _)
    ihave Hsl3 : (∃ fr : Buf (Elt F) ((Memref.whole cc1_scratch13 : Memref sig .scVector .vmem S64x128 .f32).view.loc (V d (cV L) (jV L))), (Transfers.Flight countersEmb (V d (cV L) (jV L)) (SemLoc.dma cc1_scratch21.sem) (default : HIx 1) 262144
      iprop((((Memref.whole cc1_scratch13 : Memref sig .scVector .vmem S64x128 .f32).view.loc (V d (cV L) (jV L)) ↦{fullShare}
            (Memref.whole cc1_scratch13 : Memref sig .scVector .vmem S64x128 .f32).view.writes (Elt F) fr [⟨Rect.whole (cc1_scratch13 : Ref sig .scVector).ty.shape, (SparseCore.gatherPayload gathers_S3200x128_S64x128 (View.read (Elt F) (shW).view (TABS m d (cV L))) (SparseCore.rows (View.read (Elt F) (Memref.whole cc1_scratch5 : Memref sig .scVector .vmem S64 .i32).view (IDXV m d (wL L) (stF (0 * 8 + 3)))) (by decide) (idxv_in_5 m d (wL L) (stF (0 * 8 + 3)))))⟩])
          ∗ ((Memref.whole cc1_scratch5 : Memref sig .scVector .vmem S64 .i32).view.loc (V d (cV L) (jV L)) ↦{fullShare} IDXV m d (wL L) (stF (0 * 8 + 3))))
        ∗ ((shW).view.loc (V d (cV L) (jV L)) ↦[(shW).view.set]{Transfers.shareTokN (Transfers.shareTok fullShare 16 (Fin.cast nSub_eq (jV L))) 6} TABS m d (cV L)))) ∗ ((shW).view.loc (V d (cV L) (jV L)) ↦[(shW).view.set \ (shW).view.set]{Transfers.shareTokN (Transfers.shareTok fullShare 16 (Fin.cast nSub_eq (jV L))) 6} TABS m d (cV L))) $$ [Hg3 Hk3]
    · iclear Hlv Hinv Hmw1 Hmw2 Hmw3
      istop
      exact exists_intro_trans _ (BI.Entails.refl _)
    ihave Hsl4 : (∃ fr : Buf (Elt F) ((Memref.whole cc1_scratch14 : Memref sig .scVector .vmem S64x128 .f32).view.loc (V d (cV L) (jV L))), (Transfers.Flight countersEmb (V d (cV L) (jV L)) (SemLoc.dma cc1_scratch22.sem) (default : HIx 1) 262144
      iprop((((Memref.whole cc1_scratch14 : Memref sig .scVector .vmem S64x128 .f32).view.loc (V d (cV L) (jV L)) ↦{fullShare}
            (Memref.whole cc1_scratch14 : Memref sig .scVector .vmem S64x128 .f32).view.writes (Elt F) fr [⟨Rect.whole (cc1_scratch14 : Ref sig .scVector).ty.shape, (SparseCore.gatherPayload gathers_S3200x128_S64x128 (View.read (Elt F) (shW).view (TABS m d (cV L))) (SparseCore.rows (View.read (Elt F) (Memref.whole cc1_scratch6 : Memref sig .scVector .vmem S64 .i32).view (IDXV m d (wL L) (stF (0 * 8 + 4)))) (by decide) (idxv_in_6 m d (wL L) (stF (0 * 8 + 4)))))⟩])
          ∗ ((Memref.whole cc1_scratch6 : Memref sig .scVector .vmem S64 .i32).view.loc (V d (cV L) (jV L)) ↦{fullShare} IDXV m d (wL L) (stF (0 * 8 + 4))))
        ∗ ((shW).view.loc (V d (cV L) (jV L)) ↦[(shW).view.set]{Transfers.shareTokN (Transfers.shareTok fullShare 16 (Fin.cast nSub_eq (jV L))) 7} TABS m d (cV L)))) ∗ ((shW).view.loc (V d (cV L) (jV L)) ↦[(shW).view.set \ (shW).view.set]{Transfers.shareTokN (Transfers.shareTok fullShare 16 (Fin.cast nSub_eq (jV L))) 7} TABS m d (cV L))) $$ [Hg4 Hk4]
    · iclear Hlv Hinv Hmw1 Hmw2 Hmw3
      istop
      exact exists_intro_trans _ (BI.Entails.refl _)
    ihave Hsl5 : (∃ fr : Buf (Elt F) ((Memref.whole cc1_scratch15 : Memref sig .scVector .vmem S64x128 .f32).view.loc (V d (cV L) (jV L))), (Transfers.Flight countersEmb (V d (cV L) (jV L)) (SemLoc.dma cc1_scratch23.sem) (default : HIx 1) 262144
      iprop((((Memref.whole cc1_scratch15 : Memref sig .scVector .vmem S64x128 .f32).view.loc (V d (cV L) (jV L)) ↦{fullShare}
            (Memref.whole cc1_scratch15 : Memref sig .scVector .vmem S64x128 .f32).view.writes (Elt F) fr [⟨Rect.whole (cc1_scratch15 : Ref sig .scVector).ty.shape, (SparseCore.gatherPayload gathers_S3200x128_S64x128 (View.read (Elt F) (shW).view (TABS m d (cV L))) (SparseCore.rows (View.read (Elt F) (Memref.whole cc1_scratch7 : Memref sig .scVector .vmem S64 .i32).view (IDXV m d (wL L) (stF (0 * 8 + 5)))) (by decide) (idxv_in_7 m d (wL L) (stF (0 * 8 + 5)))))⟩])
          ∗ ((Memref.whole cc1_scratch7 : Memref sig .scVector .vmem S64 .i32).view.loc (V d (cV L) (jV L)) ↦{fullShare} IDXV m d (wL L) (stF (0 * 8 + 5))))
        ∗ ((shW).view.loc (V d (cV L) (jV L)) ↦[(shW).view.set]{Transfers.shareTokN (Transfers.shareTok fullShare 16 (Fin.cast nSub_eq (jV L))) 8} TABS m d (cV L)))) ∗ ((shW).view.loc (V d (cV L) (jV L)) ↦[(shW).view.set \ (shW).view.set]{Transfers.shareTokN (Transfers.shareTok fullShare 16 (Fin.cast nSub_eq (jV L))) 8} TABS m d (cV L))) $$ [Hg5 Hk5]
    · iclear Hlv Hinv Hmw1 Hmw2 Hmw3
      istop
      exact exists_intro_trans _ (BI.Entails.refl _)
    ihave Hsl6 : (∃ fr : Buf (Elt F) ((Memref.whole cc1_scratch16 : Memref sig .scVector .vmem S64x128 .f32).view.loc (V d (cV L) (jV L))), (Transfers.Flight countersEmb (V d (cV L) (jV L)) (SemLoc.dma cc1_scratch24.sem) (default : HIx 1) 262144
      iprop((((Memref.whole cc1_scratch16 : Memref sig .scVector .vmem S64x128 .f32).view.loc (V d (cV L) (jV L)) ↦{fullShare}
            (Memref.whole cc1_scratch16 : Memref sig .scVector .vmem S64x128 .f32).view.writes (Elt F) fr [⟨Rect.whole (cc1_scratch16 : Ref sig .scVector).ty.shape, (SparseCore.gatherPayload gathers_S3200x128_S64x128 (View.read (Elt F) (shW).view (TABS m d (cV L))) (SparseCore.rows (View.read (Elt F) (Memref.whole cc1_scratch8 : Memref sig .scVector .vmem S64 .i32).view (IDXV m d (wL L) (stF (0 * 8 + 6)))) (by decide) (idxv_in_8 m d (wL L) (stF (0 * 8 + 6)))))⟩])
          ∗ ((Memref.whole cc1_scratch8 : Memref sig .scVector .vmem S64 .i32).view.loc (V d (cV L) (jV L)) ↦{fullShare} IDXV m d (wL L) (stF (0 * 8 + 6))))
        ∗ ((shW).view.loc (V d (cV L) (jV L)) ↦[(shW).view.set]{Transfers.shareTokN (Transfers.shareTok fullShare 16 (Fin.cast nSub_eq (jV L))) 9} TABS m d (cV L)))) ∗ ((shW).view.loc (V d (cV L) (jV L)) ↦[(shW).view.set \ (shW).view.set]{Transfers.shareTokN (Transfers.shareTok fullShare 16 (Fin.cast nSub_eq (jV L))) 9} TABS m d (cV L))) $$ [Hg6 Hk6]
    · iclear Hlv Hinv Hmw1 Hmw2 Hmw3
      istop
      exact exists_intro_trans _ (BI.Entails.refl _)
    ihave Hsl7 : (∃ fr : Buf (Elt F) ((Memref.whole cc1_scratch17 : Memref sig .scVector .vmem S64x128 .f32).view.loc (V d (cV L) (jV L))), (Transfers.Flight countersEmb (V d (cV L) (jV L)) (SemLoc.dma cc1_scratch25.sem) (default : HIx 1) 262144
      iprop((((Memref.whole cc1_scratch17 : Memref sig .scVector .vmem S64x128 .f32).view.loc (V d (cV L) (jV L)) ↦{fullShare}
            (Memref.whole cc1_scratch17 : Memref sig .scVector .vmem S64x128 .f32).view.writes (Elt F) fr [⟨Rect.whole (cc1_scratch17 : Ref sig .scVector).ty.shape, (SparseCore.gatherPayload gathers_S3200x128_S64x128 (View.read (Elt F) (shW).view (TABS m d (cV L))) (SparseCore.rows (View.read (Elt F) (Memref.whole cc1_scratch9 : Memref sig .scVector .vmem S64 .i32).view (IDXV m d (wL L) (stF (0 * 8 + 7)))) (by decide) (idxv_in_9 m d (wL L) (stF (0 * 8 + 7)))))⟩])
          ∗ ((Memref.whole cc1_scratch9 : Memref sig .scVector .vmem S64 .i32).view.loc (V d (cV L) (jV L)) ↦{fullShare} IDXV m d (wL L) (stF (0 * 8 + 7))))
        ∗ ((shW).view.loc (V d (cV L) (jV L)) ↦[(shW).view.set]{Transfers.shareTokN (Transfers.shareTok fullShare 16 (Fin.cast nSub_eq (jV L))) 10} TABS m d (cV L)))) ∗ ((shW).view.loc (V d (cV L) (jV L)) ↦[(shW).view.set \ (shW).view.set]{Transfers.shareTokN (Transfers.shareTok fullShare 16 (Fin.cast nSub_eq (jV L))) 10} TABS m d (cV L))) $$ [Hg7 Hk7]
    · iclear Hlv Hinv Hmw1 Hmw2 Hmw3
      istop
      exact exists_intro_trans _ (BI.Entails.refl _)
    isplitr; · iexact Hmw3
    isplitl [Hs0n]; · iexact Hs0n
    isplitl [Hsl0]; · iexact Hsl0
    isplitl [Hsl1]; · iexact Hsl1
    isplitl [Hsl2]; · iexact Hsl2
    isplitl [Hsl3]; · iexact Hsl3
    isplitl [Hsl4]; · iexact Hsl4
    isplitl [Hsl5]; · iexact Hsl5
    isplitl [Hsl6]; · iexact Hsl6
    isplitl [Hsl7]; · iexact Hsl7
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hdone]; · iexact Hdone
    isplitl [Htodo]; · iexact Htodo
    iexists _; isplitr
    swap; · iexact HO
    ipureintro; intro p hp
    simp only [Finset.mem_insert] at hp
    rcases hp with hp | hp | hp | hp
    all_goals first | exact .inl hp | exact .inr (.inl (hp ▸ rfl)) | exact .inr (.inr (hp ▸ rfl))
  have ht : Scf.trips k1_t1_loop.lb k1_t1_loop.ub k1_t1_loop.st = 49 := by decide
  rw [ht]
  iintro %acc HI
  unfold inv
  icases HI with ⟨#Hmw, Hs0, ⟨%fr0, Hg0, Hk0⟩, ⟨%fr1, Hg1, Hk1⟩, ⟨%fr2, Hg2, Hk2⟩, ⟨%fr3, Hg3, Hk3⟩, ⟨%fr4, Hg4, Hk4⟩, ⟨%fr5, Hg5, Hk5⟩, ⟨%fr6, Hg6, Hk6⟩, ⟨%fr7, Hg7, Hk7⟩, Hq0, Hq1, Hq2, Hq3, Hq4, Hq5, Hq6, Hq7, Hdone, Htodo, %W1, %hW1, HO⟩
  ihave Hch := ((out_take (F := F) d (wL L) 49 (by omega) _).1) $$ Htodo
  icases Hch with ⟨Hc0, Hc1, Hc2, Hc3, Hc4, Hc5, Hc6, Hc7, Htodo⟩
  ihave Hc0' : ((oSlE L 0).view.loc (V d (cV L) (jV L)) ↦[(oSlE L 0).view.set]{fullShare} m (outLoc d)) $$ [Hc0]
  · iclear Hlv Hinv Hmw1 Hmw2 Hmw3 Hmw
    istop
    exact Entails.of_eq (pts_oSlE (F := F) d L 0 _).symm
  ihave Hc1' : ((oSlE L 1).view.loc (V d (cV L) (jV L)) ↦[(oSlE L 1).view.set]{fullShare} m (outLoc d)) $$ [Hc1]
  · iclear Hlv Hinv Hmw1 Hmw2 Hmw3 Hmw
    istop
    exact Entails.of_eq (pts_oSlE (F := F) d L 1 _).symm
  ihave Hc2' : ((oSlE L 2).view.loc (V d (cV L) (jV L)) ↦[(oSlE L 2).view.set]{fullShare} m (outLoc d)) $$ [Hc2]
  · iclear Hlv Hinv Hmw1 Hmw2 Hmw3 Hmw
    istop
    exact Entails.of_eq (pts_oSlE (F := F) d L 2 _).symm
  ihave Hc3' : ((oSlE L 3).view.loc (V d (cV L) (jV L)) ↦[(oSlE L 3).view.set]{fullShare} m (outLoc d)) $$ [Hc3]
  · iclear Hlv Hinv Hmw1 Hmw2 Hmw3 Hmw
    istop
    exact Entails.of_eq (pts_oSlE (F := F) d L 3 _).symm
  ihave Hc4' : ((oSlE L 4).view.loc (V d (cV L) (jV L)) ↦[(oSlE L 4).view.set]{fullShare} m (outLoc d)) $$ [Hc4]
  · iclear Hlv Hinv Hmw1 Hmw2 Hmw3 Hmw
    istop
    exact Entails.of_eq (pts_oSlE (F := F) d L 4 _).symm
  ihave Hc5' : ((oSlE L 5).view.loc (V d (cV L) (jV L)) ↦[(oSlE L 5).view.set]{fullShare} m (outLoc d)) $$ [Hc5]
  · iclear Hlv Hinv Hmw1 Hmw2 Hmw3 Hmw
    istop
    exact Entails.of_eq (pts_oSlE (F := F) d L 5 _).symm
  ihave Hc6' : ((oSlE L 6).view.loc (V d (cV L) (jV L)) ↦[(oSlE L 6).view.set]{fullShare} m (outLoc d)) $$ [Hc6]
  · iclear Hlv Hinv Hmw1 Hmw2 Hmw3 Hmw
    istop
    exact Entails.of_eq (pts_oSlE (F := F) d L 6 _).symm
  ihave Hc7' : ((oSlE L 7).view.loc (V d (cV L) (jV L)) ↦[(oSlE L 7).view.set]{fullShare} m (outLoc d)) $$ [Hc7]
  · iclear Hlv Hinv Hmw1 Hmw2 Hmw3 Hmw
    istop
    exact Entails.of_eq (pts_oSlE (F := F) d L 7 _).symm
  sl_exec
  sl_step
  ihave Hd0 : (outLoc d ↦[oChunk (wL L) ⟨49 * 8 + 0, by omega⟩]{fullShare} OUTF m d) $$ [Hc0']
  · iclear Hlv Hinv Hmw1 Hmw2 Hmw3 Hmw
    istop
    exact (Entails.of_eq (pts_oSlE (F := F) d L 0 _)).trans (out_landedE m d L 0 _ _
      ((gather_landed_read m _ _ d (cV L) (wL L) (stF (49 * 8 + 0)) _ _ _).trans (congrArg (ROWSV m d (wL L)) (stF_eq (49 * 8 + 0) (by omega)))))
  ihave Hd1 : (outLoc d ↦[oChunk (wL L) ⟨49 * 8 + 1, by omega⟩]{fullShare} OUTF m d) $$ [Hc1']
  · iclear Hlv Hinv Hmw1 Hmw2 Hmw3 Hmw
    istop
    exact (Entails.of_eq (pts_oSlE (F := F) d L 1 _)).trans (out_landedE m d L 1 _ _
      ((gather_landed_read m _ _ d (cV L) (wL L) (stF (49 * 8 + 1)) _ _ _).trans (congrArg (ROWSV m d (wL L)) (stF_eq (49 * 8 + 1) (by omega)))))
  ihave Hd2 : (outLoc d ↦[oChunk (wL L) ⟨49 * 8 + 2, by omega⟩]{fullShare} OUTF m d) $$ [Hc2']
  · iclear Hlv Hinv Hmw1 Hmw2 Hmw3 Hmw
    istop
    exact (Entails.of_eq (pts_oSlE (F := F) d L 2 _)).trans (out_landedE m d L 2 _ _
      ((gather_landed_read m _ _ d (cV L) (wL L) (stF (49 * 8 + 2)) _ _ _).trans (congrArg (ROWSV m d (wL L)) (stF_eq (49 * 8 + 2) (by omega)))))
  ihave Hd3 : (outLoc d ↦[oChunk (wL L) ⟨49 * 8 + 3, by omega⟩]{fullShare} OUTF m d) $$ [Hc3']
  · iclear Hlv Hinv Hmw1 Hmw2 Hmw3 Hmw
    istop
    exact (Entails.of_eq (pts_oSlE (F := F) d L 3 _)).trans (out_landedE m d L 3 _ _
      ((gather_landed_read m _ _ d (cV L) (wL L) (stF (49 * 8 + 3)) _ _ _).trans (congrArg (ROWSV m d (wL L)) (stF_eq (49 * 8 + 3) (by omega)))))
  ihave Hd4 : (outLoc d ↦[oChunk (wL L) ⟨49 * 8 + 4, by omega⟩]{fullShare} OUTF m d) $$ [Hc4']
  · iclear Hlv Hinv Hmw1 Hmw2 Hmw3 Hmw
    istop
    exact (Entails.of_eq (pts_oSlE (F := F) d L 4 _)).trans (out_landedE m d L 4 _ _
      ((gather_landed_read m _ _ d (cV L) (wL L) (stF (49 * 8 + 4)) _ _ _).trans (congrArg (ROWSV m d (wL L)) (stF_eq (49 * 8 + 4) (by omega)))))
  ihave Hd5 : (outLoc d ↦[oChunk (wL L) ⟨49 * 8 + 5, by omega⟩]{fullShare} OUTF m d) $$ [Hc5']
  · iclear Hlv Hinv Hmw1 Hmw2 Hmw3 Hmw
    istop
    exact (Entails.of_eq (pts_oSlE (F := F) d L 5 _)).trans (out_landedE m d L 5 _ _
      ((gather_landed_read m _ _ d (cV L) (wL L) (stF (49 * 8 + 5)) _ _ _).trans (congrArg (ROWSV m d (wL L)) (stF_eq (49 * 8 + 5) (by omega)))))
  ihave Hd6 : (outLoc d ↦[oChunk (wL L) ⟨49 * 8 + 6, by omega⟩]{fullShare} OUTF m d) $$ [Hc6']
  · iclear Hlv Hinv Hmw1 Hmw2 Hmw3 Hmw
    istop
    exact (Entails.of_eq (pts_oSlE (F := F) d L 6 _)).trans (out_landedE m d L 6 _ _
      ((gather_landed_read m _ _ d (cV L) (wL L) (stF (49 * 8 + 6)) _ _ _).trans (congrArg (ROWSV m d (wL L)) (stF_eq (49 * 8 + 6) (by omega)))))
  ihave Hd7 : (outLoc d ↦[oChunk (wL L) ⟨49 * 8 + 7, by omega⟩]{fullShare} OUTF m d) $$ [Hc7']
  · iclear Hlv Hinv Hmw1 Hmw2 Hmw3 Hmw
    istop
    exact (Entails.of_eq (pts_oSlE (F := F) d L 7 _)).trans (out_landedE m d L 7 _ _
      ((gather_landed_read m _ _ d (cV L) (wL L) (stF (49 * 8 + 7)) _ _ _).trans (congrArg (ROWSV m d (wL L)) (stF_eq (49 * 8 + 7) (by omega)))))
  ihave Hdone' := (out_put (F := F) d (wL L) 49 (by omega) (OUTF m d)) $$ [Hdone Hd0 Hd1 Hd2 Hd3 Hd4 Hd5 Hd6 Hd7]
  · isplitl [Hdone]; · iexact Hdone
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  ihave Hpiece := (out_fin (F := F) d (wL L) (OUTF m d)) $$ Hdone'
  ihave Hshw2 := ((src_toks (F := F) d (cV L) (jV L) _ _).2) $$ [Hk0 Hk1 Hk2 Hk3 Hk4 Hk5 Hk6 Hk7 Hkrest]
  · isplitl [Hk0]; · iexact Hk0
    isplitl [Hk1]; · iexact Hk1
    isplitl [Hk2]; · iexact Hk2
    isplitl [Hk3]; · iexact Hk3
    isplitl [Hk4]; · iexact Hk4
    isplitl [Hk5]; · iexact Hk5
    isplitl [Hk6]; · iexact Hk6
    isplitl [Hk7]; · iexact Hk7
    iexact Hkrest
  unfold tdRes
  isplitl [Hx' Hpiece Ht' Hshw2 Hdrop]
  · isplitl [Hx']
    · iapply (Entails.of_eq (pts_xSl (F := F) d L _)); iexact Hx'
    isplitl [Hpiece]; · iexact Hpiece
    isplitl [Ht']
    · iapply (Entails.of_eq (pts_tSl (F := F) d L _ _)); iexact Ht'
    isplitl [Hshw2]; · iexact Hshw2
    iexact Hdrop
  isplitl [Hs0 Hg0_dst_and Hg1_dst_and Hg2_dst_and Hg3_dst_and Hg4_dst_and Hg5_dst_and Hg6_dst_and Hg7_dst_and Hg0_dst Hg1_dst Hg2_dst Hg3_dst Hg4_dst Hg5_dst Hg6_dst Hg7_dst Hbufs]
  · isplitl [Hs0 Hg0_dst_and Hg1_dst_and Hg2_dst_and Hg3_dst_and Hg4_dst_and Hg5_dst_and Hg6_dst_and Hg7_dst_and Hg0_dst Hg1_dst Hg2_dst Hg3_dst Hg4_dst Hg5_dst Hg6_dst Hg7_dst]
    · isplitl [Hs0]; · iexists _; iexact Hs0
      isplitl [Hg0_dst_and]; · iexists _; iexact Hg0_dst_and
      isplitl [Hg1_dst_and]; · iexists _; iexact Hg1_dst_and
      isplitl [Hg2_dst_and]; · iexists _; iexact Hg2_dst_and
      isplitl [Hg3_dst_and]; · iexists _; iexact Hg3_dst_and
      isplitl [Hg4_dst_and]; · iexists _; iexact Hg4_dst_and
      isplitl [Hg5_dst_and]; · iexists _; iexact Hg5_dst_and
      isplitl [Hg6_dst_and]; · iexists _; iexact Hg6_dst_and
      isplitl [Hg7_dst_and]; · iexists _; iexact Hg7_dst_and
      isplitl [Hg0_dst]; · iexists _; iexact Hg0_dst
      isplitl [Hg1_dst]; · iexists _; iexact Hg1_dst
      isplitl [Hg2_dst]; · iexists _; iexact Hg2_dst
      isplitl [Hg3_dst]; · iexists _; iexact Hg3_dst
      isplitl [Hg4_dst]; · iexists _; iexact Hg4_dst
      isplitl [Hg5_dst]; · iexists _; iexact Hg5_dst
      isplitl [Hg6_dst]; · iexists _; iexact Hg6_dst
      iexists _; iexact Hg7_dst
    iexact Hbufs
  isplitl [Hg0 Hg1 Hg2 Hg3 Hg4 Hg5 Hg6 Hg7 Hq0 Hq1 Hq2 Hq3 Hq4 Hq5 Hq6 Hq7 Hxs Hts Hsemr]
  · isplitl [Hg0 Hg1 Hg2 Hg3 Hg4 Hg5 Hg6 Hg7 Hq0 Hq1 Hq2 Hq3 Hq4 Hq5 Hq6 Hq7 Hxs Hts]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hg7]; · iexact Hg7
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hxs]; · iexact Hxs
      iexact Hts
    iexact Hsemr
  iexists _; isplitr
  swap; · iexact HO
  ipureintro; intro p hp
  simp only [Finset.mem_insert] at hp
  rcases hp with hp | hp | hp | hp | hp | hp | hp | hp | hp | hp | hp | hp | hp | hp | hp | hp | hp
  all_goals first | exact hW1 p hp | exact .inr (.inl (hp ▸ rfl))

end Tile

end Cert.Proof.KI

end
-- ==== Proof.SetupKB.lean ====
/-
  The launch set-up for the word-level kernel program: the configuration the launch theorem sees, the resource
  algebra, the arrays' contents as functions of the launch memory, the pieces the thirty-two tasks work on, the
  subcore barrier's schedule and what the launch handshakes carry.

  Contents. With x the token ids, tok and pos the two tables of the launch memory:
    XF   = x flattened to 819200 ids                       (what the flat id array holds at the call)
    TAB  = the fused table flattened to 3200 rows          (TAB[p·16 + v, d] = tokpad[v, d] · c + pos[p, d])
    OUTF = the rows gathered: OUTF[n, :] = TAB[(n mod 200)·16 + XF[n], :]
  Task (core, sub) has worker number w = sub·2 + core; it owns ids and output rows [w·25600, (w+1)·25600) and
  copies rows [sub·200, (sub+1)·200) of the table into its SparseCore's shared memory.

  The barrier carries the table: a task's arrival at task j's barrier semaphore hands j the j-th of sixteen read
  tokens of the rows that task copied, at TAB's contents; after its own wait a task holds its token of all 3200 rows.
-/
import proofs.«206439_g51874615001410_cont_9to1_m_433_33_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206439_g51874615001410_cont_9to1_m_433_33_alg».proof.Proof.Gen.Kernel
import proofs.«206439_g51874615001410_cont_9to1_m_433_33_alg».proof.Proof.Gen.Kernel.Skeleton
import proofs.«206439_g51874615001410_cont_9to1_m_433_33_alg».proof.Proof.Spec
import proofs.«206439_g51874615001410_cont_9to1_m_433_33_alg».proof.Proof.KSpec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells', the staging cells' of the first stage, the transfers' counters -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
instance EP_landsIn : (EP : Emb UP 𝕄).LandsIn (upEmb : UEmb _ 𝕄) := by unfold EP; infer_instance

/-! ## The launch memory, the arrays and their contents -/

variable (m : (ℓ : Loc nD τ sig) → Buf (Elt F) ℓ) (ρ : Dev nD → PrngReg)

abbrev xLoc (d : Dev nD) : Loc nD τ sig := (SparseCore.T d).loc main_arg0
abbrev tokLoc (d : Dev nD) : Loc nD τ sig := (SparseCore.T d).loc main_arg1
abbrev posLoc (d : Dev nD) : Loc nD τ sig := (SparseCore.T d).loc main_arg2
abbrev tabLoc (d : Dev nD) : Loc nD τ sig := (SparseCore.T d).loc main_v2
abbrev xfLoc (d : Dev nD) : Loc nD τ sig := (SparseCore.T d).loc main_v3
abbrev outLoc (d : Dev nD) : Loc nD τ sig := (SparseCore.T d).loc main_v4
abbrev resLoc (d : Dev nD) : Loc nD τ sig := (SparseCore.T d).loc main_v5

/-- SparseCore `c`'s shared table scratch, as every tile of it addresses it. -/
abbrev shRef (c : Fin τ.nSC) : DevRef τ sig := ⟨.shared, ⟨0, by decide⟩, c⟩
abbrev shLoc (d : Dev nD) (c : Fin τ.nSC) : Loc nD τ sig := (d, shRef c)

variable [FloatOps F] [hK : Cert.Kernel.Facts]

/-- The flattened ids. -/
def XF (d : Dev nD) : Buf (Elt F) (xfLoc d) :=
  shapeCast S819200 (m (xLoc d) : IVec S4096x200 32) hK.shapeCasts_S4096x200_S819200
/-- The padded token table: the fifteen rows, then a row of the float of the integer zero. -/
def TOKPAD (d : Dev nD) : FVec F S16x128 .f32 :=
  pad S16x128 ![0, 0] ![1, 0] ![0, 0] (m (tokLoc d) : FVec F S15x128 .f32) (sitofp .f32 (constantI S_ 32 0#32) : FVec F S_ .f32)
    hK.pads_S15x128_S16x128_010_000 hK.h_S_
/-- The fused table, flattened to 3200 rows. -/
def TAB (d : Dev nD) : Buf (Elt F) (tabLoc d) :=
  shapeCast S3200x128
    (Cert.KSpec.fused (TOKPAD m d) (m (posLoc d) : FVec F S200x128 .f32) hK.shapeCasts_S16x128_S16x128 hK.shapeCasts_S16x128_S1x16x128
      hK.shapeCasts_S200x128_S200x1x128 hK.broadcasts_S1x16x128_S200x16x128 hK.broadcasts_S200x1x128_S200x16x128)
    hK.shapeCasts_S200x16x128_S3200x128
/-- The gathered rows. -/
def OUTF (d : Dev nD) : Buf (Elt F) (outLoc d) := Cert.KSpec.gatherRows (TAB m d) (XF m d)

/-! ## The pieces -/

theorem hdivX : 32 ∣ S819200.size 0 := ⟨25600, rfl⟩
theorem hdivO : 32 ∣ S819200x128.size 0 := ⟨25600, rfl⟩
theorem hdivT : 16 ∣ S3200x128.size 0 := ⟨200, rfl⟩
/-- Worker w's ids, its output rows; task i's rows of the table. -/
abbrev xPiece (w : Fin 32) : Finset S819200.Idx := (Rect.part (s := S819200) (a₀ := 0) hdivX w).set
abbrev oPiece (w : Fin 32) : Finset S819200x128.Idx := (Rect.part (s := S819200x128) (a₀ := 0) hdivO w).set
abbrev tPiece (i : Fin 16) : Finset S3200x128.Idx := (Rect.part (s := S3200x128) (a₀ := 0) hdivT i).set

/-- The worker number of task `i` on core `c`: i·2 + c. -/
def wid (c : Fin 2) (i : Fin 16) : Fin 32 := ⟨i.val * 2 + c.val, by omega⟩

theorem nSub_eq : τ.nSub = 16 := rfl
theorem nSC_eq : τ.nSC = 2 := rfl

/-- The half of the table in HBM that core `c` reads from. -/
def shr (c : Fin 2) : PosShare TreeShare := if c.val = 0 then (fullShare : PosShare TreeShare).left else (fullShare : PosShare TreeShare).right

/-- The table's contents, as the contents of a SparseCore's shared scratch. -/
def TABS (d : Dev nD) (c : Fin τ.nSC) : Buf (Elt F) (shLoc d c) := TAB m d

/-! ## The barrier cells -/

abbrev bcell (d : Dev nD) (c : Fin τ.nSC) (j : Fin τ.nSub) : GSem nD τ sig := (V d c j, .reg sc_bar0)

omit [FloatOps F] hK in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] hK in
@[simp] theorem isBar_bcell (d : Dev nD) (c : Fin τ.nSC) (j : Fin τ.nSub) : isBar (bcell d c j) = true := by simp [isBar]

/-- Task `n`'s rows of the shared table at the read token of task `j`, at the table's contents. -/
abbrev shTok (d : Dev nD) (c : Fin τ.nSC) (n j : Fin 16) : sProp 𝕄 :=
  shLoc d c ↦[tPiece n]{Transfers.shareTok fullShare 16 j} TABS m d c

/-- What the duty named `n` in task `j`'s round hands over. -/
def bPay (g : GSem nD τ sig) (n : ℕ) : sProp 𝕄 :=
  match g with
  | ((d, .scVector c j), _) => if h : n < 16 then shTok m d c ⟨n, h⟩ (Fin.cast nSub_eq j) else iprop(emp)
  | _ => iprop(emp)

/-- One round on each barrier cell: a unit duty per task of the SparseCore, named by its number. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a task owes for the barrier: a unit on every task's cell of its SparseCore, at the call's index. -/
def oxV (d : Dev nD) (c : Fin τ.nSC) : CellTallies nD τ sig (HIx 1) := ∑ j : Fin (grid1.bound 1), tallyAt (bcell d c (j.castLE hsub1)) (some 0) 1

omit [FloatOps F] hK in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] hK in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A task's barrier kit: every cell's invariant of its SparseCore, its duty token in every task's round, that each
    cell has reached round 0, its own position at the origin of its round, and the credit for its round's sixteen units. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

abbrev cC (c : Fin ((K (F := F)).nCore 0)) : Fin 2 := Fin.cast nCore_zero c
abbrev iC (i : Fin ((K (F := F)).nSub 0)) : Fin 16 := Fin.cast nSub_zero i

/-- A task's share of the call's operands before it runs: its ids, its output rows as launched, its rows of the table
    in HBM at its core's half, and its rows of the shared scratch at whatever they hold. -/
def goRes (d : Dev nD) (c : Fin 2) (sc : Fin τ.nSC) (i : Fin 16) : sProp 𝕄 :=
  iprop((xfLoc d ↦[xPiece (wid c i)]{fullShare} XF m d) ∗ (outLoc d ↦[oPiece (wid c i)]{fullShare} m (outLoc d))
    ∗ (tabLoc d ↦[tPiece i]{shr c} TAB m d) ∗ ∃ f, shLoc d sc ↦[tPiece i]{fullShare} f)
/-- and after: its output rows at the gathered rows; of the shared scratch its read token of the whole table and what it
    kept of its own rows. -/
def tdRes (d : Dev nD) (c : Fin 2) (sc : Fin τ.nSC) (i : Fin 16) : sProp 𝕄 :=
  iprop((xfLoc d ↦[xPiece (wid c i)]{fullShare} XF m d) ∗ (outLoc d ↦[oPiece (wid c i)]{fullShare} OUTF m d)
    ∗ (tabLoc d ↦[tPiece i]{shr c} TAB m d)
    ∗ (shLoc d sc ↦{Transfers.shareTok fullShare 16 i} TABS m d sc) ∗ (shLoc d sc ↦[tPiece i]{Transfers.shareDrop fullShare 16} TABS m d sc))

def P : (K (F := F)).Pay (nD := nD) (Val := Elt F) (Name := ℕ) (U := UU) where
  st := fun q d c => match q with
    | 0 => iprop((bigSep Finset.univ fun i : Fin 16 => iprop((xfLoc d ↦[xPiece (wid (cC c) i)]{fullShare} XF m d) ∗ (outLoc d ↦[oPiece (wid (cC c) i)]{fullShare} m (outLoc d))))
        ∗ (tabLoc d ↦{shr (cC c)} TAB m d))
  dn := fun q d c => match q with
    | 0 => iprop((bigSep Finset.univ fun i : Fin 16 => iprop((xfLoc d ↦[xPiece (wid (cC c) i)]{fullShare} XF m d) ∗ (outLoc d ↦[oPiece (wid (cC c) i)]{fullShare} OUTF m d)))
        ∗ (tabLoc d ↦{shr (cC c)} TAB m d))
  go := fun q d c i => match q with | 0 => goRes m d (cC c) (coreOf c) (iC i)
  td := fun q d c i => match q with | 0 => tdRes m d (cC c) (coreOf c) (iC i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => by unfold P; dsimp only; infer_instance
  dn q d c := match q with
    | 0 => by unfold P; dsimp only; infer_instance
  go q d c i := match q with
    | 0 => by unfold P goRes; dsimp only; infer_instance
  td q d c i := match q with
    | 0 => by unfold P tdRes; dsimp only; infer_instance

end Cert.Proof.KB

end
-- ==== Proof.TileResKB.lean ====
/-
  A vector subcore's own storage, item by item: its seventeen scratch buffers (the id scratch, eight index lists,
  eight row buffers) and its eighteen DMA semaphores (eight for the gathers, eight for the copies out, one for the
  id copy, one for the table copy), each taken out of the family the launch deals the task, the others kept aside.
-/
import proofs.«206439_g51874615001410_cont_9to1_m_433_33_alg».proof.Proof.SetupKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The task's scratch buffers, in the order of the kernel's scratch operands. -/
def scrL : List (Ref sig .scVector) :=
  [cc1_scratch0, cc1_scratch2, cc1_scratch3, cc1_scratch4, cc1_scratch5, cc1_scratch6, cc1_scratch7, cc1_scratch8, cc1_scratch9,
   cc1_scratch10, cc1_scratch11, cc1_scratch12, cc1_scratch13, cc1_scratch14, cc1_scratch15, cc1_scratch16, cc1_scratch17]
theorem scrL_nodup : scrL.Nodup := by decide

/-- The task's DMA semaphores: the gathers' eight, the copies-out's eight, the id copy's, the table copy's. -/
def semL : List (DmaSem sig) :=
  [cc1_scratch18.sem, cc1_scratch19.sem, cc1_scratch20.sem, cc1_scratch21.sem, cc1_scratch22.sem, cc1_scratch23.sem, cc1_scratch24.sem, cc1_scratch25.sem,
   cc1_scratch26.sem, cc1_scratch27.sem, cc1_scratch28.sem, cc1_scratch29.sem, cc1_scratch30.sem, cc1_scratch31.sem, cc1_scratch32.sem, cc1_scratch33.sem,
   cc1_scratch34.sem, cc1_scoped0.sem]
theorem semL_nodup : semL.Nodup := by decide

section Tile

variable (d : Dev nD) (c : Fin τ.nSC) (i : Fin τ.nSub)

def scrRefs : List (DevRef τ sig) := scrL.map (Proc.scVector c i).devRef
theorem scrRefs_nodup : (scrRefs c i).Nodup := scrL_nodup.map (Proc.devRef_injective _)
theorem scrRefs_sub : (scrRefs c i).toFinset ⊆ ownRefs (τ := τ) (sig := sig) (.scVector c i) := by
  intro b hb
  obtain ⟨r, hr, rfl⟩ := List.mem_map.mp (List.mem_toFinset.mp hb)
  simp only [scrL, List.mem_cons, List.mem_nil_iff, or_false] at hr
  rcases hr with rfl | rfl | rfl | rfl | rfl | rfl | rfl | rfl | rfl | rfl | rfl | rfl | rfl | rfl | rfl | rfl | rfl <;>
    exact SparseCore.Cfg.mem_ownRefs_of_owner rfl

def semCells : List (GSem nD τ sig) := semL.map fun s => ((V d c i : Thread nD τ), SemLoc.dma s)
theorem semCells_nodup : (semCells d c i).Nodup :=
  semL_nodup.map fun a b e => by injection (Prod.mk.inj e).2
theorem semCells_sub : (semCells d c i).toFinset ⊆ ownCells (V d c i) := by
  intro g hg
  obtain ⟨s, hs, rfl⟩ := List.mem_map.mp (List.mem_toFinset.mp hg)
  refine mem_ownCells.mpr ⟨rfl, ?_⟩
  have h : ∀ s ∈ semL, (SemLoc.dma s : SemLoc sig).isScoped .scVector = true := by decide
  exact h s hs

/-- The task's buffers: the seventeen scratches, each whole at some contents, and the rest. -/
theorem ownBufs_V :
    (ownBufs (V d c i) : sProp 𝕄)
      = iprop((bigSepL (scrRefs c i) fun b => iprop(∃ f, (((V d c i : Thread nD τ).1, b) : Loc nD τ sig) ↦{fullShare} f))
          ∗ bigSep (ownRefs (τ := τ) (.scVector c i) \ (scrRefs c i).toFinset) fun b => iprop(∃ f, (((V d c i : Thread nD τ).1, b) : Loc nD τ sig) ↦{fullShare} f)) := by
  unfold SparseCore.Cfg.ownBufs
  rw [SparseCore.bigSep_sdiff_split' (scrRefs_sub c i), bigSep_eq_bigSepL (scrRefs c i) (scrRefs_nodup c i)]

/-- The task's semaphores: the eighteen DMA semaphores at zero, and the rest. -/
theorem ownSems0_V :
    (ownSems0 (V d c i) : sProp 𝕄)
      = iprop((bigSepL (semCells d c i) fun g => semVal g 0) ∗ bigSep (ownCells (V d c i) \ (semCells d c i).toFinset) fun g => semVal g 0) := by
  unfold SparseCore.Cfg.ownSems0
  rw [SparseCore.bigSep_sdiff_split' (semCells_sub d c i), bigSep_eq_bigSepL (semCells d c i) (semCells_nodup d c i)]

/-- The same, each scratch as the body's whole memref holds it, one after the other. -/
theorem ownBufs_V_chain :
    (ownBufs (V d c i) : sProp 𝕄)
      = iprop(((∃ f, (Memref.whole cc1_scratch0 : Memref sig .scVector .vmem S25600 .i32).view.loc (V d c i) ↦{fullShare} f)
          ∗ (∃ f, (Memref.whole cc1_scratch2 : Memref sig .scVector .vmem S64 .i32).view.loc (V d c i) ↦{fullShare} f)
          ∗ (∃ f, (Memref.whole cc1_scratch3 : Memref sig .scVector .vmem S64 .i32).view.loc (V d c i) ↦{fullShare} f)
          ∗ (∃ f, (Memref.whole cc1_scratch4 : Memref sig .scVector .vmem S64 .i32).view.loc (V d c i) ↦{fullShare} f)
          ∗ (∃ f, (Memref.whole cc1_scratch5 : Memref sig .scVector .vmem S64 .i32).view.loc (V d c i) ↦{fullShare} f)
          ∗ (∃ f, (Memref.whole cc1_scratch6 : Memref sig .scVector .vmem S64 .i32).view.loc (V d c i) ↦{fullShare} f)
          ∗ (∃ f, (Memref.whole cc1_scratch7 : Memref sig .scVector .vmem S64 .i32).view.loc (V d c i) ↦{fullShare} f)
          ∗ (∃ f, (Memref.whole cc1_scratch8 : Memref sig .scVector .vmem S64 .i32).view.loc (V d c i) ↦{fullShare} f)
          ∗ (∃ f, (Memref.whole cc1_scratch9 : Memref sig .scVector .vmem S64 .i32).view.loc (V d c i) ↦{fullShare} f)
          ∗ (∃ f, (Memref.whole cc1_scratch10 : Memref sig .scVector .vmem S64x128 .f32).view.loc (V d c i) ↦{fullShare} f)
          ∗ (∃ f, (Memref.whole cc1_scratch11 : Memref sig .scVector .vmem S64x128 .f32).view.loc (V d c i) ↦{fullShare} f)
          ∗ (∃ f, (Memref.whole cc1_scratch12 : Memref sig .scVector .vmem S64x128 .f32).view.loc (V d c i) ↦{fullShare} f)
          ∗ (∃ f, (Memref.whole cc1_scratch13 : Memref sig .scVector .vmem S64x128 .f32).view.loc (V d c i) ↦{fullShare} f)
          ∗ (∃ f, (Memref.whole cc1_scratch14 : Memref sig .scVector .vmem S64x128 .f32).view.loc (V d c i) ↦{fullShare} f)
          ∗ (∃ f, (Memref.whole cc1_scratch15 : Memref sig .scVector .vmem S64x128 .f32).view.loc (V d c i) ↦{fullShare} f)
          ∗ (∃ f, (Memref.whole cc1_scratch16 : Memref sig .scVector .vmem S64x128 .f32).view.loc (V d c i) ↦{fullShare} f)
          ∗ (∃ f, (Memref.whole cc1_scratch17 : Memref sig .scVector .vmem S64x128 .f32).view.loc (V d c i) ↦{fullShare} f))
          ∗ bigSep (ownRefs (τ := τ) (.scVector c i) \ (scrRefs c i).toFinset) fun b => iprop(∃ f, (((V d c i : Thread nD τ).1, b) : Loc nD τ sig) ↦{fullShare} f)) :=
  (ownBufs_V d c i).trans rfl

/-- The same, each semaphore's counter one after the other. -/
theorem ownSems0_V_chain :
    (ownSems0 (V d c i) : sProp 𝕄)
      = iprop((semVal ((V d c i : Thread nD τ), SemLoc.dma cc1_scratch18.sem) 0
          ∗ semVal ((V d c i : Thread nD τ), SemLoc.dma cc1_scratch19.sem) 0
          ∗ semVal ((V d c i : Thread nD τ), SemLoc.dma cc1_scratch20.sem) 0
          ∗ semVal ((V d c i : Thread nD τ), SemLoc.dma cc1_scratch21.sem) 0
          ∗ semVal ((V d c i : Thread nD τ), SemLoc.dma cc1_scratch22.sem) 0
          ∗ semVal ((V d c i : Thread nD τ), SemLoc.dma cc1_scratch23.sem) 0
          ∗ semVal ((V d c i : Thread nD τ), SemLoc.dma cc1_scratch24.sem) 0
          ∗ semVal ((V d c i : Thread nD τ), SemLoc.dma cc1_scratch25.sem) 0
          ∗ semVal ((V d c i : Thread nD τ), SemLoc.dma cc1_scratch26.sem) 0
          ∗ semVal ((V d c i : Thread nD τ), SemLoc.dma cc1_scratch27.sem) 0
          ∗ semVal ((V d c i : Thread nD τ), SemLoc.dma cc1_scratch28.sem) 0
          ∗ semVal ((V d c i : Thread nD τ), SemLoc.dma cc1_scratch29.sem) 0
          ∗ semVal ((V d c i : Thread nD τ), SemLoc.dma cc1_scratch30.sem) 0
          ∗ semVal ((V d c i : Thread nD τ), SemLoc.dma cc1_scratch31.sem) 0
          ∗ semVal ((V d c i : Thread nD τ), SemLoc.dma cc1_scratch32.sem) 0
          ∗ semVal ((V d c i : Thread nD τ), SemLoc.dma cc1_scratch33.sem) 0
          ∗ semVal ((V d c i : Thread nD τ), SemLoc.dma cc1_scratch34.sem) 0
          ∗ semVal ((V d c i : Thread nD τ), SemLoc.dma cc1_scoped0.sem) 0)
          ∗ bigSep (ownCells (V d c i) \ (semCells d c i).toFinset) fun g => semVal g 0) :=
  (ownSems0_V d c i).trans rfl

end Tile

end Cert.Proof.KB

end
-- ==== Proof.GeomKB.lean ====
/-
  The geometry of the thirty-two tasks: which elements of the flat id array, of the flattened table and of the
  gathered rows each slice of a task's body covers.

  Task L = (core, sub) has worker number w = sub · 2 + core. Its ids and its output rows are rows
  [w · 25600, (w + 1) · 25600); its rows of the table are [sub · 200, (sub + 1) · 200). Its output rows are written
  in 400 chunks of 64 rows: chunk s covers rows [w · 25600 + s · 64, w · 25600 + s · 64 + 64), all 128 columns;
  trip k of the loop writes chunks 8k … 8k + 7 (k < 49) and the code after the loop chunks 392 … 399. The chunks of
  one worker are pairwise disjoint and cover its rows.
-/
import proofs.«206439_g51874615001410_cont_9to1_m_433_33_alg».proof.Proof.SetupKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## A task's coordinates and its worker number -/

theorem bound0 : grid1.bound 0 = 2 := rfl
theorem bound1 : grid1.bound 1 = 16 := rfl
abbrev cL (L : grid1.Coords) : Fin 2 := Fin.cast bound0 (L 0)
abbrev jL (L : grid1.Coords) : Fin 16 := Fin.cast bound1 (L 1)
abbrev wL (L : grid1.Coords) : Fin 32 := wid (cL L) (jL L)

theorem wL_val (L : grid1.Coords) : (wL L).val = (L 1).val * 2 + (L 0).val := rfl

/-- Two unit-stride rectangles with the same offsets and sizes are the same rectangle. -/
theorem unit_congr {s : Shape} {off off' size size' : Fin s.rank → Nat} {inb : ∀ a, off a + size a ≤ s.size a}
    {inb' : ∀ a, off' a + size' a ≤ s.size a} (ho : off = off') (hs : size = size') :
    Rect.unit off size inb = Rect.unit off' size' inb' := by
  subst ho hs; rfl

/-! ## The slices of a task's body -/

abbrev xRect (L : grid1.Coords) : Rect S819200 := Rect.unit (s := S819200) (k1_off1 L) S25600.size (k1_off1_inb L)
abbrev tRect (L : grid1.Coords) : Rect S3200x128 := Rect.unit (s := S3200x128) (k1_off2 L) S200x128.size (k1_off2_inb L)
abbrev oRectT (L : grid1.Coords) (k : Fin k1_t1_loop.trips) (r : Fin 8) : Rect S819200x128 :=
  Rect.unit (s := S819200x128) (k1_off4 L k (BitVec.ofNat 32 r.val)) S64x128.size (k1_off4_inb L k r)
abbrev oRectE (L : grid1.Coords) (r : Fin 8) : Rect S819200x128 :=
  Rect.unit (s := S819200x128) (k1_off6 L (BitVec.ofNat 32 r.val)) S64x128.size (k1_off6_inb L r)

/-- The task's ids in the flat id array. -/
abbrev xSl (L : grid1.Coords) : Memref sig .scVector .hbm S25600 .i32 :=
  (Memref.whole main_v3_scv).slice (xRect L) (fun _ => rfl)
/-- The task's rows of the table, in HBM and in the shared scratch of its core. -/
abbrev tSl (L : grid1.Coords) : Memref sig .scVector .hbm S200x128 .f32 :=
  (Memref.whole main_v2_scv).slice (tRect L) (fun _ => rfl)
abbrev shSl (L : grid1.Coords) : Memref sig .scVector .shared S200x128 .f32 :=
  (Memref.whole cc1_scratch1).slice (tRect L) (fun _ => rfl)
/-- The output chunk of slot r in trip k of the loop, and of slot r after the loop. -/
abbrev oSlT (L : grid1.Coords) (k : Fin k1_t1_loop.trips) (r : Fin 8) : Memref sig .scVector .hbm S64x128 .f32 :=
  (Memref.whole main_v4_scv).slice (oRectT L k r) (fun _ => rfl)
abbrev oSlE (L : grid1.Coords) (r : Fin 8) : Memref sig .scVector .hbm S64x128 .f32 :=
  (Memref.whole main_v4_scv).slice (oRectE L r) (fun _ => rfl)

/-! ## The ids and the table rows -/

theorem xRect_eq (L : grid1.Coords) : xRect L = Rect.part (s := S819200) (a₀ := 0) hdivX (wL L) := by
  have h0 := (L 0).isLt
  have h1 := (L 1).isLt
  refine unit_congr (funext fun a => ?_) (funext fun a => ?_)
  · rw [k1_off1_eq]
    match a with
    | ⟨0, _⟩ =>
      show 51200 * (L 1).val + 25600 * (L 0).val = ((L 1).val * 2 + (L 0).val) * (819200 / 32)
      omega
  · match a with
    | ⟨0, _⟩ => rfl

theorem tRect_eq (L : grid1.Coords) : tRect L = Rect.part (s := S3200x128) (a₀ := 0) hdivT (jL L) := by
  refine unit_congr (funext fun a => ?_) (funext fun a => ?_)
  · rw [k1_off2_eq]
    match a with
    | ⟨0, _⟩ =>
      show 200 * (L 1).val = (L 1).val * (3200 / 16)
      omega
    | ⟨1, _⟩ => rfl
  · match a with
    | ⟨0, _⟩ => rfl
    | ⟨1, _⟩ => rfl

theorem set_xSl (L : grid1.Coords) : (xSl L).view.set = xPiece (wL L) := by
  show ((View.whole (main_v3_scv : Ref sig .scVector)).slice (xRect L)).set = (Rect.part (s := S819200) (a₀ := 0) hdivX (wL L)).set
  rw [View.set_slice_whole, xRect_eq]

theorem set_tSl (L : grid1.Coords) : (tSl L).view.set = tPiece (jL L) := by
  show ((View.whole (main_v2_scv : Ref sig .scVector)).slice (tRect L)).set = (Rect.part (s := S3200x128) (a₀ := 0) hdivT (jL L)).set
  rw [View.set_slice_whole, tRect_eq]

theorem set_shSl (L : grid1.Coords) : (shSl L).view.set = tPiece (jL L) := by
  show ((View.whole (cc1_scratch1 : Ref sig .scVector)).slice (tRect L)).set = (Rect.part (s := S3200x128) (a₀ := 0) hdivT (jL L)).set
  rw [View.set_slice_whole, tRect_eq]

/-! ## The output chunks -/

theorem chunk_inb (w : Fin 32) (s : Fin 400) :
    ∀ a, (![w.val * 25600 + s.val * 64, 0] : Fin 2 → Nat) a + S64x128.size a ≤ S819200x128.size a := by
  have hw := w.isLt
  have hs := s.isLt
  refine Rect.inb₂ ?_ ?_
  · show w.val * 25600 + s.val * 64 + 64 ≤ 819200
    omega
  · show 0 + 128 ≤ 128
    omega

/-- Chunk s of worker w: 64 rows from row w · 25600 + s · 64, all 128 columns. -/
abbrev oChunkRect (w : Fin 32) (s : Fin 400) : Rect S819200x128 :=
  Rect.unit (s := S819200x128) ![w.val * 25600 + s.val * 64, 0] S64x128.size (chunk_inb w s)
def oChunk (w : Fin 32) (s : Fin 400) : Finset S819200x128.Idx := (oChunkRect w s).set

theorem trips_le (k : Fin k1_t1_loop.trips) : k.val < 49 := Nat.lt_of_lt_of_le k.isLt k1_t1_abs.2.1
theorem chunkT_lt (k : Fin k1_t1_loop.trips) (r : Fin 8) : k.val * 8 + r.val < 400 := by
  have := trips_le k; have := r.isLt; omega
theorem chunkE_lt (r : Fin 8) : 392 + r.val < 400 := by
  have := r.isLt; omega

theorem oRectT_eq (L : grid1.Coords) (k : Fin k1_t1_loop.trips) (r : Fin 8) :
    oRectT L k r = oChunkRect (wL L) ⟨k.val * 8 + r.val, chunkT_lt k r⟩ := by
  refine unit_congr (funext fun a => ?_) rfl
  rw [k1_off4_eq]
  match a with
  | ⟨0, _⟩ =>
    show 51200 * (L 1).val + 25600 * (L 0).val + 512 * k.val + 64 * r.val = ((L 1).val * 2 + (L 0).val) * 25600 + (k.val * 8 + r.val) * 64
    omega
  | ⟨1, _⟩ => rfl

theorem oRectE_eq (L : grid1.Coords) (r : Fin 8) :
    oRectE L r = oChunkRect (wL L) ⟨392 + r.val, chunkE_lt r⟩ := by
  refine unit_congr (funext fun a => ?_) rfl
  rw [k1_off6_eq]
  match a with
  | ⟨0, _⟩ =>
    show 51200 * (L 1).val + 25600 * (L 0).val + 64 * r.val + 25088 = ((L 1).val * 2 + (L 0).val) * 25600 + (392 + r.val) * 64
    omega
  | ⟨1, _⟩ => rfl

theorem set_oSlT (L : grid1.Coords) (k : Fin k1_t1_loop.trips) (r : Fin 8) :
    (oSlT L k r).view.set = oChunk (wL L) ⟨k.val * 8 + r.val, chunkT_lt k r⟩ := by
  show ((View.whole (main_v4_scv : Ref sig .scVector)).slice (oRectT L k r)).set = (oChunkRect (wL L) ⟨k.val * 8 + r.val, chunkT_lt k r⟩).set
  rw [View.set_slice_whole, oRectT_eq]

theorem set_oSlE (L : grid1.Coords) (r : Fin 8) :
    (oSlE L r).view.set = oChunk (wL L) ⟨392 + r.val, chunkE_lt r⟩ := by
  show ((View.whole (main_v4_scv : Ref sig .scVector)).slice (oRectE L r)).set = (oChunkRect (wL L) ⟨392 + r.val, chunkE_lt r⟩).set
  rw [View.set_slice_whole, oRectE_eq]

/-! ## The chunks of one worker are disjoint and cover its rows -/

theorem oChunk_disjoint (w : Fin 32) :
    ∀ s ∈ (Finset.univ : Finset (Fin 400)), ∀ s' ∈ (Finset.univ : Finset (Fin 400)), s ≠ s' → Disjoint (oChunk w s) (oChunk w s') := by
  intro s _ s' _ h
  have hne : s.val ≠ s'.val := fun e => h (Fin.ext e)
  show Disjoint (oChunkRect w s).set (oChunkRect w s').set
  refine Rect.unit_disjoint (0 : Fin 2) ?_
  show w.val * 25600 + s.val * 64 + 64 ≤ w.val * 25600 + s'.val * 64 ∨ w.val * 25600 + s'.val * 64 + 64 ≤ w.val * 25600 + s.val * 64
  omega

/-- Membership in a chunk, in numbers. -/
theorem mem_oChunk (w : Fin 32) (s : Fin 400) (i : S819200x128.Idx) :
    i ∈ oChunk w s ↔ w.val * 25600 + s.val * 64 ≤ (i 0).val ∧ (i 0).val < w.val * 25600 + s.val * 64 + 64 := by
  show i ∈ (oChunkRect w s).set ↔ _
  rw [Rect.mem_set_unit]
  constructor
  · intro h; exact h 0
  · intro h a
    match a with
    | ⟨0, _⟩ => exact h
    | ⟨1, _⟩ =>
      have h1 : (i 1).val < 128 := (i 1).isLt
      show 0 ≤ (i 1).val ∧ (i 1).val < 0 + 128
      omega

/-- Membership in a worker's rows, in numbers. -/
theorem mem_oPiece (w : Fin 32) (i : S819200x128.Idx) :
    i ∈ oPiece w ↔ w.val * 25600 ≤ (i 0).val ∧ (i 0).val < w.val * 25600 + 25600 := by
  show i ∈ (Rect.part (s := S819200x128) (a₀ := 0) hdivO w).set ↔ _
  rw [Rect.mem_set_unit]
  constructor
  · intro h
    have h0 := h 0
    change w.val * (819200 / 32) ≤ (i 0).val ∧ (i 0).val < w.val * (819200 / 32) + 819200 / 32 at h0
    omega
  · intro h a
    match a with
    | ⟨0, _⟩ =>
      show w.val * (819200 / 32) ≤ (i 0).val ∧ (i 0).val < w.val * (819200 / 32) + 819200 / 32
      omega
    | ⟨1, _⟩ =>
      have h1 : (i 1).val < 128 := (i 1).isLt
      show 0 * 128 ≤ (i 1).val ∧ (i 1).val < 0 * 128 + 128
      omega

theorem oChunk_cover (w : Fin 32) : (Finset.univ : Finset (Fin 400)).biUnion (oChunk w) = oPiece w := by
  ext i
  rw [mem_oPiece]
  simp only [Finset.mem_biUnion, Finset.mem_univ, true_and]
  constructor
  · intro hex
    obtain ⟨s, hs⟩ := hex
    have hs4 : s.val < 400 := s.isLt
    have hs' := (mem_oChunk w s i).mp hs
    clear hs
    generalize w.val * 25600 = W at hs' ⊢
    omega
  · intro h
    -- the chunk is the one the row's offset inside the worker's rows, divided by 64, names
    have key : ((i 0).val - w.val * 25600) / 64 < 400
        ∧ (w.val * 25600 + ((i 0).val - w.val * 25600) / 64 * 64 ≤ (i 0).val
          ∧ (i 0).val < w.val * 25600 + ((i 0).val - w.val * 25600) / 64 * 64 + 64) := by
      generalize w.val * 25600 = W at h ⊢
      omega
    exact ⟨⟨_, key.1⟩, (mem_oChunk w ⟨_, key.1⟩ i).mpr key.2⟩

/-- A worker's output rows held whole are its 400 chunks held one by one. -/
theorem out_chunks (d : Dev nD) (w : Fin 32) (f : Buf (Elt F) (outLoc d)) :
    (outLoc d ↦[oPiece w]{fullShare} f : sProp 𝕄) = bigSep Finset.univ fun s : Fin 400 => outLoc d ↦[oChunk w s]{fullShare} f := by
  rw [← pointsTo_biUnion Finset.univ (ℓ := outLoc d) (oChunk w) (oChunk_disjoint w), oChunk_cover]

/-! ## Where a slice's own index sits in its array -/

theorem xrow_lt (w : Fin 32) (n : Nat) (hn : n < 25600) : w.val * 25600 + n < 819200 := by
  have := w.isLt; omega
theorem trow_lt (j : Fin 16) (n : Nat) (hn : n < 200) : j.val * 200 + n < 3200 := by
  have := j.isLt; omega
theorem orow_lt (w : Fin 32) (s : Fin 400) (n : Nat) (hn : n < 64) : w.val * 25600 + s.val * 64 + n < 819200 := by
  have := w.isLt; have := s.isLt; omega

theorem emb_xSl (L : grid1.Coords) (y : S25600.Idx) :
    (xSl L).view.emb y = ix1 (⟨(wL L).val * 25600 + (y 0).val, xrow_lt (wL L) _ (y 0).isLt⟩ : Fin 819200) := by
  have h0 : k1_off1 L 0 = 51200 * (L 1).val + 25600 * (L 0).val := by rw [k1_off1_eq]; rfl
  funext a
  match a with
  | ⟨0, _⟩ =>
    refine Fin.ext ?_
    show k1_off1 L 0 + 1 * (y 0).val = ((L 1).val * 2 + (L 0).val) * 25600 + (y 0).val
    rw [h0]; omega

theorem emb_tRect (L : grid1.Coords) (y : S200x128.Idx) :
    (tRect L).emb y = ix2 (⟨(jL L).val * 200 + (y 0).val, trow_lt (jL L) _ (y 0).isLt⟩ : Fin 3200) (⟨(y 1).val, (y 1).isLt⟩ : Fin 128) := by
  have h0 : k1_off2 L 0 = 200 * (L 1).val := by rw [k1_off2_eq]; rfl
  have h1 : k1_off2 L 1 = 0 := by rw [k1_off2_eq]; rfl
  funext a
  match a with
  | ⟨0, _⟩ =>
    refine Fin.ext ?_
    show k1_off2 L 0 + 1 * (y 0).val = (L 1).val * 200 + (y 0).val
    rw [h0]; omega
  | ⟨1, _⟩ =>
    refine Fin.ext ?_
    show k1_off2 L 1 + 1 * (y 1).val = (y 1).val
    rw [h1]; omega

theorem emb_tSl (L : grid1.Coords) (y : S200x128.Idx) :
    (tSl L).view.emb y = ix2 (⟨(jL L).val * 200 + (y 0).val, trow_lt (jL L) _ (y 0).isLt⟩ : Fin 3200) (⟨(y 1).val, (y 1).isLt⟩ : Fin 128) :=
  emb_tRect L y

theorem emb_shSl (L : grid1.Coords) (y : S200x128.Idx) :
    (shSl L).view.emb y = ix2 (⟨(jL L).val * 200 + (y 0).val, trow_lt (jL L) _ (y 0).isLt⟩ : Fin 3200) (⟨(y 1).val, (y 1).isLt⟩ : Fin 128) :=
  emb_tRect L y

theorem emb_oSlT (L : grid1.Coords) (k : Fin k1_t1_loop.trips) (r : Fin 8) (y : S64x128.Idx) :
    (oSlT L k r).view.emb y
      = ix2 (⟨(wL L).val * 25600 + (k.val * 8 + r.val) * 64 + (y 0).val, orow_lt (wL L) ⟨k.val * 8 + r.val, chunkT_lt k r⟩ _ (y 0).isLt⟩ : Fin 819200)
          (⟨(y 1).val, (y 1).isLt⟩ : Fin 128) := by
  have h0 : k1_off4 L k (BitVec.ofNat 32 r.val) 0 = 51200 * (L 1).val + 25600 * (L 0).val + 512 * k.val + 64 * r.val := by
    rw [k1_off4_eq]; rfl
  have h1 : k1_off4 L k (BitVec.ofNat 32 r.val) 1 = 0 := by rw [k1_off4_eq]; rfl
  funext a
  match a with
  | ⟨0, _⟩ =>
    refine Fin.ext ?_
    show k1_off4 L k (BitVec.ofNat 32 r.val) 0 + 1 * (y 0).val = ((L 1).val * 2 + (L 0).val) * 25600 + (k.val * 8 + r.val) * 64 + (y 0).val
    rw [h0]; omega
  | ⟨1, _⟩ =>
    refine Fin.ext ?_
    show k1_off4 L k (BitVec.ofNat 32 r.val) 1 + 1 * (y 1).val = (y 1).val
    rw [h1]; omega

theorem emb_oSlE (L : grid1.Coords) (r : Fin 8) (y : S64x128.Idx) :
    (oSlE L r).view.emb y
      = ix2 (⟨(wL L).val * 25600 + (392 + r.val) * 64 + (y 0).val, orow_lt (wL L) ⟨392 + r.val, chunkE_lt r⟩ _ (y 0).isLt⟩ : Fin 819200)
          (⟨(y 1).val, (y 1).isLt⟩ : Fin 128) := by
  have h0 : k1_off6 L (BitVec.ofNat 32 r.val) 0 = 51200 * (L 1).val + 25600 * (L 0).val + 64 * r.val + 25088 := by
    rw [k1_off6_eq]; rfl
  have h1 : k1_off6 L (BitVec.ofNat 32 r.val) 1 = 0 := by rw [k1_off6_eq]; rfl
  funext a
  match a with
  | ⟨0, _⟩ =>
    refine Fin.ext ?_
    show k1_off6 L (BitVec.ofNat 32 r.val) 0 + 1 * (y 0).val = ((L 1).val * 2 + (L 0).val) * 25600 + (392 + r.val) * 64 + (y 0).val
    rw [h0]; omega
  | ⟨1, _⟩ =>
    refine Fin.ext ?_
    show k1_off6 L (BitVec.ofNat 32 r.val) 1 + 1 * (y 1).val = (y 1).val
    rw [h1]; omega

end Cert.Proof.KB

end
-- ==== Proof.SplitKB.lean ====
/-
  How one SparseCore's operands split among its sixteen tasks, and how its results gather from theirs.

  Before the tasks run the sequencer holds, of the call's operands: the ids and the output rows of its sixteen workers,
  its half share of the table in HBM, and (among its own buffers) the shared scratch whole at some contents.  Each task
  is handed its worker's ids and output rows, its 200 rows of the table in HBM at that half share, and its 200 rows of
  the shared scratch.  After the tasks the shared scratch comes back as sixteen read tokens of the whole table (one per
  task) and, per task, the remainder share of its own 200 rows, all at the table's contents: the remainders join to the
  remainder share of the whole scratch, and remainder and tokens compose to the full share.
-/
import proofs.«206439_g51874615001410_cont_9to1_m_433_33_alg».proof.Proof.SetupKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The table's sixteen blocks of rows are pairwise disjoint and cover it -/

theorem tPiece_disjoint : ∀ i ∈ (Finset.univ : Finset (Fin 16)), ∀ j ∈ (Finset.univ : Finset (Fin 16)), i ≠ j → Disjoint (tPiece i) (tPiece j) :=
  fun _ _ _ _ h => Rect.part_disjoint hdivT h

theorem tPiece_cover : (Finset.univ : Finset (Fin 16)).biUnion tPiece = Finset.univ := Rect.biUnion_part hdivT

/-- The table in HBM at a share is its sixteen blocks of rows at that share. -/
theorem tab_rows (d : Dev nD) (q : PosShare TreeShare) (f : Buf (Elt F) (tabLoc d)) :
    (tabLoc d ↦{q} f : sProp 𝕄) = bigSep Finset.univ fun i : Fin 16 => tabLoc d ↦[tPiece i]{q} f := by
  rw [← pointsTo_biUnion Finset.univ (ℓ := tabLoc d) tPiece tPiece_disjoint, tPiece_cover]; try rfl

/-- The same for a SparseCore's shared scratch. -/
theorem sh_rows (d : Dev nD) (c : Fin τ.nSC) (q : PosShare TreeShare) (f : Buf (Elt F) (shLoc d c)) :
    (shLoc d c ↦{q} f : sProp 𝕄) = bigSep Finset.univ fun i : Fin 16 => shLoc d c ↦[tPiece i]{q} f := by
  rw [← pointsTo_biUnion Finset.univ (ℓ := shLoc d c) tPiece tPiece_disjoint, tPiece_cover]; try rfl

/-- A family over the call's tasks is the family over sixteen. -/
theorem bigSep_tasks (Φ : Fin 16 → sProp 𝕄) :
    (bigSep Finset.univ fun i : Fin ((K (F := F)).nSub 0) => Φ (iC i)) = bigSep Finset.univ Φ :=
  bigSep_congr fun _ _ => congrArg Φ (Fin.ext rfl)

/-- The shared scratch is among the sequencer's own buffers: it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

variable [FloatOps F] [hK : Cert.Kernel.Facts]

/-- The remainders of the sixteen blocks and the sixteen read tokens are the shared scratch whole, at the table. -/
theorem sh_join (d : Dev nD) (c : Fin τ.nSC) :
    iprop((bigSep Finset.univ fun i : Fin 16 => shLoc d c ↦{Transfers.shareTok fullShare 16 i} TABS m d c)
      ∗ (bigSep Finset.univ fun i : Fin 16 => shLoc d c ↦[tPiece i]{Transfers.shareDrop fullShare 16} TABS m d c))
      ⊢ (iprop(∃ f, shLoc d c ↦{fullShare} f) : sProp 𝕄) := by
  rw [← sh_rows d c (Transfers.shareDrop fullShare 16) (TABS m d c)]
  iintro ⟨Htok, Hdrop⟩
  iexists TABS m d c
  iapply (Transfers.pointsTo_toks_join (ℓ := shLoc d c) (S := Finset.univ) (f := TABS m d c) fullShare 16)
  isplitl [Hdrop]; · iexact Hdrop
  iexact Htok

theorem vecSplit : (K (F := F)).VecSplit (P m) 0 := by
  intro d c
  show iprop(iprop((bigSep Finset.univ fun i : Fin 16 => iprop((xfLoc d ↦[xPiece (wid (cC c) i)]{fullShare} XF m d) ∗ (outLoc d ↦[oPiece (wid (cC c) i)]{fullShare} m (outLoc d))))
        ∗ (tabLoc d ↦{shr (cC c)} TAB m d)) ∗ ownBufs (S d (coreOf c)))
    ⊢ |={Set.univ}=> iprop((bigSep Finset.univ fun i : Fin ((K (F := F)).nSub 0) => goRes m d (cC c) (coreOf c) (iC i))
      ∗ ((bigSep Finset.univ fun i : Fin ((K (F := F)).nSub 0) => tdRes m d (cC c) (coreOf c) (iC i))
        -∗ iprop(iprop((bigSep Finset.univ fun i : Fin 16 => iprop((xfLoc d ↦[xPiece (wid (cC c) i)]{fullShare} XF m d) ∗ (outLoc d ↦[oPiece (wid (cC c) i)]{fullShare} OUTF m d)))
            ∗ (tabLoc d ↦{shr (cC c)} TAB m d)) ∗ ownBufs (S d (coreOf c)))))
  rw [bigSep_tasks (F := F) (fun i => goRes m d (cC c) (coreOf c) i), bigSep_tasks (F := F) (fun i => tdRes m d (cC c) (coreOf c) i)]
  unfold goRes tdRes
  simp only [bigSep_sep']
  rw [ownBufs_S, tab_rows]
  iintro ⟨⟨⟨Hx, Ho⟩, Ht⟩, ⟨%fsh, Hsh⟩, Hrest⟩; imodintro
  isplitl [Hx Ho Ht Hsh]
  · isplitl [Hx]; · iexact Hx
    isplitl [Ho]; · iexact Ho
    isplitl [Ht]; · iexact Ht
    ihave Hsh' := ((Entails.of_eq (sh_rows d (coreOf c) fullShare fsh)).trans (SparseCore.ent (bigSep_mono (Φ := fun i => (shLoc d (coreOf c) ↦[tPiece i]{fullShare} fsh : sProp 𝕄))
      (Ψ := fun i => iprop(∃ f, shLoc d (coreOf c) ↦[tPiece i]{fullShare} f))
      fun i _ => BI.BIClass.exists_intro (Φ := fun f => (shLoc d (coreOf c) ↦[tPiece i]{fullShare} f : sProp 𝕄)) fsh))) $$ Hsh
    iexact Hsh'
  iintro ⟨Hx, Ho, Ht, Htok, Hdrop⟩
  isplitl [Hx Ho Ht]
  · isplitl [Hx Ho]
    · isplitl [Hx]; · iexact Hx
      iexact Ho
    iexact Ht
  isplitl [Htok Hdrop]
  · iapply (sh_join m d (coreOf c)); isplitl [Htok]; · iexact Htok
    iexact Hdrop
  iexact Hrest

end Cert.Proof.KB

end
-- ==== Proof.BarrierKB.lean ====
/-
  The table across the subcore barrier.

  Before a task arrives at the barrier it holds its own 200 rows of its SparseCore's shared table whole, at the table's
  contents.  It cuts that share into sixteen read tokens and a remainder: token j is the payload of its duty in task
  j's round, the remainder it keeps.  After its own wait it has received, from each of the sixteen tasks n, read token
  (its own number) of task n's rows; the sixteen blocks of rows cover the table, so together they are its read token
  of the whole shared table.
-/
import proofs.«206439_g51874615001410_cont_9to1_m_433_33_alg».proof.Proof.SplitKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F] [hK : Cert.Kernel.Facts]

theorem gridBound1 : grid1.bound 1 = 16 := rfl

/-- A family over the tasks of the grid is the family over sixteen. -/
theorem bigSep_grid (Φ : Fin 16 → sProp 𝕄) :
    (bigSep Finset.univ fun j : Fin (grid1.bound 1) => Φ (Fin.cast gridBound1 j)) = bigSep Finset.univ Φ :=
  bigSep_congr fun _ _ => congrArg Φ (Fin.ext rfl)

/-- and one over the tasks of a SparseCore likewise. -/
theorem bigSep_subs (Φ : Fin 16 → sProp 𝕄) :
    (bigSep Finset.univ fun n : Fin τ.nSub => Φ (Fin.cast nSub_eq n)) = bigSep Finset.univ Φ :=
  bigSep_congr fun _ _ => congrArg Φ (Fin.ext rfl)

/-- What the duty named by task i hands over in task j's round: task i's rows at read token j. -/
theorem payload_eq (d : Dev nD) (c : Fin τ.nSC) (j i : Fin τ.nSub) :
    (bRd (F := F) m).payload (bcell d c j) 0 i.val
      = (shLoc d c ↦[tPiece (Fin.cast nSub_eq i)]{Transfers.shareTok fullShare 16 (Fin.cast nSub_eq j)} TABS m d c : sProp 𝕄) := by
  show bPay m (bcell d c j) i.val = _
  unfold bPay
  show (if h : i.val < 16 then shTok m d c ⟨i.val, h⟩ (Fin.cast nSub_eq j) else iprop(emp)) = _
  rw [dif_pos (show i.val < 16 from i.isLt)]
  rfl

theorem barrier_pay (d : Dev nD) (c : Fin τ.nSC) (i : Fin τ.nSub) :
    iprop((bigSep Finset.univ fun j : Fin (grid1.bound 1) => dutyTok EB (bcell d c (j.castLE hsub1)) 0 i.val)
        ∗ (bigSep Finset.univ fun j : Fin (grid1.bound 1) => reached EB (bcell d c (j.castLE hsub1)) 0)
        ∗ (shLoc d c ↦[tPiece (Fin.cast nSub_eq i)]{fullShare} TABS m d c))
      ⊢ (iprop((bigSep Finset.univ fun j : Fin (grid1.bound 1) => iprop(dutyTok EB (bcell d c (j.castLE hsub1)) 0 i.val
              ∗ (bRd (F := F) m).payload (bcell d c (j.castLE hsub1)) 0 i.val ∗ reached EB (bcell d c (j.castLE hsub1)) 0))
          ∗ (shLoc d c ↦[tPiece (Fin.cast nSub_eq i)]{Transfers.shareDrop fullShare 16} TABS m d c)) : sProp 𝕄) := by
  have hpay : (bigSep Finset.univ fun j : Fin (grid1.bound 1) => (bRd (F := F) m).payload (bcell d c (j.castLE hsub1)) 0 i.val)
      = bigSep Finset.univ fun j : Fin 16 => (shLoc d c ↦[tPiece (Fin.cast nSub_eq i)]{Transfers.shareTok fullShare 16 j} TABS m d c : sProp 𝕄) := by
    rw [← bigSep_grid (F := F) (fun j => (shLoc d c ↦[tPiece (Fin.cast nSub_eq i)]{Transfers.shareTok fullShare 16 j} TABS m d c : sProp 𝕄))]
    exact bigSep_congr fun j _ => payload_eq m d c (j.castLE hsub1) i
  rw [bigSep_sep', bigSep_sep', hpay]
  iintro ⟨Htok, Hr, Hsh⟩
  ihave H := (Transfers.pointsTo_toks_split (ℓ := shLoc d c) (S := tPiece (Fin.cast nSub_eq i)) (f := TABS m d c) fullShare 16) $$ Hsh
  icases H with ⟨Hdrop, Hpays⟩
  isplitr [Hdrop]
  · isplitl [Htok]; · iexact Htok
    isplitl [Hpays]; · iexact Hpays
    iexact Hr
  iexact Hdrop

theorem barrier_get (d : Dev nD) (c : Fin τ.nSC) (i : Fin τ.nSub) :
    (bigSep ((bRd (F := F) m).duties (bcell d c i) 0 \ ∅) fun n => (bRd (F := F) m).payload (bcell d c i) 0 n)
      ⊢ (shLoc d c ↦{Transfers.shareTok fullShare 16 (Fin.cast nSub_eq i)} TABS m d c : sProp 𝕄) := by
  rw [Finset.sdiff_empty, bRd_duties₀ m d c i, SparseCore.bigSep_image_of_injOn (fun a _ b _ e => Fin.val_injective e),
    sh_rows d c (Transfers.shareTok fullShare 16 (Fin.cast nSub_eq i)) (TABS m d c),
    ← bigSep_subs (F := F) (fun n => (shLoc d c ↦[tPiece n]{Transfers.shareTok fullShare 16 (Fin.cast nSub_eq i)} TABS m d c : sProp 𝕄))]
  exact Entails.of_eq (bigSep_congr fun n _ => payload_eq m d c i n)

end Cert.Proof.KB

end
-- ==== Proof.BookKB.lean ====
/-
  The bookkeeping of a task's shares and chunks.

  A. The gathers read the whole shared table.  A share q of it is cut into eleven read tokens and a remainder; the
     eight gathers' transfers complete on the cells numbered 3 to 10, and each is lent the token of its cell's number,
     so tokens 3 to 10 are held over the table as the body addresses it, and the remainder with tokens 0, 1, 2 is set
     aside.
  B. A worker's 25600 output rows are 400 chunks of 64 rows.  After k groups of eight chunks, chunks below 8k are done
     and chunks from 8k on are still to do; a group takes its eight chunks out of the to-do part and puts them into
     the done part.  Nothing is done at the start, and after fifty groups the done part is all the worker's rows.
-/
import proofs.«206439_g51874615001410_cont_9to1_m_433_33_alg».proof.Proof.GeomKB
import proofs.«206439_g51874615001410_cont_9to1_m_433_33_alg».proof.Proof.SplitKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F] [hK : Cert.Kernel.Facts]

/-! ## A. The gathers' source -/

/-- The whole shared table, as the body addresses it at every gather: the whole scratch sliced at the origin to its full size. -/
abbrev shW : Memref sig .scVector .shared S3200x128 .f32 :=
  (Memref.whole cc1_scratch1).slice (Rect.unit (s := S3200x128) ![0, 0] S3200x128.size hK.inb_S3200x128_S3200x128_0_0) (fun _ => rfl)

theorem set_shW : (shW).view.set = Finset.univ := by
  show ((View.whole (cc1_scratch1 : Ref sig .scVector)).slice (Rect.unit (s := S3200x128) ![0, 0] S3200x128.size hK.inb_S3200x128_S3200x128_0_0)).set = _
  rw [View.set_slice_whole]
  ext i
  simp only [Finset.mem_univ, iff_true]
  rw [Rect.mem_set_unit]
  intro a
  match a with
  | ⟨0, _⟩ =>
    have h0 : (i 0).val < 3200 := (i 0).isLt
    show 0 ≤ (i 0).val ∧ (i 0).val < 0 + 3200
    omega
  | ⟨1, _⟩ =>
    have h1 : (i 1).val < 128 := (i 1).isLt
    show 0 ≤ (i 1).val ∧ (i 1).val < 0 + 128
    omega

/-- Held over the table as the body addresses it is held over the shared scratch whole. -/
theorem pts_shW (d : Dev nD) (c : Fin τ.nSC) (i : Fin τ.nSub) (q : PosShare TreeShare) (f : Buf (Elt F) (shLoc d c)) :
    ((shW).view.loc (V d c i) ↦[(shW).view.set]{q} f : sProp 𝕄) = (shLoc d c ↦{q} f) := by
  rw [set_shW]; rfl

/-- What is set aside of a share of the shared table while the gathers run: the remainder after eleven tokens, and tokens 0, 1, 2. -/
def srcRest (d : Dev nD) (c : Fin τ.nSC) (q : PosShare TreeShare) (f : Buf (Elt F) (shLoc d c)) : sProp 𝕄 :=
  iprop((shLoc d c ↦{Transfers.shareDrop q 11} f) ∗ (shLoc d c ↦{Transfers.shareTokN q 0} f) ∗ (shLoc d c ↦{Transfers.shareTokN q 1} f)
    ∗ (shLoc d c ↦{Transfers.shareTokN q 2} f))

theorem range11 : Finset.range 11 = ([3, 4, 5, 6, 7, 8, 9, 10, 0, 1, 2] : List ℕ).toFinset := by decide

theorem src_toks (d : Dev nD) (c : Fin τ.nSC) (i : Fin τ.nSub) (q : PosShare TreeShare) (f : Buf (Elt F) (shLoc d c)) :
    (shLoc d c ↦{q} f : sProp 𝕄) ⊣⊢ iprop(((shW).view.loc (V d c i) ↦[(shW).view.set]{Transfers.shareTokN q 3} f)
      ∗ ((shW).view.loc (V d c i) ↦[(shW).view.set]{Transfers.shareTokN q 4} f)
      ∗ ((shW).view.loc (V d c i) ↦[(shW).view.set]{Transfers.shareTokN q 5} f)
      ∗ ((shW).view.loc (V d c i) ↦[(shW).view.set]{Transfers.shareTokN q 6} f)
      ∗ ((shW).view.loc (V d c i) ↦[(shW).view.set]{Transfers.shareTokN q 7} f)
      ∗ ((shW).view.loc (V d c i) ↦[(shW).view.set]{Transfers.shareTokN q 8} f)
      ∗ ((shW).view.loc (V d c i) ↦[(shW).view.set]{Transfers.shareTokN q 9} f)
      ∗ ((shW).view.loc (V d c i) ↦[(shW).view.set]{Transfers.shareTokN q 10} f)
      ∗ srcRest d c q f) := by
  have e : ∀ q', ((shW).view.loc (V d c i) ↦[(shW).view.set]{q'} f : sProp 𝕄) = (shLoc d c ↦{q'} f) := fun q' => pts_shW d c i q' f
  rw [e, e, e, e, e, e, e, e]
  unfold srcRest
  have h : (shLoc d c ↦{q} f : sProp 𝕄) ⊣⊢ iprop((shLoc d c ↦{Transfers.shareDrop q 11} f)
      ∗ BI.bigSep (Finset.range 11) (fun n => (shLoc d c ↦{Transfers.shareTokN q n} f : sProp 𝕄))) := Transfers.pointsTo_toks_range q 11
  rw [bigSep_eq_bigSepL_of_eq ([3, 4, 5, 6, 7, 8, 9, 10, 0, 1, 2] : List ℕ) range11 (by decide)
    (fun n => (shLoc d c ↦{Transfers.shareTokN q n} f : sProp 𝕄))] at h
  constructor
  · refine h.1.trans ?_
    show iprop((shLoc d c ↦{Transfers.shareDrop q 11} f) ∗ (shLoc d c ↦{Transfers.shareTokN q 3} f) ∗ (shLoc d c ↦{Transfers.shareTokN q 4} f)
      ∗ (shLoc d c ↦{Transfers.shareTokN q 5} f) ∗ (shLoc d c ↦{Transfers.shareTokN q 6} f) ∗ (shLoc d c ↦{Transfers.shareTokN q 7} f)
      ∗ (shLoc d c ↦{Transfers.shareTokN q 8} f) ∗ (shLoc d c ↦{Transfers.shareTokN q 9} f) ∗ (shLoc d c ↦{Transfers.shareTokN q 10} f)
      ∗ (shLoc d c ↦{Transfers.shareTokN q 0} f) ∗ (shLoc d c ↦{Transfers.shareTokN q 1} f) ∗ (shLoc d c ↦{Transfers.shareTokN q 2} f)) ⊢ _
    iintro ⟨Hd, H3, H4, H5, H6, H7, H8, H9, H10, H0, H1, H2⟩
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hd]; · iexact Hd
    isplitl [H0]; · iexact H0
    isplitl [H1]; · iexact H1
    iexact H2
  · refine BI.Entails.trans ?_ h.2
    show _ ⊢ iprop((shLoc d c ↦{Transfers.shareDrop q 11} f) ∗ (shLoc d c ↦{Transfers.shareTokN q 3} f) ∗ (shLoc d c ↦{Transfers.shareTokN q 4} f)
      ∗ (shLoc d c ↦{Transfers.shareTokN q 5} f) ∗ (shLoc d c ↦{Transfers.shareTokN q 6} f) ∗ (shLoc d c ↦{Transfers.shareTokN q 7} f)
      ∗ (shLoc d c ↦{Transfers.shareTokN q 8} f) ∗ (shLoc d c ↦{Transfers.shareTokN q 9} f) ∗ (shLoc d c ↦{Transfers.shareTokN q 10} f)
      ∗ (shLoc d c ↦{Transfers.shareTokN q 0} f) ∗ (shLoc d c ↦{Transfers.shareTokN q 1} f) ∗ (shLoc d c ↦{Transfers.shareTokN q 2} f))
    iintro ⟨H3, H4, H5, H6, H7, H8, H9, H10, Hd, H0, H1, H2⟩
    isplitl [Hd]; · iexact Hd
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H0]; · iexact H0
    isplitl [H1]; · iexact H1
    iexact H2

/-! ## B. The output rows: done and to do -/

/-- The chunks done after k groups of eight, and those still to do. -/
def doneIx (k : Nat) : Finset (Fin 400) := Finset.univ.filter fun s : Fin 400 => s.val < k * 8
def todoIx (k : Nat) : Finset (Fin 400) := Finset.univ.filter fun s : Fin 400 => k * 8 ≤ s.val

/-- The output rows of worker w done after k groups, and those still to do. -/
def outDone (w : Fin 32) (k : Nat) : Finset S819200x128.Idx := (Finset.univ.filter fun s : Fin 400 => s.val < k * 8).biUnion (oChunk w)
def outTodo (w : Fin 32) (k : Nat) : Finset S819200x128.Idx := (Finset.univ.filter fun s : Fin 400 => k * 8 ≤ s.val).biUnion (oChunk w)

theorem outDone_eq (w : Fin 32) (k : Nat) : outDone w k = (doneIx k).biUnion (oChunk w) := rfl
theorem outTodo_eq (w : Fin 32) (k : Nat) : outTodo w k = (todoIx k).biUnion (oChunk w) := rfl

/-- The eight chunks of group k. -/
def grp (k : Nat) (hk : k < 50) : List (Fin 400) :=
  [⟨k * 8 + 0, by omega⟩, ⟨k * 8 + 1, by omega⟩, ⟨k * 8 + 2, by omega⟩, ⟨k * 8 + 3, by omega⟩,
   ⟨k * 8 + 4, by omega⟩, ⟨k * 8 + 5, by omega⟩, ⟨k * 8 + 6, by omega⟩, ⟨k * 8 + 7, by omega⟩]

theorem grp_nodup (k : Nat) (hk : k < 50) : (grp k hk).Nodup := by
  unfold grp
  simp only [List.nodup_cons, List.mem_cons, List.mem_nil_iff, or_false, Fin.mk.injEq, List.not_mem_nil, not_false_eq_true, List.nodup_nil, and_true, not_or]
  omega

theorem mem_grp (k : Nat) (hk : k < 50) (s : Fin 400) : s ∈ (grp k hk).toFinset ↔ k * 8 ≤ s.val ∧ s.val < (k + 1) * 8 := by
  unfold grp
  simp only [List.toFinset_cons, List.toFinset_nil, Finset.mem_insert, Finset.notMem_empty, or_false, Fin.ext_iff]
  omega

theorem todo_step (k : Nat) (hk : k < 50) : todoIx k = (grp k hk).toFinset ∪ todoIx (k + 1) := by
  ext s
  rw [Finset.mem_union, mem_grp]
  simp only [todoIx, Finset.mem_filter, Finset.mem_univ, true_and]
  omega

theorem todo_disj (k : Nat) (hk : k < 50) : Disjoint (grp k hk).toFinset (todoIx (k + 1)) := by
  rw [Finset.disjoint_left]
  intro s hs hs'
  rw [mem_grp] at hs
  simp only [todoIx, Finset.mem_filter, Finset.mem_univ, true_and] at hs'
  omega

theorem done_step (k : Nat) (hk : k < 50) : doneIx (k + 1) = doneIx k ∪ (grp k hk).toFinset := by
  ext s
  rw [Finset.mem_union, mem_grp]
  simp only [doneIx, Finset.mem_filter, Finset.mem_univ, true_and]
  omega

theorem done_disj (k : Nat) (hk : k < 50) : Disjoint (doneIx k) (grp k hk).toFinset := by
  rw [Finset.disjoint_left]
  intro s hs hs'
  rw [mem_grp] at hs'
  simp only [doneIx, Finset.mem_filter, Finset.mem_univ, true_and] at hs
  omega

theorem doneIx_zero : doneIx 0 = ∅ := by
  unfold doneIx
  exact Finset.filter_eq_empty_iff.mpr fun s _ h => by omega
theorem todoIx_zero : todoIx 0 = Finset.univ := by
  unfold todoIx
  exact Finset.filter_eq_self.mpr fun s _ => by omega
theorem doneIx_fifty : doneIx 50 = Finset.univ := by
  unfold doneIx
  exact Finset.filter_eq_self.mpr fun s _ => by have := s.isLt; omega

/-- Rows held over a family of chunks are the chunks held one by one. -/
theorem pts_chunks (d : Dev nD) (w : Fin 32) (S : Finset (Fin 400)) (f : Buf (Elt F) (outLoc d)) :
    (outLoc d ↦[S.biUnion (oChunk w)]{fullShare} f : sProp 𝕄) = bigSep S fun s => outLoc d ↦[oChunk w s]{fullShare} f :=
  pointsTo_biUnion S (ℓ := outLoc d) (oChunk w) fun s _ s' _ h => oChunk_disjoint w s (Finset.mem_univ _) s' (Finset.mem_univ _) h

/-- At the start nothing is done and all the worker's rows are to do. -/
theorem out_init (d : Dev nD) (w : Fin 32) (f g : Buf (Elt F) (outLoc d)) :
    (outLoc d ↦[oPiece w]{fullShare} f : sProp 𝕄) ⊢ iprop((outLoc d ↦[outDone w 0]{fullShare} g) ∗ (outLoc d ↦[outTodo w 0]{fullShare} f)) := by
  rw [outDone_eq, outTodo_eq, doneIx_zero, todoIx_zero, Finset.biUnion_empty, pointsTo_empty, oChunk_cover]
  iintro H
  isplitr; · iempintro
  iexact H

/-- The to-do part gives up the eight chunks of group k. -/
theorem todo_take (d : Dev nD) (w : Fin 32) (k : Nat) (hk : k < 50) (f : Buf (Elt F) (outLoc d)) :
    (outLoc d ↦[outTodo w k]{fullShare} f : sProp 𝕄)
      = iprop((bigSepL (grp k hk) fun s => (outLoc d ↦[oChunk w s]{fullShare} f : sProp 𝕄)) ∗ (outLoc d ↦[outTodo w (k + 1)]{fullShare} f)) := by
  rw [outTodo_eq, outTodo_eq, pts_chunks, pts_chunks, todo_step k hk, SparseCore.bigSep_union' (todo_disj k hk), bigSep_eq_bigSepL (grp k hk) (grp_nodup k hk)]

/-- The done part takes them in. -/
theorem done_put (d : Dev nD) (w : Fin 32) (k : Nat) (hk : k < 50) (g : Buf (Elt F) (outLoc d)) :
    (outLoc d ↦[outDone w (k + 1)]{fullShare} g : sProp 𝕄)
      = iprop((outLoc d ↦[outDone w k]{fullShare} g) ∗ (bigSepL (grp k hk) fun s => (outLoc d ↦[oChunk w s]{fullShare} g : sProp 𝕄))) := by
  rw [outDone_eq, outDone_eq, pts_chunks, pts_chunks, done_step k hk, SparseCore.bigSep_union' (done_disj k hk), bigSep_eq_bigSepL (grp k hk) (grp_nodup k hk)]

theorem out_take (d : Dev nD) (w : Fin 32) (k : Nat) (hk : k < 50) (f : Buf (Elt F) (outLoc d)) :
    (outLoc d ↦[outTodo w k]{fullShare} f : sProp 𝕄) ⊣⊢ iprop((outLoc d ↦[oChunk w ⟨k * 8 + 0, by omega⟩]{fullShare} f)
      ∗ (outLoc d ↦[oChunk w ⟨k * 8 + 1, by omega⟩]{fullShare} f)
      ∗ (outLoc d ↦[oChunk w ⟨k * 8 + 2, by omega⟩]{fullShare} f)
      ∗ (outLoc d ↦[oChunk w ⟨k * 8 + 3, by omega⟩]{fullShare} f)
      ∗ (outLoc d ↦[oChunk w ⟨k * 8 + 4, by omega⟩]{fullShare} f)
      ∗ (outLoc d ↦[oChunk w ⟨k * 8 + 5, by omega⟩]{fullShare} f)
      ∗ (outLoc d ↦[oChunk w ⟨k * 8 + 6, by omega⟩]{fullShare} f)
      ∗ (outLoc d ↦[oChunk w ⟨k * 8 + 7, by omega⟩]{fullShare} f)
      ∗ (outLoc d ↦[outTodo w (k + 1)]{fullShare} f)) := by
  rw [todo_take d w k hk f]
  constructor
  · show iprop(((outLoc d ↦[oChunk w ⟨k * 8 + 0, by omega⟩]{fullShare} f)
      ∗ (outLoc d ↦[oChunk w ⟨k * 8 + 1, by omega⟩]{fullShare} f)
      ∗ (outLoc d ↦[oChunk w ⟨k * 8 + 2, by omega⟩]{fullShare} f)
      ∗ (outLoc d ↦[oChunk w ⟨k * 8 + 3, by omega⟩]{fullShare} f)
      ∗ (outLoc d ↦[oChunk w ⟨k * 8 + 4, by omega⟩]{fullShare} f)
      ∗ (outLoc d ↦[oChunk w ⟨k * 8 + 5, by omega⟩]{fullShare} f)
      ∗ (outLoc d ↦[oChunk w ⟨k * 8 + 6, by omega⟩]{fullShare} f)
      ∗ (outLoc d ↦[oChunk w ⟨k * 8 + 7, by omega⟩]{fullShare} f))
      ∗ (outLoc d ↦[outTodo w (k + 1)]{fullShare} f)) ⊢ _
    iintro ⟨⟨H0, H1, H2, H3, H4, H5, H6, H7⟩, HR⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HR
  · show _ ⊢ iprop(((outLoc d ↦[oChunk w ⟨k * 8 + 0, by omega⟩]{fullShare} f)
      ∗ (outLoc d ↦[oChunk w ⟨k * 8 + 1, by omega⟩]{fullShare} f)
      ∗ (outLoc d ↦[oChunk w ⟨k * 8 + 2, by omega⟩]{fullShare} f)
      ∗ (outLoc d ↦[oChunk w ⟨k * 8 + 3, by omega⟩]{fullShare} f)
      ∗ (outLoc d ↦[oChunk w ⟨k * 8 + 4, by omega⟩]{fullShare} f)
      ∗ (outLoc d ↦[oChunk w ⟨k * 8 + 5, by omega⟩]{fullShare} f)
      ∗ (outLoc d ↦[oChunk w ⟨k * 8 + 6, by omega⟩]{fullShare} f)
      ∗ (outLoc d ↦[oChunk w ⟨k * 8 + 7, by omega⟩]{fullShare} f))
      ∗ (outLoc d ↦[outTodo w (k + 1)]{fullShare} f))
    iintro ⟨H0, H1, H2, H3, H4, H5, H6, H7, HR⟩
    isplitr [HR]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact HR

theorem out_put (d : Dev nD) (w : Fin 32) (k : Nat) (hk : k < 50) (g : Buf (Elt F) (outLoc d)) :
    iprop((outLoc d ↦[outDone w k]{fullShare} g) ∗ (outLoc d ↦[oChunk w ⟨k * 8 + 0, by omega⟩]{fullShare} g)
      ∗ (outLoc d ↦[oChunk w ⟨k * 8 + 1, by omega⟩]{fullShare} g)
      ∗ (outLoc d ↦[oChunk w ⟨k * 8 + 2, by omega⟩]{fullShare} g)
      ∗ (outLoc d ↦[oChunk w ⟨k * 8 + 3, by omega⟩]{fullShare} g)
      ∗ (outLoc d ↦[oChunk w ⟨k * 8 + 4, by omega⟩]{fullShare} g)
      ∗ (outLoc d ↦[oChunk w ⟨k * 8 + 5, by omega⟩]{fullShare} g)
      ∗ (outLoc d ↦[oChunk w ⟨k * 8 + 6, by omega⟩]{fullShare} g)
      ∗ (outLoc d ↦[oChunk w ⟨k * 8 + 7, by omega⟩]{fullShare} g))
      ⊢ (outLoc d ↦[outDone w (k + 1)]{fullShare} g : sProp 𝕄) := by
  rw [done_put d w k hk g]
  exact BI.Entails.refl _

/-- After fifty groups the done part is all the worker's rows. -/
theorem out_fin (d : Dev nD) (w : Fin 32) (g : Buf (Elt F) (outLoc d)) :
    (outLoc d ↦[outDone w 50]{fullShare} g : sProp 𝕄) ⊢ outLoc d ↦[oPiece w]{fullShare} g := by
  rw [outDone_eq, doneIx_fifty, oChunk_cover]

end Cert.Proof.KB

end
-- ==== Proof.ValsKB.lean ====
/-
  What the buffers of a task's body hold, as closed functions of the launch memory.

  * The id scratch after the task's ids are copied into it holds the worker's 25600 ids; a 16-id load at offset o
    reads ids o … o + 15 of them.
  * An index list of 64 words written by four stores of 16 words at offsets 0, 16, 32 and 48 is one function of the
    position, whatever it held before.
  * Quarter q of the index list of step st, computed from the 16 ids a load reads, is the list of row numbers
    rowOf (st · 64 + r) (id at that position) at positions q … q + 15.
  * The task's 200 rows of the shared table, after the copy of the same rows of the table in HBM, hold the table.
  * A gather over the table and the index list of step st lands the step's 64 gathered rows: row y of the destination is
    row rowOf (st · 64 + y) (id) of the table, and rowOf (w · 25600 + n) = rowOf n because 25600 = 128 · 200.
  * The copy of those rows into chunk st of the worker's output rows leaves the chunk at the gathered rows.
-/
import proofs.«206439_g51874615001410_cont_9to1_m_433_33_alg».proof.Proof.GeomKB
import Idealize.ShloMosaic.Lib.Writes
import proofs.«206439_g51874615001410_cont_9to1_m_433_33_alg».proof.Proof.IdxChunk

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)
variable [FloatOps F] [hK : Cert.Kernel.Facts]

/-! ## The id scratch after its copy -/

/-- Worker w's 25600 ids, as the contents of a task's id scratch. -/
def XVf (d : Dev nD) (w : Fin 32) : S25600.Idx → BitVec 32 :=
  fun n => (XF m d) (ix1 (⟨w.val * 25600 + (n 0).val, xrow_lt w _ (n 0).isLt⟩ : Fin 819200))

theorem XVf_apply (d : Dev nD) (w : Fin 32) (n : S25600.Idx) :
    XVf m d w n = (XF m d) (ix1 (⟨w.val * 25600 + (n 0).val, xrow_lt w _ (n 0).isLt⟩ : Fin 819200)) := rfl

/-- The scratch after the copy of the task's ids into it, whatever it held before, holds the worker's ids. -/
theorem xv_landed (d : Dev nD) (L : grid1.Coords)
    (f0 : Buf (Elt F) ((Memref.whole cc1_scratch0 : Memref sig .scVector .vmem S25600 .i32).view.loc (V d ((L 0).castLE hcore1) ((L 1).castLE hsub1)))) :
    View.write (Elt F) (Memref.whole cc1_scratch0 : Memref sig .scVector .vmem S25600 .i32).view f0
        (ReadAs.same.apply (View.read (Elt F) (xSl L).view (XF m d))) Finset.univ
      = XVf m d (wL L) := by
  show View.write (Elt F) (View.whole (cc1_scratch0 : Ref sig .scVector)) f0 (View.read (Elt F) (xSl L).view (XF m d)) Finset.univ = _
  rw [View.write_whole_univ]
  funext n
  rw [View.read_apply, emb_xSl]
  rfl

theorem xchunk_off (off : Fin 1 → Nat) (o : Nat) (ho : off 0 = o) (h : ∀ a, off a + S16.size a ≤ S25600.size a) : o + 16 ≤ 25600 := by
  have h0 : off 0 + 16 ≤ 25600 := h 0
  omega
theorem xchunk_lt (w : Fin 32) (o n : Nat) (ho : o + 16 ≤ 25600) (hn : n < 16) : w.val * 25600 + o + n < 819200 := by
  have := w.isLt; omega

/-- A 16-id load from the scratch at offset o reads the worker's ids o … o + 15. -/
theorem xv_chunk (d : Dev nD) (w : Fin 32) (off : Fin 1 → Nat) (o : Nat) (ho : off 0 = o)
    (h : ∀ a, off a + S16.size a ≤ S25600.size a) (j : S16.Idx) :
    View.readAt (Elt F) (Memref.whole cc1_scratch0 : Memref sig .scVector .vmem S25600 .i32).view
        (Rect.unit (s := S25600) off S16.size h).toLoadRect (XVf m d w) j
      = (XF m d) (ix1 (⟨w.val * 25600 + o + (j 0).val, xchunk_lt w o _ (xchunk_off off o ho h) (j 0).isLt⟩ : Fin 819200)) := by
  rw [View.readAt_apply]
  show XVf m d w ((Rect.unit (s := S25600) off S16.size h).toLoadRect.idx j) = _
  rw [XVf_apply]
  refine congrArg (XF m d) (congrArg ix1 (Fin.ext ?_))
  show w.val * 25600 + (off 0 + 1 * (j 0).val) = w.val * 25600 + o + (j 0).val
  omega

/-! ## An index list after its four stores -/

theorem idx_lt (o : Nat) (n : Nat) (ho : o + 16 ≤ 64) (hn : n < 16) : o + n < 64 := by omega

/-- Where lane x of the 16-word store at offset o sits among the 64 words. -/
theorem emb_unit16 (o : Nat) (ho : o + 16 ≤ 64) (h : ∀ a, (![o] : Fin 1 → Nat) a + S16.size a ≤ S64.size a) (x : S16.Idx) :
    (Rect.unit (s := S64) ![o] S16.size h).emb x = ix1 (⟨o + (x 0).val, idx_lt o _ ho (x 0).isLt⟩ : Fin 64) := by
  funext a
  match a with
  | ⟨0, _⟩ =>
    refine Fin.ext ?_
    show o + 1 * (x 0).val = o + (x 0).val
    omega

/-- Four 16-word stores at offsets 0, 16, 32, 48 whose payloads are the four quarters of one function G leave, read
    through the view, the function G — whatever the 64 words held before, through whichever view of that shape. -/
theorem idx_writes_read {κ : Kind} {sp : Space} (v : View sig κ sp S64 .i32) (fi : v.ty.Contents (Elt F))
    (h0 : ∀ a, (![0] : Fin 1 → Nat) a + S16.size a ≤ S64.size a) (h1 : ∀ a, (![16] : Fin 1 → Nat) a + S16.size a ≤ S64.size a)
    (h2 : ∀ a, (![32] : Fin 1 → Nat) a + S16.size a ≤ S64.size a) (h3 : ∀ a, (![48] : Fin 1 → Nat) a + S16.size a ≤ S64.size a)
    (p0 p1 p2 p3 : S16.Idx → BitVec 32) (G : S64.Idx → BitVec 32)
    (hp0 : ∀ j : S16.Idx, p0 j = G (ix1 (⟨0 + (j 0).val, idx_lt 0 _ (by decide) (j 0).isLt⟩ : Fin 64)))
    (hp1 : ∀ j : S16.Idx, p1 j = G (ix1 (⟨16 + (j 0).val, idx_lt 16 _ (by decide) (j 0).isLt⟩ : Fin 64)))
    (hp2 : ∀ j : S16.Idx, p2 j = G (ix1 (⟨32 + (j 0).val, idx_lt 32 _ (by decide) (j 0).isLt⟩ : Fin 64)))
    (hp3 : ∀ j : S16.Idx, p3 j = G (ix1 (⟨48 + (j 0).val, idx_lt 48 _ (by decide) (j 0).isLt⟩ : Fin 64))) :
    v.read (Elt F) (v.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩])
      = G := by
  funext y
  refine View.read_writes_apply_of_pieces v fi G _ ?_ y ?_
  · intro p hp
    rcases List.mem_cons.mp hp with rfl | hp
    · intro x; exact (hp3 x).trans (congrArg G (emb_unit16 48 (by decide) h3 x).symm)
    rcases List.mem_cons.mp hp with rfl | hp
    · intro x; exact (hp2 x).trans (congrArg G (emb_unit16 32 (by decide) h2 x).symm)
    rcases List.mem_cons.mp hp with rfl | hp
    · intro x; exact (hp1 x).trans (congrArg G (emb_unit16 16 (by decide) h1 x).symm)
    rcases List.mem_cons.mp hp with rfl | hp
    · intro x; exact (hp0 x).trans (congrArg G (emb_unit16 0 (by decide) h0 x).symm)
    · exact absurd hp List.not_mem_nil
  · -- the four stores tile the 64 words
    have hy : (y 0).val < 64 := (y 0).isLt
    have hmem (o : Nat) (h : ∀ a, (![o] : Fin 1 → Nat) a + S16.size a ≤ S64.size a) (hlo : o ≤ (y 0).val) (hhi : (y 0).val < o + 16) :
        y ∈ (Rect.unit (s := S64) ![o] S16.size h).set := by
      refine Rect.mem_set_unit.mpr fun a => ?_
      match a with
      | ⟨0, _⟩ => exact ⟨hlo, hhi⟩
    by_cases c1 : (y 0).val < 16
    · exact ⟨⟨Rect.unit (s := S64) ![0] S16.size h0, p0⟩,
        List.mem_cons_of_mem _ (List.mem_cons_of_mem _ (List.mem_cons_of_mem _ List.mem_cons_self)), hmem 0 h0 (by omega) (by omega)⟩
    · by_cases c2 : (y 0).val < 32
      · exact ⟨⟨Rect.unit (s := S64) ![16] S16.size h1, p1⟩,
          List.mem_cons_of_mem _ (List.mem_cons_of_mem _ List.mem_cons_self), hmem 16 h1 (by omega) (by omega)⟩
      · by_cases c3 : (y 0).val < 48
        · exact ⟨⟨Rect.unit (s := S64) ![32] S16.size h2, p2⟩,
            List.mem_cons_of_mem _ List.mem_cons_self, hmem 32 h2 (by omega) (by omega)⟩
        · exact ⟨⟨Rect.unit (s := S64) ![48] S16.size h3, p3⟩, List.mem_cons_self, hmem 48 h3 (by omega) (by omega)⟩

/-! The same for each of the eight index lists, held whole: a whole buffer reads as its contents. -/
section IdxLists
variable (h0 : ∀ a, (![0] : Fin 1 → Nat) a + S16.size a ≤ S64.size a) (h1 : ∀ a, (![16] : Fin 1 → Nat) a + S16.size a ≤ S64.size a)
  (h2 : ∀ a, (![32] : Fin 1 → Nat) a + S16.size a ≤ S64.size a) (h3 : ∀ a, (![48] : Fin 1 → Nat) a + S16.size a ≤ S64.size a)
  (p0 p1 p2 p3 : S16.Idx → BitVec 32) (G : S64.Idx → BitVec 32)
  (hp0 : ∀ j : S16.Idx, p0 j = G (ix1 (⟨0 + (j 0).val, idx_lt 0 _ (by decide) (j 0).isLt⟩ : Fin 64)))
  (hp1 : ∀ j : S16.Idx, p1 j = G (ix1 (⟨16 + (j 0).val, idx_lt 16 _ (by decide) (j 0).isLt⟩ : Fin 64)))
  (hp2 : ∀ j : S16.Idx, p2 j = G (ix1 (⟨32 + (j 0).val, idx_lt 32 _ (by decide) (j 0).isLt⟩ : Fin 64)))
  (hp3 : ∀ j : S16.Idx, p3 j = G (ix1 (⟨48 + (j 0).val, idx_lt 48 _ (by decide) (j 0).isLt⟩ : Fin 64)))
include hp0 hp1 hp2 hp3

theorem idx_writes_2 (fi : (Memref.whole cc1_scratch2 : Memref sig .scVector .vmem S64 .i32).view.ty.Contents (Elt F)) :
    (Memref.whole cc1_scratch2 : Memref sig .scVector .vmem S64 .i32).view.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩]
      = G :=
  idx_writes_read (F := F) (View.whole (cc1_scratch2 : Ref sig .scVector)) fi h0 h1 h2 h3 p0 p1 p2 p3 G hp0 hp1 hp2 hp3

theorem idx_writes_3 (fi : (Memref.whole cc1_scratch3 : Memref sig .scVector .vmem S64 .i32).view.ty.Contents (Elt F)) :
    (Memref.whole cc1_scratch3 : Memref sig .scVector .vmem S64 .i32).view.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩]
      = G :=
  idx_writes_read (F := F) (View.whole (cc1_scratch3 : Ref sig .scVector)) fi h0 h1 h2 h3 p0 p1 p2 p3 G hp0 hp1 hp2 hp3

theorem idx_writes_4 (fi : (Memref.whole cc1_scratch4 : Memref sig .scVector .vmem S64 .i32).view.ty.Contents (Elt F)) :
    (Memref.whole cc1_scratch4 : Memref sig .scVector .vmem S64 .i32).view.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩]
      = G :=
  idx_writes_read (F := F) (View.whole (cc1_scratch4 : Ref sig .scVector)) fi h0 h1 h2 h3 p0 p1 p2 p3 G hp0 hp1 hp2 hp3

theorem idx_writes_5 (fi : (Memref.whole cc1_scratch5 : Memref sig .scVector .vmem S64 .i32).view.ty.Contents (Elt F)) :
    (Memref.whole cc1_scratch5 : Memref sig .scVector .vmem S64 .i32).view.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩]
      = G :=
  idx_writes_read (F := F) (View.whole (cc1_scratch5 : Ref sig .scVector)) fi h0 h1 h2 h3 p0 p1 p2 p3 G hp0 hp1 hp2 hp3

theorem idx_writes_6 (fi : (Memref.whole cc1_scratch6 : Memref sig .scVector .vmem S64 .i32).view.ty.Contents (Elt F)) :
    (Memref.whole cc1_scratch6 : Memref sig .scVector .vmem S64 .i32).view.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩]
      = G :=
  idx_writes_read (F := F) (View.whole (cc1_scratch6 : Ref sig .scVector)) fi h0 h1 h2 h3 p0 p1 p2 p3 G hp0 hp1 hp2 hp3

theorem idx_writes_7 (fi : (Memref.whole cc1_scratch7 : Memref sig .scVector .vmem S64 .i32).view.ty.Contents (Elt F)) :
    (Memref.whole cc1_scratch7 : Memref sig .scVector .vmem S64 .i32).view.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩]
      = G :=
  idx_writes_read (F := F) (View.whole (cc1_scratch7 : Ref sig .scVector)) fi h0 h1 h2 h3 p0 p1 p2 p3 G hp0 hp1 hp2 hp3

theorem idx_writes_8 (fi : (Memref.whole cc1_scratch8 : Memref sig .scVector .vmem S64 .i32).view.ty.Contents (Elt F)) :
    (Memref.whole cc1_scratch8 : Memref sig .scVector .vmem S64 .i32).view.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩]
      = G :=
  idx_writes_read (F := F) (View.whole (cc1_scratch8 : Ref sig .scVector)) fi h0 h1 h2 h3 p0 p1 p2 p3 G hp0 hp1 hp2 hp3

theorem idx_writes_9 (fi : (Memref.whole cc1_scratch9 : Memref sig .scVector .vmem S64 .i32).view.ty.Contents (Elt F)) :
    (Memref.whole cc1_scratch9 : Memref sig .scVector .vmem S64 .i32).view.writes (Elt F) fi
        [⟨Rect.unit (s := S64) ![48] S16.size h3, p3⟩, ⟨Rect.unit (s := S64) ![32] S16.size h2, p2⟩,
         ⟨Rect.unit (s := S64) ![16] S16.size h1, p1⟩, ⟨Rect.unit (s := S64) ![0] S16.size h0, p0⟩]
      = G :=
  idx_writes_read (F := F) (View.whole (cc1_scratch9 : Ref sig .scVector)) fi h0 h1 h2 h3 p0 p1 p2 p3 G hp0 hp1 hp2 hp3

end IdxLists

/-! ## The task's rows of the shared table after the table copy -/

theorem jL_eq (L : grid1.Coords) : Fin.cast nSub_eq ((L 1).castLE hsub1) = jL L := Fin.ext rfl

/-- After the copy of the task's rows of the table from HBM into the shared scratch, those rows of the scratch hold the
    table, whatever the scratch held before. -/
theorem sh_landed (d : Dev nD) (L : grid1.Coords) (fsh : Buf (Elt F) (shLoc d ((L 0).castLE hcore1))) :
    (shLoc d ((L 0).castLE hcore1) ↦[tPiece (jL L)]{fullShare}
        ((shSl L).view.writes (Elt F) fsh [⟨Rect.whole S200x128, ReadAs.same.apply (View.read (Elt F) (tSl L).view (TAB m d))⟩]) : sProp 𝕄)
      ⊢ shLoc d ((L 0).castLE hcore1) ↦[tPiece (Fin.cast nSub_eq ((L 1).castLE hsub1))]{fullShare} TABS m d ((L 0).castLE hcore1) := by
  rw [jL_eq]
  refine Entails.of_eq (pointsTo_congr fun i hi => ?_)
  have hi' : i ∈ (shSl L).view.set := by rw [set_shSl]; exact hi
  obtain ⟨y, -, rfl⟩ := Finset.mem_map.mp hi'
  -- the one write goes through the whole slice: its own index y sits where the slice puts y
  have e : (shSl L).view.emb y = ((shSl L).view.slice (Rect.whole S200x128)).emb y := by
    show _ = (shSl L).view.emb ((Rect.whole S200x128).emb y)
    rw [Rect.emb_whole_apply]
  rw [View.writes_singleton]
  refine (congrArg _ e).trans ?_
  rw [View.write_emb_of_mem _ _ (Finset.mem_univ y)]
  show _ = TAB m d ((shSl L).view.emb y)
  rw [emb_shSl]
  show _root_.cast _ (View.read (Elt F) (tSl L).view (TAB m d) y) = _
  rw [View.read_apply, emb_tSl]
  rfl

/-! ## The index list and the rows of a step -/

/-- The 64 row numbers of chunk st of worker w: position r of the chunk is flat position st · 64 + r of the worker's
    ids, and its row is `rowOf` of that position and its id. -/
def IDXV (d : Dev nD) (w : Fin 32) (st : Fin 400) : S64.Idx → BitVec 32 :=
  fun r => BitVec.ofNat 32 (Cert.KSpec.rowOf (st.val * 64 + (r 0).val)
    ((XF m d) (ix1 (⟨w.val * 25600 + st.val * 64 + (r 0).val, orow_lt w st _ (r 0).isLt⟩ : Fin 819200)))).val

/-- The 64 gathered rows of chunk st of worker w. -/
def ROWSV (d : Dev nD) (w : Fin 32) (st : Fin 400) : S64x128.Idx → F .f32 :=
  fun y => (OUTF m d) (ix2 (⟨w.val * 25600 + st.val * 64 + (y 0).val, orow_lt w st _ (y 0).isLt⟩ : Fin 819200) (⟨(y 1).val, (y 1).isLt⟩ : Fin 128))

theorem IDXV_apply (d : Dev nD) (w : Fin 32) (st : Fin 400) (n : Fin 64) :
    IDXV m d w st (ix1 n) = BitVec.ofNat 32 (Cert.KSpec.rowOf (st.val * 64 + n.val)
      ((XF m d) (ix1 (⟨w.val * 25600 + st.val * 64 + n.val, orow_lt w st _ n.isLt⟩ : Fin 819200)))).val := rfl

/-- Every row number of the list is a row of the table. -/
theorem IDXV_lt (d : Dev nD) (w : Fin 32) (st : Fin 400) (x : S64.Idx) : (IDXV m d w st x).toNat < 3200 := by
  show (BitVec.ofNat 32 (Cert.KSpec.rowOf _ _).val).toNat < 3200
  rw [Cert.IdxChunk.row_toNat]
  exact (Cert.KSpec.rowOf _ _).isLt

/-- A flattened id is one of the ids. -/
theorem xf_le (d : Dev nD) (hx : ∀ j, ((m (xLoc d) : IVec S4096x200 32) j).toNat ≤ 14) (n : S819200.Idx) : ((XF m d) n).toNat ≤ 14 :=
  hx _

theorem lane16 (j : S16.Idx) : (j 0).val < 16 := (j 0).isLt
theorem stq_le (st : Fin 400) (q : Nat) (hq : q + 16 ≤ 64) : st.val * 64 + q + 16 ≤ 25600 := by
  have := st.isLt; omega

/-- The word of a row number, from the position and the id it is computed from, is the list's entry. -/
theorem idxv_of_row (d : Dev nD) (w : Fin 32) (st : Fin 400) (q : Nat) (hq : q + 16 ≤ 64) (j : S16.Idx) (n : Nat) (v : BitVec 32)
    (hn : n = st.val * 64 + q + (j 0).val)
    (hv : v = (XF m d) (ix1 (⟨w.val * 25600 + (st.val * 64 + q) + (j 0).val,
      xchunk_lt w (st.val * 64 + q) _ (stq_le st q hq) (lane16 j)⟩ : Fin 819200))) :
    BitVec.ofNat 32 (Cert.KSpec.rowOf n v).val = IDXV m d w st (ix1 (⟨q + (j 0).val, idx_lt q _ hq (lane16 j)⟩ : Fin 64)) := by
  have hj : (j 0).val < 16 := lane16 j
  have hn' : n = st.val * 64 + (q + (j 0).val) := by omega
  have hv' : v = (XF m d) (ix1 (⟨w.val * 25600 + st.val * 64 + (q + (j 0).val), orow_lt w st _ (idx_lt q _ hq hj)⟩ : Fin 819200)) := by
    rw [hv]
    refine congrArg (XF m d) (congrArg ix1 (Fin.ext ?_))
    show w.val * 25600 + (st.val * 64 + q) + (j 0).val = w.val * 25600 + st.val * 64 + (q + (j 0).val)
    omega
  rw [hn', hv']
  rfl

/-- The 16 ids a load at the offsets off reads from the id scratch holding worker w's ids. -/
abbrev xsOf (d : Dev nD) (w : Fin 32) (off : Fin 1 → Nat) (h : ∀ a, off a + S16.size a ≤ S25600.size a) : S16.Idx → BitVec 32 :=
  View.readAt (Elt F) (Memref.whole cc1_scratch0 : Memref sig .scVector .vmem S25600 .i32).view
    (Rect.unit (s := S25600) off S16.size h).toLoadRect (XVf m d w)

theorem xs_le (d : Dev nD) (w : Fin 32) (hxf : ∀ n, ((XF m d) n).toNat ≤ 14) (off : Fin 1 → Nat) (o : Nat) (ho : off 0 = o)
    (h : ∀ a, off a + S16.size a ≤ S25600.size a) (j : S16.Idx) : (xsOf m d w off h j).toNat ≤ 14 := by
  show (View.readAt (Elt F) (Memref.whole cc1_scratch0 : Memref sig .scVector .vmem S25600 .i32).view
    (Rect.unit (s := S25600) off S16.size h).toLoadRect (XVf m d w) j).toNat ≤ 14
  rw [xv_chunk m d w off o ho h j]; exact hxf _

theorem base_le (st : Fin 400) (q : Nat) (hq : q + 16 ≤ 64) (B : BitVec 32) (hB : B.toNat = st.val * 64 + q) : B.toNat + 16 ≤ 25600 := by
  have := st.isLt; omega

/-- Quarter q of the index list of step st, computed whole from the 16 ids the load reads. -/
theorem chunk_idxv (d : Dev nD) (w : Fin 32) (st : Fin 400) (q : Nat) (hq : q + 16 ≤ 64) (hxf : ∀ n, ((XF m d) n).toNat ≤ 14)
    (B : BitVec 32) (hB : B.toNat = st.val * 64 + q) (off : Fin 1 → Nat) (ho : off 0 = st.val * 64 + q)
    (h : ∀ a, off a + S16.size a ≤ S25600.size a) (hio : S16.Iotas .scVector 32 [0]) (hc : S16.ShapeCasts S16) (j : S16.Idx) :
    shapeCast S16 (addi (muli (remsi (addi (broadcast S16 B) (iota .scVector S16 32 [0] hio)) (broadcast S16 200#32)) (broadcast S16 16#32))
        (shapeCast S16 (View.readAt (Elt F) (Memref.whole cc1_scratch0 : Memref sig .scVector .vmem S25600 .i32).view
          (Rect.unit (s := S25600) off S16.size h).toLoadRect (XVf m d w)) hc)) hc j
      = IDXV m d w st (ix1 (⟨q + (j 0).val, idx_lt q _ hq (lane16 j)⟩ : Fin 64)) :=
  (Cert.IdxChunk.idx_apply B (base_le st q hq B hB) hio hc (xsOf m d w off h) (xs_le m d w hxf off _ ho h) j).trans
    (idxv_of_row m d w st q hq j _ _ (by rw [hB]) (xv_chunk m d w off _ ho h j))

/-- The same with the remainder given lane by lane, -/
theorem chunk_idxv_spos (d : Dev nD) (w : Fin 32) (st : Fin 400) (q : Nat) (hq : q + 16 ≤ 64) (hxf : ∀ n, ((XF m d) n).toNat ≤ 14)
    (B : BitVec 32) (hB : B.toNat = st.val * 64 + q) (off : Fin 1 → Nat) (ho : off 0 = st.val * 64 + q)
    (h : ∀ a, off a + S16.size a ≤ S25600.size a) (hc : S16.ShapeCasts S16)
    (sp : IVec S16 32) (hsp : ∀ j, sp j = BitVec.ofNat 32 ((B.toNat + (j 0).val) % 200)) (j : S16.Idx) :
    shapeCast S16 (addi (muli sp (broadcast S16 16#32))
        (shapeCast S16 (View.readAt (Elt F) (Memref.whole cc1_scratch0 : Memref sig .scVector .vmem S25600 .i32).view
          (Rect.unit (s := S25600) off S16.size h).toLoadRect (XVf m d w)) hc)) hc j
      = IDXV m d w st (ix1 (⟨q + (j 0).val, idx_lt q _ hq (lane16 j)⟩ : Fin 64)) :=
  (Cert.IdxChunk.idx_of_spos B hc sp (xsOf m d w off h) hsp (xs_le m d w hxf off _ ho h) j).trans
    (idxv_of_row m d w st q hq j _ _ (by rw [hB]) (xv_chunk m d w off _ ho h j))

/-- with the remainder's two operands given, -/
theorem chunk_idxv_parts (d : Dev nD) (w : Fin 32) (st : Fin 400) (q : Nat) (hq : q + 16 ≤ 64) (hxf : ∀ n, ((XF m d) n).toNat ≤ 14)
    (B : BitVec 32) (hB : B.toNat = st.val * 64 + q) (off : Fin 1 → Nat) (ho : off 0 = st.val * 64 + q)
    (h : ∀ a, off a + S16.size a ≤ S25600.size a) (hio : S16.Iotas .scVector 32 [0]) (hc : S16.ShapeCasts S16)
    (s v : IVec S16 32) (hs : s = addi (broadcast S16 B) (iota .scVector S16 32 [0] hio)) (hv : v = broadcast S16 200#32) (j : S16.Idx) :
    shapeCast S16 (addi (muli (remsi s v) (broadcast S16 16#32))
        (shapeCast S16 (View.readAt (Elt F) (Memref.whole cc1_scratch0 : Memref sig .scVector .vmem S25600 .i32).view
          (Rect.unit (s := S25600) off S16.size h).toLoadRect (XVf m d w)) hc)) hc j
      = IDXV m d w st (ix1 (⟨q + (j 0).val, idx_lt q _ hq (lane16 j)⟩ : Fin 64)) :=
  (Cert.IdxChunk.idx_of_parts_eq B (base_le st q hq B hB) hio hc s v (xsOf m d w off h) hs hv (xs_le m d w hxf off _ ho h) j).trans
    (idxv_of_row m d w st q hq j _ _ (by rw [hB]) (xv_chunk m d w off _ ho h j))

/-- and with the product and the cast ids given. -/
theorem chunk_idxv_mul (d : Dev nD) (w : Fin 32) (st : Fin 400) (q : Nat) (hq : q + 16 ≤ 64) (hxf : ∀ n, ((XF m d) n).toNat ≤ 14)
    (B : BitVec 32) (hB : B.toNat = st.val * 64 + q) (off : Fin 1 → Nat) (ho : off 0 = st.val * 64 + q)
    (h : ∀ a, off a + S16.size a ≤ S25600.size a) (hc : S16.ShapeCasts S16) (pm xc : IVec S16 32)
    (hm : ∀ j, pm j = IntOp.muli (BitVec.ofNat 32 ((B.toNat + (j 0).val) % 200)) 16#32)
    (hxc : ∀ j, xc j = View.readAt (Elt F) (Memref.whole cc1_scratch0 : Memref sig .scVector .vmem S25600 .i32).view
          (Rect.unit (s := S25600) off S16.size h).toLoadRect (XVf m d w) j) (j : S16.Idx) :
    shapeCast S16 (addi pm xc) hc j
      = IDXV m d w st (ix1 (⟨q + (j 0).val, idx_lt q _ hq (lane16 j)⟩ : Fin 64)) :=
  (Cert.IdxChunk.idx_of_mul B hc pm xc (xsOf m d w off h) hm hxc (xs_le m d w hxf off _ ho h) j).trans
    (idxv_of_row m d w st q hq j _ _ (by rw [hB]) (xv_chunk m d w off _ ho h j))

/-- Read through each of the eight index lists held whole, every entry is a row of the table. -/
theorem idxv_in_2 (d : Dev nD) (w : Fin 32) (st : Fin 400) :
    ∀ x, ((Memref.whole cc1_scratch2 : Memref sig .scVector .vmem S64 .i32).view.read (Elt F) (IDXV m d w st) x).toNat < 3200 :=
  fun x => IDXV_lt m d w st x
theorem idxv_in_3 (d : Dev nD) (w : Fin 32) (st : Fin 400) :
    ∀ x, ((Memref.whole cc1_scratch3 : Memref sig .scVector .vmem S64 .i32).view.read (Elt F) (IDXV m d w st) x).toNat < 3200 :=
  fun x => IDXV_lt m d w st x
theorem idxv_in_4 (d : Dev nD) (w : Fin 32) (st : Fin 400) :
    ∀ x, ((Memref.whole cc1_scratch4 : Memref sig .scVector .vmem S64 .i32).view.read (Elt F) (IDXV m d w st) x).toNat < 3200 :=
  fun x => IDXV_lt m d w st x
theorem idxv_in_5 (d : Dev nD) (w : Fin 32) (st : Fin 400) :
    ∀ x, ((Memref.whole cc1_scratch5 : Memref sig .scVector .vmem S64 .i32).view.read (Elt F) (IDXV m d w st) x).toNat < 3200 :=
  fun x => IDXV_lt m d w st x
theorem idxv_in_6 (d : Dev nD) (w : Fin 32) (st : Fin 400) :
    ∀ x, ((Memref.whole cc1_scratch6 : Memref sig .scVector .vmem S64 .i32).view.read (Elt F) (IDXV m d w st) x).toNat < 3200 :=
  fun x => IDXV_lt m d w st x
theorem idxv_in_7 (d : Dev nD) (w : Fin 32) (st : Fin 400) :
    ∀ x, ((Memref.whole cc1_scratch7 : Memref sig .scVector .vmem S64 .i32).view.read (Elt F) (IDXV m d w st) x).toNat < 3200 :=
  fun x => IDXV_lt m d w st x
theorem idxv_in_8 (d : Dev nD) (w : Fin 32) (st : Fin 400) :
    ∀ x, ((Memref.whole cc1_scratch8 : Memref sig .scVector .vmem S64 .i32).view.read (Elt F) (IDXV m d w st) x).toNat < 3200 :=
  fun x => IDXV_lt m d w st x
theorem idxv_in_9 (d : Dev nD) (w : Fin 32) (st : Fin 400) :
    ∀ x, ((Memref.whole cc1_scratch9 : Memref sig .scVector .vmem S64 .i32).view.read (Elt F) (IDXV m d w st) x).toNat < 3200 :=
  fun x => IDXV_lt m d w st x

/-! ## What a gather lands -/

/-- A write through the whole of a view reads back, through the view, as the payload. -/
theorem read_writes_whole {κ : Kind} {sp : Space} {s : Shape} {e : EltTy} (v : View sig κ sp s e) (f : v.ty.Contents (Elt F))
    (P : s.Idx → Elt F e) : v.read (Elt F) (v.writes (Elt F) f [⟨Rect.whole s, P⟩]) = P := by
  funext y
  have h := View.read_writes_cons_emb v f (Rect.whole s) P [] y
  rw [Rect.emb_whole_apply] at h
  exact h

/-- The row a position reads depends on the position only through its remainder by 200, and 25600 = 128 · 200. -/
theorem rowOf_add_mul (w n : Nat) (v : BitVec 32) : Cert.KSpec.rowOf (w * 25600 + n) v = Cert.KSpec.rowOf n v := by
  refine Fin.ext ?_
  show (w * 25600 + n) % 200 * 16 + min v.toNat 15 = n % 200 * 16 + min v.toNat 15
  have e : (w * 25600 + n) % 200 = n % 200 := by
    rw [show w * 25600 + n = n + 200 * (w * 128) by omega, Nat.add_mul_mod_self_left]
  rw [e]

theorem rowOf_add_mul' (w a b : Nat) (v : BitVec 32) : Cert.KSpec.rowOf (w * 25600 + a + b) v = Cert.KSpec.rowOf (a + b) v := by
  rw [Nat.add_assoc]; exact rowOf_add_mul _ _ _

/-- Entry k of a 64-word list in row-major order is its entry at position k. -/
theorem rowMajor_symm_S64 (k : Fin S64.numel) (hk : k.val < 64) : S64.rowMajor.symm k = ix1 (⟨k.val, hk⟩ : Fin 64) := by
  refine (Equiv.symm_apply_eq _).mpr (Fin.ext ?_)
  rw [Shape.rowMajor_val_one]

/-- The shared table as the gathers address it: all 3200 rows. -/
abbrev shWhole : Memref sig .scVector .shared S3200x128 .f32 :=
  (Memref.whole cc1_scratch1).slice (Rect.unit (s := S3200x128) ![0, 0] S3200x128.size inb_S3200x128_S3200x128_0_0) (fun _ => rfl)

/-- The gather's payload over the table and the index list of step st is the step's 64 gathered rows. -/
theorem gather_payload (d : Dev nD) (c : Fin τ.nSC) (w : Fin 32) (st : Fin 400) (hg : S3200x128.Gathers 0 S64x128)
    (hn : S64.numel = S64x128.size hg.axis') (hin : ∀ x, ((IDXV m d w st) x).toNat < S3200x128.size hg.axis) :
    SparseCore.gatherPayload hg (View.read (Elt F) (shWhole).view (TABS m d c)) (SparseCore.rows (F := F) (si := S64) (IDXV m d w st) hn hin)
      = ROWSV m d w st := by
  funext y
  have hy0 : (y 0).val < 64 := (y 0).isLt
  have hy1 : (y 1).val < 128 := (y 1).isLt
  -- the source index: the row the list names at the destination's row, the destination's own column
  have e : (shWhole).view.emb (hg.idx (SparseCore.rows (F := F) (si := S64) (IDXV m d w st) hn hin) y)
      = ix2 (Cert.KSpec.rowOf (w.val * 25600 + st.val * 64 + (y 0).val)
          ((XF m d) (ix1 (⟨w.val * 25600 + st.val * 64 + (y 0).val, orow_lt w st _ hy0⟩ : Fin 819200))))
          (⟨(y 1).val, hy1⟩ : Fin 128) := by
    funext a
    match a with
    | ⟨0, _⟩ =>
      refine Fin.ext ?_
      show 0 + 1 * (hg.idx (SparseCore.rows (F := F) (si := S64) (IDXV m d w st) hn hin) y hg.axis).val
        = (Cert.KSpec.rowOf (w.val * 25600 + st.val * 64 + (y 0).val)
            ((XF m d) (ix1 (⟨w.val * 25600 + st.val * 64 + (y 0).val, orow_lt w st _ hy0⟩ : Fin 819200)))).val
      rw [Shape.Gathers.idx_axis, rowOf_add_mul' w.val (st.val * 64) (y 0).val]
      show 0 + 1 * (IDXV m d w st (S64.rowMajor.symm ((y hg.axis').cast hn.symm))).toNat = _
      rw [rowMajor_symm_S64 ((y hg.axis').cast hn.symm) hy0]
      show 0 + 1 * (IDXV m d w st (ix1 (⟨(y 0).val, hy0⟩ : Fin 64))).toNat = _
      rw [IDXV_apply, Cert.IdxChunk.row_toNat]
      exact (show ∀ n : Nat, 0 + 1 * n = n by intro n; omega) _
    | ⟨1, _⟩ =>
      refine Fin.ext ?_
      show 0 + 1 * (hg.idx (SparseCore.rows (F := F) (si := S64) (IDXV m d w st) hn hin) y ⟨1, by decide⟩).val = (y 1).val
      rw [Shape.Gathers.idx_of_ne hg _ y ⟨1, by decide⟩ (by decide)]
      show 0 + 1 * (y 1).val = (y 1).val
      omega
  show View.read (Elt F) (shWhole).view (TABS m d c) (hg.idx (SparseCore.rows (F := F) (si := S64) (IDXV m d w st) hn hin) y) = _
  rw [View.read_apply, e]
  rfl

/-- What the gather of step st leaves, read through any view of the destination's shape: the step's rows. -/
theorem gather_landed_read {κ : Kind} {sp : Space} (v : View sig κ sp S64x128 .f32) (fr : v.ty.Contents (Elt F))
    (d : Dev nD) (c : Fin τ.nSC) (w : Fin 32) (st : Fin 400) (hg : S3200x128.Gathers 0 S64x128)
    (hn : S64.numel = S64x128.size hg.axis') (hin : ∀ x, ((IDXV m d w st) x).toNat < S3200x128.size hg.axis) :
    v.read (Elt F) (v.writes (Elt F) fr [⟨Rect.whole S64x128,
        SparseCore.gatherPayload hg (View.read (Elt F) (shWhole).view (TABS m d c)) (SparseCore.rows (F := F) (si := S64) (IDXV m d w st) hn hin)⟩])
      = ROWSV m d w st :=
  (read_writes_whole v fr _).trans (gather_payload m d c w st hg hn hin)

/-! The same for each of the eight row buffers held whole, its index list the one of the same slot. -/
theorem gather_landed_0 (d : Dev nD) (c : Fin τ.nSC) (w : Fin 32) (st : Fin 400) (hg : S3200x128.Gathers 0 S64x128)
    (hn : S64.numel = S64x128.size hg.axis')
    (hin : ∀ x, ((Memref.whole cc1_scratch2 : Memref sig .scVector .vmem S64 .i32).view.read (Elt F) (IDXV m d w st) x).toNat < S3200x128.size hg.axis)
    (fr : (Memref.whole cc1_scratch10 : Memref sig .scVector .vmem S64x128 .f32).view.ty.Contents (Elt F)) :
    (Memref.whole cc1_scratch10 : Memref sig .scVector .vmem S64x128 .f32).view.writes (Elt F) fr
        [⟨Rect.whole (cc1_scratch10 : Ref sig .scVector).ty.shape,
          SparseCore.gatherPayload hg (View.read (Elt F) (shWhole).view (TABS m d c))
            (SparseCore.rows (View.read (Elt F) (Memref.whole cc1_scratch2 : Memref sig .scVector .vmem S64 .i32).view (IDXV m d w st)) hn hin)⟩]
      = ROWSV m d w st :=
  gather_landed_read m (View.whole (cc1_scratch10 : Ref sig .scVector)) fr d c w st hg hn hin

theorem gather_landed_1 (d : Dev nD) (c : Fin τ.nSC) (w : Fin 32) (st : Fin 400) (hg : S3200x128.Gathers 0 S64x128)
    (hn : S64.numel = S64x128.size hg.axis')
    (hin : ∀ x, ((Memref.whole cc1_scratch3 : Memref sig .scVector .vmem S64 .i32).view.read (Elt F) (IDXV m d w st) x).toNat < S3200x128.size hg.axis)
    (fr : (Memref.whole cc1_scratch11 : Memref sig .scVector .vmem S64x128 .f32).view.ty.Contents (Elt F)) :
    (Memref.whole cc1_scratch11 : Memref sig .scVector .vmem S64x128 .f32).view.writes (Elt F) fr
        [⟨Rect.whole (cc1_scratch11 : Ref sig .scVector).ty.shape,
          SparseCore.gatherPayload hg (View.read (Elt F) (shWhole).view (TABS m d c))
            (SparseCore.rows (View.read (Elt F) (Memref.whole cc1_scratch3 : Memref sig .scVector .vmem S64 .i32).view (IDXV m d w st)) hn hin)⟩]
      = ROWSV m d w st :=
  gather_landed_read m (View.whole (cc1_scratch11 : Ref sig .scVector)) fr d c w st hg hn hin

theorem gather_landed_2 (d : Dev nD) (c : Fin τ.nSC) (w : Fin 32) (st : Fin 400) (hg : S3200x128.Gathers 0 S64x128)
    (hn : S64.numel = S64x128.size hg.axis')
    (hin : ∀ x, ((Memref.whole cc1_scratch4 : Memref sig .scVector .vmem S64 .i32).view.read (Elt F) (IDXV m d w st) x).toNat < S3200x128.size hg.axis)
    (fr : (Memref.whole cc1_scratch12 : Memref sig .scVector .vmem S64x128 .f32).view.ty.Contents (Elt F)) :
    (Memref.whole cc1_scratch12 : Memref sig .scVector .vmem S64x128 .f32).view.writes (Elt F) fr
        [⟨Rect.whole (cc1_scratch12 : Ref sig .scVector).ty.shape,
          SparseCore.gatherPayload hg (View.read (Elt F) (shWhole).view (TABS m d c))
            (SparseCore.rows (View.read (Elt F) (Memref.whole cc1_scratch4 : Memref sig .scVector .vmem S64 .i32).view (IDXV m d w st)) hn hin)⟩]
      = ROWSV m d w st :=
  gather_landed_read m (View.whole (cc1_scratch12 : Ref sig .scVector)) fr d c w st hg hn hin

theorem gather_landed_3 (d : Dev nD) (c : Fin τ.nSC) (w : Fin 32) (st : Fin 400) (hg : S3200x128.Gathers 0 S64x128)
    (hn : S64.numel = S64x128.size hg.axis')
    (hin : ∀ x, ((Memref.whole cc1_scratch5 : Memref sig .scVector .vmem S64 .i32).view.read (Elt F) (IDXV m d w st) x).toNat < S3200x128.size hg.axis)
    (fr : (Memref.whole cc1_scratch13 : Memref sig .scVector .vmem S64x128 .f32).view.ty.Contents (Elt F)) :
    (Memref.whole cc1_scratch13 : Memref sig .scVector .vmem S64x128 .f32).view.writes (Elt F) fr
        [⟨Rect.whole (cc1_scratch13 : Ref sig .scVector).ty.shape,
          SparseCore.gatherPayload hg (View.read (Elt F) (shWhole).view (TABS m d c))
            (SparseCore.rows (View.read (Elt F) (Memref.whole cc1_scratch5 : Memref sig .scVector .vmem S64 .i32).view (IDXV m d w st)) hn hin)⟩]
      = ROWSV m d w st :=
  gather_landed_read m (View.whole (cc1_scratch13 : Ref sig .scVector)) fr d c w st hg hn hin

theorem gather_landed_4 (d : Dev nD) (c : Fin τ.nSC) (w : Fin 32) (st : Fin 400) (hg : S3200x128.Gathers 0 S64x128)
    (hn : S64.numel = S64x128.size hg.axis')
    (hin : ∀ x, ((Memref.whole cc1_scratch6 : Memref sig .scVector .vmem S64 .i32).view.read (Elt F) (IDXV m d w st) x).toNat < S3200x128.size hg.axis)
    (fr : (Memref.whole cc1_scratch14 : Memref sig .scVector .vmem S64x128 .f32).view.ty.Contents (Elt F)) :
    (Memref.whole cc1_scratch14 : Memref sig .scVector .vmem S64x128 .f32).view.writes (Elt F) fr
        [⟨Rect.whole (cc1_scratch14 : Ref sig .scVector).ty.shape,
          SparseCore.gatherPayload hg (View.read (Elt F) (shWhole).view (TABS m d c))
            (SparseCore.rows (View.read (Elt F) (Memref.whole cc1_scratch6 : Memref sig .scVector .vmem S64 .i32).view (IDXV m d w st)) hn hin)⟩]
      = ROWSV m d w st :=
  gather_landed_read m (View.whole (cc1_scratch14 : Ref sig .scVector)) fr d c w st hg hn hin

theorem gather_landed_5 (d : Dev nD) (c : Fin τ.nSC) (w : Fin 32) (st : Fin 400) (hg : S3200x128.Gathers 0 S64x128)
    (hn : S64.numel = S64x128.size hg.axis')
    (hin : ∀ x, ((Memref.whole cc1_scratch7 : Memref sig .scVector .vmem S64 .i32).view.read (Elt F) (IDXV m d w st) x).toNat < S3200x128.size hg.axis)
    (fr : (Memref.whole cc1_scratch15 : Memref sig .scVector .vmem S64x128 .f32).view.ty.Contents (Elt F)) :
    (Memref.whole cc1_scratch15 : Memref sig .scVector .vmem S64x128 .f32).view.writes (Elt F) fr
        [⟨Rect.whole (cc1_scratch15 : Ref sig .scVector).ty.shape,
          SparseCore.gatherPayload hg (View.read (Elt F) (shWhole).view (TABS m d c))
            (SparseCore.rows (View.read (Elt F) (Memref.whole cc1_scratch7 : Memref sig .scVector .vmem S64 .i32).view (IDXV m d w st)) hn hin)⟩]
      = ROWSV m d w st :=
  gather_landed_read m (View.whole (cc1_scratch15 : Ref sig .scVector)) fr d c w st hg hn hin

theorem gather_landed_6 (d : Dev nD) (c : Fin τ.nSC) (w : Fin 32) (st : Fin 400) (hg : S3200x128.Gathers 0 S64x128)
    (hn : S64.numel = S64x128.size hg.axis')
    (hin : ∀ x, ((Memref.whole cc1_scratch8 : Memref sig .scVector .vmem S64 .i32).view.read (Elt F) (IDXV m d w st) x).toNat < S3200x128.size hg.axis)
    (fr : (Memref.whole cc1_scratch16 : Memref sig .scVector .vmem S64x128 .f32).view.ty.Contents (Elt F)) :
    (Memref.whole cc1_scratch16 : Memref sig .scVector .vmem S64x128 .f32).view.writes (Elt F) fr
        [⟨Rect.whole (cc1_scratch16 : Ref sig .scVector).ty.shape,
          SparseCore.gatherPayload hg (View.read (Elt F) (shWhole).view (TABS m d c))
            (SparseCore.rows (View.read (Elt F) (Memref.whole cc1_scratch8 : Memref sig .scVector .vmem S64 .i32).view (IDXV m d w st)) hn hin)⟩]
      = ROWSV m d w st :=
  gather_landed_read m (View.whole (cc1_scratch16 : Ref sig .scVector)) fr d c w st hg hn hin

theorem gather_landed_7 (d : Dev nD) (c : Fin τ.nSC) (w : Fin 32) (st : Fin 400) (hg : S3200x128.Gathers 0 S64x128)
    (hn : S64.numel = S64x128.size hg.axis')
    (hin : ∀ x, ((Memref.whole cc1_scratch9 : Memref sig .scVector .vmem S64 .i32).view.read (Elt F) (IDXV m d w st) x).toNat < S3200x128.size hg.axis)
    (fr : (Memref.whole cc1_scratch17 : Memref sig .scVector .vmem S64x128 .f32).view.ty.Contents (Elt F)) :
    (Memref.whole cc1_scratch17 : Memref sig .scVector .vmem S64x128 .f32).view.writes (Elt F) fr
        [⟨Rect.whole (cc1_scratch17 : Ref sig .scVector).ty.shape,
          SparseCore.gatherPayload hg (View.read (Elt F) (shWhole).view (TABS m d c))
            (SparseCore.rows (View.read (Elt F) (Memref.whole cc1_scratch9 : Memref sig .scVector .vmem S64 .i32).view (IDXV m d w st)) hn hin)⟩]
      = ROWSV m d w st :=
  gather_landed_read m (View.whole (cc1_scratch17 : Ref sig .scVector)) fr d c w st hg hn hin

/-! ## What a copy-out lands -/

/-- After the copy of a step's 64 rows into its chunk of the output, the chunk holds the gathered rows. -/
theorem out_landedT (d : Dev nD) (L : grid1.Coords) (k : Fin k1_t1_loop.trips) (r : Fin 8) (fo : Buf (Elt F) (outLoc d))
    (P : S64x128.Idx → F .f32) (hP : P = ROWSV m d (wL L) ⟨k.val * 8 + r.val, chunkT_lt k r⟩) :
    (outLoc d ↦[oChunk (wL L) ⟨k.val * 8 + r.val, chunkT_lt k r⟩]{fullShare}
        ((oSlT L k r).view.writes (Elt F) fo [⟨Rect.whole S64x128, P⟩]) : sProp 𝕄)
      ⊢ outLoc d ↦[oChunk (wL L) ⟨k.val * 8 + r.val, chunkT_lt k r⟩]{fullShare} OUTF m d := by
  subst hP
  refine Entails.of_eq (pointsTo_congr fun i hi => ?_)
  have hi' : i ∈ (oSlT L k r).view.set := by rw [set_oSlT]; exact hi
  obtain ⟨y, -, rfl⟩ := Finset.mem_map.mp hi'
  have e : (oSlT L k r).view.emb y = ((oSlT L k r).view.slice (Rect.whole S64x128)).emb y := by
    show _ = (oSlT L k r).view.emb ((Rect.whole S64x128).emb y)
    rw [Rect.emb_whole_apply]
  rw [View.writes_singleton]
  refine (congrArg _ e).trans ?_
  rw [View.write_emb_of_mem _ _ (Finset.mem_univ y)]
  show _ = OUTF m d ((oSlT L k r).view.emb y)
  rw [emb_oSlT]
  rfl

theorem out_landedE (d : Dev nD) (L : grid1.Coords) (r : Fin 8) (fo : Buf (Elt F) (outLoc d))
    (P : S64x128.Idx → F .f32) (hP : P = ROWSV m d (wL L) ⟨392 + r.val, chunkE_lt r⟩) :
    (outLoc d ↦[oChunk (wL L) ⟨392 + r.val, chunkE_lt r⟩]{fullShare}
        ((oSlE L r).view.writes (Elt F) fo [⟨Rect.whole S64x128, P⟩]) : sProp 𝕄)
      ⊢ outLoc d ↦[oChunk (wL L) ⟨392 + r.val, chunkE_lt r⟩]{fullShare} OUTF m d := by
  subst hP
  refine Entails.of_eq (pointsTo_congr fun i hi => ?_)
  have hi' : i ∈ (oSlE L r).view.set := by rw [set_oSlE]; exact hi
  obtain ⟨y, -, rfl⟩ := Finset.mem_map.mp hi'
  have e : (oSlE L r).view.emb y = ((oSlE L r).view.slice (Rect.whole S64x128)).emb y := by
    show _ = (oSlE L r).view.emb ((Rect.whole S64x128).emb y)
    rw [Rect.emb_whole_apply]
  rw [View.writes_singleton]
  refine (congrArg _ e).trans ?_
  rw [View.write_emb_of_mem _ _ (Finset.mem_univ y)]
  show _ = OUTF m d ((oSlE L r).view.emb y)
  rw [emb_oSlE]
  rfl

/-- With the payload spelt as the row buffer's contents read through the buffer held whole. -/
example (d : Dev nD) (L : grid1.Coords) (k : Fin k1_t1_loop.trips) (r : Fin 8) (fo : Buf (Elt F) (outLoc d)) :
    (outLoc d ↦[oChunk (wL L) ⟨k.val * 8 + r.val, chunkT_lt k r⟩]{fullShare}
        ((oSlT L k r).view.writes (Elt F) fo [⟨Rect.whole S64x128, ReadAs.same.apply (View.read (Elt F)
          (Memref.whole cc1_scratch10 : Memref sig .scVector .vmem S64x128 .f32).view (ROWSV m d (wL L) ⟨k.val * 8 + r.val, chunkT_lt k r⟩))⟩]) : sProp 𝕄)
      ⊢ outLoc d ↦[oChunk (wL L) ⟨k.val * 8 + r.val, chunkT_lt k r⟩]{fullShare} OUTF m d :=
  out_landedT m d L k r fo _ rfl

end Cert.Proof.KB

end
-- ==== Proof.InvKB.lean ====
/-
  The loop invariant of a task's body, and the small facts it is stated over.

  A task works through 400 steps of 64 positions in eight slots. A step's index list holds, for lane r, the fused row
  (n mod 200)·16 + x[n] of its position n; its gather brings those 64 rows of the shared table into the slot's row buffer;
  its copy-out writes them to the task's output rows. At the head of step group k (k = 0 … 49) every slot b has the gather of
  step 8k + b in flight — the index list, the row buffer and the slot's read token of the table travel with it — no copy-out
  is in flight, and the output rows of the steps below 8k hold the gathered rows while the others are as launched.
-/
import proofs.«206439_g51874615001410_cont_9to1_m_433_33_alg».proof.Proof.TileResKB
import proofs.«206439_g51874615001410_cont_9to1_m_433_33_alg».proof.Proof.IdxChunk
import proofs.«206439_g51874615001410_cont_9to1_m_433_33_alg».proof.Proof.GeomKB
import proofs.«206439_g51874615001410_cont_9to1_m_433_33_alg».proof.Proof.BarrierKB
import proofs.«206439_g51874615001410_cont_9to1_m_433_33_alg».proof.Proof.BookKB
import proofs.«206439_g51874615001410_cont_9to1_m_433_33_alg».proof.Proof.ValsKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) [FloatOps F] [hK : Cert.Kernel.Facts]

section Tile

variable (d : Dev nD) (L : grid1.Coords)

abbrev cV (L : grid1.Coords) : Fin τ.nSC := (L 0).castLE hcore1
abbrev jV (L : grid1.Coords) : Fin τ.nSub := (L 1).castLE hsub1

/-- The task's ids, its rows of the table in HBM and in the shared scratch: held on the slices' own index sets, they are the pieces the launch handed over. -/
theorem pts_xSl (f : Buf (Elt F) (xfLoc d)) :
    ((xSl L).view.loc (V d (cV L) (jV L)) ↦[(xSl L).view.set]{fullShare} f : sProp 𝕄) = xfLoc d ↦[xPiece (wL L)]{fullShare} f := by
  rw [set_xSl]
theorem pts_tSl (q : PosShare TreeShare) (f : Buf (Elt F) (tabLoc d)) :
    ((tSl L).view.loc (V d (cV L) (jV L)) ↦[(tSl L).view.set]{q} f : sProp 𝕄) = tabLoc d ↦[tPiece (jL L)]{q} f := by
  rw [set_tSl]
theorem pts_shSl (q : PosShare TreeShare) (f : Buf (Elt F) (shLoc d (cV L))) :
    ((shSl L).view.loc (V d (cV L) (jV L)) ↦[(shSl L).view.set]{q} f : sProp 𝕄) = shLoc d (cV L) ↦[tPiece (jL L)]{q} f := by
  rw [set_shSl]; rfl

/-- An output chunk of a loop trip, and of the last step group, held on the slice's own index set, is the chunk of the task's rows. -/
theorem pts_oSlT (k : Fin k1_t1_loop.trips) (r : Fin 8) (f : Buf (Elt F) (outLoc d)) :
    ((oSlT L k r).view.loc (V d (cV L) (jV L)) ↦[(oSlT L k r).view.set]{fullShare} f : sProp 𝕄)
      = outLoc d ↦[oChunk (wL L) ⟨k.val * 8 + r.val, chunkT_lt k r⟩]{fullShare} f := by
  rw [set_oSlT]
theorem pts_oSlE (r : Fin 8) (f : Buf (Elt F) (outLoc d)) :
    ((oSlE L r).view.loc (V d (cV L) (jV L)) ↦[(oSlE L r).view.set]{fullShare} f : sProp 𝕄)
      = outLoc d ↦[oChunk (wL L) ⟨392 + r.val, chunkE_lt r⟩]{fullShare} f := by
  rw [set_oSlE]

/-- The task's first position as a word, and the lane numbers: what the body computes before its loop and passes into it. -/
abbrev vBase (L : grid1.Coords) : BitVec 32 := Scalar.muli (Scalar.addi (Scalar.muli (BitVec.ofNat 32 (L 1).val) 2#32) (BitVec.ofNat 32 (L 0).val)) 25600#32
abbrev vIota : IVec S16 32 := iota .scVector S16 32 [0] iota_S16_d0_w32_scVector

/-- The step number as an index below 400 (the steps a task runs are 0 … 399). -/
def stF (n : Nat) : Fin 400 := ⟨n % 400, Nat.mod_lt _ (by decide)⟩
theorem stF_val (n : Nat) (h : n < 400) : (stF n).val = n := Nat.mod_eq_of_lt h
theorem stF_eq (n : Nat) (h : n < 400) : stF n = ⟨n, h⟩ := Fin.ext (stF_val n h)

/-- At the head of step group `k`: the ids in their scratch; for every slot b the gather of step 8k + b in flight (its
    index list, its row buffer and its read token of the table travel with it); no copy-out in flight; the output rows of
    the steps below 8k written, the others as launched. -/
def inv (d : Dev nD) (L : grid1.Coords) (O : CellTallies nD τ sig (HIx 1)) (W : Waits sig (HIx 1)) (k : Nat) (_ : PUnit) : sProp 𝕄 :=
  iprop(Transfers.MayWaits (V d (cV L) (jV L)) (none : HIx 1) O
    ∗ ((Memref.whole cc1_scratch0 : Memref sig .scVector .vmem S25600 .i32).view.loc (V d (cV L) (jV L)) ↦{fullShare} XVf m d (wL L))
    ∗ (∃ fr : Buf (Elt F) ((Memref.whole cc1_scratch10 : Memref sig .scVector .vmem S64x128 .f32).view.loc (V d (cV L) (jV L))), (Transfers.Flight countersEmb (V d (cV L) (jV L)) (SemLoc.dma cc1_scratch18.sem) (default : HIx 1) 262144
      iprop((((Memref.whole cc1_scratch10 : Memref sig .scVector .vmem S64x128 .f32).view.loc (V d (cV L) (jV L)) ↦{fullShare}
            (Memref.whole cc1_scratch10 : Memref sig .scVector .vmem S64x128 .f32).view.writes (Elt F) fr [⟨Rect.whole (cc1_scratch10 : Ref sig .scVector).ty.shape, (SparseCore.gatherPayload gathers_S3200x128_S64x128 (View.read (Elt F) (shW).view (TABS m d (cV L))) (SparseCore.rows (View.read (Elt F) (Memref.whole cc1_scratch2 : Memref sig .scVector .vmem S64 .i32).view (IDXV m d (wL L) (stF (k * 8 + 0)))) (by decide) (idxv_in_2 m d (wL L) (stF (k * 8 + 0)))))⟩])
          ∗ ((Memref.whole cc1_scratch2 : Memref sig .scVector .vmem S64 .i32).view.loc (V d (cV L) (jV L)) ↦{fullShare} IDXV m d (wL L) (stF (k * 8 + 0))))
        ∗ ((shW).view.loc (V d (cV L) (jV L)) ↦[(shW).view.set]{Transfers.shareTokN (Transfers.shareTok fullShare 16 (Fin.cast nSub_eq (jV L))) 3} TABS m d (cV L)))) ∗ ((shW).view.loc (V d (cV L) (jV L)) ↦[(shW).view.set \ (shW).view.set]{Transfers.shareTokN (Transfers.shareTok fullShare 16 (Fin.cast nSub_eq (jV L))) 3} TABS m d (cV L)))
    ∗ (∃ fr : Buf (Elt F) ((Memref.whole cc1_scratch11 : Memref sig .scVector .vmem S64x128 .f32).view.loc (V d (cV L) (jV L))), (Transfers.Flight countersEmb (V d (cV L) (jV L)) (SemLoc.dma cc1_scratch19.sem) (default : HIx 1) 262144
      iprop((((Memref.whole cc1_scratch11 : Memref sig .scVector .vmem S64x128 .f32).view.loc (V d (cV L) (jV L)) ↦{fullShare}
            (Memref.whole cc1_scratch11 : Memref sig .scVector .vmem S64x128 .f32).view.writes (Elt F) fr [⟨Rect.whole (cc1_scratch11 : Ref sig .scVector).ty.shape, (SparseCore.gatherPayload gathers_S3200x128_S64x128 (View.read (Elt F) (shW).view (TABS m d (cV L))) (SparseCore.rows (View.read (Elt F) (Memref.whole cc1_scratch3 : Memref sig .scVector .vmem S64 .i32).view (IDXV m d (wL L) (stF (k * 8 + 1)))) (by decide) (idxv_in_3 m d (wL L) (stF (k * 8 + 1)))))⟩])
          ∗ ((Memref.whole cc1_scratch3 : Memref sig .scVector .vmem S64 .i32).view.loc (V d (cV L) (jV L)) ↦{fullShare} IDXV m d (wL L) (stF (k * 8 + 1))))
        ∗ ((shW).view.loc (V d (cV L) (jV L)) ↦[(shW).view.set]{Transfers.shareTokN (Transfers.shareTok fullShare 16 (Fin.cast nSub_eq (jV L))) 4} TABS m d (cV L)))) ∗ ((shW).view.loc (V d (cV L) (jV L)) ↦[(shW).view.set \ (shW).view.set]{Transfers.shareTokN (Transfers.shareTok fullShare 16 (Fin.cast nSub_eq (jV L))) 4} TABS m d (cV L)))
    ∗ (∃ fr : Buf (Elt F) ((Memref.whole cc1_scratch12 : Memref sig .scVector .vmem S64x128 .f32).view.loc (V d (cV L) (jV L))), (Transfers.Flight countersEmb (V d (cV L) (jV L)) (SemLoc.dma cc1_scratch20.sem) (default : HIx 1) 262144
      iprop((((Memref.whole cc1_scratch12 : Memref sig .scVector .vmem S64x128 .f32).view.loc (V d (cV L) (jV L)) ↦{fullShare}
            (Memref.whole cc1_scratch12 : Memref sig .scVector .vmem S64x128 .f32).view.writes (Elt F) fr [⟨Rect.whole (cc1_scratch12 : Ref sig .scVector).ty.shape, (SparseCore.gatherPayload gathers_S3200x128_S64x128 (View.read (Elt F) (shW).view (TABS m d (cV L))) (SparseCore.rows (View.read (Elt F) (Memref.whole cc1_scratch4 : Memref sig .scVector .vmem S64 .i32).view (IDXV m d (wL L) (stF (k * 8 + 2)))) (by decide) (idxv_in_4 m d (wL L) (stF (k * 8 + 2)))))⟩])
          ∗ ((Memref.whole cc1_scratch4 : Memref sig .scVector .vmem S64 .i32).view.loc (V d (cV L) (jV L)) ↦{fullShare} IDXV m d (wL L) (stF (k * 8 + 2))))
        ∗ ((shW).view.loc (V d (cV L) (jV L)) ↦[(shW).view.set]{Transfers.shareTokN (Transfers.shareTok fullShare 16 (Fin.cast nSub_eq (jV L))) 5} TABS m d (cV L)))) ∗ ((shW).view.loc (V d (cV L) (jV L)) ↦[(shW).view.set \ (shW).view.set]{Transfers.shareTokN (Transfers.shareTok fullShare 16 (Fin.cast nSub_eq (jV L))) 5} TABS m d (cV L)))
    ∗ (∃ fr : Buf (Elt F) ((Memref.whole cc1_scratch13 : Memref sig .scVector .vmem S64x128 .f32).view.loc (V d (cV L) (jV L))), (Transfers.Flight countersEmb (V d (cV L) (jV L)) (SemLoc.dma cc1_scratch21.sem) (default : HIx 1) 262144
      iprop((((Memref.whole cc1_scratch13 : Memref sig .scVector .vmem S64x128 .f32).view.loc (V d (cV L) (jV L)) ↦{fullShare}
            (Memref.whole cc1_scratch13 : Memref sig .scVector .vmem S64x128 .f32).view.writes (Elt F) fr [⟨Rect.whole (cc1_scratch13 : Ref sig .scVector).ty.shape, (SparseCore.gatherPayload gathers_S3200x128_S64x128 (View.read (Elt F) (shW).view (TABS m d (cV L))) (SparseCore.rows (View.read (Elt F) (Memref.whole cc1_scratch5 : Memref sig .scVector .vmem S64 .i32).view (IDXV m d (wL L) (stF (k * 8 + 3)))) (by decide) (idxv_in_5 m d (wL L) (stF (k * 8 + 3)))))⟩])
          ∗ ((Memref.whole cc1_scratch5 : Memref sig .scVector .vmem S64 .i32).view.loc (V d (cV L) (jV L)) ↦{fullShare} IDXV m d (wL L) (stF (k * 8 + 3))))
        ∗ ((shW).view.loc (V d (cV L) (jV L)) ↦[(shW).view.set]{Transfers.shareTokN (Transfers.shareTok fullShare 16 (Fin.cast nSub_eq (jV L))) 6} TABS m d (cV L)))) ∗ ((shW).view.loc (V d (cV L) (jV L)) ↦[(shW).view.set \ (shW).view.set]{Transfers.shareTokN (Transfers.shareTok fullShare 16 (Fin.cast nSub_eq (jV L))) 6} TABS m d (cV L)))
    ∗ (∃ fr : Buf (Elt F) ((Memref.whole cc1_scratch14 : Memref sig .scVector .vmem S64x128 .f32).view.loc (V d (cV L) (jV L))), (Transfers.Flight countersEmb (V d (cV L) (jV L)) (SemLoc.dma cc1_scratch22.sem) (default : HIx 1) 262144
      iprop((((Memref.whole cc1_scratch14 : Memref sig .scVector .vmem S64x128 .f32).view.loc (V d (cV L) (jV L)) ↦{fullShare}
            (Memref.whole cc1_scratch14 : Memref sig .scVector .vmem S64x128 .f32).view.writes (Elt F) fr [⟨Rect.whole (cc1_scratch14 : Ref sig .scVector).ty.shape, (SparseCore.gatherPayload gathers_S3200x128_S64x128 (View.read (Elt F) (shW).view (TABS m d (cV L))) (SparseCore.rows (View.read (Elt F) (Memref.whole cc1_scratch6 : Memref sig .scVector .vmem S64 .i32).view (IDXV m d (wL L) (stF (k * 8 + 4)))) (by decide) (idxv_in_6 m d (wL L) (stF (k * 8 + 4)))))⟩])
          ∗ ((Memref.whole cc1_scratch6 : Memref sig .scVector .vmem S64 .i32).view.loc (V d (cV L) (jV L)) ↦{fullShare} IDXV m d (wL L) (stF (k * 8 + 4))))
        ∗ ((shW).view.loc (V d (cV L) (jV L)) ↦[(shW).view.set]{Transfers.shareTokN (Transfers.shareTok fullShare 16 (Fin.cast nSub_eq (jV L))) 7} TABS m d (cV L)))) ∗ ((shW).view.loc (V d (cV L) (jV L)) ↦[(shW).view.set \ (shW).view.set]{Transfers.shareTokN (Transfers.shareTok fullShare 16 (Fin.cast nSub_eq (jV L))) 7} TABS m d (cV L)))
    ∗ (∃ fr : Buf (Elt F) ((Memref.whole cc1_scratch15 : Memref sig .scVector .vmem S64x128 .f32).view.loc (V d (cV L) (jV L))), (Transfers.Flight countersEmb (V d (cV L) (jV L)) (SemLoc.dma cc1_scratch23.sem) (default : HIx 1) 262144
      iprop((((Memref.whole cc1_scratch15 : Memref sig .scVector .vmem S64x128 .f32).view.loc (V d (cV L) (jV L)) ↦{fullShare}
            (Memref.whole cc1_scratch15 : Memref sig .scVector .vmem S64x128 .f32).view.writes (Elt F) fr [⟨Rect.whole (cc1_scratch15 : Ref sig .scVector).ty.shape, (SparseCore.gatherPayload gathers_S3200x128_S64x128 (View.read (Elt F) (shW).view (TABS m d (cV L))) (SparseCore.rows (View.read (Elt F) (Memref.whole cc1_scratch7 : Memref sig .scVector .vmem S64 .i32).view (IDXV m d (wL L) (stF (k * 8 + 5)))) (by decide) (idxv_in_7 m d (wL L) (stF (k * 8 + 5)))))⟩])
          ∗ ((Memref.whole cc1_scratch7 : Memref sig .scVector .vmem S64 .i32).view.loc (V d (cV L) (jV L)) ↦{fullShare} IDXV m d (wL L) (stF (k * 8 + 5))))
        ∗ ((shW).view.loc (V d (cV L) (jV L)) ↦[(shW).view.set]{Transfers.shareTokN (Transfers.shareTok fullShare 16 (Fin.cast nSub_eq (jV L))) 8} TABS m d (cV L)))) ∗ ((shW).view.loc (V d (cV L) (jV L)) ↦[(shW).view.set \ (shW).view.set]{Transfers.shareTokN (Transfers.shareTok fullShare 16 (Fin.cast nSub_eq (jV L))) 8} TABS m d (cV L)))
    ∗ (∃ fr : Buf (Elt F) ((Memref.whole cc1_scratch16 : Memref sig .scVector .vmem S64x128 .f32).view.loc (V d (cV L) (jV L))), (Transfers.Flight countersEmb (V d (cV L) (jV L)) (SemLoc.dma cc1_scratch24.sem) (default : HIx 1) 262144
      iprop((((Memref.whole cc1_scratch16 : Memref sig .scVector .vmem S64x128 .f32).view.loc (V d (cV L) (jV L)) ↦{fullShare}
            (Memref.whole cc1_scratch16 : Memref sig .scVector .vmem S64x128 .f32).view.writes (Elt F) fr [⟨Rect.whole (cc1_scratch16 : Ref sig .scVector).ty.shape, (SparseCore.gatherPayload gathers_S3200x128_S64x128 (View.read (Elt F) (shW).view (TABS m d (cV L))) (SparseCore.rows (View.read (Elt F) (Memref.whole cc1_scratch8 : Memref sig .scVector .vmem S64 .i32).view (IDXV m d (wL L) (stF (k * 8 + 6)))) (by decide) (idxv_in_8 m d (wL L) (stF (k * 8 + 6)))))⟩])
          ∗ ((Memref.whole cc1_scratch8 : Memref sig .scVector .vmem S64 .i32).view.loc (V d (cV L) (jV L)) ↦{fullShare} IDXV m d (wL L) (stF (k * 8 + 6))))
        ∗ ((shW).view.loc (V d (cV L) (jV L)) ↦[(shW).view.set]{Transfers.shareTokN (Transfers.shareTok fullShare 16 (Fin.cast nSub_eq (jV L))) 9} TABS m d (cV L)))) ∗ ((shW).view.loc (V d (cV L) (jV L)) ↦[(shW).view.set \ (shW).view.set]{Transfers.shareTokN (Transfers.shareTok fullShare 16 (Fin.cast nSub_eq (jV L))) 9} TABS m d (cV L)))
    ∗ (∃ fr : Buf (Elt F) ((Memref.whole cc1_scratch17 : Memref sig .scVector .vmem S64x128 .f32).view.loc (V d (cV L) (jV L))), (Transfers.Flight countersEmb (V d (cV L) (jV L)) (SemLoc.dma cc1_scratch25.sem) (default : HIx 1) 262144
      iprop((((Memref.whole cc1_scratch17 : Memref sig .scVector .vmem S64x128 .f32).view.loc (V d (cV L) (jV L)) ↦{fullShare}
            (Memref.whole cc1_scratch17 : Memref sig .scVector .vmem S64x128 .f32).view.writes (Elt F) fr [⟨Rect.whole (cc1_scratch17 : Ref sig .scVector).ty.shape, (SparseCore.gatherPayload gathers_S3200x128_S64x128 (View.read (Elt F) (shW).view (TABS m d (cV L))) (SparseCore.rows (View.read (Elt F) (Memref.whole cc1_scratch9 : Memref sig .scVector .vmem S64 .i32).view (IDXV m d (wL L) (stF (k * 8 + 7)))) (by decide) (idxv_in_9 m d (wL L) (stF (k * 8 + 7)))))⟩])
          ∗ ((Memref.whole cc1_scratch9 : Memref sig .scVector .vmem S64 .i32).view.loc (V d (cV L) (jV L)) ↦{fullShare} IDXV m d (wL L) (stF (k * 8 + 7))))
        ∗ ((shW).view.loc (V d (cV L) (jV L)) ↦[(shW).view.set]{Transfers.shareTokN (Transfers.shareTok fullShare 16 (Fin.cast nSub_eq (jV L))) 10} TABS m d (cV L)))) ∗ ((shW).view.loc (V d (cV L) (jV L)) ↦[(shW).view.set \ (shW).view.set]{Transfers.shareTokN (Transfers.shareTok fullShare 16 (Fin.cast nSub_eq (jV L))) 10} TABS m d (cV L)))
    ∗ semVal ((V d (cV L) (jV L) : Thread nD τ), SemLoc.dma cc1_scratch26.sem) 0
    ∗ semVal ((V d (cV L) (jV L) : Thread nD τ), SemLoc.dma cc1_scratch27.sem) 0
    ∗ semVal ((V d (cV L) (jV L) : Thread nD τ), SemLoc.dma cc1_scratch28.sem) 0
    ∗ semVal ((V d (cV L) (jV L) : Thread nD τ), SemLoc.dma cc1_scratch29.sem) 0
    ∗ semVal ((V d (cV L) (jV L) : Thread nD τ), SemLoc.dma cc1_scratch30.sem) 0
    ∗ semVal ((V d (cV L) (jV L) : Thread nD τ), SemLoc.dma cc1_scratch31.sem) 0
    ∗ semVal ((V d (cV L) (jV L) : Thread nD τ), SemLoc.dma cc1_scratch32.sem) 0
    ∗ semVal ((V d (cV L) (jV L) : Thread nD τ), SemLoc.dma cc1_scratch33.sem) 0
    ∗ (outLoc d ↦[outDone (wL L) k]{fullShare} OUTF m d)
    ∗ (outLoc d ↦[outTodo (wL L) k]{fullShare} m (outLoc d))
    ∗ ∃ W', ⌜∀ p ∈ W', p ∈ W ∨ p.2 = none ∨ p.2 = some (0 : Fin 1)⌝ ∗ owes (V d (cV L) (jV L)) O W')

end Tile

end Cert.Proof.KB

end
-- ==== Proof.TripKB.lean ====
/-
  One step group of a task's loop.

  For each slot the gather of step 8k + b is waited for and its 64 rows are sent to the output; then, slot by slot, the
  copy-out is waited for, the index list is refilled for step 8(k+1) + b — lane r of chunk q gets
  ((s·64 + q + r) mod 200)·16 + x[base + s·64 + q + r], which is the fused row of that position because the base is a
  multiple of 200 — and the gather is started again. The words the body computes (the chunk's first position, the load's
  offset) are decided over the 49 values of k. What lands in an output chunk is the gathered rows of its step, i.e. the
  rows of the final array; the group's eight chunks move from the rows still to write to the rows written.
-/
import proofs.«206439_g51874615001410_cont_9to1_m_433_33_alg».proof.Proof.InvKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) [FloatOps F] [hK : Cert.Kernel.Facts]

section Tile

variable (d : Dev nD) (L : grid1.Coords)

set_option maxHeartbeats 4000000 in
/-- One step group: the eight gathers land and their rows go out, then each slot's copy-out is waited for, its index
    list refilled for the step eight further on and its gather started again. -/
theorem trip (O : CellTallies nD τ sig (HIx 1)) (W : Waits sig (HIx 1)) (hxf : ∀ n, ((XF m d) n).toNat ≤ 14)
    (k : Fin k1_t1_loop.trips) (u : Unit) :
    inv m d L O W k.val u ⊢
      wp frame (wpE (defs₀ (F := F)) 𝒱₀ (V d (cV L) (jV L)) none) Set.univ
        (k1_t1_body L (Memref.whole main_v3_scv) (Memref.isWhole_whole _) (Memref.whole main_v2_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scratch34 cc1_scoped0 (vBase L) vIota 496#32 k u)
        (inv m d L O W (k.val + 1)) := by
  have hk49 : k.val < 49 := trips_le k
  unfold k1_t1_body
  unfold inv
  iintro ⟨#Hmw, Hs0, ⟨%fr0, Hg0, Hk0⟩, ⟨%fr1, Hg1, Hk1⟩, ⟨%fr2, Hg2, Hk2⟩, ⟨%fr3, Hg3, Hk3⟩, ⟨%fr4, Hg4, Hk4⟩, ⟨%fr5, Hg5, Hk5⟩, ⟨%fr6, Hg6, Hk6⟩, ⟨%fr7, Hg7, Hk7⟩, Hq0, Hq1, Hq2, Hq3, Hq4, Hq5, Hq6, Hq7, Hdone, Htodo, %W', %hW', HO⟩
  ihave Hch := ((out_take (F := F) d (wL L) k.val (by omega) _).1) $$ Htodo
  icases Hch with ⟨Hc0, Hc1, Hc2, Hc3, Hc4, Hc5, Hc6, Hc7, Htodo⟩
  ihave Hc0' : ((oSlT L k 0).view.loc (V d (cV L) (jV L)) ↦[(oSlT L k 0).view.set]{fullShare} m (outLoc d)) $$ [Hc0]
  · iclear Hmw
    istop
    exact Entails.of_eq (pts_oSlT (F := F) d L k 0 _).symm
  ihave Hc1' : ((oSlT L k 1).view.loc (V d (cV L) (jV L)) ↦[(oSlT L k 1).view.set]{fullShare} m (outLoc d)) $$ [Hc1]
  · iclear Hmw
    istop
    exact Entails.of_eq (pts_oSlT (F := F) d L k 1 _).symm
  ihave Hc2' : ((oSlT L k 2).view.loc (V d (cV L) (jV L)) ↦[(oSlT L k 2).view.set]{fullShare} m (outLoc d)) $$ [Hc2]
  · iclear Hmw
    istop
    exact Entails.of_eq (pts_oSlT (F := F) d L k 2 _).symm
  ihave Hc3' : ((oSlT L k 3).view.loc (V d (cV L) (jV L)) ↦[(oSlT L k 3).view.set]{fullShare} m (outLoc d)) $$ [Hc3]
  · iclear Hmw
    istop
    exact Entails.of_eq (pts_oSlT (F := F) d L k 3 _).symm
  ihave Hc4' : ((oSlT L k 4).view.loc (V d (cV L) (jV L)) ↦[(oSlT L k 4).view.set]{fullShare} m (outLoc d)) $$ [Hc4]
  · iclear Hmw
    istop
    exact Entails.of_eq (pts_oSlT (F := F) d L k 4 _).symm
  ihave Hc5' : ((oSlT L k 5).view.loc (V d (cV L) (jV L)) ↦[(oSlT L k 5).view.set]{fullShare} m (outLoc d)) $$ [Hc5]
  · iclear Hmw
    istop
    exact Entails.of_eq (pts_oSlT (F := F) d L k 5 _).symm
  ihave Hc6' : ((oSlT L k 6).view.loc (V d (cV L) (jV L)) ↦[(oSlT L k 6).view.set]{fullShare} m (outLoc d)) $$ [Hc6]
  · iclear Hmw
    istop
    exact Entails.of_eq (pts_oSlT (F := F) d L k 6 _).symm
  ihave Hc7' : ((oSlT L k 7).view.loc (V d (cV L) (jV L)) ↦[(oSlT L k 7).view.set]{fullShare} m (outLoc d)) $$ [Hc7]
  · iclear Hmw
    istop
    exact Entails.of_eq (pts_oSlT (F := F) d L k 7 _).symm
  sl_exec
  ihave Hi0n : ((Memref.whole cc1_scratch2 : Memref sig .scVector .vmem S64 .i32).view.loc (V d (cV L) (jV L)) ↦{fullShare} IDXV m d (wL L) (stF ((k.val + 1) * 8 + 0))) $$ [Hg0_dst_and]
  · iclear Hmw
    istop
    exact Entails.of_eq (congrArg (fun f => ((Memref.whole cc1_scratch2 : Memref sig .scVector .vmem S64 .i32).view.loc (V d (cV L) (jV L)) ↦{fullShare} f : sProp 𝕄))
      (idx_writes_2 _ _ _ _ _ _ _ _ (IDXV m d (wL L) (stF ((k.val + 1) * 8 + 0)))
        (fun j => by
        first
          | exact chunk_idxv m d (wL L) (stF ((k.val + 1) * 8 + 0)) 0 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 0)) 0 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 0)) 0 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 0)) 0 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 0)) 16 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 0)) 16 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 0)) 16 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 0)) 16 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 0)) 32 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 0)) 32 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 0)) 32 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 0)) 32 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 0)) 48 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 0)) 48 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 0)) 48 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 0)) 48 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j) _))
  have hin0 : ∀ x, ((Memref.whole cc1_scratch2 : Memref sig .scVector .vmem S64 .i32).view.read (Elt F) (IDXV m d (wL L) (stF ((k.val + 1) * 8 + 0))) x).toNat < 3200 := idxv_in_2 m d (wL L) (stF ((k.val + 1) * 8 + 0))
  sl_exec
  ihave Hi1n : ((Memref.whole cc1_scratch3 : Memref sig .scVector .vmem S64 .i32).view.loc (V d (cV L) (jV L)) ↦{fullShare} IDXV m d (wL L) (stF ((k.val + 1) * 8 + 1))) $$ [Hg1_dst_and]
  · iclear Hmw
    istop
    exact Entails.of_eq (congrArg (fun f => ((Memref.whole cc1_scratch3 : Memref sig .scVector .vmem S64 .i32).view.loc (V d (cV L) (jV L)) ↦{fullShare} f : sProp 𝕄))
      (idx_writes_3 _ _ _ _ _ _ _ _ (IDXV m d (wL L) (stF ((k.val + 1) * 8 + 1)))
        (fun j => by
        first
          | exact chunk_idxv m d (wL L) (stF ((k.val + 1) * 8 + 1)) 0 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 1)) 0 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 1)) 0 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 1)) 0 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 1)) 16 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 1)) 16 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 1)) 16 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 1)) 16 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 1)) 32 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 1)) 32 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 1)) 32 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 1)) 32 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 1)) 48 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 1)) 48 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 1)) 48 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 1)) 48 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j) _))
  have hin1 : ∀ x, ((Memref.whole cc1_scratch3 : Memref sig .scVector .vmem S64 .i32).view.read (Elt F) (IDXV m d (wL L) (stF ((k.val + 1) * 8 + 1))) x).toNat < 3200 := idxv_in_3 m d (wL L) (stF ((k.val + 1) * 8 + 1))
  sl_exec
  ihave Hi2n : ((Memref.whole cc1_scratch4 : Memref sig .scVector .vmem S64 .i32).view.loc (V d (cV L) (jV L)) ↦{fullShare} IDXV m d (wL L) (stF ((k.val + 1) * 8 + 2))) $$ [Hg2_dst_and]
  · iclear Hmw
    istop
    exact Entails.of_eq (congrArg (fun f => ((Memref.whole cc1_scratch4 : Memref sig .scVector .vmem S64 .i32).view.loc (V d (cV L) (jV L)) ↦{fullShare} f : sProp 𝕄))
      (idx_writes_4 _ _ _ _ _ _ _ _ (IDXV m d (wL L) (stF ((k.val + 1) * 8 + 2)))
        (fun j => by
        first
          | exact chunk_idxv m d (wL L) (stF ((k.val + 1) * 8 + 2)) 0 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 2)) 0 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 2)) 0 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 2)) 0 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 2)) 16 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 2)) 16 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 2)) 16 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 2)) 16 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 2)) 32 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 2)) 32 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 2)) 32 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 2)) 32 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 2)) 48 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 2)) 48 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 2)) 48 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 2)) 48 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j) _))
  have hin2 : ∀ x, ((Memref.whole cc1_scratch4 : Memref sig .scVector .vmem S64 .i32).view.read (Elt F) (IDXV m d (wL L) (stF ((k.val + 1) * 8 + 2))) x).toNat < 3200 := idxv_in_4 m d (wL L) (stF ((k.val + 1) * 8 + 2))
  sl_exec
  ihave Hi3n : ((Memref.whole cc1_scratch5 : Memref sig .scVector .vmem S64 .i32).view.loc (V d (cV L) (jV L)) ↦{fullShare} IDXV m d (wL L) (stF ((k.val + 1) * 8 + 3))) $$ [Hg3_dst_and]
  · iclear Hmw
    istop
    exact Entails.of_eq (congrArg (fun f => ((Memref.whole cc1_scratch5 : Memref sig .scVector .vmem S64 .i32).view.loc (V d (cV L) (jV L)) ↦{fullShare} f : sProp 𝕄))
      (idx_writes_5 _ _ _ _ _ _ _ _ (IDXV m d (wL L) (stF ((k.val + 1) * 8 + 3)))
        (fun j => by
        first
          | exact chunk_idxv m d (wL L) (stF ((k.val + 1) * 8 + 3)) 0 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 3)) 0 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 3)) 0 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 3)) 0 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 3)) 16 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 3)) 16 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 3)) 16 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 3)) 16 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 3)) 32 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 3)) 32 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 3)) 32 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 3)) 32 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 3)) 48 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 3)) 48 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 3)) 48 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 3)) 48 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j) _))
  have hin3 : ∀ x, ((Memref.whole cc1_scratch5 : Memref sig .scVector .vmem S64 .i32).view.read (Elt F) (IDXV m d (wL L) (stF ((k.val + 1) * 8 + 3))) x).toNat < 3200 := idxv_in_5 m d (wL L) (stF ((k.val + 1) * 8 + 3))
  sl_exec
  ihave Hi4n : ((Memref.whole cc1_scratch6 : Memref sig .scVector .vmem S64 .i32).view.loc (V d (cV L) (jV L)) ↦{fullShare} IDXV m d (wL L) (stF ((k.val + 1) * 8 + 4))) $$ [Hg4_dst_and]
  · iclear Hmw
    istop
    exact Entails.of_eq (congrArg (fun f => ((Memref.whole cc1_scratch6 : Memref sig .scVector .vmem S64 .i32).view.loc (V d (cV L) (jV L)) ↦{fullShare} f : sProp 𝕄))
      (idx_writes_6 _ _ _ _ _ _ _ _ (IDXV m d (wL L) (stF ((k.val + 1) * 8 + 4)))
        (fun j => by
        first
          | exact chunk_idxv m d (wL L) (stF ((k.val + 1) * 8 + 4)) 0 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 4)) 0 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 4)) 0 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 4)) 0 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 4)) 16 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 4)) 16 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 4)) 16 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 4)) 16 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 4)) 32 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 4)) 32 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 4)) 32 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 4)) 32 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 4)) 48 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 4)) 48 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 4)) 48 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 4)) 48 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j) _))
  have hin4 : ∀ x, ((Memref.whole cc1_scratch6 : Memref sig .scVector .vmem S64 .i32).view.read (Elt F) (IDXV m d (wL L) (stF ((k.val + 1) * 8 + 4))) x).toNat < 3200 := idxv_in_6 m d (wL L) (stF ((k.val + 1) * 8 + 4))
  sl_exec
  ihave Hi5n : ((Memref.whole cc1_scratch7 : Memref sig .scVector .vmem S64 .i32).view.loc (V d (cV L) (jV L)) ↦{fullShare} IDXV m d (wL L) (stF ((k.val + 1) * 8 + 5))) $$ [Hg5_dst_and]
  · iclear Hmw
    istop
    exact Entails.of_eq (congrArg (fun f => ((Memref.whole cc1_scratch7 : Memref sig .scVector .vmem S64 .i32).view.loc (V d (cV L) (jV L)) ↦{fullShare} f : sProp 𝕄))
      (idx_writes_7 _ _ _ _ _ _ _ _ (IDXV m d (wL L) (stF ((k.val + 1) * 8 + 5)))
        (fun j => by
        first
          | exact chunk_idxv m d (wL L) (stF ((k.val + 1) * 8 + 5)) 0 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 5)) 0 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 5)) 0 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 5)) 0 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 5)) 16 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 5)) 16 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 5)) 16 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 5)) 16 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 5)) 32 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 5)) 32 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 5)) 32 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 5)) 32 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 5)) 48 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 5)) 48 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 5)) 48 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 5)) 48 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j) _))
  have hin5 : ∀ x, ((Memref.whole cc1_scratch7 : Memref sig .scVector .vmem S64 .i32).view.read (Elt F) (IDXV m d (wL L) (stF ((k.val + 1) * 8 + 5))) x).toNat < 3200 := idxv_in_7 m d (wL L) (stF ((k.val + 1) * 8 + 5))
  sl_exec
  ihave Hi6n : ((Memref.whole cc1_scratch8 : Memref sig .scVector .vmem S64 .i32).view.loc (V d (cV L) (jV L)) ↦{fullShare} IDXV m d (wL L) (stF ((k.val + 1) * 8 + 6))) $$ [Hg6_dst_and]
  · iclear Hmw
    istop
    exact Entails.of_eq (congrArg (fun f => ((Memref.whole cc1_scratch8 : Memref sig .scVector .vmem S64 .i32).view.loc (V d (cV L) (jV L)) ↦{fullShare} f : sProp 𝕄))
      (idx_writes_8 _ _ _ _ _ _ _ _ (IDXV m d (wL L) (stF ((k.val + 1) * 8 + 6)))
        (fun j => by
        first
          | exact chunk_idxv m d (wL L) (stF ((k.val + 1) * 8 + 6)) 0 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 6)) 0 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 6)) 0 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 6)) 0 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 6)) 16 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 6)) 16 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 6)) 16 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 6)) 16 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 6)) 32 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 6)) 32 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 6)) 32 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 6)) 32 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 6)) 48 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 6)) 48 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 6)) 48 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 6)) 48 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j) _))
  have hin6 : ∀ x, ((Memref.whole cc1_scratch8 : Memref sig .scVector .vmem S64 .i32).view.read (Elt F) (IDXV m d (wL L) (stF ((k.val + 1) * 8 + 6))) x).toNat < 3200 := idxv_in_8 m d (wL L) (stF ((k.val + 1) * 8 + 6))
  sl_exec
  ihave Hi7n : ((Memref.whole cc1_scratch9 : Memref sig .scVector .vmem S64 .i32).view.loc (V d (cV L) (jV L)) ↦{fullShare} IDXV m d (wL L) (stF ((k.val + 1) * 8 + 7))) $$ [Hg7_dst_and]
  · iclear Hmw
    istop
    exact Entails.of_eq (congrArg (fun f => ((Memref.whole cc1_scratch9 : Memref sig .scVector .vmem S64 .i32).view.loc (V d (cV L) (jV L)) ↦{fullShare} f : sProp 𝕄))
      (idx_writes_9 _ _ _ _ _ _ _ _ (IDXV m d (wL L) (stF ((k.val + 1) * 8 + 7)))
        (fun j => by
        first
          | exact chunk_idxv m d (wL L) (stF ((k.val + 1) * 8 + 7)) 0 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 7)) 0 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 7)) 0 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 7)) 0 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 7)) 16 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 7)) 16 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 7)) 16 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 7)) 16 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 7)) 32 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 7)) 32 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 7)) 32 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 7)) 32 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j)
        (fun j => by
        first
          | exact chunk_idxv m d (wL L) (stF ((k.val + 1) * 8 + 7)) 48 (by decide) hxf _ (by first | decide | rfl | (rw [stF_val _ (by omega)]; clear * - k; decide +revert +kernel)) _ (by first | decide | rfl | (rw [stF_val _ (by omega)]; clear * - k; decide +revert +kernel)) _ _ _ j
          | exact chunk_idxv_parts m d (wL L) (stF ((k.val + 1) * 8 + 7)) 48 (by decide) hxf _ (by first | decide | rfl | (rw [stF_val _ (by omega)]; clear * - k; decide +revert +kernel)) _ (by first | decide | rfl | (rw [stF_val _ (by omega)]; clear * - k; decide +revert +kernel)) _ _ _ _ _ rfl rfl j
          | exact chunk_idxv_spos m d (wL L) (stF ((k.val + 1) * 8 + 7)) 48 (by decide) hxf _ (by first | decide | rfl | (rw [stF_val _ (by omega)]; clear * - k; decide +revert +kernel)) _ (by first | decide | rfl | (rw [stF_val _ (by omega)]; clear * - k; decide +revert +kernel)) _ _ _ (fun j' => Cert.IdxChunk.spos_apply _ (by clear * - k; decide +revert +kernel) _ j') j
          | exact chunk_idxv_mul m d (wL L) (stF ((k.val + 1) * 8 + 7)) 48 (by decide) hxf _ (by first | decide | rfl | (rw [stF_val _ (by omega)]; clear * - k; decide +revert +kernel)) _ (by first | decide | rfl | (rw [stF_val _ (by omega)]; clear * - k; decide +revert +kernel)) _ _ _ _ (fun j' => Cert.IdxChunk.mul16_apply _ _ (Cert.IdxChunk.spos_apply _ (by clear * - k; decide +revert +kernel) _) j') (fun j' => congrFun (Cert.IdxChunk.shapeCast_S16_self _ _) j') j) _))
  have hin7 : ∀ x, ((Memref.whole cc1_scratch9 : Memref sig .scVector .vmem S64 .i32).view.read (Elt F) (IDXV m d (wL L) (stF ((k.val + 1) * 8 + 7))) x).toNat < 3200 := idxv_in_9 m d (wL L) (stF ((k.val + 1) * 8 + 7))
  sl_exec
  sl_step
  ihave Hd0 : (outLoc d ↦[oChunk (wL L) ⟨k.val * 8 + 0, by omega⟩]{fullShare} OUTF m d) $$ [Hc0']
  · iclear Hmw
    istop
    exact (Entails.of_eq (pts_oSlT (F := F) d L k 0 _)).trans (out_landedT m d L k 0 _ _
      ((gather_landed_read m _ _ d (cV L) (wL L) (stF (k.val * 8 + 0)) _ _ _).trans (congrArg (ROWSV m d (wL L)) (stF_eq (k.val * 8 + 0) (by omega)))))
  ihave Hd1 : (outLoc d ↦[oChunk (wL L) ⟨k.val * 8 + 1, by omega⟩]{fullShare} OUTF m d) $$ [Hc1']
  · iclear Hmw
    istop
    exact (Entails.of_eq (pts_oSlT (F := F) d L k 1 _)).trans (out_landedT m d L k 1 _ _
      ((gather_landed_read m _ _ d (cV L) (wL L) (stF (k.val * 8 + 1)) _ _ _).trans (congrArg (ROWSV m d (wL L)) (stF_eq (k.val * 8 + 1) (by omega)))))
  ihave Hd2 : (outLoc d ↦[oChunk (wL L) ⟨k.val * 8 + 2, by omega⟩]{fullShare} OUTF m d) $$ [Hc2']
  · iclear Hmw
    istop
    exact (Entails.of_eq (pts_oSlT (F := F) d L k 2 _)).trans (out_landedT m d L k 2 _ _
      ((gather_landed_read m _ _ d (cV L) (wL L) (stF (k.val * 8 + 2)) _ _ _).trans (congrArg (ROWSV m d (wL L)) (stF_eq (k.val * 8 + 2) (by omega)))))
  ihave Hd3 : (outLoc d ↦[oChunk (wL L) ⟨k.val * 8 + 3, by omega⟩]{fullShare} OUTF m d) $$ [Hc3']
  · iclear Hmw
    istop
    exact (Entails.of_eq (pts_oSlT (F := F) d L k 3 _)).trans (out_landedT m d L k 3 _ _
      ((gather_landed_read m _ _ d (cV L) (wL L) (stF (k.val * 8 + 3)) _ _ _).trans (congrArg (ROWSV m d (wL L)) (stF_eq (k.val * 8 + 3) (by omega)))))
  ihave Hd4 : (outLoc d ↦[oChunk (wL L) ⟨k.val * 8 + 4, by omega⟩]{fullShare} OUTF m d) $$ [Hc4']
  · iclear Hmw
    istop
    exact (Entails.of_eq (pts_oSlT (F := F) d L k 4 _)).trans (out_landedT m d L k 4 _ _
      ((gather_landed_read m _ _ d (cV L) (wL L) (stF (k.val * 8 + 4)) _ _ _).trans (congrArg (ROWSV m d (wL L)) (stF_eq (k.val * 8 + 4) (by omega)))))
  ihave Hd5 : (outLoc d ↦[oChunk (wL L) ⟨k.val * 8 + 5, by omega⟩]{fullShare} OUTF m d) $$ [Hc5']
  · iclear Hmw
    istop
    exact (Entails.of_eq (pts_oSlT (F := F) d L k 5 _)).trans (out_landedT m d L k 5 _ _
      ((gather_landed_read m _ _ d (cV L) (wL L) (stF (k.val * 8 + 5)) _ _ _).trans (congrArg (ROWSV m d (wL L)) (stF_eq (k.val * 8 + 5) (by omega)))))
  ihave Hd6 : (outLoc d ↦[oChunk (wL L) ⟨k.val * 8 + 6, by omega⟩]{fullShare} OUTF m d) $$ [Hc6']
  · iclear Hmw
    istop
    exact (Entails.of_eq (pts_oSlT (F := F) d L k 6 _)).trans (out_landedT m d L k 6 _ _
      ((gather_landed_read m _ _ d (cV L) (wL L) (stF (k.val * 8 + 6)) _ _ _).trans (congrArg (ROWSV m d (wL L)) (stF_eq (k.val * 8 + 6) (by omega)))))
  ihave Hd7 : (outLoc d ↦[oChunk (wL L) ⟨k.val * 8 + 7, by omega⟩]{fullShare} OUTF m d) $$ [Hc7']
  · iclear Hmw
    istop
    exact (Entails.of_eq (pts_oSlT (F := F) d L k 7 _)).trans (out_landedT m d L k 7 _ _
      ((gather_landed_read m _ _ d (cV L) (wL L) (stF (k.val * 8 + 7)) _ _ _).trans (congrArg (ROWSV m d (wL L)) (stF_eq (k.val * 8 + 7) (by omega)))))
  ihave Hdone' := (out_put (F := F) d (wL L) k.val (by omega) (OUTF m d)) $$ [Hdone Hd0 Hd1 Hd2 Hd3 Hd4 Hd5 Hd6 Hd7]
  · isplitl [Hdone]; · iexact Hdone
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  ihave Hsl0 : (∃ fr : Buf (Elt F) ((Memref.whole cc1_scratch10 : Memref sig .scVector .vmem S64x128 .f32).view.loc (V d (cV L) (jV L))), (Transfers.Flight countersEmb (V d (cV L) (jV L)) (SemLoc.dma cc1_scratch18.sem) (default : HIx 1) 262144
      iprop((((Memref.whole cc1_scratch10 : Memref sig .scVector .vmem S64x128 .f32).view.loc (V d (cV L) (jV L)) ↦{fullShare}
            (Memref.whole cc1_scratch10 : Memref sig .scVector .vmem S64x128 .f32).view.writes (Elt F) fr [⟨Rect.whole (cc1_scratch10 : Ref sig .scVector).ty.shape, (SparseCore.gatherPayload gathers_S3200x128_S64x128 (View.read (Elt F) (shW).view (TABS m d (cV L))) (SparseCore.rows (View.read (Elt F) (Memref.whole cc1_scratch2 : Memref sig .scVector .vmem S64 .i32).view (IDXV m d (wL L) (stF ((k.val + 1) * 8 + 0)))) (by decide) (idxv_in_2 m d (wL L) (stF ((k.val + 1) * 8 + 0)))))⟩])
          ∗ ((Memref.whole cc1_scratch2 : Memref sig .scVector .vmem S64 .i32).view.loc (V d (cV L) (jV L)) ↦{fullShare} IDXV m d (wL L) (stF ((k.val + 1) * 8 + 0))))
        ∗ ((shW).view.loc (V d (cV L) (jV L)) ↦[(shW).view.set]{Transfers.shareTokN (Transfers.shareTok fullShare 16 (Fin.cast nSub_eq (jV L))) 3} TABS m d (cV L)))) ∗ ((shW).view.loc (V d (cV L) (jV L)) ↦[(shW).view.set \ (shW).view.set]{Transfers.shareTokN (Transfers.shareTok fullShare 16 (Fin.cast nSub_eq (jV L))) 3} TABS m d (cV L))) $$ [Hg0 Hk0]
  · iclear Hmw
    istop
    exact exists_intro_trans _ (BI.Entails.refl _)
  ihave Hsl1 : (∃ fr : Buf (Elt F) ((Memref.whole cc1_scratch11 : Memref sig .scVector .vmem S64x128 .f32).view.loc (V d (cV L) (jV L))), (Transfers.Flight countersEmb (V d (cV L) (jV L)) (SemLoc.dma cc1_scratch19.sem) (default : HIx 1) 262144
      iprop((((Memref.whole cc1_scratch11 : Memref sig .scVector .vmem S64x128 .f32).view.loc (V d (cV L) (jV L)) ↦{fullShare}
            (Memref.whole cc1_scratch11 : Memref sig .scVector .vmem S64x128 .f32).view.writes (Elt F) fr [⟨Rect.whole (cc1_scratch11 : Ref sig .scVector).ty.shape, (SparseCore.gatherPayload gathers_S3200x128_S64x128 (View.read (Elt F) (shW).view (TABS m d (cV L))) (SparseCore.rows (View.read (Elt F) (Memref.whole cc1_scratch3 : Memref sig .scVector .vmem S64 .i32).view (IDXV m d (wL L) (stF ((k.val + 1) * 8 + 1)))) (by decide) (idxv_in_3 m d (wL L) (stF ((k.val + 1) * 8 + 1)))))⟩])
          ∗ ((Memref.whole cc1_scratch3 : Memref sig .scVector .vmem S64 .i32).view.loc (V d (cV L) (jV L)) ↦{fullShare} IDXV m d (wL L) (stF ((k.val + 1) * 8 + 1))))
        ∗ ((shW).view.loc (V d (cV L) (jV L)) ↦[(shW).view.set]{Transfers.shareTokN (Transfers.shareTok fullShare 16 (Fin.cast nSub_eq (jV L))) 4} TABS m d (cV L)))) ∗ ((shW).view.loc (V d (cV L) (jV L)) ↦[(shW).view.set \ (shW).view.set]{Transfers.shareTokN (Transfers.shareTok fullShare 16 (Fin.cast nSub_eq (jV L))) 4} TABS m d (cV L))) $$ [Hg1 Hk1]
  · iclear Hmw
    istop
    exact exists_intro_trans _ (BI.Entails.refl _)
  ihave Hsl2 : (∃ fr : Buf (Elt F) ((Memref.whole cc1_scratch12 : Memref sig .scVector .vmem S64x128 .f32).view.loc (V d (cV L) (jV L))), (Transfers.Flight countersEmb (V d (cV L) (jV L)) (SemLoc.dma cc1_scratch20.sem) (default : HIx 1) 262144
      iprop((((Memref.whole cc1_scratch12 : Memref sig .scVector .vmem S64x128 .f32).view.loc (V d (cV L) (jV L)) ↦{fullShare}
            (Memref.whole cc1_scratch12 : Memref sig .scVector .vmem S64x128 .f32).view.writes (Elt F) fr [⟨Rect.whole (cc1_scratch12 : Ref sig .scVector).ty.shape, (SparseCore.gatherPayload gathers_S3200x128_S64x128 (View.read (Elt F) (shW).view (TABS m d (cV L))) (SparseCore.rows (View.read (Elt F) (Memref.whole cc1_scratch4 : Memref sig .scVector .vmem S64 .i32).view (IDXV m d (wL L) (stF ((k.val + 1) * 8 + 2)))) (by decide) (idxv_in_4 m d (wL L) (stF ((k.val + 1) * 8 + 2)))))⟩])
          ∗ ((Memref.whole cc1_scratch4 : Memref sig .scVector .vmem S64 .i32).view.loc (V d (cV L) (jV L)) ↦{fullShare} IDXV m d (wL L) (stF ((k.val + 1) * 8 + 2))))
        ∗ ((shW).view.loc (V d (cV L) (jV L)) ↦[(shW).view.set]{Transfers.shareTokN (Transfers.shareTok fullShare 16 (Fin.cast nSub_eq (jV L))) 5} TABS m d (cV L)))) ∗ ((shW).view.loc (V d (cV L) (jV L)) ↦[(shW).view.set \ (shW).view.set]{Transfers.shareTokN (Transfers.shareTok fullShare 16 (Fin.cast nSub_eq (jV L))) 5} TABS m d (cV L))) $$ [Hg2 Hk2]
  · iclear Hmw
    istop
    exact exists_intro_trans _ (BI.Entails.refl _)
  ihave Hsl3 : (∃ fr : Buf (Elt F) ((Memref.whole cc1_scratch13 : Memref sig .scVector .vmem S64x128 .f32).view.loc (V d (cV L) (jV L))), (Transfers.Flight countersEmb (V d (cV L) (jV L)) (SemLoc.dma cc1_scratch21.sem) (default : HIx 1) 262144
      iprop((((Memref.whole cc1_scratch13 : Memref sig .scVector .vmem S64x128 .f32).view.loc (V d (cV L) (jV L)) ↦{fullShare}
            (Memref.whole cc1_scratch13 : Memref sig .scVector .vmem S64x128 .f32).view.writes (Elt F) fr [⟨Rect.whole (cc1_scratch13 : Ref sig .scVector).ty.shape, (SparseCore.gatherPayload gathers_S3200x128_S64x128 (View.read (Elt F) (shW).view (TABS m d (cV L))) (SparseCore.rows (View.read (Elt F) (Memref.whole cc1_scratch5 : Memref sig .scVector .vmem S64 .i32).view (IDXV m d (wL L) (stF ((k.val + 1) * 8 + 3)))) (by decide) (idxv_in_5 m d (wL L) (stF ((k.val + 1) * 8 + 3)))))⟩])
          ∗ ((Memref.whole cc1_scratch5 : Memref sig .scVector .vmem S64 .i32).view.loc (V d (cV L) (jV L)) ↦{fullShare} IDXV m d (wL L) (stF ((k.val + 1) * 8 + 3))))
        ∗ ((shW).view.loc (V d (cV L) (jV L)) ↦[(shW).view.set]{Transfers.shareTokN (Transfers.shareTok fullShare 16 (Fin.cast nSub_eq (jV L))) 6} TABS m d (cV L)))) ∗ ((shW).view.loc (V d (cV L) (jV L)) ↦[(shW).view.set \ (shW).view.set]{Transfers.shareTokN (Transfers.shareTok fullShare 16 (Fin.cast nSub_eq (jV L))) 6} TABS m d (cV L))) $$ [Hg3 Hk3]
  · iclear Hmw
    istop
    exact exists_intro_trans _ (BI.Entails.refl _)
  ihave Hsl4 : (∃ fr : Buf (Elt F) ((Memref.whole cc1_scratch14 : Memref sig .scVector .vmem S64x128 .f32).view.loc (V d (cV L) (jV L))), (Transfers.Flight countersEmb (V d (cV L) (jV L)) (SemLoc.dma cc1_scratch22.sem) (default : HIx 1) 262144
      iprop((((Memref.whole cc1_scratch14 : Memref sig .scVector .vmem S64x128 .f32).view.loc (V d (cV L) (jV L)) ↦{fullShare}
            (Memref.whole cc1_scratch14 : Memref sig .scVector .vmem S64x128 .f32).view.writes (Elt F) fr [⟨Rect.whole (cc1_scratch14 : Ref sig .scVector).ty.shape, (SparseCore.gatherPayload gathers_S3200x128_S64x128 (View.read (Elt F) (shW).view (TABS m d (cV L))) (SparseCore.rows (View.read (Elt F) (Memref.whole cc1_scratch6 : Memref sig .scVector .vmem S64 .i32).view (IDXV m d (wL L) (stF ((k.val + 1) * 8 + 4)))) (by decide) (idxv_in_6 m d (wL L) (stF ((k.val + 1) * 8 + 4)))))⟩])
          ∗ ((Memref.whole cc1_scratch6 : Memref sig .scVector .vmem S64 .i32).view.loc (V d (cV L) (jV L)) ↦{fullShare} IDXV m d (wL L) (stF ((k.val + 1) * 8 + 4))))
        ∗ ((shW).view.loc (V d (cV L) (jV L)) ↦[(shW).view.set]{Transfers.shareTokN (Transfers.shareTok fullShare 16 (Fin.cast nSub_eq (jV L))) 7} TABS m d (cV L)))) ∗ ((shW).view.loc (V d (cV L) (jV L)) ↦[(shW).view.set \ (shW).view.set]{Transfers.shareTokN (Transfers.shareTok fullShare 16 (Fin.cast nSub_eq (jV L))) 7} TABS m d (cV L))) $$ [Hg4 Hk4]
  · iclear Hmw
    istop
    exact exists_intro_trans _ (BI.Entails.refl _)
  ihave Hsl5 : (∃ fr : Buf (Elt F) ((Memref.whole cc1_scratch15 : Memref sig .scVector .vmem S64x128 .f32).view.loc (V d (cV L) (jV L))), (Transfers.Flight countersEmb (V d (cV L) (jV L)) (SemLoc.dma cc1_scratch23.sem) (default : HIx 1) 262144
      iprop((((Memref.whole cc1_scratch15 : Memref sig .scVector .vmem S64x128 .f32).view.loc (V d (cV L) (jV L)) ↦{fullShare}
            (Memref.whole cc1_scratch15 : Memref sig .scVector .vmem S64x128 .f32).view.writes (Elt F) fr [⟨Rect.whole (cc1_scratch15 : Ref sig .scVector).ty.shape, (SparseCore.gatherPayload gathers_S3200x128_S64x128 (View.read (Elt F) (shW).view (TABS m d (cV L))) (SparseCore.rows (View.read (Elt F) (Memref.whole cc1_scratch7 : Memref sig .scVector .vmem S64 .i32).view (IDXV m d (wL L) (stF ((k.val + 1) * 8 + 5)))) (by decide) (idxv_in_7 m d (wL L) (stF ((k.val + 1) * 8 + 5)))))⟩])
          ∗ ((Memref.whole cc1_scratch7 : Memref sig .scVector .vmem S64 .i32).view.loc (V d (cV L) (jV L)) ↦{fullShare} IDXV m d (wL L) (stF ((k.val + 1) * 8 + 5))))
        ∗ ((shW).view.loc (V d (cV L) (jV L)) ↦[(shW).view.set]{Transfers.shareTokN (Transfers.shareTok fullShare 16 (Fin.cast nSub_eq (jV L))) 8} TABS m d (cV L)))) ∗ ((shW).view.loc (V d (cV L) (jV L)) ↦[(shW).view.set \ (shW).view.set]{Transfers.shareTokN (Transfers.shareTok fullShare 16 (Fin.cast nSub_eq (jV L))) 8} TABS m d (cV L))) $$ [Hg5 Hk5]
  · iclear Hmw
    istop
    exact exists_intro_trans _ (BI.Entails.refl _)
  ihave Hsl6 : (∃ fr : Buf (Elt F) ((Memref.whole cc1_scratch16 : Memref sig .scVector .vmem S64x128 .f32).view.loc (V d (cV L) (jV L))), (Transfers.Flight countersEmb (V d (cV L) (jV L)) (SemLoc.dma cc1_scratch24.sem) (default : HIx 1) 262144
      iprop((((Memref.whole cc1_scratch16 : Memref sig .scVector .vmem S64x128 .f32).view.loc (V d (cV L) (jV L)) ↦{fullShare}
            (Memref.whole cc1_scratch16 : Memref sig .scVector .vmem S64x128 .f32).view.writes (Elt F) fr [⟨Rect.whole (cc1_scratch16 : Ref sig .scVector).ty.shape, (SparseCore.gatherPayload gathers_S3200x128_S64x128 (View.read (Elt F) (shW).view (TABS m d (cV L))) (SparseCore.rows (View.read (Elt F) (Memref.whole cc1_scratch8 : Memref sig .scVector .vmem S64 .i32).view (IDXV m d (wL L) (stF ((k.val + 1) * 8 + 6)))) (by decide) (idxv_in_8 m d (wL L) (stF ((k.val + 1) * 8 + 6)))))⟩])
          ∗ ((Memref.whole cc1_scratch8 : Memref sig .scVector .vmem S64 .i32).view.loc (V d (cV L) (jV L)) ↦{fullShare} IDXV m d (wL L) (stF ((k.val + 1) * 8 + 6))))
        ∗ ((shW).view.loc (V d (cV L) (jV L)) ↦[(shW).view.set]{Transfers.shareTokN (Transfers.shareTok fullShare 16 (Fin.cast nSub_eq (jV L))) 9} TABS m d (cV L)))) ∗ ((shW).view.loc (V d (cV L) (jV L)) ↦[(shW).view.set \ (shW).view.set]{Transfers.shareTokN (Transfers.shareTok fullShare 16 (Fin.cast nSub_eq (jV L))) 9} TABS m d (cV L))) $$ [Hg6 Hk6]
  · iclear Hmw
    istop
    exact exists_intro_trans _ (BI.Entails.refl _)
  ihave Hsl7 : (∃ fr : Buf (Elt F) ((Memref.whole cc1_scratch17 : Memref sig .scVector .vmem S64x128 .f32).view.loc (V d (cV L) (jV L))), (Transfers.Flight countersEmb (V d (cV L) (jV L)) (SemLoc.dma cc1_scratch25.sem) (default : HIx 1) 262144
      iprop((((Memref.whole cc1_scratch17 : Memref sig .scVector .vmem S64x128 .f32).view.loc (V d (cV L) (jV L)) ↦{fullShare}
            (Memref.whole cc1_scratch17 : Memref sig .scVector .vmem S64x128 .f32).view.writes (Elt F) fr [⟨Rect.whole (cc1_scratch17 : Ref sig .scVector).ty.shape, (SparseCore.gatherPayload gathers_S3200x128_S64x128 (View.read (Elt F) (shW).view (TABS m d (cV L))) (SparseCore.rows (View.read (Elt F) (Memref.whole cc1_scratch9 : Memref sig .scVector .vmem S64 .i32).view (IDXV m d (wL L) (stF ((k.val + 1) * 8 + 7)))) (by decide) (idxv_in_9 m d (wL L) (stF ((k.val + 1) * 8 + 7)))))⟩])
          ∗ ((Memref.whole cc1_scratch9 : Memref sig .scVector .vmem S64 .i32).view.loc (V d (cV L) (jV L)) ↦{fullShare} IDXV m d (wL L) (stF ((k.val + 1) * 8 + 7))))
        ∗ ((shW).view.loc (V d (cV L) (jV L)) ↦[(shW).view.set]{Transfers.shareTokN (Transfers.shareTok fullShare 16 (Fin.cast nSub_eq (jV L))) 10} TABS m d (cV L)))) ∗ ((shW).view.loc (V d (cV L) (jV L)) ↦[(shW).view.set \ (shW).view.set]{Transfers.shareTokN (Transfers.shareTok fullShare 16 (Fin.cast nSub_eq (jV L))) 10} TABS m d (cV L))) $$ [Hg7 Hk7]
  · iclear Hmw
    istop
    exact exists_intro_trans _ (BI.Entails.refl _)
  isplitr; · iexact Hmw
  isplitl [Hs0]; · iexact Hs0
  isplitl [Hsl0]; · iexact Hsl0
  isplitl [Hsl1]; · iexact Hsl1
  isplitl [Hsl2]; · iexact Hsl2
  isplitl [Hsl3]; · iexact Hsl3
  isplitl [Hsl4]; · iexact Hsl4
  isplitl [Hsl5]; · iexact Hsl5
  isplitl [Hsl6]; · iexact Hsl6
  isplitl [Hsl7]; · iexact Hsl7
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hdone']; · iexact Hdone'
  isplitl [Htodo]; · iexact Htodo
  iexists _; isplitr
  swap; · iexact HO
  ipureintro; intro p hp
  simp only [Finset.mem_insert] at hp
  rcases hp with hp | hp | hp | hp | hp | hp | hp | hp | hp | hp | hp | hp | hp | hp | hp | hp | hp
  all_goals first | exact hW' p hp | exact .inr (.inl (hp ▸ rfl))

end Tile

end Cert.Proof.KB

end
-- ==== Proof.BodyKB.lean ====
/-
  A task's body, at a symbolic task: from what the launch hands it to what it hands back.

  The ids are copied into the id scratch and the task's 200 rows of the fused table into the shared table; at the subcore
  barrier those rows go out as sixteen read tokens and the sixteen tasks' tokens come back as one read token of the whole
  table, cut into one token per gather semaphore. Eight index lists are filled and eight gathers started; the loop runs 49
  step groups (TripKI); the last group's rows are sent out and waited for. Then every output row of the task holds
  OUTF[n, :] = TAB[(n mod 200)·16 + x[n], :], the tokens are joined back, and the scratch buffers and semaphores return
  as they must: buffers at some contents, counters at zero.
-/
import proofs.«206439_g51874615001410_cont_9to1_m_433_33_alg».proof.Proof.TripKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) [FloatOps F] [hK : Cert.Kernel.Facts]

section Tile

variable (d : Dev nD) (L : grid1.Coords)

set_option maxHeartbeats 4000000 in
/-- The task of vector subcore (L 0, L 1): from its ids, its output rows as launched, its rows of the table in HBM and of
    the shared scratch, its scratch buffers and semaphores and its barrier kit, to its output rows at the gathered rows
    OUTF, its read token of the whole shared table and what it kept of its own rows, everything else returned. -/
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (hxf : ∀ n, ((XF m d) n).toNat ≤ 14) :
    iprop(levAts (K (F := F)).L (K (F := F)).lev ∗ bkit m d (cV L) (jV L)
        ∗ goRes m d (cL L) (cV L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__sc_body L (Memref.whole main_v3_scv) (Memref.isWhole_whole _) (Memref.whole main_v2_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scratch34 cc1_scoped0)
          fun _ => iprop(tdRes m d (cL L) (cV L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1__sc_body_eq_skeleton]; unfold cc1__sc_body_skel
  rw [k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton]
  unfold k1_part19_skel k1_part20_skel k1_part21_skel k1_part22_skel k1_part23_skel k1_part24_skel k1_part25_skel k1_part26_skel k1_part27_skel k1_part28_skel k1_part29_skel k1_part30_skel k1_part31_skel k1_part32_skel k1_part33_skel k1_part34_skel k1_part35_skel k1_part36_skel k1_part37_skel
  rw [(K (F := F)).scopedBufs_V hF d (cV L) (jV L), SparseCore.Cfg.scopedSems0_V (Val := Elt F) d (cV L) (jV L), ownSems0_V_chain, ownBufs_V_chain]
  unfold bkit goRes
  iintro ⟨#Hlv, ⟨⟨%κ, #Hinv⟩, Htoks, Hreach, Hat, Hcred⟩, ⟨Hx, Ho, Ht, %fsh, Hsh⟩, ⟨⟨⟨%f0, Hs0⟩, ⟨%fi0, Hi0⟩, ⟨%fi1, Hi1⟩, ⟨%fi2, Hi2⟩, ⟨%fi3, Hi3⟩, ⟨%fi4, Hi4⟩, ⟨%fi5, Hi5⟩, ⟨%fi6, Hi6⟩, ⟨%fi7, Hi7⟩, ⟨%fr0, Hr0⟩, ⟨%fr1, Hr1⟩, ⟨%fr2, Hr2⟩, ⟨%fr3, Hr3⟩, ⟨%fr4, Hr4⟩, ⟨%fr5, Hr5⟩, ⟨%fr6, Hr6⟩, ⟨%fr7, Hr7⟩⟩, Hbufs⟩, ⟨⟨Hg0, Hg1, Hg2, Hg3, Hg4, Hg5, Hg6, Hg7, Hq0, Hq1, Hq2, Hq3, Hq4, Hq5, Hq6, Hq7, Hxs, Hts⟩, Hsemr⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xSl (F := F) d L _).symm) $$ Hx
  ihave Ht' := (Entails.of_eq (pts_tSl (F := F) d L _ _).symm) $$ Ht
  ihave Hsh' := (Entails.of_eq (pts_shSl (F := F) d L _ _).symm) $$ Hsh
  sl_exec
  rw [bind_assoc]
  -- the ids have landed in the id scratch; the task's rows of the shared table hold the table
  ihave Hs0n : ((Memref.whole cc1_scratch0 : Memref sig .scVector .vmem S25600 .i32).view.loc (V d (cV L) (jV L)) ↦{fullShare} XVf m d (wL L)) $$ [Hs0]
  · iclear Hlv Hinv Hmw1 Hmw2
    istop
    exact Entails.of_eq (congrArg (fun f => ((Memref.whole cc1_scratch0 : Memref sig .scVector .vmem S25600 .i32).view.loc (V d (cV L) (jV L)) ↦{fullShare} f : sProp 𝕄)) (xv_landed m d L f0))
  ihave Hshp : (shLoc d (cV L) ↦[tPiece (Fin.cast nSub_eq (jV L))]{fullShare} TABS m d (cV L)) $$ [Hsh']
  · iclear Hlv Hinv Hmw1 Hmw2
    istop
    exact (Entails.of_eq (pts_shSl (F := F) d L _ _)).trans (sh_landed m d L _)
  -- the barrier: the rows go out as sixteen read tokens, the sixteen tasks' tokens come back as one of the whole table
  ihave Hpay := (barrier_pay m d (cV L) (jV L)) $$ [Htoks Hreach Hshp]
  · isplitl [Htoks]; · iexact Htoks
    isplitl [Hreach]; · iexact Hreach
    iexact Hshp
  icases Hpay with ⟨Htoks, Hdrop⟩
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hcred Hat]
  · isplitr; · iexact Hinv
    isplitl [HO]; · iexact HO
    isplitl [Htoks]; · iexact Htoks
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hshw := (barrier_get m d (cV L) (jV L)) $$ Hgot
  -- one read token of the table per gather semaphore
  ihave Htk := ((src_toks (F := F) d (cV L) (jV L) _ _).1) $$ Hshw
  icases Htk with ⟨Hk0, Hk1, Hk2, Hk3, Hk4, Hk5, Hk6, Hk7, Hkrest⟩
  -- the output rows: none done yet
  ihave Hout := (out_init (F := F) d (wL L) _ (OUTF m d)) $$ Ho
  icases Hout with ⟨Hdone, Htodo⟩
  sl_exec
  ihave Hi0n : ((Memref.whole cc1_scratch2 : Memref sig .scVector .vmem S64 .i32).view.loc (V d (cV L) (jV L)) ↦{fullShare} IDXV m d (wL L) ⟨0, by decide⟩) $$ [Hi0]
  · iclear Hlv Hinv Hmw1 Hmw2
    istop
    exact Entails.of_eq (congrArg (fun f => ((Memref.whole cc1_scratch2 : Memref sig .scVector .vmem S64 .i32).view.loc (V d (cV L) (jV L)) ↦{fullShare} f : sProp 𝕄))
      (idx_writes_2 _ _ _ _ _ _ _ _ (IDXV m d (wL L) ⟨0, by decide⟩)
        (fun j => by
        first
          | exact chunk_idxv m d (wL L) ⟨0, by decide⟩ 0 (by decide) hxf _ (by first | decide | rfl) _ (by first | rfl | decide) _ _ _ j
          | exact chunk_idxv_parts m d (wL L) ⟨0, by decide⟩ 0 (by decide) hxf _ (by first | decide | rfl) _ (by first | rfl | decide) _ _ _ _ _ rfl rfl j
          | exact chunk_idxv_spos m d (wL L) ⟨0, by decide⟩ 0 (by decide) hxf _ (by first | decide | rfl) _ (by first | rfl | decide) _ _ _ (fun j' => Cert.IdxChunk.spos_apply _ (by decide) _ j') j
          | exact chunk_idxv_mul m d (wL L) ⟨0, by decide⟩ 0 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨0, by decide⟩ 16 (by decide) hxf _ (by first | decide | rfl) _ (by first | rfl | decide) _ _ _ j
          | exact chunk_idxv_parts m d (wL L) ⟨0, by decide⟩ 16 (by decide) hxf _ (by first | decide | rfl) _ (by first | rfl | decide) _ _ _ _ _ rfl rfl j
          | exact chunk_idxv_spos m d (wL L) ⟨0, by decide⟩ 16 (by decide) hxf _ (by first | decide | rfl) _ (by first | rfl | decide) _ _ _ (fun j' => Cert.IdxChunk.spos_apply _ (by decide) _ j') j
          | exact chunk_idxv_mul m d (wL L) ⟨0, by decide⟩ 16 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨0, by decide⟩ 32 (by decide) hxf _ (by first | decide | rfl) _ (by first | rfl | decide) _ _ _ j
          | exact chunk_idxv_parts m d (wL L) ⟨0, by decide⟩ 32 (by decide) hxf _ (by first | decide | rfl) _ (by first | rfl | decide) _ _ _ _ _ rfl rfl j
          | exact chunk_idxv_spos m d (wL L) ⟨0, by decide⟩ 32 (by decide) hxf _ (by first | decide | rfl) _ (by first | rfl | decide) _ _ _ (fun j' => Cert.IdxChunk.spos_apply _ (by decide) _ j') j
          | exact chunk_idxv_mul m d (wL L) ⟨0, by decide⟩ 32 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨0, by decide⟩ 48 (by decide) hxf _ (by first | decide | rfl) _ (by first | rfl | decide) _ _ _ j
          | exact chunk_idxv_parts m d (wL L) ⟨0, by decide⟩ 48 (by decide) hxf _ (by first | decide | rfl) _ (by first | rfl | decide) _ _ _ _ _ rfl rfl j
          | exact chunk_idxv_spos m d (wL L) ⟨0, by decide⟩ 48 (by decide) hxf _ (by first | decide | rfl) _ (by first | rfl | decide) _ _ _ (fun j' => Cert.IdxChunk.spos_apply _ (by decide) _ j') j
          | exact chunk_idxv_mul m d (wL L) ⟨0, by decide⟩ 48 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j) _))
  have hin0 : ∀ x, ((Memref.whole cc1_scratch2 : Memref sig .scVector .vmem S64 .i32).view.read (Elt F) (IDXV m d (wL L) ⟨0, by decide⟩) x).toNat < 3200 := idxv_in_2 m d (wL L) ⟨0, by decide⟩
  sl_exec
  ihave Hi1n : ((Memref.whole cc1_scratch3 : Memref sig .scVector .vmem S64 .i32).view.loc (V d (cV L) (jV L)) ↦{fullShare} IDXV m d (wL L) ⟨1, by decide⟩) $$ [Hi1]
  · iclear Hlv Hinv Hmw1 Hmw2
    istop
    exact Entails.of_eq (congrArg (fun f => ((Memref.whole cc1_scratch3 : Memref sig .scVector .vmem S64 .i32).view.loc (V d (cV L) (jV L)) ↦{fullShare} f : sProp 𝕄))
      (idx_writes_3 _ _ _ _ _ _ _ _ (IDXV m d (wL L) ⟨1, by decide⟩)
        (fun j => by
        first
          | exact chunk_idxv m d (wL L) ⟨1, by decide⟩ 0 (by decide) hxf _ (by first | decide | rfl) _ (by first | rfl | decide) _ _ _ j
          | exact chunk_idxv_parts m d (wL L) ⟨1, by decide⟩ 0 (by decide) hxf _ (by first | decide | rfl) _ (by first | rfl | decide) _ _ _ _ _ rfl rfl j
          | exact chunk_idxv_spos m d (wL L) ⟨1, by decide⟩ 0 (by decide) hxf _ (by first | decide | rfl) _ (by first | rfl | decide) _ _ _ (fun j' => Cert.IdxChunk.spos_apply _ (by decide) _ j') j
          | exact chunk_idxv_mul m d (wL L) ⟨1, by decide⟩ 0 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨1, by decide⟩ 16 (by decide) hxf _ (by first | decide | rfl) _ (by first | rfl | decide) _ _ _ j
          | exact chunk_idxv_parts m d (wL L) ⟨1, by decide⟩ 16 (by decide) hxf _ (by first | decide | rfl) _ (by first | rfl | decide) _ _ _ _ _ rfl rfl j
          | exact chunk_idxv_spos m d (wL L) ⟨1, by decide⟩ 16 (by decide) hxf _ (by first | decide | rfl) _ (by first | rfl | decide) _ _ _ (fun j' => Cert.IdxChunk.spos_apply _ (by decide) _ j') j
          | exact chunk_idxv_mul m d (wL L) ⟨1, by decide⟩ 16 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨1, by decide⟩ 32 (by decide) hxf _ (by first | decide | rfl) _ (by first | rfl | decide) _ _ _ j
          | exact chunk_idxv_parts m d (wL L) ⟨1, by decide⟩ 32 (by decide) hxf _ (by first | decide | rfl) _ (by first | rfl | decide) _ _ _ _ _ rfl rfl j
          | exact chunk_idxv_spos m d (wL L) ⟨1, by decide⟩ 32 (by decide) hxf _ (by first | decide | rfl) _ (by first | rfl | decide) _ _ _ (fun j' => Cert.IdxChunk.spos_apply _ (by decide) _ j') j
          | exact chunk_idxv_mul m d (wL L) ⟨1, by decide⟩ 32 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨1, by decide⟩ 48 (by decide) hxf _ (by first | decide | rfl) _ (by first | rfl | decide) _ _ _ j
          | exact chunk_idxv_parts m d (wL L) ⟨1, by decide⟩ 48 (by decide) hxf _ (by first | decide | rfl) _ (by first | rfl | decide) _ _ _ _ _ rfl rfl j
          | exact chunk_idxv_spos m d (wL L) ⟨1, by decide⟩ 48 (by decide) hxf _ (by first | decide | rfl) _ (by first | rfl | decide) _ _ _ (fun j' => Cert.IdxChunk.spos_apply _ (by decide) _ j') j
          | exact chunk_idxv_mul m d (wL L) ⟨1, by decide⟩ 48 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j) _))
  have hin1 : ∀ x, ((Memref.whole cc1_scratch3 : Memref sig .scVector .vmem S64 .i32).view.read (Elt F) (IDXV m d (wL L) ⟨1, by decide⟩) x).toNat < 3200 := idxv_in_3 m d (wL L) ⟨1, by decide⟩
  sl_exec
  ihave Hi2n : ((Memref.whole cc1_scratch4 : Memref sig .scVector .vmem S64 .i32).view.loc (V d (cV L) (jV L)) ↦{fullShare} IDXV m d (wL L) ⟨2, by decide⟩) $$ [Hi2]
  · iclear Hlv Hinv Hmw1 Hmw2
    istop
    exact Entails.of_eq (congrArg (fun f => ((Memref.whole cc1_scratch4 : Memref sig .scVector .vmem S64 .i32).view.loc (V d (cV L) (jV L)) ↦{fullShare} f : sProp 𝕄))
      (idx_writes_4 _ _ _ _ _ _ _ _ (IDXV m d (wL L) ⟨2, by decide⟩)
        (fun j => by
        first
          | exact chunk_idxv m d (wL L) ⟨2, by decide⟩ 0 (by decide) hxf _ (by first | decide | rfl) _ (by first | rfl | decide) _ _ _ j
          | exact chunk_idxv_parts m d (wL L) ⟨2, by decide⟩ 0 (by decide) hxf _ (by first | decide | rfl) _ (by first | rfl | decide) _ _ _ _ _ rfl rfl j
          | exact chunk_idxv_spos m d (wL L) ⟨2, by decide⟩ 0 (by decide) hxf _ (by first | decide | rfl) _ (by first | rfl | decide) _ _ _ (fun j' => Cert.IdxChunk.spos_apply _ (by decide) _ j') j
          | exact chunk_idxv_mul m d (wL L) ⟨2, by decide⟩ 0 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨2, by decide⟩ 16 (by decide) hxf _ (by first | decide | rfl) _ (by first | rfl | decide) _ _ _ j
          | exact chunk_idxv_parts m d (wL L) ⟨2, by decide⟩ 16 (by decide) hxf _ (by first | decide | rfl) _ (by first | rfl | decide) _ _ _ _ _ rfl rfl j
          | exact chunk_idxv_spos m d (wL L) ⟨2, by decide⟩ 16 (by decide) hxf _ (by first | decide | rfl) _ (by first | rfl | decide) _ _ _ (fun j' => Cert.IdxChunk.spos_apply _ (by decide) _ j') j
          | exact chunk_idxv_mul m d (wL L) ⟨2, by decide⟩ 16 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨2, by decide⟩ 32 (by decide) hxf _ (by first | decide | rfl) _ (by first | rfl | decide) _ _ _ j
          | exact chunk_idxv_parts m d (wL L) ⟨2, by decide⟩ 32 (by decide) hxf _ (by first | decide | rfl) _ (by first | rfl | decide) _ _ _ _ _ rfl rfl j
          | exact chunk_idxv_spos m d (wL L) ⟨2, by decide⟩ 32 (by decide) hxf _ (by first | decide | rfl) _ (by first | rfl | decide) _ _ _ (fun j' => Cert.IdxChunk.spos_apply _ (by decide) _ j') j
          | exact chunk_idxv_mul m d (wL L) ⟨2, by decide⟩ 32 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨2, by decide⟩ 48 (by decide) hxf _ (by first | decide | rfl) _ (by first | rfl | decide) _ _ _ j
          | exact chunk_idxv_parts m d (wL L) ⟨2, by decide⟩ 48 (by decide) hxf _ (by first | decide | rfl) _ (by first | rfl | decide) _ _ _ _ _ rfl rfl j
          | exact chunk_idxv_spos m d (wL L) ⟨2, by decide⟩ 48 (by decide) hxf _ (by first | decide | rfl) _ (by first | rfl | decide) _ _ _ (fun j' => Cert.IdxChunk.spos_apply _ (by decide) _ j') j
          | exact chunk_idxv_mul m d (wL L) ⟨2, by decide⟩ 48 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j) _))
  have hin2 : ∀ x, ((Memref.whole cc1_scratch4 : Memref sig .scVector .vmem S64 .i32).view.read (Elt F) (IDXV m d (wL L) ⟨2, by decide⟩) x).toNat < 3200 := idxv_in_4 m d (wL L) ⟨2, by decide⟩
  sl_exec
  ihave Hi3n : ((Memref.whole cc1_scratch5 : Memref sig .scVector .vmem S64 .i32).view.loc (V d (cV L) (jV L)) ↦{fullShare} IDXV m d (wL L) ⟨3, by decide⟩) $$ [Hi3]
  · iclear Hlv Hinv Hmw1 Hmw2
    istop
    exact Entails.of_eq (congrArg (fun f => ((Memref.whole cc1_scratch5 : Memref sig .scVector .vmem S64 .i32).view.loc (V d (cV L) (jV L)) ↦{fullShare} f : sProp 𝕄))
      (idx_writes_5 _ _ _ _ _ _ _ _ (IDXV m d (wL L) ⟨3, by decide⟩)
        (fun j => by
        first
          | exact chunk_idxv m d (wL L) ⟨3, by decide⟩ 0 (by decide) hxf _ (by first | decide | rfl) _ (by first | rfl | decide) _ _ _ j
          | exact chunk_idxv_parts m d (wL L) ⟨3, by decide⟩ 0 (by decide) hxf _ (by first | decide | rfl) _ (by first | rfl | decide) _ _ _ _ _ rfl rfl j
          | exact chunk_idxv_spos m d (wL L) ⟨3, by decide⟩ 0 (by decide) hxf _ (by first | decide | rfl) _ (by first | rfl | decide) _ _ _ (fun j' => Cert.IdxChunk.spos_apply _ (by decide) _ j') j
          | exact chunk_idxv_mul m d (wL L) ⟨3, by decide⟩ 0 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨3, by decide⟩ 16 (by decide) hxf _ (by first | decide | rfl) _ (by first | rfl | decide) _ _ _ j
          | exact chunk_idxv_parts m d (wL L) ⟨3, by decide⟩ 16 (by decide) hxf _ (by first | decide | rfl) _ (by first | rfl | decide) _ _ _ _ _ rfl rfl j
          | exact chunk_idxv_spos m d (wL L) ⟨3, by decide⟩ 16 (by decide) hxf _ (by first | decide | rfl) _ (by first | rfl | decide) _ _ _ (fun j' => Cert.IdxChunk.spos_apply _ (by decide) _ j') j
          | exact chunk_idxv_mul m d (wL L) ⟨3, by decide⟩ 16 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨3, by decide⟩ 32 (by decide) hxf _ (by first | decide | rfl) _ (by first | rfl | decide) _ _ _ j
          | exact chunk_idxv_parts m d (wL L) ⟨3, by decide⟩ 32 (by decide) hxf _ (by first | decide | rfl) _ (by first | rfl | decide) _ _ _ _ _ rfl rfl j
          | exact chunk_idxv_spos m d (wL L) ⟨3, by decide⟩ 32 (by decide) hxf _ (by first | decide | rfl) _ (by first | rfl | decide) _ _ _ (fun j' => Cert.IdxChunk.spos_apply _ (by decide) _ j') j
          | exact chunk_idxv_mul m d (wL L) ⟨3, by decide⟩ 32 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨3, by decide⟩ 48 (by decide) hxf _ (by first | decide | rfl) _ (by first | rfl | decide) _ _ _ j
          | exact chunk_idxv_parts m d (wL L) ⟨3, by decide⟩ 48 (by decide) hxf _ (by first | decide | rfl) _ (by first | rfl | decide) _ _ _ _ _ rfl rfl j
          | exact chunk_idxv_spos m d (wL L) ⟨3, by decide⟩ 48 (by decide) hxf _ (by first | decide | rfl) _ (by first | rfl | decide) _ _ _ (fun j' => Cert.IdxChunk.spos_apply _ (by decide) _ j') j
          | exact chunk_idxv_mul m d (wL L) ⟨3, by decide⟩ 48 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j) _))
  have hin3 : ∀ x, ((Memref.whole cc1_scratch5 : Memref sig .scVector .vmem S64 .i32).view.read (Elt F) (IDXV m d (wL L) ⟨3, by decide⟩) x).toNat < 3200 := idxv_in_5 m d (wL L) ⟨3, by decide⟩
  sl_exec
  ihave Hi4n : ((Memref.whole cc1_scratch6 : Memref sig .scVector .vmem S64 .i32).view.loc (V d (cV L) (jV L)) ↦{fullShare} IDXV m d (wL L) ⟨4, by decide⟩) $$ [Hi4]
  · iclear Hlv Hinv Hmw1 Hmw2
    istop
    exact Entails.of_eq (congrArg (fun f => ((Memref.whole cc1_scratch6 : Memref sig .scVector .vmem S64 .i32).view.loc (V d (cV L) (jV L)) ↦{fullShare} f : sProp 𝕄))
      (idx_writes_6 _ _ _ _ _ _ _ _ (IDXV m d (wL L) ⟨4, by decide⟩)
        (fun j => by
        first
          | exact chunk_idxv m d (wL L) ⟨4, by decide⟩ 0 (by decide) hxf _ (by first | decide | rfl) _ (by first | rfl | decide) _ _ _ j
          | exact chunk_idxv_parts m d (wL L) ⟨4, by decide⟩ 0 (by decide) hxf _ (by first | decide | rfl) _ (by first | rfl | decide) _ _ _ _ _ rfl rfl j
          | exact chunk_idxv_spos m d (wL L) ⟨4, by decide⟩ 0 (by decide) hxf _ (by first | decide | rfl) _ (by first | rfl | decide) _ _ _ (fun j' => Cert.IdxChunk.spos_apply _ (by decide) _ j') j
          | exact chunk_idxv_mul m d (wL L) ⟨4, by decide⟩ 0 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨4, by decide⟩ 16 (by decide) hxf _ (by first | decide | rfl) _ (by first | rfl | decide) _ _ _ j
          | exact chunk_idxv_parts m d (wL L) ⟨4, by decide⟩ 16 (by decide) hxf _ (by first | decide | rfl) _ (by first | rfl | decide) _ _ _ _ _ rfl rfl j
          | exact chunk_idxv_spos m d (wL L) ⟨4, by decide⟩ 16 (by decide) hxf _ (by first | decide | rfl) _ (by first | rfl | decide) _ _ _ (fun j' => Cert.IdxChunk.spos_apply _ (by decide) _ j') j
          | exact chunk_idxv_mul m d (wL L) ⟨4, by decide⟩ 16 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨4, by decide⟩ 32 (by decide) hxf _ (by first | decide | rfl) _ (by first | rfl | decide) _ _ _ j
          | exact chunk_idxv_parts m d (wL L) ⟨4, by decide⟩ 32 (by decide) hxf _ (by first | decide | rfl) _ (by first | rfl | decide) _ _ _ _ _ rfl rfl j
          | exact chunk_idxv_spos m d (wL L) ⟨4, by decide⟩ 32 (by decide) hxf _ (by first | decide | rfl) _ (by first | rfl | decide) _ _ _ (fun j' => Cert.IdxChunk.spos_apply _ (by decide) _ j') j
          | exact chunk_idxv_mul m d (wL L) ⟨4, by decide⟩ 32 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨4, by decide⟩ 48 (by decide) hxf _ (by first | decide | rfl) _ (by first | rfl | decide) _ _ _ j
          | exact chunk_idxv_parts m d (wL L) ⟨4, by decide⟩ 48 (by decide) hxf _ (by first | decide | rfl) _ (by first | rfl | decide) _ _ _ _ _ rfl rfl j
          | exact chunk_idxv_spos m d (wL L) ⟨4, by decide⟩ 48 (by decide) hxf _ (by first | decide | rfl) _ (by first | rfl | decide) _ _ _ (fun j' => Cert.IdxChunk.spos_apply _ (by decide) _ j') j
          | exact chunk_idxv_mul m d (wL L) ⟨4, by decide⟩ 48 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j) _))
  have hin4 : ∀ x, ((Memref.whole cc1_scratch6 : Memref sig .scVector .vmem S64 .i32).view.read (Elt F) (IDXV m d (wL L) ⟨4, by decide⟩) x).toNat < 3200 := idxv_in_6 m d (wL L) ⟨4, by decide⟩
  sl_exec
  ihave Hi5n : ((Memref.whole cc1_scratch7 : Memref sig .scVector .vmem S64 .i32).view.loc (V d (cV L) (jV L)) ↦{fullShare} IDXV m d (wL L) ⟨5, by decide⟩) $$ [Hi5]
  · iclear Hlv Hinv Hmw1 Hmw2
    istop
    exact Entails.of_eq (congrArg (fun f => ((Memref.whole cc1_scratch7 : Memref sig .scVector .vmem S64 .i32).view.loc (V d (cV L) (jV L)) ↦{fullShare} f : sProp 𝕄))
      (idx_writes_7 _ _ _ _ _ _ _ _ (IDXV m d (wL L) ⟨5, by decide⟩)
        (fun j => by
        first
          | exact chunk_idxv m d (wL L) ⟨5, by decide⟩ 0 (by decide) hxf _ (by first | decide | rfl) _ (by first | rfl | decide) _ _ _ j
          | exact chunk_idxv_parts m d (wL L) ⟨5, by decide⟩ 0 (by decide) hxf _ (by first | decide | rfl) _ (by first | rfl | decide) _ _ _ _ _ rfl rfl j
          | exact chunk_idxv_spos m d (wL L) ⟨5, by decide⟩ 0 (by decide) hxf _ (by first | decide | rfl) _ (by first | rfl | decide) _ _ _ (fun j' => Cert.IdxChunk.spos_apply _ (by decide) _ j') j
          | exact chunk_idxv_mul m d (wL L) ⟨5, by decide⟩ 0 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨5, by decide⟩ 16 (by decide) hxf _ (by first | decide | rfl) _ (by first | rfl | decide) _ _ _ j
          | exact chunk_idxv_parts m d (wL L) ⟨5, by decide⟩ 16 (by decide) hxf _ (by first | decide | rfl) _ (by first | rfl | decide) _ _ _ _ _ rfl rfl j
          | exact chunk_idxv_spos m d (wL L) ⟨5, by decide⟩ 16 (by decide) hxf _ (by first | decide | rfl) _ (by first | rfl | decide) _ _ _ (fun j' => Cert.IdxChunk.spos_apply _ (by decide) _ j') j
          | exact chunk_idxv_mul m d (wL L) ⟨5, by decide⟩ 16 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨5, by decide⟩ 32 (by decide) hxf _ (by first | decide | rfl) _ (by first | rfl | decide) _ _ _ j
          | exact chunk_idxv_parts m d (wL L) ⟨5, by decide⟩ 32 (by decide) hxf _ (by first | decide | rfl) _ (by first | rfl | decide) _ _ _ _ _ rfl rfl j
          | exact chunk_idxv_spos m d (wL L) ⟨5, by decide⟩ 32 (by decide) hxf _ (by first | decide | rfl) _ (by first | rfl | decide) _ _ _ (fun j' => Cert.IdxChunk.spos_apply _ (by decide) _ j') j
          | exact chunk_idxv_mul m d (wL L) ⟨5, by decide⟩ 32 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨5, by decide⟩ 48 (by decide) hxf _ (by first | decide | rfl) _ (by first | rfl | decide) _ _ _ j
          | exact chunk_idxv_parts m d (wL L) ⟨5, by decide⟩ 48 (by decide) hxf _ (by first | decide | rfl) _ (by first | rfl | decide) _ _ _ _ _ rfl rfl j
          | exact chunk_idxv_spos m d (wL L) ⟨5, by decide⟩ 48 (by decide) hxf _ (by first | decide | rfl) _ (by first | rfl | decide) _ _ _ (fun j' => Cert.IdxChunk.spos_apply _ (by decide) _ j') j
          | exact chunk_idxv_mul m d (wL L) ⟨5, by decide⟩ 48 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j) _))
  have hin5 : ∀ x, ((Memref.whole cc1_scratch7 : Memref sig .scVector .vmem S64 .i32).view.read (Elt F) (IDXV m d (wL L) ⟨5, by decide⟩) x).toNat < 3200 := idxv_in_7 m d (wL L) ⟨5, by decide⟩
  sl_exec
  ihave Hi6n : ((Memref.whole cc1_scratch8 : Memref sig .scVector .vmem S64 .i32).view.loc (V d (cV L) (jV L)) ↦{fullShare} IDXV m d (wL L) ⟨6, by decide⟩) $$ [Hi6]
  · iclear Hlv Hinv Hmw1 Hmw2
    istop
    exact Entails.of_eq (congrArg (fun f => ((Memref.whole cc1_scratch8 : Memref sig .scVector .vmem S64 .i32).view.loc (V d (cV L) (jV L)) ↦{fullShare} f : sProp 𝕄))
      (idx_writes_8 _ _ _ _ _ _ _ _ (IDXV m d (wL L) ⟨6, by decide⟩)
        (fun j => by
        first
          | exact chunk_idxv m d (wL L) ⟨6, by decide⟩ 0 (by decide) hxf _ (by first | decide | rfl) _ (by first | rfl | decide) _ _ _ j
          | exact chunk_idxv_parts m d (wL L) ⟨6, by decide⟩ 0 (by decide) hxf _ (by first | decide | rfl) _ (by first | rfl | decide) _ _ _ _ _ rfl rfl j
          | exact chunk_idxv_spos m d (wL L) ⟨6, by decide⟩ 0 (by decide) hxf _ (by first | decide | rfl) _ (by first | rfl | decide) _ _ _ (fun j' => Cert.IdxChunk.spos_apply _ (by decide) _ j') j
          | exact chunk_idxv_mul m d (wL L) ⟨6, by decide⟩ 0 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨6, by decide⟩ 16 (by decide) hxf _ (by first | decide | rfl) _ (by first | rfl | decide) _ _ _ j
          | exact chunk_idxv_parts m d (wL L) ⟨6, by decide⟩ 16 (by decide) hxf _ (by first | decide | rfl) _ (by first | rfl | decide) _ _ _ _ _ rfl rfl j
          | exact chunk_idxv_spos m d (wL L) ⟨6, by decide⟩ 16 (by decide) hxf _ (by first | decide | rfl) _ (by first | rfl | decide) _ _ _ (fun j' => Cert.IdxChunk.spos_apply _ (by decide) _ j') j
          | exact chunk_idxv_mul m d (wL L) ⟨6, by decide⟩ 16 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨6, by decide⟩ 32 (by decide) hxf _ (by first | decide | rfl) _ (by first | rfl | decide) _ _ _ j
          | exact chunk_idxv_parts m d (wL L) ⟨6, by decide⟩ 32 (by decide) hxf _ (by first | decide | rfl) _ (by first | rfl | decide) _ _ _ _ _ rfl rfl j
          | exact chunk_idxv_spos m d (wL L) ⟨6, by decide⟩ 32 (by decide) hxf _ (by first | decide | rfl) _ (by first | rfl | decide) _ _ _ (fun j' => Cert.IdxChunk.spos_apply _ (by decide) _ j') j
          | exact chunk_idxv_mul m d (wL L) ⟨6, by decide⟩ 32 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨6, by decide⟩ 48 (by decide) hxf _ (by first | decide | rfl) _ (by first | rfl | decide) _ _ _ j
          | exact chunk_idxv_parts m d (wL L) ⟨6, by decide⟩ 48 (by decide) hxf _ (by first | decide | rfl) _ (by first | rfl | decide) _ _ _ _ _ rfl rfl j
          | exact chunk_idxv_spos m d (wL L) ⟨6, by decide⟩ 48 (by decide) hxf _ (by first | decide | rfl) _ (by first | rfl | decide) _ _ _ (fun j' => Cert.IdxChunk.spos_apply _ (by decide) _ j') j
          | exact chunk_idxv_mul m d (wL L) ⟨6, by decide⟩ 48 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j) _))
  have hin6 : ∀ x, ((Memref.whole cc1_scratch8 : Memref sig .scVector .vmem S64 .i32).view.read (Elt F) (IDXV m d (wL L) ⟨6, by decide⟩) x).toNat < 3200 := idxv_in_8 m d (wL L) ⟨6, by decide⟩
  sl_exec
  ihave Hi7n : ((Memref.whole cc1_scratch9 : Memref sig .scVector .vmem S64 .i32).view.loc (V d (cV L) (jV L)) ↦{fullShare} IDXV m d (wL L) ⟨7, by decide⟩) $$ [Hi7]
  · iclear Hlv Hinv Hmw1 Hmw2
    istop
    exact Entails.of_eq (congrArg (fun f => ((Memref.whole cc1_scratch9 : Memref sig .scVector .vmem S64 .i32).view.loc (V d (cV L) (jV L)) ↦{fullShare} f : sProp 𝕄))
      (idx_writes_9 _ _ _ _ _ _ _ _ (IDXV m d (wL L) ⟨7, by decide⟩)
        (fun j => by
        first
          | exact chunk_idxv m d (wL L) ⟨7, by decide⟩ 0 (by decide) hxf _ (by first | decide | rfl) _ (by first | rfl | decide) _ _ _ j
          | exact chunk_idxv_parts m d (wL L) ⟨7, by decide⟩ 0 (by decide) hxf _ (by first | decide | rfl) _ (by first | rfl | decide) _ _ _ _ _ rfl rfl j
          | exact chunk_idxv_spos m d (wL L) ⟨7, by decide⟩ 0 (by decide) hxf _ (by first | decide | rfl) _ (by first | rfl | decide) _ _ _ (fun j' => Cert.IdxChunk.spos_apply _ (by decide) _ j') j
          | exact chunk_idxv_mul m d (wL L) ⟨7, by decide⟩ 0 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨7, by decide⟩ 16 (by decide) hxf _ (by first | decide | rfl) _ (by first | rfl | decide) _ _ _ j
          | exact chunk_idxv_parts m d (wL L) ⟨7, by decide⟩ 16 (by decide) hxf _ (by first | decide | rfl) _ (by first | rfl | decide) _ _ _ _ _ rfl rfl j
          | exact chunk_idxv_spos m d (wL L) ⟨7, by decide⟩ 16 (by decide) hxf _ (by first | decide | rfl) _ (by first | rfl | decide) _ _ _ (fun j' => Cert.IdxChunk.spos_apply _ (by decide) _ j') j
          | exact chunk_idxv_mul m d (wL L) ⟨7, by decide⟩ 16 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨7, by decide⟩ 32 (by decide) hxf _ (by first | decide | rfl) _ (by first | rfl | decide) _ _ _ j
          | exact chunk_idxv_parts m d (wL L) ⟨7, by decide⟩ 32 (by decide) hxf _ (by first | decide | rfl) _ (by first | rfl | decide) _ _ _ _ _ rfl rfl j
          | exact chunk_idxv_spos m d (wL L) ⟨7, by decide⟩ 32 (by decide) hxf _ (by first | decide | rfl) _ (by first | rfl | decide) _ _ _ (fun j' => Cert.IdxChunk.spos_apply _ (by decide) _ j') j
          | exact chunk_idxv_mul m d (wL L) ⟨7, by decide⟩ 32 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j)
        (fun j => by
        first
          | exact chunk_idxv m d (wL L) ⟨7, by decide⟩ 48 (by decide) hxf _ (by first | decide | rfl) _ (by first | rfl | decide) _ _ _ j
          | exact chunk_idxv_parts m d (wL L) ⟨7, by decide⟩ 48 (by decide) hxf _ (by first | decide | rfl) _ (by first | rfl | decide) _ _ _ _ _ rfl rfl j
          | exact chunk_idxv_spos m d (wL L) ⟨7, by decide⟩ 48 (by decide) hxf _ (by first | decide | rfl) _ (by first | rfl | decide) _ _ _ (fun j' => Cert.IdxChunk.spos_apply _ (by decide) _ j') j
          | exact chunk_idxv_mul m d (wL L) ⟨7, by decide⟩ 48 (by decide) hxf _ (by first | decide | rfl) _ (by first | rfl | decide) _ _ _ _ (fun j' => Cert.IdxChunk.mul16_apply _ _ (Cert.IdxChunk.spos_apply _ (by decide) _) j') (fun j' => congrFun (Cert.IdxChunk.shapeCast_S16_self _ _) j') j) _))
  have hin7 : ∀ x, ((Memref.whole cc1_scratch9 : Memref sig .scVector .vmem S64 .i32).view.read (Elt F) (IDXV m d (wL L) ⟨7, by decide⟩) x).toNat < 3200 := idxv_in_9 m d (wL L) ⟨7, by decide⟩
  sl_exec
  ihave Hmw3 := (show levAts (K (F := F)).L (K (F := F)).lev ⊢ Transfers.MayWaits (V d (cV L) (jV L)) (none : HIx 1) O from
    (K (F := F)).mayWaits_none (thr := V d (cV L) (jV L)) hO) $$ Hlv
  rw [bind_assoc]
  sl_for (inv m d L O W) $$ [Hmw3 Hs0n Hg0 Hk0 Hg1 Hk1 Hg2 Hk2 Hg3 Hk3 Hg4 Hk4 Hg5 Hk5 Hg6 Hk6 Hg7 Hk7 Hq0 Hq1 Hq2 Hq3 Hq4 Hq5 Hq6 Hq7 Hdone Htodo HO]
  case region =>
    intro k hk
    exact trip m d L O W hxf k hk
  · unfold inv
    ihave Hsl0 : (∃ fr : Buf (Elt F) ((Memref.whole cc1_scratch10 : Memref sig .scVector .vmem S64x128 .f32).view.loc (V d (cV L) (jV L))), (Transfers.Flight countersEmb (V d (cV L) (jV L)) (SemLoc.dma cc1_scratch18.sem) (default : HIx 1) 262144
      iprop((((Memref.whole cc1_scratch10 : Memref sig .scVector .vmem S64x128 .f32).view.loc (V d (cV L) (jV L)) ↦{fullShare}
            (Memref.whole cc1_scratch10 : Memref sig .scVector .vmem S64x128 .f32).view.writes (Elt F) fr [⟨Rect.whole (cc1_scratch10 : Ref sig .scVector).ty.shape, (SparseCore.gatherPayload gathers_S3200x128_S64x128 (View.read (Elt F) (shW).view (TABS m d (cV L))) (SparseCore.rows (View.read (Elt F) (Memref.whole cc1_scratch2 : Memref sig .scVector .vmem S64 .i32).view (IDXV m d (wL L) (stF (0 * 8 + 0)))) (by decide) (idxv_in_2 m d (wL L) (stF (0 * 8 + 0)))))⟩])
          ∗ ((Memref.whole cc1_scratch2 : Memref sig .scVector .vmem S64 .i32).view.loc (V d (cV L) (jV L)) ↦{fullShare} IDXV m d (wL L) (stF (0 * 8 + 0))))
        ∗ ((shW).view.loc (V d (cV L) (jV L)) ↦[(shW).view.set]{Transfers.shareTokN (Transfers.shareTok fullShare 16 (Fin.cast nSub_eq (jV L))) 3} TABS m d (cV L)))) ∗ ((shW).view.loc (V d (cV L) (jV L)) ↦[(shW).view.set \ (shW).view.set]{Transfers.shareTokN (Transfers.shareTok fullShare 16 (Fin.cast nSub_eq (jV L))) 3} TABS m d (cV L))) $$ [Hg0 Hk0]
    · iclear Hlv Hinv Hmw1 Hmw2 Hmw3
      istop
      exact exists_intro_trans _ (BI.Entails.refl _)
    ihave Hsl1 : (∃ fr : Buf (Elt F) ((Memref.whole cc1_scratch11 : Memref sig .scVector .vmem S64x128 .f32).view.loc (V d (cV L) (jV L))), (Transfers.Flight countersEmb (V d (cV L) (jV L)) (SemLoc.dma cc1_scratch19.sem) (default : HIx 1) 262144
      iprop((((Memref.whole cc1_scratch11 : Memref sig .scVector .vmem S64x128 .f32).view.loc (V d (cV L) (jV L)) ↦{fullShare}
            (Memref.whole cc1_scratch11 : Memref sig .scVector .vmem S64x128 .f32).view.writes (Elt F) fr [⟨Rect.whole (cc1_scratch11 : Ref sig .scVector).ty.shape, (SparseCore.gatherPayload gathers_S3200x128_S64x128 (View.read (Elt F) (shW).view (TABS m d (cV L))) (SparseCore.rows (View.read (Elt F) (Memref.whole cc1_scratch3 : Memref sig .scVector .vmem S64 .i32).view (IDXV m d (wL L) (stF (0 * 8 + 1)))) (by decide) (idxv_in_3 m d (wL L) (stF (0 * 8 + 1)))))⟩])
          ∗ ((Memref.whole cc1_scratch3 : Memref sig .scVector .vmem S64 .i32).view.loc (V d (cV L) (jV L)) ↦{fullShare} IDXV m d (wL L) (stF (0 * 8 + 1))))
        ∗ ((shW).view.loc (V d (cV L) (jV L)) ↦[(shW).view.set]{Transfers.shareTokN (Transfers.shareTok fullShare 16 (Fin.cast nSub_eq (jV L))) 4} TABS m d (cV L)))) ∗ ((shW).view.loc (V d (cV L) (jV L)) ↦[(shW).view.set \ (shW).view.set]{Transfers.shareTokN (Transfers.shareTok fullShare 16 (Fin.cast nSub_eq (jV L))) 4} TABS m d (cV L))) $$ [Hg1 Hk1]
    · iclear Hlv Hinv Hmw1 Hmw2 Hmw3
      istop
      exact exists_intro_trans _ (BI.Entails.refl _)
    ihave Hsl2 : (∃ fr : Buf (Elt F) ((Memref.whole cc1_scratch12 : Memref sig .scVector .vmem S64x128 .f32).view.loc (V d (cV L) (jV L))), (Transfers.Flight countersEmb (V d (cV L) (jV L)) (SemLoc.dma cc1_scratch20.sem) (default : HIx 1) 262144
      iprop((((Memref.whole cc1_scratch12 : Memref sig .scVector .vmem S64x128 .f32).view.loc (V d (cV L) (jV L)) ↦{fullShare}
            (Memref.whole cc1_scratch12 : Memref sig .scVector .vmem S64x128 .f32).view.writes (Elt F) fr [⟨Rect.whole (cc1_scratch12 : Ref sig .scVector).ty.shape, (SparseCore.gatherPayload gathers_S3200x128_S64x128 (View.read (Elt F) (shW).view (TABS m d (cV L))) (SparseCore.rows (View.read (Elt F) (Memref.whole cc1_scratch4 : Memref sig .scVector .vmem S64 .i32).view (IDXV m d (wL L) (stF (0 * 8 + 2)))) (by decide) (idxv_in_4 m d (wL L) (stF (0 * 8 + 2)))))⟩])
          ∗ ((Memref.whole cc1_scratch4 : Memref sig .scVector .vmem S64 .i32).view.loc (V d (cV L) (jV L)) ↦{fullShare} IDXV m d (wL L) (stF (0 * 8 + 2))))
        ∗ ((shW).view.loc (V d (cV L) (jV L)) ↦[(shW).view.set]{Transfers.shareTokN (Transfers.shareTok fullShare 16 (Fin.cast nSub_eq (jV L))) 5} TABS m d (cV L)))) ∗ ((shW).view.loc (V d (cV L) (jV L)) ↦[(shW).view.set \ (shW).view.set]{Transfers.shareTokN (Transfers.shareTok fullShare 16 (Fin.cast nSub_eq (jV L))) 5} TABS m d (cV L))) $$ [Hg2 Hk2]
    · iclear Hlv Hinv Hmw1 Hmw2 Hmw3
      istop
      exact exists_intro_trans _ (BI.Entails.refl _)
    ihave Hsl3 : (∃ fr : Buf (Elt F) ((Memref.whole cc1_scratch13 : Memref sig .scVector .vmem S64x128 .f32).view.loc (V d (cV L) (jV L))), (Transfers.Flight countersEmb (V d (cV L) (jV L)) (SemLoc.dma cc1_scratch21.sem) (default : HIx 1) 262144
      iprop((((Memref.whole cc1_scratch13 : Memref sig .scVector .vmem S64x128 .f32).view.loc (V d (cV L) (jV L)) ↦{fullShare}
            (Memref.whole cc1_scratch13 : Memref sig .scVector .vmem S64x128 .f32).view.writes (Elt F) fr [⟨Rect.whole (cc1_scratch13 : Ref sig .scVector).ty.shape, (SparseCore.gatherPayload gathers_S3200x128_S64x128 (View.read (Elt F) (shW).view (TABS m d (cV L))) (SparseCore.rows (View.read (Elt F) (Memref.whole cc1_scratch5 : Memref sig .scVector .vmem S64 .i32).view (IDXV m d (wL L) (stF (0 * 8 + 3)))) (by decide) (idxv_in_5 m d (wL L) (stF (0 * 8 + 3)))))⟩])
          ∗ ((Memref.whole cc1_scratch5 : Memref sig .scVector .vmem S64 .i32).view.loc (V d (cV L) (jV L)) ↦{fullShare} IDXV m d (wL L) (stF (0 * 8 + 3))))
        ∗ ((shW).view.loc (V d (cV L) (jV L)) ↦[(shW).view.set]{Transfers.shareTokN (Transfers.shareTok fullShare 16 (Fin.cast nSub_eq (jV L))) 6} TABS m d (cV L)))) ∗ ((shW).view.loc (V d (cV L) (jV L)) ↦[(shW).view.set \ (shW).view.set]{Transfers.shareTokN (Transfers.shareTok fullShare 16 (Fin.cast nSub_eq (jV L))) 6} TABS m d (cV L))) $$ [Hg3 Hk3]
    · iclear Hlv Hinv Hmw1 Hmw2 Hmw3
      istop
      exact exists_intro_trans _ (BI.Entails.refl _)
    ihave Hsl4 : (∃ fr : Buf (Elt F) ((Memref.whole cc1_scratch14 : Memref sig .scVector .vmem S64x128 .f32).view.loc (V d (cV L) (jV L))), (Transfers.Flight countersEmb (V d (cV L) (jV L)) (SemLoc.dma cc1_scratch22.sem) (default : HIx 1) 262144
      iprop((((Memref.whole cc1_scratch14 : Memref sig .scVector .vmem S64x128 .f32).view.loc (V d (cV L) (jV L)) ↦{fullShare}
            (Memref.whole cc1_scratch14 : Memref sig .scVector .vmem S64x128 .f32).view.writes (Elt F) fr [⟨Rect.whole (cc1_scratch14 : Ref sig .scVector).ty.shape, (SparseCore.gatherPayload gathers_S3200x128_S64x128 (View.read (Elt F) (shW).view (TABS m d (cV L))) (SparseCore.rows (View.read (Elt F) (Memref.whole cc1_scratch6 : Memref sig .scVector .vmem S64 .i32).view (IDXV m d (wL L) (stF (0 * 8 + 4)))) (by decide) (idxv_in_6 m d (wL L) (stF (0 * 8 + 4)))))⟩])
          ∗ ((Memref.whole cc1_scratch6 : Memref sig .scVector .vmem S64 .i32).view.loc (V d (cV L) (jV L)) ↦{fullShare} IDXV m d (wL L) (stF (0 * 8 + 4))))
        ∗ ((shW).view.loc (V d (cV L) (jV L)) ↦[(shW).view.set]{Transfers.shareTokN (Transfers.shareTok fullShare 16 (Fin.cast nSub_eq (jV L))) 7} TABS m d (cV L)))) ∗ ((shW).view.loc (V d (cV L) (jV L)) ↦[(shW).view.set \ (shW).view.set]{Transfers.shareTokN (Transfers.shareTok fullShare 16 (Fin.cast nSub_eq (jV L))) 7} TABS m d (cV L))) $$ [Hg4 Hk4]
    · iclear Hlv Hinv Hmw1 Hmw2 Hmw3
      istop
      exact exists_intro_trans _ (BI.Entails.refl _)
    ihave Hsl5 : (∃ fr : Buf (Elt F) ((Memref.whole cc1_scratch15 : Memref sig .scVector .vmem S64x128 .f32).view.loc (V d (cV L) (jV L))), (Transfers.Flight countersEmb (V d (cV L) (jV L)) (SemLoc.dma cc1_scratch23.sem) (default : HIx 1) 262144
      iprop((((Memref.whole cc1_scratch15 : Memref sig .scVector .vmem S64x128 .f32).view.loc (V d (cV L) (jV L)) ↦{fullShare}
            (Memref.whole cc1_scratch15 : Memref sig .scVector .vmem S64x128 .f32).view.writes (Elt F) fr [⟨Rect.whole (cc1_scratch15 : Ref sig .scVector).ty.shape, (SparseCore.gatherPayload gathers_S3200x128_S64x128 (View.read (Elt F) (shW).view (TABS m d (cV L))) (SparseCore.rows (View.read (Elt F) (Memref.whole cc1_scratch7 : Memref sig .scVector .vmem S64 .i32).view (IDXV m d (wL L) (stF (0 * 8 + 5)))) (by decide) (idxv_in_7 m d (wL L) (stF (0 * 8 + 5)))))⟩])
          ∗ ((Memref.whole cc1_scratch7 : Memref sig .scVector .vmem S64 .i32).view.loc (V d (cV L) (jV L)) ↦{fullShare} IDXV m d (wL L) (stF (0 * 8 + 5))))
        ∗ ((shW).view.loc (V d (cV L) (jV L)) ↦[(shW).view.set]{Transfers.shareTokN (Transfers.shareTok fullShare 16 (Fin.cast nSub_eq (jV L))) 8} TABS m d (cV L)))) ∗ ((shW).view.loc (V d (cV L) (jV L)) ↦[(shW).view.set \ (shW).view.set]{Transfers.shareTokN (Transfers.shareTok fullShare 16 (Fin.cast nSub_eq (jV L))) 8} TABS m d (cV L))) $$ [Hg5 Hk5]
    · iclear Hlv Hinv Hmw1 Hmw2 Hmw3
      istop
      exact exists_intro_trans _ (BI.Entails.refl _)
    ihave Hsl6 : (∃ fr : Buf (Elt F) ((Memref.whole cc1_scratch16 : Memref sig .scVector .vmem S64x128 .f32).view.loc (V d (cV L) (jV L))), (Transfers.Flight countersEmb (V d (cV L) (jV L)) (SemLoc.dma cc1_scratch24.sem) (default : HIx 1) 262144
      iprop((((Memref.whole cc1_scratch16 : Memref sig .scVector .vmem S64x128 .f32).view.loc (V d (cV L) (jV L)) ↦{fullShare}
            (Memref.whole cc1_scratch16 : Memref sig .scVector .vmem S64x128 .f32).view.writes (Elt F) fr [⟨Rect.whole (cc1_scratch16 : Ref sig .scVector).ty.shape, (SparseCore.gatherPayload gathers_S3200x128_S64x128 (View.read (Elt F) (shW).view (TABS m d (cV L))) (SparseCore.rows (View.read (Elt F) (Memref.whole cc1_scratch8 : Memref sig .scVector .vmem S64 .i32).view (IDXV m d (wL L) (stF (0 * 8 + 6)))) (by decide) (idxv_in_8 m d (wL L) (stF (0 * 8 + 6)))))⟩])
          ∗ ((Memref.whole cc1_scratch8 : Memref sig .scVector .vmem S64 .i32).view.loc (V d (cV L) (jV L)) ↦{fullShare} IDXV m d (wL L) (stF (0 * 8 + 6))))
        ∗ ((shW).view.loc (V d (cV L) (jV L)) ↦[(shW).view.set]{Transfers.shareTokN (Transfers.shareTok fullShare 16 (Fin.cast nSub_eq (jV L))) 9} TABS m d (cV L)))) ∗ ((shW).view.loc (V d (cV L) (jV L)) ↦[(shW).view.set \ (shW).view.set]{Transfers.shareTokN (Transfers.shareTok fullShare 16 (Fin.cast nSub_eq (jV L))) 9} TABS m d (cV L))) $$ [Hg6 Hk6]
    · iclear Hlv Hinv Hmw1 Hmw2 Hmw3
      istop
      exact exists_intro_trans _ (BI.Entails.refl _)
    ihave Hsl7 : (∃ fr : Buf (Elt F) ((Memref.whole cc1_scratch17 : Memref sig .scVector .vmem S64x128 .f32).view.loc (V d (cV L) (jV L))), (Transfers.Flight countersEmb (V d (cV L) (jV L)) (SemLoc.dma cc1_scratch25.sem) (default : HIx 1) 262144
      iprop((((Memref.whole cc1_scratch17 : Memref sig .scVector .vmem S64x128 .f32).view.loc (V d (cV L) (jV L)) ↦{fullShare}
            (Memref.whole cc1_scratch17 : Memref sig .scVector .vmem S64x128 .f32).view.writes (Elt F) fr [⟨Rect.whole (cc1_scratch17 : Ref sig .scVector).ty.shape, (SparseCore.gatherPayload gathers_S3200x128_S64x128 (View.read (Elt F) (shW).view (TABS m d (cV L))) (SparseCore.rows (View.read (Elt F) (Memref.whole cc1_scratch9 : Memref sig .scVector .vmem S64 .i32).view (IDXV m d (wL L) (stF (0 * 8 + 7)))) (by decide) (idxv_in_9 m d (wL L) (stF (0 * 8 + 7)))))⟩])
          ∗ ((Memref.whole cc1_scratch9 : Memref sig .scVector .vmem S64 .i32).view.loc (V d (cV L) (jV L)) ↦{fullShare} IDXV m d (wL L) (stF (0 * 8 + 7))))
        ∗ ((shW).view.loc (V d (cV L) (jV L)) ↦[(shW).view.set]{Transfers.shareTokN (Transfers.shareTok fullShare 16 (Fin.cast nSub_eq (jV L))) 10} TABS m d (cV L)))) ∗ ((shW).view.loc (V d (cV L) (jV L)) ↦[(shW).view.set \ (shW).view.set]{Transfers.shareTokN (Transfers.shareTok fullShare 16 (Fin.cast nSub_eq (jV L))) 10} TABS m d (cV L))) $$ [Hg7 Hk7]
    · iclear Hlv Hinv Hmw1 Hmw2 Hmw3
      istop
      exact exists_intro_trans _ (BI.Entails.refl _)
    isplitr; · iexact Hmw3
    isplitl [Hs0n]; · iexact Hs0n
    isplitl [Hsl0]; · iexact Hsl0
    isplitl [Hsl1]; · iexact Hsl1
    isplitl [Hsl2]; · iexact Hsl2
    isplitl [Hsl3]; · iexact Hsl3
    isplitl [Hsl4]; · iexact Hsl4
    isplitl [Hsl5]; · iexact Hsl5
    isplitl [Hsl6]; · iexact Hsl6
    isplitl [Hsl7]; · iexact Hsl7
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hdone]; · iexact Hdone
    isplitl [Htodo]; · iexact Htodo
    iexists _; isplitr
    swap; · iexact HO
    ipureintro; intro p hp
    simp only [Finset.mem_insert] at hp
    rcases hp with hp | hp | hp | hp
    all_goals first | exact .inl hp | exact .inr (.inl (hp ▸ rfl)) | exact .inr (.inr (hp ▸ rfl))
  have ht : Scf.trips k1_t1_loop.lb k1_t1_loop.ub k1_t1_loop.st = 49 := by decide
  rw [ht]
  iintro %acc HI
  unfold inv
  icases HI with ⟨#Hmw, Hs0, ⟨%fr0, Hg0, Hk0⟩, ⟨%fr1, Hg1, Hk1⟩, ⟨%fr2, Hg2, Hk2⟩, ⟨%fr3, Hg3, Hk3⟩, ⟨%fr4, Hg4, Hk4⟩, ⟨%fr5, Hg5, Hk5⟩, ⟨%fr6, Hg6, Hk6⟩, ⟨%fr7, Hg7, Hk7⟩, Hq0, Hq1, Hq2, Hq3, Hq4, Hq5, Hq6, Hq7, Hdone, Htodo, %W1, %hW1, HO⟩
  ihave Hch := ((out_take (F := F) d (wL L) 49 (by omega) _).1) $$ Htodo
  icases Hch with ⟨Hc0, Hc1, Hc2, Hc3, Hc4, Hc5, Hc6, Hc7, Htodo⟩
  ihave Hc0' : ((oSlE L 0).view.loc (V d (cV L) (jV L)) ↦[(oSlE L 0).view.set]{fullShare} m (outLoc d)) $$ [Hc0]
  · iclear Hlv Hinv Hmw1 Hmw2 Hmw3 Hmw
    istop
    exact Entails.of_eq (pts_oSlE (F := F) d L 0 _).symm
  ihave Hc1' : ((oSlE L 1).view.loc (V d (cV L) (jV L)) ↦[(oSlE L 1).view.set]{fullShare} m (outLoc d)) $$ [Hc1]
  · iclear Hlv Hinv Hmw1 Hmw2 Hmw3 Hmw
    istop
    exact Entails.of_eq (pts_oSlE (F := F) d L 1 _).symm
  ihave Hc2' : ((oSlE L 2).view.loc (V d (cV L) (jV L)) ↦[(oSlE L 2).view.set]{fullShare} m (outLoc d)) $$ [Hc2]
  · iclear Hlv Hinv Hmw1 Hmw2 Hmw3 Hmw
    istop
    exact Entails.of_eq (pts_oSlE (F := F) d L 2 _).symm
  ihave Hc3' : ((oSlE L 3).view.loc (V d (cV L) (jV L)) ↦[(oSlE L 3).view.set]{fullShare} m (outLoc d)) $$ [Hc3]
  · iclear Hlv Hinv Hmw1 Hmw2 Hmw3 Hmw
    istop
    exact Entails.of_eq (pts_oSlE (F := F) d L 3 _).symm
  ihave Hc4' : ((oSlE L 4).view.loc (V d (cV L) (jV L)) ↦[(oSlE L 4).view.set]{fullShare} m (outLoc d)) $$ [Hc4]
  · iclear Hlv Hinv Hmw1 Hmw2 Hmw3 Hmw
    istop
    exact Entails.of_eq (pts_oSlE (F := F) d L 4 _).symm
  ihave Hc5' : ((oSlE L 5).view.loc (V d (cV L) (jV L)) ↦[(oSlE L 5).view.set]{fullShare} m (outLoc d)) $$ [Hc5]
  · iclear Hlv Hinv Hmw1 Hmw2 Hmw3 Hmw
    istop
    exact Entails.of_eq (pts_oSlE (F := F) d L 5 _).symm
  ihave Hc6' : ((oSlE L 6).view.loc (V d (cV L) (jV L)) ↦[(oSlE L 6).view.set]{fullShare} m (outLoc d)) $$ [Hc6]
  · iclear Hlv Hinv Hmw1 Hmw2 Hmw3 Hmw
    istop
    exact Entails.of_eq (pts_oSlE (F := F) d L 6 _).symm
  ihave Hc7' : ((oSlE L 7).view.loc (V d (cV L) (jV L)) ↦[(oSlE L 7).view.set]{fullShare} m (outLoc d)) $$ [Hc7]
  · iclear Hlv Hinv Hmw1 Hmw2 Hmw3 Hmw
    istop
    exact Entails.of_eq (pts_oSlE (F := F) d L 7 _).symm
  sl_exec
  sl_step
  ihave Hd0 : (outLoc d ↦[oChunk (wL L) ⟨49 * 8 + 0, by omega⟩]{fullShare} OUTF m d) $$ [Hc0']
  · iclear Hlv Hinv Hmw1 Hmw2 Hmw3 Hmw
    istop
    exact (Entails.of_eq (pts_oSlE (F := F) d L 0 _)).trans (out_landedE m d L 0 _ _
      ((gather_landed_read m _ _ d (cV L) (wL L) (stF (49 * 8 + 0)) _ _ _).trans (congrArg (ROWSV m d (wL L)) (stF_eq (49 * 8 + 0) (by omega)))))
  ihave Hd1 : (outLoc d ↦[oChunk (wL L) ⟨49 * 8 + 1, by omega⟩]{fullShare} OUTF m d) $$ [Hc1']
  · iclear Hlv Hinv Hmw1 Hmw2 Hmw3 Hmw
    istop
    exact (Entails.of_eq (pts_oSlE (F := F) d L 1 _)).trans (out_landedE m d L 1 _ _
      ((gather_landed_read m _ _ d (cV L) (wL L) (stF (49 * 8 + 1)) _ _ _).trans (congrArg (ROWSV m d (wL L)) (stF_eq (49 * 8 + 1) (by omega)))))
  ihave Hd2 : (outLoc d ↦[oChunk (wL L) ⟨49 * 8 + 2, by omega⟩]{fullShare} OUTF m d) $$ [Hc2']
  · iclear Hlv Hinv Hmw1 Hmw2 Hmw3 Hmw
    istop
    exact (Entails.of_eq (pts_oSlE (F := F) d L 2 _)).trans (out_landedE m d L 2 _ _
      ((gather_landed_read m _ _ d (cV L) (wL L) (stF (49 * 8 + 2)) _ _ _).trans (congrArg (ROWSV m d (wL L)) (stF_eq (49 * 8 + 2) (by omega)))))
  ihave Hd3 : (outLoc d ↦[oChunk (wL L) ⟨49 * 8 + 3, by omega⟩]{fullShare} OUTF m d) $$ [Hc3']
  · iclear Hlv Hinv Hmw1 Hmw2 Hmw3 Hmw
    istop
    exact (Entails.of_eq (pts_oSlE (F := F) d L 3 _)).trans (out_landedE m d L 3 _ _
      ((gather_landed_read m _ _ d (cV L) (wL L) (stF (49 * 8 + 3)) _ _ _).trans (congrArg (ROWSV m d (wL L)) (stF_eq (49 * 8 + 3) (by omega)))))
  ihave Hd4 : (outLoc d ↦[oChunk (wL L) ⟨49 * 8 + 4, by omega⟩]{fullShare} OUTF m d) $$ [Hc4']
  · iclear Hlv Hinv Hmw1 Hmw2 Hmw3 Hmw
    istop
    exact (Entails.of_eq (pts_oSlE (F := F) d L 4 _)).trans (out_landedE m d L 4 _ _
      ((gather_landed_read m _ _ d (cV L) (wL L) (stF (49 * 8 + 4)) _ _ _).trans (congrArg (ROWSV m d (wL L)) (stF_eq (49 * 8 + 4) (by omega)))))
  ihave Hd5 : (outLoc d ↦[oChunk (wL L) ⟨49 * 8 + 5, by omega⟩]{fullShare} OUTF m d) $$ [Hc5']
  · iclear Hlv Hinv Hmw1 Hmw2 Hmw3 Hmw
    istop
    exact (Entails.of_eq (pts_oSlE (F := F) d L 5 _)).trans (out_landedE m d L 5 _ _
      ((gather_landed_read m _ _ d (cV L) (wL L) (stF (49 * 8 + 5)) _ _ _).trans (congrArg (ROWSV m d (wL L)) (stF_eq (49 * 8 + 5) (by omega)))))
  ihave Hd6 : (outLoc d ↦[oChunk (wL L) ⟨49 * 8 + 6, by omega⟩]{fullShare} OUTF m d) $$ [Hc6']
  · iclear Hlv Hinv Hmw1 Hmw2 Hmw3 Hmw
    istop
    exact (Entails.of_eq (pts_oSlE (F := F) d L 6 _)).trans (out_landedE m d L 6 _ _
      ((gather_landed_read m _ _ d (cV L) (wL L) (stF (49 * 8 + 6)) _ _ _).trans (congrArg (ROWSV m d (wL L)) (stF_eq (49 * 8 + 6) (by omega)))))
  ihave Hd7 : (outLoc d ↦[oChunk (wL L) ⟨49 * 8 + 7, by omega⟩]{fullShare} OUTF m d) $$ [Hc7']
  · iclear Hlv Hinv Hmw1 Hmw2 Hmw3 Hmw
    istop
    exact (Entails.of_eq (pts_oSlE (F := F) d L 7 _)).trans (out_landedE m d L 7 _ _
      ((gather_landed_read m _ _ d (cV L) (wL L) (stF (49 * 8 + 7)) _ _ _).trans (congrArg (ROWSV m d (wL L)) (stF_eq (49 * 8 + 7) (by omega)))))
  ihave Hdone' := (out_put (F := F) d (wL L) 49 (by omega) (OUTF m d)) $$ [Hdone Hd0 Hd1 Hd2 Hd3 Hd4 Hd5 Hd6 Hd7]
  · isplitl [Hdone]; · iexact Hdone
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  ihave Hpiece := (out_fin (F := F) d (wL L) (OUTF m d)) $$ Hdone'
  ihave Hshw2 := ((src_toks (F := F) d (cV L) (jV L) _ _).2) $$ [Hk0 Hk1 Hk2 Hk3 Hk4 Hk5 Hk6 Hk7 Hkrest]
  · isplitl [Hk0]; · iexact Hk0
    isplitl [Hk1]; · iexact Hk1
    isplitl [Hk2]; · iexact Hk2
    isplitl [Hk3]; · iexact Hk3
    isplitl [Hk4]; · iexact Hk4
    isplitl [Hk5]; · iexact Hk5
    isplitl [Hk6]; · iexact Hk6
    isplitl [Hk7]; · iexact Hk7
    iexact Hkrest
  unfold tdRes
  isplitl [Hx' Hpiece Ht' Hshw2 Hdrop]
  · isplitl [Hx']
    · iapply (Entails.of_eq (pts_xSl (F := F) d L _)); iexact Hx'
    isplitl [Hpiece]; · iexact Hpiece
    isplitl [Ht']
    · iapply (Entails.of_eq (pts_tSl (F := F) d L _ _)); iexact Ht'
    isplitl [Hshw2]; · iexact Hshw2
    iexact Hdrop
  isplitl [Hs0 Hg0_dst_and Hg1_dst_and Hg2_dst_and Hg3_dst_and Hg4_dst_and Hg5_dst_and Hg6_dst_and Hg7_dst_and Hg0_dst Hg1_dst Hg2_dst Hg3_dst Hg4_dst Hg5_dst Hg6_dst Hg7_dst Hbufs]
  · isplitl [Hs0 Hg0_dst_and Hg1_dst_and Hg2_dst_and Hg3_dst_and Hg4_dst_and Hg5_dst_and Hg6_dst_and Hg7_dst_and Hg0_dst Hg1_dst Hg2_dst Hg3_dst Hg4_dst Hg5_dst Hg6_dst Hg7_dst]
    · isplitl [Hs0]; · iexists _; iexact Hs0
      isplitl [Hg0_dst_and]; · iexists _; iexact Hg0_dst_and
      isplitl [Hg1_dst_and]; · iexists _; iexact Hg1_dst_and
      isplitl [Hg2_dst_and]; · iexists _; iexact Hg2_dst_and
      isplitl [Hg3_dst_and]; · iexists _; iexact Hg3_dst_and
      isplitl [Hg4_dst_and]; · iexists _; iexact Hg4_dst_and
      isplitl [Hg5_dst_and]; · iexists _; iexact Hg5_dst_and
      isplitl [Hg6_dst_and]; · iexists _; iexact Hg6_dst_and
      isplitl [Hg7_dst_and]; · iexists _; iexact Hg7_dst_and
      isplitl [Hg0_dst]; · iexists _; iexact Hg0_dst
      isplitl [Hg1_dst]; · iexists _; iexact Hg1_dst
      isplitl [Hg2_dst]; · iexists _; iexact Hg2_dst
      isplitl [Hg3_dst]; · iexists _; iexact Hg3_dst
      isplitl [Hg4_dst]; · iexists _; iexact Hg4_dst
      isplitl [Hg5_dst]; · iexists _; iexact Hg5_dst
      isplitl [Hg6_dst]; · iexists _; iexact Hg6_dst
      iexists _; iexact Hg7_dst
    iexact Hbufs
  isplitl [Hg0 Hg1 Hg2 Hg3 Hg4 Hg5 Hg6 Hg7 Hq0 Hq1 Hq2 Hq3 Hq4 Hq5 Hq6 Hq7 Hxs Hts Hsemr]
  · isplitl [Hg0 Hg1 Hg2 Hg3 Hg4 Hg5 Hg6 Hg7 Hq0 Hq1 Hq2 Hq3 Hq4 Hq5 Hq6 Hq7 Hxs Hts]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hg7]; · iexact Hg7
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hxs]; · iexact Hxs
      iexact Hts
    iexact Hsemr
  iexists _; isplitr
  swap; · iexact HO
  ipureintro; intro p hp
  simp only [Finset.mem_insert] at hp
  rcases hp with hp | hp | hp | hp | hp | hp | hp | hp | hp | hp | hp | hp | hp | hp | hp | hp | hp
  all_goals first | exact hW1 p hp | exact .inr (.inl (hp ▸ rfl))

end Tile

end Cert.Proof.KB

end
-- ==== Proof.ElemKI.lean ====
/-
  The launch element of the ghost state, and what it pays for at the launch.

  The element has four components: the launch handshakes' rounds; the subcore barrier's rounds, one cell per task of
  each SparseCore with one unit duty per task of that SparseCore in its round 0; the rounds of the staging cells of the
  TensorCore stage; and no transfer in flight.  From it, the free barrier semaphores at zero and the credit for the
  tasks' barrier debts, every task is dealt its barrier kit: every cell's invariant of its SparseCore, its duty token
  in each of the sixteen rounds, its own position, and the credit for the sixteen units its own cell will receive.
  The duties' payloads are supplied by the tasks at the barrier, not here.
-/
import proofs.«206439_g51874615001410_cont_9to1_m_433_33_alg».proof.Proof.SetupKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The barrier cells and the duty tokens of the launch element -/

abbrev DCI : Type := Dev nD × Fin τ.nSC × Fin τ.nSub
abbrev bcell₃ (x : DCI) : GSem nD τ sig := bcell x.1 x.2.1 x.2.2

/-- Every task's barrier cell, on both SparseCores of every device. -/
def bCells : Finset (GSem nD τ sig) := Finset.univ.image bcell₃
/-- Task i's token in task j's cell, for every pair of tasks of a SparseCore. -/
def bToks : Finset (GSem nD τ sig × ℕ × ℕ) :=
  Finset.univ.image fun x : DCI × Fin (grid1.bound 1) => (bcell x.1.1 x.1.2.1 (x.2.castLE hsub1), 0, x.1.2.2.val)

/-- The launch element: the handshakes' rounds, the barrier cells' rounds, the staging cells' rounds (uP₀), no transfer. -/
def u₀ (uP₀ : UP) : UU := (initOf (K (F := F)).hsCells (K (F := F)).hsToks, (initOf bCells bToks, (uP₀, 1)))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

/-- The launch element is its three components, each owned through its embedding. -/
theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a)
      ∗ BI.own ((uEmb (nD := nD) (sig := sig) (Ix := HIx 1) (Val := Elt F) (Name := ℕ) (U := UU) (Lvl := ℕ)).toEmb ((1, (b, (p, 1))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (BI.own ((uEmb (nD := nD) (sig := sig) (Ix := HIx 1) (Val := Elt F) (Name := ℕ) (U := UU) (Lvl := ℕ)).toEmb ((1, (b, (p, 1))) : UU)) : sProp 𝕄)
      ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op (p, (1 : Counters))))))
  exact h1.trans (sep_mono_right h2)

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

theorem bigSep_emp' {I : Type} (s : Finset I) : (bigSep s fun _ => iprop(emp)) = (iprop(emp) : sProp 𝕄) := bigSep_emp_const s

/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

variable [FloatOps F] [hK : Cert.KernelIdeal.Facts]

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

/-- The credit for the kernel's own debts, regrouped: each task the sixteen units of its own cell. -/
theorem creds_b : ((P (F := F) m).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

/-- What every task is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each task is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One task's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp']; iempintro
  isplitl [Hat]; · iexact Hat
  iexact Hcred

/-- Each task its kit. -/
theorem kits_deal :
    iprop(shared (F := F) m ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-- The launch element pays for every thread's start: the handshakes' element passes through, the staging cells'
    component funds what @main needs on each device (GG, by fund_GG), and the barrier cells' component, the free
    barrier semaphores and the credit make every task's barrier kit. -/
theorem hu₀ (GG : Dev nD → sProp 𝕄) (uP₀ : UP)
    (fund_GG : (BI.own (EP uP₀) : sProp 𝕄) ⊢ |={Set.univ}=> bigSep Finset.univ GG) :
    iprop(ownU (u₀ (F := F) uP₀) ∗ (P (F := F) m).oxCred ∗ (K (F := F)).freeSems0)
    ⊢ |={Set.univ}=> iprop(BI.own (EH (initOf (K (F := F)).hsCells (K (F := F)).hsToks)) ∗ (bigSep Finset.univ GG)
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HP⟩
  imod (Rounds.fund EB (bRd (F := F) m) bCells bToks) $$ HB with ⟨Hst, #Hr, Hat, Htok⟩
  imod fund_GG $$ HP with HG
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal m)
  isplitr
  · isplitl; · iexists κ; iexact Hinv'
    iexact Hr'
  isplitl [Hat']; · iexact Hat'
  isplitl [Htok']; · iexact Htok'
  iexact Hcred'

end Cert.Proof.KI

end
-- ==== Proof.FinKI.lean ====
/-
  What @main leaves for the claim, and how the final memory reads it.

  At its end @main holds the three argument arrays whole at their launch contents and its result at the gathered rows
  reshaped to 4096 x 200 x 128.  Held beside the machine's state, each points-to says the memory agrees with it
  everywhere, which is the post-condition of the run.
-/
import proofs.«206439_g51874615001410_cont_9to1_m_433_33_alg».proof.Proof.SetupKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F] [hK : Cert.KernelIdeal.Facts]

/-- @main's result as a function of the launch memory: the gathered rows, reshaped. -/
def RES (d : Dev nD) : Buf (Elt F) (resLoc d) :=
  shapeCast S4096x200x128 (OUTF m d) hK.shapeCasts_S819200x128_S4096x200x128

/-- What @main leaves the claim: the arguments at their launch contents, the result at the gathered rows reshaped. -/
def FIN (d : Dev nD) : sProp 𝕄 :=
  iprop((xLoc d ↦{fullShare} m (xLoc d)) ∗ (tokLoc d ↦{fullShare} m (tokLoc d)) ∗ (posLoc d ↦{fullShare} m (posLoc d))
    ∗ (resLoc d ↦{fullShare} (shapeCast S4096x200x128 (OUTF m d) hK.shapeCasts_S819200x128_S4096x200x128 : Buf (Elt F) (resLoc d))))

def fq (d : Dev nD) (s' : Phys nD τ sig (Elt F)) : Prop :=
  s'.mem.mem (resLoc d) = shapeCast S4096x200x128 (OUTF m d) hK.shapeCasts_S819200x128_S4096x200x128
    ∧ s'.mem.mem (xLoc d) = m (xLoc d) ∧ s'.mem.mem (tokLoc d) = m (tokLoc d) ∧ s'.mem.mem (posLoc d) = m (posLoc d)

theorem hfin (d : Dev nD) (s' : Phys nD τ sig (Elt F)) : iprop(FIN m d ∗ SI s') ⊢ (⌜fq m d s'⌝ : sProp 𝕄) := by
  unfold FIN
  iintro ⟨⟨Hx, Ht, Hp, Hr⟩, HSI⟩
  icombine HSI Hx gives %hx
  icombine HSI Ht gives %ht
  icombine HSI Hp gives %hp
  icombine HSI Hr gives %hr
  ipureintro
  exact ⟨funext fun i => hr i (Finset.mem_univ i), funext fun i => hx i (Finset.mem_univ i), funext fun i => ht i (Finset.mem_univ i),
    funext fun i => hp i (Finset.mem_univ i)⟩

/-- The post-condition of the run: on every device the result holds the gathered rows reshaped and the arguments are unchanged. -/
def QC : PUnit × MemSt nD τ sig (Elt F) → Prop := fun r =>
  ∀ c : Dev nD, r.2.mem (resLoc c) = shapeCast S4096x200x128 (OUTF m c) hK.shapeCasts_S819200x128_S4096x200x128
    ∧ r.2.mem (xLoc c) = m (xLoc c) ∧ r.2.mem (tokLoc c) = m (tokLoc c) ∧ r.2.mem (posLoc c) = m (posLoc c)

theorem hQ (s' : Phys nD τ sig (Elt F)) (h : ∀ d, fq m d s') : QC m (⟨⟩, s'.mem) := h

end Cert.Proof.KI

end
-- ==== Proof.RunKI.lean ====
/-
  The idealized kernel program's run, assembled.

  From the task's body obligation, the split of a SparseCore's operands among its tasks, @main's proof on the
  TensorCore, and the launch element, the launch theorem gives: every weakly fair execution of the whole family of
  threads from the launch memory terminates without a fault, and in the final memory, on every device, @main's result
  holds the gathered rows reshaped to 4096 x 200 x 128 and the three arguments are unchanged.
-/
import proofs.«206439_g51874615001410_cont_9to1_m_433_33_alg».proof.Proof.SplitKI
import proofs.«206439_g51874615001410_cont_9to1_m_433_33_alg».proof.Proof.ElemKI
import proofs.«206439_g51874615001410_cont_9to1_m_433_33_alg».proof.Proof.FinKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable (ρ : Dev nD → PrngReg)

variable [FloatOps F] [hK : Cert.KernelIdeal.Facts]

/-- The run, from the four parts.  GG is what @main needs of the staging cells on each device and uP₀ the component of
    the launch element that funds it. -/
theorem run_main_of [∀ e, Nonempty (Elt F e)] (GG : Dev nD → sProp 𝕄) (uP₀ : UP)
    (fund_GG : (BI.own (EP uP₀) : sProp 𝕄) ⊢ |={Set.univ}=> bigSep Finset.univ GG)
    (htile : (K (F := F)).TileObl (D (F := F)) 𝒱 (P m) v₀ 0)
    (hmain : ∀ (κ : GSem nD τ sig → ℕ) (d : Dev nD),
      iprop((K (F := F)).ctx EH (P m) κ ∗ (K (F := F)).tcSt EH d 0 ∗ (K (F := F)).tcRes m ρ d ∗ GG d)
        ⊢ wp frame (wpE ((K (F := F)).defs (D (F := F))) 𝒱 (SparseCore.T d) none) Set.univ (main d)
            fun _ => iprop((K (F := F)).tcSt EH d 1 ∗ FIN m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main GG (FIN m) (u₀ (F := F) uP₀) (hu₀ m GG uP₀ fund_GG) hmain (fq m) (hfin m) (QC m) (hQ m)

end Cert.Proof.KI

end
-- ==== Proof.RegionKI.lean ====
/-
  The TensorCore stage of the idealized kernel program: the one pipelined region that builds the fused table.

  The region has no grid: one point. Its three windows are whole arrays, each staged whole: the padded token table
  and the position table are fetched, the body multiplies the first by the constant c and adds the second
  (fused[p, v, :] = tokpad[v, :] · c + pos[p, :]), and the result is written back whole.

  Contents: the ghost state the staging cells start from and its funding from the launch element; the proof data
  (what each staging buffer holds after the body; nothing else is kept between the two ends of the one point);
  the body's run; the region as entered from @main: from the three arrays held whole to the same with the result
  array at the fused table.
-/
import proofs.«206439_g51874615001410_cont_9to1_m_433_33_alg».proof.Proof.SetupKI
import proofs.«206439_g51874615001410_cont_9to1_m_433_33_alg».proof.Proof.Gen.KernelIdeal.Launch
import proofs.«206439_g51874615001410_cont_9to1_m_433_33_alg».proof.Proof.Gen.KernelIdeal.Points
import Idealize.ShloMosaic.Lib.Pipeline.Regions
import Idealize.ShloMosaic.Lib.Pipeline.Value
import Idealize.ShloMosaic.Lib.Pipeline.RegionsLoop

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.KernelIdeal.Facts]

/-! ## The staging cells' ghost state -/

/-- No pipeline has a prefetched table. -/
abbrev adm : (p : Fin 1) → (pcfgs (F := F) p).Adm := fun p => (cfgs p).toPCfg_adm
/-- The pipelines' configurations at those (empty) tables: the printed ones. -/
abbrev pcfg : Fin 1 → Pipeline.Cfg sig Λ₀ := Pipeline.pin (pcfgs (F := F)) adm

/-- The launch element of the staging cells' rounds: every cell of the region at its launch state, a duty token per transfer. -/
def uP₀ : UP := initOf (Pipeline.cells cfgs Gen.cellOf_inj) (Pipeline.launchToks cfgs Gen.cellOf_inj)

/-- What @main's proof starts from beside the launch's deal: the staging cells' launch ghost state and the duty
    tokens of the region's transfers. -/
def GG (d : Dev nD) : sProp 𝕄 :=
  iprop(Pipeline.cellsGhost (pcfg (F := F)) EP 0 d ∗ Pipeline.toksInit (pcfg (F := F)) EP 0 d)

/-- Conjoined over the one device, the one pipeline. -/
theorem bigSep_fin1 {M : Type} [URA M] (Φ : Fin 1 → sProp M) : bigSep Finset.univ Φ = Φ 0 := by
  rw [show (Finset.univ : Finset (Fin 1)) = {0} from rfl, bigSep_singleton]

/-- The staging cells' ghost state of every device from the launch element's rounds component. -/
theorem fund_GG : (BI.own (EP (uP₀)) : sProp 𝕄) ⊢ |={Set.univ}=> bigSep Finset.univ (GG (F := F)) := by
  have h : iprop((bigSep Finset.univ fun c : Dev nD => bigSep Finset.univ fun p : Fin 1 => Pipeline.cellsGhost (cfgs) (EP (F := F)) p c)
        ∗ (bigSep Finset.univ fun c : Dev nD => bigSep Finset.univ fun p : Fin 1 => (Pipeline.toksInit (cfgs) (EP (F := F)) p c : sProp 𝕄)))
      ⊢ bigSep Finset.univ (GG (F := F)) := by
    unfold GG
    simp only [bigSep_fin1]
    exact .rfl
  unfold uP₀
  iintro Hu
  imod (Pipeline.fund_ghost (cfgs) (EP (F := F)) Gen.cellOf_inj) $$ Hu with H
  imodintro
  iapply h
  iexact H

/-! ## The body -/

/-- A memref's buffer on device `d`'s TensorCore held whole at `f`. -/
abbrev ptM (d : Dev nD) {sp : Space} {S : Shape} {e : EltTy} (M : Memref sig .tc sp S e) (f : Buf (Elt F) (M.view.loc (d : Thread nD τ))) : sProp 𝕄 :=
  M.view.loc (d : Thread nD τ) ↦{fullShare} f

theorem hz2 : (![0, 0] : Fin 2 → Nat) = fun _ => 0 := by funext a; fin_cases a <;> rfl
theorem hz3 : (![0, 0, 0] : Fin 3 → Nat) = fun _ => 0 := by funext a; fin_cases a <;> rfl

/-- The body from its three staging buffers: the two inputs are read whole, the third is overwritten whole by
    the product-and-sum of what was read (its earlier contents are read and dropped). -/
theorem tableRun (d : Dev nD)
    (f0 : Buf (Elt F) ((Memref.whole cc0_stg0_0).view.loc (d : Thread nD τ)))
    (f1 : Buf (Elt F) ((Memref.whole cc0_stg1_0).view.loc (d : Thread nD τ)))
    (f2 : Buf (Elt F) ((Memref.whole cc0_stg2_0).view.loc (d : Thread nD τ))) (Q : PUnit → sProp 𝕄) :
    iprop(ptM d (Memref.whole cc0_stg0_0) f0 ∗ ptM d (Memref.whole cc0_stg1_0) f1 ∗ ptM d (Memref.whole cc0_stg2_0) f2
        ∗ (iprop(ptM d (Memref.whole cc0_stg0_0) f0 ∗ ptM d (Memref.whole cc0_stg1_0) f1 ∗ ptM d (Memref.whole cc0_stg2_0) (k0_pay1 (F := F) f0 f1)) -∗ Q ⟨⟩))
      ⊢ wp frame (wpE (defs₀ (F := F)) Variants.none (d : Thread nD τ) none) Set.univ
          (cc0__table_body (F := F) (Memref.whole cc0_stg0_0) (hstage0_0 0) (Memref.whole cc0_stg1_0) (hstage0_1 0) (Memref.whole cc0_stg2_0) (hstage0_2 0)) Q := by
  iintro ⟨H0, H1, H2, Hk⟩
  simp only [cc0__table_body_eq_skeleton]; unfold cc0__table_body_skel
  sl_exec
  sl_step
  iapply Hk
  isplitl [H0]; · iexact H0
  isplitl [H1]; · iexact H1
  have e0 : View.readAt (Elt F) (Memref.whole cc0_stg0_0 : Memref sig .tc _ _ _).view (Rect.unit ![0, 0] S16x128.size inb_S16x128_S16x128_0_0).toLoadRect f0 = f0 :=
    Memref.readAt_unit_zero (Elt F) cc0_stg0_0 hz2 _ f0
  have e1 : View.readAt (Elt F) (Memref.whole cc0_stg1_0 : Memref sig .tc _ _ _).view (Rect.unit ![0, 0] S200x128.size inb_S200x128_S200x128_0_0).toLoadRect f1 = f1 :=
    Memref.readAt_unit_zero (Elt F) cc0_stg1_0 hz2 _ f1
  have e2 : ((Memref.whole cc0_stg2_0 : Memref sig .tc _ _ _).view.slice (Rect.unit ![0, 0, 0] S200x16x128.size inb_S200x16x128_S200x16x128_0_0_0)).write (Elt F) f2 (k0_pay1 (F := F) f0 f1) Finset.univ
      = k0_pay1 (F := F) f0 f1 := Memref.write_access_unit_zero_univ (Elt F) cc0_stg2_0 hz3 _ f2 (k0_pay1 (F := F) f0 f1)
  rw [View.writes_singleton, e0, e1, e2]
  iexact H2

/-! ## The proof data

The region is entered with the TensorCore's unscoped buffers at a valuation `W`; its arrays are the padded
token table (main_v0), the position table (main_arg2) and the result (main_v1). -/

abbrev v0R : DevRef τ sig := Proc.devRef .tc (main_v0 : Ref sig .tc)
abbrev posR : DevRef τ sig := Proc.devRef .tc (main_arg2 : Ref sig .tc)
abbrev v1R : DevRef τ sig := Proc.devRef .tc (main_v1 : Ref sig .tc)

/-- An access through the whole-size unit rectangle at offsets that are zero covers the buffer. -/
theorem set_access_unit_zero {κ : Kind} (b : Ref sig κ) {off : Fin b.ty.shape.rank → Nat}
    (h : off = fun _ => 0) (inb : ∀ a, off a + b.ty.shape.size a ≤ b.ty.shape.size a) :
    ((Memref.whole b).access (Rect.unit off b.ty.shape.size inb) : View sig κ _ _ _).set = Finset.univ := by
  subst h; exact Memref.set_access_whole b

variable (W : Valuation τ sig (Elt F))

/-- The fused table of what the two input arrays hold, as the result array's contents. -/
abbrev FUS : (v1R).ty.Contents (Elt F) := k0_pay1 (F := F) (W v0R) (W posR)

/-- The proof data: the arrays at `W`; after the body the inputs as fetched and the result's staging buffer at the
    fused table; nothing kept between the ends; the TensorCore owing throughout what it owes before the SparseCore
    call, its recorded waits all at level zero. -/
def dat (d : Dev nD) : Pipeline.Dat τ (Elt F) (HIx 1) ℕ UU ℕ cfg0 d where
  A w := W ((cfg0.win w).arr.view.loc (d : Thread nD τ)).2
  after w _ := match w with
    | ⟨0, _⟩ => W v0R
    | ⟨1, _⟩ => W posR
    | ⟨2, _⟩ => FUS W
  Φ _ := iprop(emp)
  q _ := fullShare
  owed _ := (K (F := F)).Otc d 0
  recorded _ := {p | (K (F := F)).lev ((d : Thread nD τ), p.1) p.2 ≤ 0}

def pdats : (p : Fin 1) → (d : Dev nD) → Pipeline.Dat τ (Elt F) (HIx 1) ℕ UU ℕ (pcfg (F := F) p) d
  | 0 => dat W

/-- Each window's block is its whole array: read through it, contents are themselves; it covers the array. -/
theorem blk_read0 (f : (v0R).ty.Contents (Elt F)) : ((cfg0.win 0).blk t0_0).view.read (Elt F) f = f :=
  Memref.read_access_unit_zero (Elt F) main_v0 (funext fun _ => Nat.zero_mul _) _ f
theorem blk_read1 (f : (posR).ty.Contents (Elt F)) : ((cfg0.win 1).blk t0_0).view.read (Elt F) f = f :=
  Memref.read_access_unit_zero (Elt F) main_arg2 (funext fun _ => Nat.zero_mul _) _ f
theorem blk_read2 (f : (v1R).ty.Contents (Elt F)) : ((cfg0.win 2).blk t0_0).view.read (Elt F) f = f :=
  Memref.read_access_unit_zero (Elt F) main_v1 (funext fun _ => Nat.zero_mul _) _ f
theorem blk_set2 : ((cfg0.win 2).blk t0_0).view.set = Finset.univ :=
  set_access_unit_zero main_v1 (funext fun _ => Nat.zero_mul _) _

theorem before_in0 (d : Dev nD) (x : (cfg0.win 0).block.Idx → Elt F (cfg0.win 0).elt) : (dat W d).before 0 t0_0 x = W v0R := by
  unfold Pipeline.Dat.before
  exact (if_pos (fetch0_0 t0_0)).trans (blk_read0 (W v0R))
theorem before_in1 (d : Dev nD) (x : (cfg0.win 1).block.Idx → Elt F (cfg0.win 1).elt) : (dat W d).before 1 t0_0 x = W posR := by
  unfold Pipeline.Dat.before
  exact (if_pos (fetch0_1 t0_0)).trans (blk_read1 (W posR))
theorem before_out2 (d : Dev nD) (x : (cfg0.win 2).block.Idx → Elt F (cfg0.win 2).elt) : (dat W d).before 2 t0_0 x = x := by
  have h2 : (cfg0.win 2).fetch t0_0 = false := rfl
  unfold Pipeline.Dat.before
  exact (if_neg (by rw [h2]; exact Bool.false_ne_true)).trans (if_pos rfl)

/-- The result array after the region: the fused table. -/
theorem arrAt2 (d : Dev nD) : (dat W d).arrAt 2 cfg0.N = FUS W :=
  Pipeline.Dat.arrAt_eq_of_cover (dat W d) 2 (FUS W) (fun t _ => by obtain rfl := fin_N0 t; exact (blk_read2 (FUS W)).symm)
    (fun i => ⟨t0_0, flush0_2 t0_0, by rw [blk_set2]; exact Finset.mem_univ i⟩)

omit [FloatOps F] hK in
/-- Owning a whole buffer through its memref at contents `X` is holding it at `X`. -/
theorem owns_whole_eq (d : Dev nD) (b : Ref sig .tc) (X : b.ty.Contents (Elt F)) :
    (owns (Ix := HIx 1) (Name := ℕ) (U := UU) (Lvl := ℕ) (d : Thread nD τ) (Memref.whole b) fullShare X : sProp 𝕄)
      = iprop(∃ f : Buf (Elt F) (((d : Dev nD) : Thread nD τ).loc b), ⌜f = X⌝ ∗ (((d : Thread nD τ).loc b) ↦{fullShare} f)) := by
  unfold owns; simp only [Memref.view_whole, View.read_whole, View.set_whole]

set_option maxRecDepth 4000 in
/-- The body obligation at the one point. -/
theorem body_obligation (d : Dev nD) : Pipeline.BodyObligation (dat (F := F) W d) (defs₀ (F := F)) 𝒱₀ (none : HIx 1) Set.univ := fun t => by
  obtain rfl := fin_N0 t
  rw [bigSep_W0, bigSep_W0]
  simp only [owns_whole_eq]
  rw [show (dat W d).Φ t0_0.castSucc = iprop(emp) from rfl, show (dat W d).Φ t0_0.succ = iprop(emp) from rfl,
    show (dat W d).owesAt (none : HIx 1) t0_0.succ = (dat W d).owesAt (none : HIx 1) t0_0.castSucc from rfl]
  iintro ⟨-, HO, ⟨%x0, %f0, %hf0, H0⟩, ⟨%x1, %f1, %hf1, H1⟩, ⟨%x2, %f2, %hf2, H2⟩⟩
  obtain rfl : f0 = W v0R := hf0.trans (before_in0 W d x0)
  obtain rfl : f1 = W posR := hf1.trans (before_in1 W d x1)
  iapply (tableRun d (W v0R) (W posR) f2 _)
  isplitl [H0]; · iexact H0
  isplitl [H1]; · iexact H1
  isplitl [H2]; · iexact H2
  iintro ⟨H0, H1, H2⟩
  isplitr; · iempintro
  isplitl [HO]; · iexact HO
  isplitl [H0]
  · iexists _; isplitr; swap; (· iexact H0); ipureintro; rfl
  isplitl [H1]
  · iexists _; isplitr; swap; (· iexact H1); ipureintro; rfl
  iexists _; isplitr; swap; (· iexact H2); ipureintro; rfl

/-! ## The region as @main enters it -/

/-- What the TensorCore owes before a SparseCore call is owed at a call's index only. -/
theorem Otc_none (d : Dev nD) (n : ℕ) (g : GSem nD τ sig) : (K (F := F)).Otc d n g none = 0 :=
  Nat.eq_zero_of_not_pos fun h => by
    have h' := SparseCore.Cfg.lev_of_Otc_pos (K := K (F := F)) h
    rw [SparseCore.Cfg.lev_none] at h'; omega

/-- The TensorCore before the SparseCore call: owing the call's start signals, its recorded waits all at level zero. -/
abbrev tcOwes (d : Dev nD) : sProp 𝕄 :=
  iprop(∃ Ws, ⌜(K (F := F)).WBelow (T d) Ws 0⌝ ∗ owes (T d) ((K (F := F)).Otc d 0) Ws)

/-- The valuation after the region: the result array at the fused table. -/
abbrev Wr : Valuation τ sig (Elt F) := Function.update W v1R (FUS W)

theorem share_full (d : Dev nD) (w : Fin (pcfg (F := F) 0).W) : (pdats W 0 d).share w = fullShare :=
  (pdats W 0 d).share_full (fun _ => rfl) w

theorem owesAt_intro (d : Dev nD) (t : Fin ((pcfg (F := F) 0).N + 1)) : tcOwes (F := F) d ⊢ (pdats W 0 d).owesAt (none : HIx 1) t := by
  unfold Pipeline.Dat.owesAt Pipeline.owesWithin
  iintro ⟨%Ws, %hW, HO⟩
  iexists Ws; isplitr; · ipureintro; exact fun p hp => Or.inl (hW p hp)
  iexact HO

theorem owesAt_elim (d : Dev nD) (t : Fin ((pcfg (F := F) 0).N + 1)) : (pdats W 0 d).owesAt (none : HIx 1) t ⊢ tcOwes (F := F) d := by
  unfold Pipeline.Dat.owesAt Pipeline.owesWithin
  iintro ⟨%Ws, %hW, HO⟩
  iexists Ws; isplitr
  · ipureintro
    intro p hp
    rcases hW hp with h | ⟨w, s, rfl⟩
    · exact h
    · exact le_of_eq (SparseCore.Cfg.lev_none _ _)
  iexact HO

abbrev KL : GSem nD τ sig → Finset (HIx 1) := (K (F := F)).L
abbrev Klev : GSem nD τ sig → HIx 1 → ℕ := (K (F := F)).lev

/-- The arrays at the region's exit are the valuation's after it. -/
theorem arrAt_Wr (d : Dev nD) (w : Fin (pcfg (F := F) 0).W) :
    (pdats W 0 d).arrAt w (pcfg (F := F) 0).N = Wr W (Pipeline.arrRef (pcfg (F := F) 0).spec w) := by
  match w with
  | ⟨0, _⟩ => exact ((dat W d).arrAt_in 0 rfl _).trans (Function.update_of_ne (show v0R ≠ v1R by decide) (FUS W) W).symm
  | ⟨1, _⟩ => exact ((dat W d).arrAt_in 1 rfl _).trans (Function.update_of_ne (show posR ≠ v1R by decide) (FUS W) W).symm
  | ⟨2, _⟩ => exact (arrAt2 W d).trans (Function.update_self v1R (FUS W) W).symm

/-- The region: entered from the TensorCore's unscoped buffers at `W` and what it owes; left with the result array at
    the fused table, everything else as it was. -/
def reg : Pipeline.RegionSeg (pcfgs (F := F)) adm (pdats W) (none : HIx 1) defs₀ 𝒱₀ (KL (F := F)) (Klev (F := F)) 0 where
  win := launch0.win.to₀
  block_pos := launch0.block_pos
  stage_whole := launch0.stage_whole
  K := PEmpty
  osem k := k.elim
  ho := Pipeline.OwnSemFacts.none _
  hbody d := (body_obligation W d).loose
  hwaits d := Pipeline.cellsWaits_intro _ (pdats W) (none : HIx 1) 0 d fun w s t =>
    (K (F := F)).mayWait_none (thr := T d) _ (Otc_none d 0)
  pre d := iprop(unscopedBufs d (fun b => W b) ∗ tcOwes d)
  post d := iprop(unscopedBufs d (fun b => Wr W b) ∗ tcOwes d)
  X _ := iprop(emp)
  Y _ := iprop(emp)
  Z d := Pipeline.unscopedRest (Ix := HIx 1) (Name := ℕ) (U := UU) (Lvl := ℕ) spec0 d (fun b => W b)
  hentry d := by
    rw [Pipeline.ownSems0_none]
    have hsplit := Pipeline.arrays_of_unscopedBufs (pcfgs (F := F)) adm (pdats W) launch0.win launch0.arr_whole d
      (share_full W d) (fun b => W b) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]; · iapply (owesAt_intro W d 0); iexact HO
    isplitr; · iempintro
    iexact Hr
  hin d := by iintro -; iempintro
  hout d := by
    rw [Pipeline.ownSems0_none, scopedRest0_eq]
    iintro -; isplitr; · iempintro
    isplitr <;> iempintro
  hexit d := by
    have hjoin := Pipeline.unscopedBufs_of_arrays (pcs := pcfgs (F := F)) (a := adm) (p := 0) launch0.win launch0.arr_whole d (pdats W)
      (share_full W d) (fun b => W b) (fun b => Wr W b) (fun w => (pdats W 0 d).arrAt w (pcfg (F := F) 0).N) (arrAt_Wr W d)
      (fun b hb => Function.update_of_ne (StableHlo.devRef_ne_of_ne (fun e => hb (by subst e; exact Finset.mem_image.mpr ⟨2, Finset.mem_univ _, rfl⟩))) (FUS W) W)
    iintro ⟨Ha, HO, -, Hr⟩
    imodintro
    isplitl [Ha Hr]
    · iapply hjoin; isplitl [Ha] <;> iassumption
    iapply (owesAt_elim W d _); iexact HO

set_option backward.isDefEq.respectTransparency.types false in
/-- The pallas_call in the program's own signature: from the boundary, the unscoped buffers at `W`, what the TensorCore owes
    and the staging cells' ghost state, to the boundary and the same with the result array at the fused table. -/
theorem wp_region_inner (d : Dev nD) (Φ : PUnit → sProp 𝕄) :
    iprop(levAts (K (F := F)).L (K (F := F)).lev ∗ boundary (T d) ∗ StableHlo.held (T d) (Pipeline.ucRefs τ sig) W ∗ tcOwes (F := F) d ∗ GG (F := F) d
        ∗ (iprop(boundary (T d) ∗ StableHlo.held (T d) (Pipeline.ucRefs τ sig) (Wr W) ∗ tcOwes (F := F) d) -∗ Φ ⟨⟩))
      ⊢ wp frame (wpE (D (F := F)) 𝒱 (T d) none) Set.univ
          (Prog.lift (.customCall (Pipeline.entry 0) ()) : Prog (TpuEff nD τ sig (Elt F) (ΛP (F := F)) .tc) PUnit) Φ := by
  unfold GG
  iintro ⟨#Hla, Hbd, Hh, HO, ⟨Hg, Ht⟩, Hk⟩
  iapply (Pipeline.RegionSeg.wp (pcfgs (F := F)) adm (pdats W) (none : HIx 1) Gen.cellOf_inj EP defs₀ 𝒱₀ (K (F := F)).L (K (F := F)).lev
    (reg W) d none (by intro u hu; cases hu) Prog.ret Φ)
  rw [show (reg W).post d = iprop(unscopedBufs d (fun b => Wr W b) ∗ tcOwes (F := F) d) from rfl,
    show (reg W).pre d = iprop(unscopedBufs d (fun b => W b) ∗ tcOwes (F := F) d) from rfl]
  isplitl [Hk]
  · iintro ⟨Hbd, Hub, HO⟩
    rw [wp_ret]; imodintro
    iapply Hk
    isplitl [Hbd]; · iexact Hbd
    isplitl [Hub]
    · iapply (Entails.of_eq (Pipeline.unscopedBufs_held d (Wr W))); iexact Hub
    iexact HO
  isplitl [Hbd]; · iexact Hbd
  isplitl [Hh HO]
  · isplitl [Hh]
    · iapply (Entails.of_eq (Pipeline.unscopedBufs_held d W).symm); iexact Hh
    iexact HO
  isplitr; · iexact Hla
  isplitl [Hg] <;> iassumption

set_option backward.isDefEq.respectTransparency.types false in
/-- The same as @main spells the call, under the extended body table. -/
theorem wp_region (d : Dev nD) (Φ : PUnit → sProp 𝕄) :
    iprop(levAts (K (F := F)).L (K (F := F)).lev ∗ boundary (T d) ∗ StableHlo.held (T d) (Pipeline.ucRefs τ sig) W ∗ tcOwes (F := F) d ∗ GG (F := F) d
        ∗ (iprop(boundary (T d) ∗ StableHlo.held (T d) (Pipeline.ucRefs τ sig) (Wr W) ∗ tcOwes (F := F) d) -∗ Φ ⟨⟩))
      ⊢ wp frame (wpE ((K (F := F)).defs (D (F := F))) 𝒱 (T d) none) Set.univ
          (Prog.lift (.customCall (SparseCore.inner (Pipeline.entry 0)) ())) Φ := by
  have hp : (Prog.lift (.customCall (SparseCore.inner (Pipeline.entry 0)) ()) : Prog (TpuEff nD τ sig (Elt F) (SparseCore.Sig (ΛP (F := F)) 1) .tc) PUnit)
      = SparseCore.liftProg (Prog.lift (.customCall (Pipeline.entry 0) ()) : Prog (TpuEff nD τ sig (Elt F) (ΛP (F := F)) .tc) PUnit) := rfl
  rw [hp]
  exact (wp_region_inner W d Φ).trans ((K (F := F)).wp_liftProg (D (F := F)) 𝒱 (T d) Set.univ none _ Φ)

end Cert.Proof.KI

end
-- ==== Proof.HMainKI.lean ====
/-
  @main on the TensorCore of the idealized kernel program.

  @main pads the token table to sixteen rows, builds the fused table in one pipelined region, flattens the table to
  3200 rows and the ids to 819200, hands both with the output to the two SparseCores, and reshapes what comes back.
  The TensorCore's unscoped buffers are tracked whole at a valuation that each step updates:
    V1 = the launch contents after the constant, its conversion and the pad      (main_v0 = the padded table)
    V2 = V1 with main_v1 at the fused table
    V3 = V2 after the two reshapes                                               (main_v2 = TAB, main_v3 = XF)
    V4 = V3 with main_v4 at the gathered rows
    V5 = V4 after the last reshape                                               (main_v5 = the result)
  At the SparseCore call the ids and the output are cut into the thirty-two workers' pieces and the table into the
  two cores' halves; they come back with the output's pieces at the gathered rows.
-/
import proofs.«206439_g51874615001410_cont_9to1_m_433_33_alg».proof.Proof.RegionKI
import proofs.«206439_g51874615001410_cont_9to1_m_433_33_alg».proof.Proof.FinKI

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F] [hK : Cert.KernelIdeal.Facts]

/-! ## The host operations and the valuations between them -/

abbrev xR : DevRef τ sig := Proc.devRef .tc (main_arg0 : Ref sig .tc)
abbrev tokR : DevRef τ sig := Proc.devRef .tc (main_arg1 : Ref sig .tc)
abbrev v2R : DevRef τ sig := Proc.devRef .tc (main_v2 : Ref sig .tc)
abbrev v3R : DevRef τ sig := Proc.devRef .tc (main_v3 : Ref sig .tc)
abbrev v4R : DevRef τ sig := Proc.devRef .tc (main_v4 : Ref sig .tc)
abbrev v5R : DevRef τ sig := Proc.devRef .tc (main_v5 : Ref sig .tc)

abbrev a1T : StableHlo.TRef sig ⟨S15x128, .f32⟩ := .of main_arg1
abbrev cT : StableHlo.TRef sig ⟨S_, .i32⟩ := .of main_c

abbrev opC : HloOp τ sig (Elt F) := StableHlo.nullary main_c (constantI S_ 32 0#32)
abbrev opCv : HloOp τ sig (Elt F) := StableHlo.TRef.unary cT main_call0.v0 (sitofp .f32)
abbrev opPad : HloOp τ sig (Elt F) := StableHlo.TRef.binary a1T main_call0.v0 main_call0.v1
  (fun x v => pad S16x128 ![0, 0] ![1, 0] ![0, 0] x v hK.pads_S15x128_S16x128_010_000 hK.h_S_)
abbrev opR2 : HloOp τ sig (Elt F) := StableHlo.reshape main_v1 main_v2 rfl hK.shapeCasts_S200x16x128_S3200x128
abbrev opR3 : HloOp τ sig (Elt F) := StableHlo.reshape main_arg0 main_v3 rfl hK.shapeCasts_S4096x200_S819200
abbrev opR5 : HloOp τ sig (Elt F) := StableHlo.reshape main_v4 main_v5 rfl hK.shapeCasts_S819200x128_S4096x200x128

def V0 (d : Dev nD) : Valuation τ sig (Elt F) := fun b => m (d, b)
def V1 (d : Dev nD) : Valuation τ sig (Elt F) := StableHlo.after [opC (F := F), opCv (F := F), opPad (F := F)] (V0 m d)
def V2 (d : Dev nD) : Valuation τ sig (Elt F) := Wr (V1 m d)
def V3 (d : Dev nD) : Valuation τ sig (Elt F) := StableHlo.after [opR2 (F := F), opR3 (F := F)] (V2 m d)
def V4 (d : Dev nD) : Valuation τ sig (Elt F) := Function.update (V3 m d) v4R (OUTF m d)
def V5 (d : Dev nD) : Valuation τ sig (Elt F) := StableHlo.after [opR5 (F := F)] (V4 m d)

theorem V1_v0 (d : Dev nD) : V1 m d v0R = TOKPAD m d := by
  unfold V1 TOKPAD; after_results; rfl
theorem V1_pos (d : Dev nD) : V1 m d posR = m (posLoc d) := by
  unfold V1; after_results; rfl
theorem V2_v1 (d : Dev nD) : V2 m d v1R = FUS (V1 m d) := by unfold V2; exact Function.update_self v1R (FUS (V1 m d)) (V1 m d)
theorem V3_tab (d : Dev nD) : V3 m d v2R = TAB m d := by
  unfold V3; after_results
  rw [V2_v1]; unfold FUS; rw [V1_v0, V1_pos]; rfl
theorem V3_xf (d : Dev nD) : V3 m d v3R = XF m d := by
  have e : V2 m d xR = V1 m d xR := by unfold V2; exact Function.update_of_ne (show xR ≠ v1R by decide) _ _
  unfold V3; after_results
  rw [e]; unfold V1; after_results; rfl
theorem V3_out (d : Dev nD) : V3 m d v4R = m (outLoc d) := by
  have e : V2 m d v4R = V1 m d v4R := by unfold V2; exact Function.update_of_ne (show v4R ≠ v1R by decide) _ _
  unfold V3; after_results
  rw [e]; unfold V1; after_results; rfl

/-! ## The call's operands, cut into the workers' pieces and the cores' halves -/

theorem xPiece_disjoint : ∀ i ∈ (Finset.univ : Finset (Fin 32)), ∀ j ∈ (Finset.univ : Finset (Fin 32)), i ≠ j → Disjoint (xPiece i) (xPiece j) :=
  fun _ _ _ _ h => Rect.part_disjoint hdivX h
theorem xPiece_cover : (Finset.univ : Finset (Fin 32)).biUnion xPiece = Finset.univ := Rect.biUnion_part hdivX
theorem oPiece_disjoint : ∀ i ∈ (Finset.univ : Finset (Fin 32)), ∀ j ∈ (Finset.univ : Finset (Fin 32)), i ≠ j → Disjoint (oPiece i) (oPiece j) :=
  fun _ _ _ _ h => Rect.part_disjoint hdivO h
theorem oPiece_cover : (Finset.univ : Finset (Fin 32)).biUnion oPiece = Finset.univ := Rect.biUnion_part hdivO

/-- The flat ids held whole are the thirty-two workers' pieces; -/
theorem xf_pieces (d : Dev nD) (f : Buf (Elt F) (xfLoc d)) :
    (xfLoc d ↦{fullShare} f : sProp 𝕄) = bigSep Finset.univ fun w : Fin 32 => xfLoc d ↦[xPiece w]{fullShare} f := by
  rw [← pointsTo_biUnion Finset.univ (ℓ := xfLoc d) xPiece xPiece_disjoint, xPiece_cover]; try rfl
/-- the output's rows likewise. -/
theorem out_pieces (d : Dev nD) (f : Buf (Elt F) (outLoc d)) :
    (outLoc d ↦{fullShare} f : sProp 𝕄) = bigSep Finset.univ fun w : Fin 32 => outLoc d ↦[oPiece w]{fullShare} f := by
  rw [← pointsTo_biUnion Finset.univ (ℓ := outLoc d) oPiece oPiece_disjoint, oPiece_cover]; try rfl

/-- The worker numbers i·2 + c enumerate the thirty-two workers once. -/
theorem wid_inj : Set.InjOn (fun x : Fin 2 × Fin 16 => wid x.1 x.2) (((Finset.univ : Finset (Fin 2)) ×ˢ (Finset.univ : Finset (Fin 16)) : Finset (Fin 2 × Fin 16)) : Set (Fin 2 × Fin 16)) := by
  rintro ⟨c, i⟩ - ⟨c', i'⟩ - e
  have h : i.val * 2 + c.val = i'.val * 2 + c'.val := congrArg Fin.val e
  have hc := c.isLt; have hc' := c'.isLt
  exact Prod.ext (Fin.ext (by show c.val = c'.val; omega)) (Fin.ext (by show i.val = i'.val; omega))
theorem wid_image : ((Finset.univ : Finset (Fin 2)) ×ˢ (Finset.univ : Finset (Fin 16))).image (fun x : Fin 2 × Fin 16 => wid x.1 x.2) = (Finset.univ : Finset (Fin 32)) :=
  Finset.eq_univ_iff_forall.mpr fun w => Finset.mem_image.mpr
    ⟨(⟨w.val % 2, Nat.mod_lt _ (by decide)⟩, ⟨w.val / 2, by have := w.isLt; omega⟩),
      Finset.mem_product.mpr ⟨Finset.mem_univ _, Finset.mem_univ _⟩, Fin.ext (by show w.val / 2 * 2 + w.val % 2 = w.val; omega)⟩
theorem bigSep_wid (Φ : Fin 32 → sProp 𝕄) :
    bigSep Finset.univ Φ = bigSep Finset.univ fun c : Fin 2 => bigSep Finset.univ fun i : Fin 16 => Φ (wid c i) := by
  rw [← wid_image, SparseCore.bigSep_image_of_injOn wid_inj, SparseCore.bigSep_product]

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- One core's share of the call's operands, the output's pieces at `o`. -/
abbrev forCore (d : Dev nD) (o : Buf (Elt F) (outLoc d)) (c : Fin 2) : sProp 𝕄 :=
  iprop((bigSep Finset.univ fun i : Fin 16 => iprop((xfLoc d ↦[xPiece (wid c i)]{fullShare} XF m d) ∗ (outLoc d ↦[oPiece (wid c i)]{fullShare} o)))
    ∗ (tabLoc d ↦{shr c} TAB m d))

/-- The two cores' shares are the three arrays held whole. -/
theorem forCores_eq (d : Dev nD) (o : Buf (Elt F) (outLoc d)) :
    (bigSep Finset.univ fun c : Fin 2 => forCore m d o c)
      = iprop(((xfLoc d ↦{fullShare} XF m d) ∗ (outLoc d ↦{fullShare} o)) ∗ (tabLoc d ↦{fullShare} TAB m d)) := by
  have htab : (bigSep Finset.univ fun c : Fin 2 => (tabLoc d ↦{shr c} TAB m d : sProp 𝕄)) = (tabLoc d ↦{fullShare} TAB m d) := by
    rw [bigSep_fin2]
    exact (BI.Entails.antisymm (pointsTo_share (PosShare.mem_left_op_right fullShare)).1 (pointsTo_share (PosShare.mem_left_op_right fullShare)).2).symm
  rw [bigSep_sep', htab]
  simp only [bigSep_sep']
  rw [← bigSep_wid (fun w => (xfLoc d ↦[xPiece w]{fullShare} XF m d : sProp 𝕄)), ← bigSep_wid (fun w => (outLoc d ↦[oPiece w]{fullShare} o : sProp 𝕄)),
    ← xf_pieces, ← out_pieces]

theorem st0_eq (d : Dev nD) :
    (bigSep Finset.univ fun c : Fin ((K (F := F)).nCore 0) => (P m).st 0 d c) = bigSep Finset.univ fun c : Fin 2 => forCore m d (m (outLoc d)) c := rfl
theorem dn0_eq (d : Dev nD) :
    (bigSep Finset.univ fun c : Fin ((K (F := F)).nCore 0) => (P m).dn 0 d c) = bigSep Finset.univ fun c : Fin 2 => forCore m d (OUTF m d) c := rfl

/-! ## The sets of buffers the steps work on -/

abbrev UC : Finset (DevRef τ sig) := Pipeline.ucRefs τ sig
/-- The SparseCore call's three arrays; -/
abbrev callRefs : Finset (DevRef τ sig) := {v2R, v3R, v4R}
/-- the arguments and the result. -/
abbrev finRefs : Finset (DevRef τ sig) := {xR, tokR, posR, v5R}

theorem callRefs_sub : (callRefs : Finset (DevRef τ sig)) ⊆ UC := by decide
theorem finRefs_sub : (finRefs : Finset (DevRef τ sig)) ⊆ UC := by decide

theorem held_call (d : Dev nD) (Vv : Valuation τ sig (Elt F)) :
    (held (T d) callRefs Vv : sProp 𝕄) = iprop((tabLoc d ↦{fullShare} Vv v2R) ∗ (xfLoc d ↦{fullShare} Vv v3R) ∗ (outLoc d ↦{fullShare} Vv v4R)) := by
  unfold held callRefs
  rw [SparseCore.bigSep_insert' (by decide), SparseCore.bigSep_insert' (by decide), bigSep_singleton]
theorem held_fin (d : Dev nD) (Vv : Valuation τ sig (Elt F)) :
    (held (T d) finRefs Vv : sProp 𝕄) = iprop((xLoc d ↦{fullShare} Vv xR) ∗ (tokLoc d ↦{fullShare} Vv tokR) ∗ (posLoc d ↦{fullShare} Vv posR) ∗ (resLoc d ↦{fullShare} Vv v5R)) := by
  unfold held finRefs
  rw [SparseCore.bigSep_insert' (by decide), SparseCore.bigSep_insert' (by decide), SparseCore.bigSep_insert' (by decide), bigSep_singleton]

/-- After the call the valuation differs at the output alone. -/
theorem V4_tab (d : Dev nD) : V4 m d v2R = TAB m d := by
  unfold V4; rw [Function.update_of_ne (show v2R ≠ v4R by decide)]; exact V3_tab m d
theorem V4_xf (d : Dev nD) : V4 m d v3R = XF m d := by
  unfold V4; rw [Function.update_of_ne (show v3R ≠ v4R by decide)]; exact V3_xf m d
theorem V4_out (d : Dev nD) : V4 m d v4R = OUTF m d := by
  unfold V4; exact Function.update_self v4R (OUTF m d) (V3 m d)
theorem V4_rest (d : Dev nD) : (held (T d) (UC \ callRefs) (V3 m d) : sProp 𝕄) = held (T d) (UC \ callRefs) (V4 m d) :=
  StableHlo.held_congr (T d) fun b hb => by
    unfold V4
    rw [Function.update_of_ne (fun e => (Finset.mem_sdiff.mp hb).2 (by rw [e]; decide))]

theorem V5_x (d : Dev nD) : V5 m d xR = m (xLoc d) := by
  have e4 : V4 m d xR = V3 m d xR := by unfold V4; exact Function.update_of_ne (show xR ≠ v4R by decide) _ _
  have e2 : V2 m d xR = V1 m d xR := by unfold V2; exact Function.update_of_ne (show xR ≠ v1R by decide) _ _
  unfold V5; after_results; rw [e4]; unfold V3; after_results; rw [e2]; unfold V1; after_results; rfl
theorem V5_tok (d : Dev nD) : V5 m d tokR = m (tokLoc d) := by
  have e4 : V4 m d tokR = V3 m d tokR := by unfold V4; exact Function.update_of_ne (show tokR ≠ v4R by decide) _ _
  have e2 : V2 m d tokR = V1 m d tokR := by unfold V2; exact Function.update_of_ne (show tokR ≠ v1R by decide) _ _
  unfold V5; after_results; rw [e4]; unfold V3; after_results; rw [e2]; unfold V1; after_results; rfl
theorem V5_pos (d : Dev nD) : V5 m d posR = m (posLoc d) := by
  have e4 : V4 m d posR = V3 m d posR := by unfold V4; exact Function.update_of_ne (show posR ≠ v4R by decide) _ _
  have e2 : V2 m d posR = V1 m d posR := by unfold V2; exact Function.update_of_ne (show posR ≠ v1R by decide) _ _
  unfold V5; after_results; rw [e4]; unfold V3; after_results; rw [e2]; unfold V1; after_results; rfl
theorem V5_res (d : Dev nD) :
    V5 m d v5R = (shapeCast S4096x200x128 (OUTF m d) hK.shapeCasts_S819200x128_S4096x200x128 : Buf (Elt F) (resLoc d)) := by
  unfold V5; after_results; rw [V4_out]; rfl

/-- The TensorCore's state before the call is what it owes and a rest. -/
theorem tcSt_split (d : Dev nD) : ∃ R : sProp 𝕄, ((K (F := F)).tcSt EH d 0 ⊢ iprop(tcOwes (F := F) d ∗ R)) ∧ (iprop(tcOwes (F := F) d ∗ R) ⊢ (K (F := F)).tcSt EH d 0) := by
  unfold SparseCore.Cfg.tcSt
  exact ⟨_, BI.Entails.refl _, BI.Entails.refl _⟩

/-! ## @main -/

theorem sub_uc (op : HloOp τ sig (Elt F)) (h : op.bufs ⊆ StableHlo.tcRefs τ sig) : op.bufs ⊆ UC := Pipeline.sub_ucRefs op h

set_option backward.isDefEq.respectTransparency.types false in
set_option maxRecDepth 8192 in
/-- @main on device `d`'s TensorCore: the pad, the region, the two reshapes, the SparseCore call over the workers' pieces,
    the last reshape; the arguments kept, the result at the gathered rows reshaped. -/
theorem hmain (κ : GSem nD τ sig → ℕ) (d : Dev nD) :
    iprop((K (F := F)).ctx EH (P m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d) := by
  obtain ⟨R, hR1, hR2⟩ := tcSt_split (F := F) d
  unfold SparseCore.Cfg.tcRes
  rw [show (unscopedBufs d (fun b => m ((SparseCore.T d).loc b)) : sProp 𝕄) = held (T d) UC (V0 m d) from Pipeline.unscopedBufs_held d (V0 m d)]
  simp only [main, fn_pad.body, wp_bind, wp_pure]
  iintro ⟨#Hctx, Hst, ⟨Hb, Hh, -, -⟩, HG⟩
  ihave Hst' := hR1 $$ Hst
  icases Hst' with ⟨HO, HR⟩
  -- the constant, its conversion, the pad
  iapply (wp_hlo_within 𝒱 (SparseCore.T d) none Set.univ (op := opC (F := F)) (S := UC) (sub_uc _ (by simp)) (V := V0 m d)) $$ [Hb Hh]
  · isplitl [Hb] <;> iassumption
  iintro ⟨Hb, Hh⟩
  rw [wp_ret]; imodintro
  iapply (wp_hlo_within 𝒱 (SparseCore.T d) none Set.univ (op := opCv (F := F)) (S := UC) (sub_uc _ (by simp)) (V := (opC (F := F)).result (V0 m d))) $$ [Hb Hh]
  · isplitl [Hb] <;> iassumption
  iintro ⟨Hb, Hh⟩
  rw [wp_ret]; imodintro
  iapply (wp_hlo_within 𝒱 (SparseCore.T d) none Set.univ (op := opPad (F := F)) (S := UC) (sub_uc _ (by simp))
    (V := (opCv (F := F)).result ((opC (F := F)).result (V0 m d)))) $$ [Hb Hh]
  · isplitl [Hb] <;> iassumption
  iintro ⟨Hb, Hh⟩
  rw [wp_ret]; imodintro

  imodintro
  -- the region: main_v1 to the fused table
  ihave Hlv := (SparseCore.Cfg.ctx_levAts (K := K (F := F)) (EH := EH) (P := P m) κ) $$ Hctx
  iapply (wp_region (V1 m d) d _)
  isplitl [Hlv]; · iexact Hlv
  isplitl [Hb]; · iexact Hb
  isplitl [Hh]; · iexact Hh
  isplitl [HO]; · iexact HO
  isplitl [HG]; · iexact HG
  iintro ⟨Hb, Hh, HO⟩
  -- the two reshapes: the table flattened, the ids flattened
  iapply (wp_hlo_within 𝒱 (SparseCore.T d) none Set.univ (op := opR2 (F := F)) (S := UC) (sub_uc _ (by simp)) (V := V2 m d)) $$ [Hb Hh]
  · isplitl [Hb]; · iexact Hb
    iexact Hh
  iintro ⟨Hb, Hh⟩
  rw [wp_ret]; imodintro
  iapply (wp_hlo_within 𝒱 (SparseCore.T d) none Set.univ (op := opR3 (F := F)) (S := UC) (sub_uc _ (by simp)) (V := (opR2 (F := F)).result (V2 m d))) $$ [Hb Hh]
  · isplitl [Hb]; · iexact Hb
    iexact Hh
  iintro ⟨Hb, Hh⟩
  rw [wp_ret]; imodintro
  -- the call's three arrays out of the held set, cut for the two SparseCores
  ihave Hh3 := (Entails.of_eq (show (held (T d) UC ((opR3 (F := F)).result ((opR2 (F := F)).result (V2 m d))) : sProp 𝕄) = held (T d) UC (V3 m d) from rfl)) $$ Hh
  ihave Hs := (Entails.of_eq (StableHlo.held_sub_split (T d) callRefs_sub (V3 m d))) $$ Hh3
  icases Hs with ⟨Hc, Hrest⟩
  ihave Hc' := (Entails.of_eq (held_call d (V3 m d))) $$ Hc
  rw [V3_tab, V3_xf, V3_out]
  icases Hc' with ⟨Htab, Hxf, Hout⟩
  ihave Hst := hR2 $$ [HO HR]
  · isplitl [HO]; · iexact HO
    iexact HR
  iapply ((K (F := F)).wp_run (D (F := F)) 𝒱 (EH := EH) (P := P m) κ d 0)
  isplitr; · iexact Hctx
  isplitl [Hst]; · iexact Hst
  isplitl [Htab Hxf Hout]
  · rw [st0_eq, forCores_eq]
    isplitl [Hxf Hout]
    · isplitl [Hxf]; · iexact Hxf
      iexact Hout
    iexact Htab
  iintro ⟨Hst, Hdn⟩
  ihave Hdn' := (Entails.of_eq ((dn0_eq m d).trans (forCores_eq m d (OUTF m d)))) $$ Hdn
  icases Hdn' with ⟨⟨Hxf, Hout⟩, Htab⟩
  -- back among the unscoped buffers, the output at the gathered rows
  ihave Hc := (Entails.of_eq (held_call d (V4 m d)).symm) $$ [Htab Hxf Hout]
  · rw [V4_tab, V4_xf, V4_out]
    isplitl [Htab]; · iexact Htab
    isplitl [Hxf]; · iexact Hxf
    iexact Hout
  ihave Hrest' := (Entails.of_eq (V4_rest m d)) $$ Hrest
  ihave Hh := (Entails.of_eq (StableHlo.held_sub_split (T d) callRefs_sub (V4 m d)).symm) $$ [Hc Hrest']
  · isplitl [Hc]; · iexact Hc
    iexact Hrest'
  -- the last reshape
  iapply (wp_hlo_within 𝒱 (SparseCore.T d) none Set.univ (op := opR5 (F := F)) (S := UC) (sub_uc _ (by simp)) (V := V4 m d)) $$ [Hb Hh]
  · isplitl [Hb]; · iexact Hb
    iexact Hh
  iintro ⟨Hb, Hh⟩
  rw [wp_ret]; imodintro
  imodintro
  -- the arguments and the result out of the held set
  ihave Hh5 := (Entails.of_eq (show (held (T d) UC ((opR5 (F := F)).result (V4 m d)) : sProp 𝕄) = held (T d) UC (V5 m d) from rfl)) $$ Hh
  ihave Hs := (Entails.of_eq (StableHlo.held_sub_split (T d) finRefs_sub (V5 m d))) $$ Hh5
  icases Hs with ⟨Hf, -⟩
  ihave Hf' := (Entails.of_eq (held_fin d (V5 m d))) $$ Hf
  rw [V5_x, V5_tok, V5_pos, V5_res]
  isplitl [Hst]; · iexact Hst
  unfold FIN
  iexact Hf'

end Cert.Proof.KI

end
-- ==== Proof.OblKI.lean ====
/-
  The vector subcores' obligation, from the task's body.

  The launch theorem asks, for every device, core and subcore of the kernel's grid, that the label the SparseCore
  configuration names as the kernel's body, run by that vector subcore from its share of the call's operands, its
  barrier kit and its scoped storage, ends with its share of the results. That label is the kernel function applied
  to the subcore's grid coordinates and the whole operand and scratch buffers, lifted through the pipeline's label
  signature; so the obligation is the body's theorem at the coordinates (core, subcore), whose shares are the ones
  the launch deals (the two spellings of a coordinate agree as numbers).
-/
import proofs.«206439_g51874615001410_cont_9to1_m_433_33_alg».proof.Proof.SetupKI
import proofs.«206439_g51874615001410_cont_9to1_m_433_33_alg».proof.Proof.TileResKI
import proofs.«206439_g51874615001410_cont_9to1_m_433_33_alg».proof.Proof.GeomKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F] [hK : Cert.KernelIdeal.Facts]

/-! ## The body's theorem, as a statement -/

/-- What the task's body proves at a symbolic task `L` of the kernel's grid, on core `(L 0)` and subcore `(L 1)`:
    from the level bounds, the barrier kit, the task's share of the operands, its scoped storage at rest and what it
    owes, the kernel function's call ends with the task's share of the results, its scoped storage at rest again
    and the barrier's dues paid. -/
abbrev TileBody : Prop :=
  ∀ (d : Dev nD) (L : grid1.Coords) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (hxf : ∀ n, ((XF m d) n).toNat ≤ 14),
    iprop(levAts (K (F := F)).L (K (F := F)).lev ∗ bkit m d ((L 0).castLE hcore1) ((L 1).castLE hsub1)
        ∗ goRes m d (cL L) ((L 0).castLE hcore1) (jL L)
        ∗ scopedBufs (V d ((L 0).castLE hcore1) ((L 1).castLE hsub1)) ∗ scopedSems0 (V d ((L 0).castLE hcore1) ((L 1).castLE hsub1)) ∗ owes (V d ((L 0).castLE hcore1) ((L 1).castLE hsub1)) (O + oxV d ((L 0).castLE hcore1)) W)
      ⊢ wp frame (wpE (defs₀ (F := F)) 𝒱₀ (V d ((L 0).castLE hcore1) ((L 1).castLE hsub1)) none) Set.univ
          (cc1__sc_body L (Memref.whole main_v3_scv) (Memref.isWhole_whole _) (Memref.whole main_v2_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scratch34 cc1_scoped0)
          fun _ => iprop(tdRes m d (cL L) ((L 0).castLE hcore1) (jL L) ∗ scopedBufs (V d ((L 0).castLE hcore1) ((L 1).castLE hsub1)) ∗ scopedSems0 (V d ((L 0).castLE hcore1) ((L 1).castLE hsub1))
            ∗ ∃ W', ⌜∀ p ∈ W', p ∈ W ∨ p.2 = none ∨ p.2 = some (0 : Fin 1)⌝ ∗ owes (V d ((L 0).castLE hcore1) ((L 1).castLE hsub1)) O W')

/-! ## The obligation -/

/-- The grid coordinates of core `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The body label at a vector subcore is the kernel function at the subcore's coordinates, where the subcore is
    one of the grid. -/
theorem defs₀_vector (c : Fin τ.nSC) (s : Fin τ.nSub) :
    defs₀ (F := F) (.scVector c s) 1 ⟨⟩
      = SparseCore.onTile hcore1 hsub1 (fun c s => cc1__sc_body (coordsV c s)
          (Memref.whole main_v3_scv) (Memref.isWhole_whole _) (Memref.whole main_v2_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scratch34 cc1_scoped0) ⟨⟩ c s := rfl

set_option maxRecDepth 16384 in
/-- The launch theorem's obligation for the vector subcores, from the body's theorem and the ids' range. -/
theorem tileObl_of (htile_body : TileBody (F := F) m) (hx : ∀ (d : Dev nD) j, ((m (xLoc d)) j).toNat ≤ 14) :
    (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact htile_body d (coordsV ⟨_, hci.1⟩ ⟨_, hci.2⟩) facts O W hO hOlev (fun _ => hx d _)

end Cert.Proof.KI

end
-- ==== Proof.RunAllKI.lean ====
/-
  The kernel program's run, closed but for the task's body.

  The launch theorem's parts are all at hand: the configuration's facts, the split of a SparseCore's operands among
  its sixteen tasks, the launch element and what funds @main's staging cells, @main's own proof on the TensorCore
  (the pad, the fused-table region, the reshapes, the SparseCore call, the last reshape), and how the final memory
  reads the claim. What remains is the vector subcores' obligation, which is the task's body at the grid's
  coordinates. So, given the body's theorem: where every token id is at most 14, every weakly fair execution of the
  whole family of threads from the launch memory terminates without a fault, the result holding the gathered rows
  of the fused table reshaped to 4096 x 200 x 128 and the three arguments unchanged.
-/
import proofs.«206439_g51874615001410_cont_9to1_m_433_33_alg».proof.Proof.RunKI
import proofs.«206439_g51874615001410_cont_9to1_m_433_33_alg».proof.Proof.HMainKI
import proofs.«206439_g51874615001410_cont_9to1_m_433_33_alg».proof.Proof.OblKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable (ρ : Dev nD → PrngReg)

variable [FloatOps F] [hK : Cert.KernelIdeal.Facts]

/-- The run, from the task's body and the ids' range. -/
theorem run_main_of_body [∀ e, Nonempty (Elt F e)] (htile_body : TileBody (F := F) m)
    (hx : ∀ (d : Dev nD) j, ((m (xLoc d)) j).toNat ≤ 14) :
    θ_run (Cert.KernelIdeal.defs (F := F)) (Cert.KernelIdeal.threads (F := F)) ⟨m, fun _ => 0, ρ⟩ (QC m) :=
  run_main_of m ρ (GG (F := F)) uP₀ (fund_GG (F := F)) (tileObl_of m htile_body hx) (hmain m ρ)

end Cert.Proof.KI

end
-- ==== Proof.ElemKB.lean ====
/-
  The launch element of the ghost state, and what it pays for at the launch.

  The element has four components: the launch handshakes' rounds; the subcore barrier's rounds, one cell per task of
  each SparseCore with one unit duty per task of that SparseCore in its round 0; the rounds of the staging cells of the
  TensorCore stage; and no transfer in flight.  From it, the free barrier semaphores at zero and the credit for the
  tasks' barrier debts, every task is dealt its barrier kit: every cell's invariant of its SparseCore, its duty token
  in each of the sixteen rounds, its own position, and the credit for the sixteen units its own cell will receive.
  The duties' payloads are supplied by the tasks at the barrier, not here.
-/
import proofs.«206439_g51874615001410_cont_9to1_m_433_33_alg».proof.Proof.SetupKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The barrier cells and the duty tokens of the launch element -/

abbrev DCI : Type := Dev nD × Fin τ.nSC × Fin τ.nSub
abbrev bcell₃ (x : DCI) : GSem nD τ sig := bcell x.1 x.2.1 x.2.2

/-- Every task's barrier cell, on both SparseCores of every device. -/
def bCells : Finset (GSem nD τ sig) := Finset.univ.image bcell₃
/-- Task i's token in task j's cell, for every pair of tasks of a SparseCore. -/
def bToks : Finset (GSem nD τ sig × ℕ × ℕ) :=
  Finset.univ.image fun x : DCI × Fin (grid1.bound 1) => (bcell x.1.1 x.1.2.1 (x.2.castLE hsub1), 0, x.1.2.2.val)

/-- The launch element: the handshakes' rounds, the barrier cells' rounds, the staging cells' rounds (uP₀), no transfer. -/
def u₀ (uP₀ : UP) : UU := (initOf (K (F := F)).hsCells (K (F := F)).hsToks, (initOf bCells bToks, (uP₀, 1)))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

/-- The launch element is its three components, each owned through its embedding. -/
theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a)
      ∗ BI.own ((uEmb (nD := nD) (sig := sig) (Ix := HIx 1) (Val := Elt F) (Name := ℕ) (U := UU) (Lvl := ℕ)).toEmb ((1, (b, (p, 1))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (BI.own ((uEmb (nD := nD) (sig := sig) (Ix := HIx 1) (Val := Elt F) (Name := ℕ) (U := UU) (Lvl := ℕ)).toEmb ((1, (b, (p, 1))) : UU)) : sProp 𝕄)
      ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op (p, (1 : Counters))))))
  exact h1.trans (sep_mono_right h2)

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

theorem bigSep_emp' {I : Type} (s : Finset I) : (bigSep s fun _ => iprop(emp)) = (iprop(emp) : sProp 𝕄) := bigSep_emp_const s

/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

variable [FloatOps F] [hK : Cert.Kernel.Facts]

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

/-- The credit for the kernel's own debts, regrouped: each task the sixteen units of its own cell. -/
theorem creds_b : ((P (F := F) m).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

/-- What every task is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each task is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One task's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp']; iempintro
  isplitl [Hat]; · iexact Hat
  iexact Hcred

/-- Each task its kit. -/
theorem kits_deal :
    iprop(shared (F := F) m ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-- The launch element pays for every thread's start: the handshakes' element passes through, the staging cells'
    component funds what @main needs on each device (GG, by fund_GG), and the barrier cells' component, the free
    barrier semaphores and the credit make every task's barrier kit. -/
theorem hu₀ (GG : Dev nD → sProp 𝕄) (uP₀ : UP)
    (fund_GG : (BI.own (EP uP₀) : sProp 𝕄) ⊢ |={Set.univ}=> bigSep Finset.univ GG) :
    iprop(ownU (u₀ (F := F) uP₀) ∗ (P (F := F) m).oxCred ∗ (K (F := F)).freeSems0)
    ⊢ |={Set.univ}=> iprop(BI.own (EH (initOf (K (F := F)).hsCells (K (F := F)).hsToks)) ∗ (bigSep Finset.univ GG)
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HP⟩
  imod (Rounds.fund EB (bRd (F := F) m) bCells bToks) $$ HB with ⟨Hst, #Hr, Hat, Htok⟩
  imod fund_GG $$ HP with HG
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal m)
  isplitr
  · isplitl; · iexists κ; iexact Hinv'
    iexact Hr'
  isplitl [Hat']; · iexact Hat'
  isplitl [Htok']; · iexact Htok'
  iexact Hcred'

end Cert.Proof.KB

end
-- ==== Proof.FinKB.lean ====
/-
  What @main leaves for the claim, and how the final memory reads it.

  At its end @main holds the three argument arrays whole at their launch contents and its result at the gathered rows
  reshaped to 4096 x 200 x 128.  Held beside the machine's state, each points-to says the memory agrees with it
  everywhere, which is the post-condition of the run.
-/
import proofs.«206439_g51874615001410_cont_9to1_m_433_33_alg».proof.Proof.SetupKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F] [hK : Cert.Kernel.Facts]

/-- @main's result as a function of the launch memory: the gathered rows, reshaped. -/
def RES (d : Dev nD) : Buf (Elt F) (resLoc d) :=
  shapeCast S4096x200x128 (OUTF m d) hK.shapeCasts_S819200x128_S4096x200x128

/-- What @main leaves the claim: the arguments at their launch contents, the result at the gathered rows reshaped. -/
def FIN (d : Dev nD) : sProp 𝕄 :=
  iprop((xLoc d ↦{fullShare} m (xLoc d)) ∗ (tokLoc d ↦{fullShare} m (tokLoc d)) ∗ (posLoc d ↦{fullShare} m (posLoc d))
    ∗ (resLoc d ↦{fullShare} (shapeCast S4096x200x128 (OUTF m d) hK.shapeCasts_S819200x128_S4096x200x128 : Buf (Elt F) (resLoc d))))

def fq (d : Dev nD) (s' : Phys nD τ sig (Elt F)) : Prop :=
  s'.mem.mem (resLoc d) = shapeCast S4096x200x128 (OUTF m d) hK.shapeCasts_S819200x128_S4096x200x128
    ∧ s'.mem.mem (xLoc d) = m (xLoc d) ∧ s'.mem.mem (tokLoc d) = m (tokLoc d) ∧ s'.mem.mem (posLoc d) = m (posLoc d)

theorem hfin (d : Dev nD) (s' : Phys nD τ sig (Elt F)) : iprop(FIN m d ∗ SI s') ⊢ (⌜fq m d s'⌝ : sProp 𝕄) := by
  unfold FIN
  iintro ⟨⟨Hx, Ht, Hp, Hr⟩, HSI⟩
  icombine HSI Hx gives %hx
  icombine HSI Ht gives %ht
  icombine HSI Hp gives %hp
  icombine HSI Hr gives %hr
  ipureintro
  exact ⟨funext fun i => hr i (Finset.mem_univ i), funext fun i => hx i (Finset.mem_univ i), funext fun i => ht i (Finset.mem_univ i),
    funext fun i => hp i (Finset.mem_univ i)⟩

/-- The post-condition of the run: on every device the result holds the gathered rows reshaped and the arguments are unchanged. -/
def QC : PUnit × MemSt nD τ sig (Elt F) → Prop := fun r =>
  ∀ c : Dev nD, r.2.mem (resLoc c) = shapeCast S4096x200x128 (OUTF m c) hK.shapeCasts_S819200x128_S4096x200x128
    ∧ r.2.mem (xLoc c) = m (xLoc c) ∧ r.2.mem (tokLoc c) = m (tokLoc c) ∧ r.2.mem (posLoc c) = m (posLoc c)

theorem hQ (s' : Phys nD τ sig (Elt F)) (h : ∀ d, fq m d s') : QC m (⟨⟩, s'.mem) := h

end Cert.Proof.KB

end
-- ==== Proof.RunKB.lean ====
/-
  The word-level kernel program's run, assembled.

  From the task's body obligation, the split of a SparseCore's operands among its tasks, @main's proof on the
  TensorCore, and the launch element, the launch theorem gives: every weakly fair execution of the whole family of
  threads from the launch memory terminates without a fault, and in the final memory, on every device, @main's result
  holds the gathered rows reshaped to 4096 x 200 x 128 and the three arguments are unchanged.
-/
import proofs.«206439_g51874615001410_cont_9to1_m_433_33_alg».proof.Proof.SplitKB
import proofs.«206439_g51874615001410_cont_9to1_m_433_33_alg».proof.Proof.ElemKB
import proofs.«206439_g51874615001410_cont_9to1_m_433_33_alg».proof.Proof.FinKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable (ρ : Dev nD → PrngReg)

variable [FloatOps F] [hK : Cert.Kernel.Facts]

/-- The run, from the four parts.  GG is what @main needs of the staging cells on each device and uP₀ the component of
    the launch element that funds it. -/
theorem run_main_of [∀ e, Nonempty (Elt F e)] (GG : Dev nD → sProp 𝕄) (uP₀ : UP)
    (fund_GG : (BI.own (EP uP₀) : sProp 𝕄) ⊢ |={Set.univ}=> bigSep Finset.univ GG)
    (htile : (K (F := F)).TileObl (D (F := F)) 𝒱 (P m) v₀ 0)
    (hmain : ∀ (κ : GSem nD τ sig → ℕ) (d : Dev nD),
      iprop((K (F := F)).ctx EH (P m) κ ∗ (K (F := F)).tcSt EH d 0 ∗ (K (F := F)).tcRes m ρ d ∗ GG d)
        ⊢ wp frame (wpE ((K (F := F)).defs (D (F := F))) 𝒱 (SparseCore.T d) none) Set.univ (main d)
            fun _ => iprop((K (F := F)).tcSt EH d 1 ∗ FIN m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main GG (FIN m) (u₀ (F := F) uP₀) (hu₀ m GG uP₀ fund_GG) hmain (fq m) (hfin m) (QC m) (hQ m)

end Cert.Proof.KB

end
-- ==== Proof.RegionKB.lean ====
/-
  The TensorCore stage of the word-level kernel program: the one pipelined region that builds the fused table.

  The region has no grid: one point. Its three windows are whole arrays, each staged whole: the padded token table
  and the position table are fetched, the body multiplies the first by the constant c and adds the second
  (fused[p, v, :] = tokpad[v, :] · c + pos[p, :]), and the result is written back whole.

  Contents: the ghost state the staging cells start from and its funding from the launch element; the proof data
  (what each staging buffer holds after the body; nothing else is kept between the two ends of the one point);
  the body's run; the region as entered from @main: from the three arrays held whole to the same with the result
  array at the fused table.
-/
import proofs.«206439_g51874615001410_cont_9to1_m_433_33_alg».proof.Proof.SetupKB
import proofs.«206439_g51874615001410_cont_9to1_m_433_33_alg».proof.Proof.Gen.Kernel.Launch
import proofs.«206439_g51874615001410_cont_9to1_m_433_33_alg».proof.Proof.Gen.Kernel.Points
import Idealize.ShloMosaic.Lib.Pipeline.Regions
import Idealize.ShloMosaic.Lib.Pipeline.Value
import Idealize.ShloMosaic.Lib.Pipeline.RegionsLoop

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.Kernel.Facts]

/-! ## The staging cells' ghost state -/

/-- No pipeline has a prefetched table. -/
abbrev adm : (p : Fin 1) → (pcfgs (F := F) p).Adm := fun p => (cfgs p).toPCfg_adm
/-- The pipelines' configurations at those (empty) tables: the printed ones. -/
abbrev pcfg : Fin 1 → Pipeline.Cfg sig Λ₀ := Pipeline.pin (pcfgs (F := F)) adm

/-- The launch element of the staging cells' rounds: every cell of the region at its launch state, a duty token per transfer. -/
def uP₀ : UP := initOf (Pipeline.cells cfgs Gen.cellOf_inj) (Pipeline.launchToks cfgs Gen.cellOf_inj)

/-- What @main's proof starts from beside the launch's deal: the staging cells' launch ghost state and the duty
    tokens of the region's transfers. -/
def GG (d : Dev nD) : sProp 𝕄 :=
  iprop(Pipeline.cellsGhost (pcfg (F := F)) EP 0 d ∗ Pipeline.toksInit (pcfg (F := F)) EP 0 d)

/-- Conjoined over the one device, the one pipeline. -/
theorem bigSep_fin1 {M : Type} [URA M] (Φ : Fin 1 → sProp M) : bigSep Finset.univ Φ = Φ 0 := by
  rw [show (Finset.univ : Finset (Fin 1)) = {0} from rfl, bigSep_singleton]

/-- The staging cells' ghost state of every device from the launch element's rounds component. -/
theorem fund_GG : (BI.own (EP (uP₀)) : sProp 𝕄) ⊢ |={Set.univ}=> bigSep Finset.univ (GG (F := F)) := by
  have h : iprop((bigSep Finset.univ fun c : Dev nD => bigSep Finset.univ fun p : Fin 1 => Pipeline.cellsGhost (cfgs) (EP (F := F)) p c)
        ∗ (bigSep Finset.univ fun c : Dev nD => bigSep Finset.univ fun p : Fin 1 => (Pipeline.toksInit (cfgs) (EP (F := F)) p c : sProp 𝕄)))
      ⊢ bigSep Finset.univ (GG (F := F)) := by
    unfold GG
    simp only [bigSep_fin1]
    exact .rfl
  unfold uP₀
  iintro Hu
  imod (Pipeline.fund_ghost (cfgs) (EP (F := F)) Gen.cellOf_inj) $$ Hu with H
  imodintro
  iapply h
  iexact H

/-! ## The body -/

/-- A memref's buffer on device `d`'s TensorCore held whole at `f`. -/
abbrev ptM (d : Dev nD) {sp : Space} {S : Shape} {e : EltTy} (M : Memref sig .tc sp S e) (f : Buf (Elt F) (M.view.loc (d : Thread nD τ))) : sProp 𝕄 :=
  M.view.loc (d : Thread nD τ) ↦{fullShare} f

theorem hz2 : (![0, 0] : Fin 2 → Nat) = fun _ => 0 := by funext a; fin_cases a <;> rfl
theorem hz3 : (![0, 0, 0] : Fin 3 → Nat) = fun _ => 0 := by funext a; fin_cases a <;> rfl

/-- The body from its three staging buffers: the two inputs are read whole, the third is overwritten whole by
    the product-and-sum of what was read (its earlier contents are read and dropped). -/
theorem tableRun (d : Dev nD)
    (f0 : Buf (Elt F) ((Memref.whole cc0_stg0_0).view.loc (d : Thread nD τ)))
    (f1 : Buf (Elt F) ((Memref.whole cc0_stg1_0).view.loc (d : Thread nD τ)))
    (f2 : Buf (Elt F) ((Memref.whole cc0_stg2_0).view.loc (d : Thread nD τ))) (Q : PUnit → sProp 𝕄) :
    iprop(ptM d (Memref.whole cc0_stg0_0) f0 ∗ ptM d (Memref.whole cc0_stg1_0) f1 ∗ ptM d (Memref.whole cc0_stg2_0) f2
        ∗ (iprop(ptM d (Memref.whole cc0_stg0_0) f0 ∗ ptM d (Memref.whole cc0_stg1_0) f1 ∗ ptM d (Memref.whole cc0_stg2_0) (k0_pay1 (F := F) f0 f1)) -∗ Q ⟨⟩))
      ⊢ wp frame (wpE (defs₀ (F := F)) Variants.none (d : Thread nD τ) none) Set.univ
          (cc0__table_body (F := F) (Memref.whole cc0_stg0_0) (hstage0_0 0) (Memref.whole cc0_stg1_0) (hstage0_1 0) (Memref.whole cc0_stg2_0) (hstage0_2 0)) Q := by
  iintro ⟨H0, H1, H2, Hk⟩
  simp only [cc0__table_body_eq_skeleton]; unfold cc0__table_body_skel
  sl_exec
  sl_step
  iapply Hk
  isplitl [H0]; · iexact H0
  isplitl [H1]; · iexact H1
  have e0 : View.readAt (Elt F) (Memref.whole cc0_stg0_0 : Memref sig .tc _ _ _).view (Rect.unit ![0, 0] S16x128.size inb_S16x128_S16x128_0_0).toLoadRect f0 = f0 :=
    Memref.readAt_unit_zero (Elt F) cc0_stg0_0 hz2 _ f0
  have e1 : View.readAt (Elt F) (Memref.whole cc0_stg1_0 : Memref sig .tc _ _ _).view (Rect.unit ![0, 0] S200x128.size inb_S200x128_S200x128_0_0).toLoadRect f1 = f1 :=
    Memref.readAt_unit_zero (Elt F) cc0_stg1_0 hz2 _ f1
  have e2 : ((Memref.whole cc0_stg2_0 : Memref sig .tc _ _ _).view.slice (Rect.unit ![0, 0, 0] S200x16x128.size inb_S200x16x128_S200x16x128_0_0_0)).write (Elt F) f2 (k0_pay1 (F := F) f0 f1) Finset.univ
      = k0_pay1 (F := F) f0 f1 := Memref.write_access_unit_zero_univ (Elt F) cc0_stg2_0 hz3 _ f2 (k0_pay1 (F := F) f0 f1)
  rw [View.writes_singleton, e0, e1, e2]
  iexact H2

/-! ## The proof data

The region is entered with the TensorCore's unscoped buffers at a valuation `W`; its arrays are the padded
token table (main_v0), the position table (main_arg2) and the result (main_v1). -/

abbrev v0R : DevRef τ sig := Proc.devRef .tc (main_v0 : Ref sig .tc)
abbrev posR : DevRef τ sig := Proc.devRef .tc (main_arg2 : Ref sig .tc)
abbrev v1R : DevRef τ sig := Proc.devRef .tc (main_v1 : Ref sig .tc)

/-- An access through the whole-size unit rectangle at offsets that are zero covers the buffer. -/
theorem set_access_unit_zero {κ : Kind} (b : Ref sig κ) {off : Fin b.ty.shape.rank → Nat}
    (h : off = fun _ => 0) (inb : ∀ a, off a + b.ty.shape.size a ≤ b.ty.shape.size a) :
    ((Memref.whole b).access (Rect.unit off b.ty.shape.size inb) : View sig κ _ _ _).set = Finset.univ := by
  subst h; exact Memref.set_access_whole b

variable (W : Valuation τ sig (Elt F))

/-- The fused table of what the two input arrays hold, as the result array's contents. -/
abbrev FUS : (v1R).ty.Contents (Elt F) := k0_pay1 (F := F) (W v0R) (W posR)

/-- The proof data: the arrays at `W`; after the body the inputs as fetched and the result's staging buffer at the
    fused table; nothing kept between the ends; the TensorCore owing throughout what it owes before the SparseCore
    call, its recorded waits all at level zero. -/
def dat (d : Dev nD) : Pipeline.Dat τ (Elt F) (HIx 1) ℕ UU ℕ cfg0 d where
  A w := W ((cfg0.win w).arr.view.loc (d : Thread nD τ)).2
  after w _ := match w with
    | ⟨0, _⟩ => W v0R
    | ⟨1, _⟩ => W posR
    | ⟨2, _⟩ => FUS W
  Φ _ := iprop(emp)
  q _ := fullShare
  owed _ := (K (F := F)).Otc d 0
  recorded _ := {p | (K (F := F)).lev ((d : Thread nD τ), p.1) p.2 ≤ 0}

def pdats : (p : Fin 1) → (d : Dev nD) → Pipeline.Dat τ (Elt F) (HIx 1) ℕ UU ℕ (pcfg (F := F) p) d
  | 0 => dat W

/-- Each window's block is its whole array: read through it, contents are themselves; it covers the array. -/
theorem blk_read0 (f : (v0R).ty.Contents (Elt F)) : ((cfg0.win 0).blk t0_0).view.read (Elt F) f = f :=
  Memref.read_access_unit_zero (Elt F) main_v0 (funext fun _ => Nat.zero_mul _) _ f
theorem blk_read1 (f : (posR).ty.Contents (Elt F)) : ((cfg0.win 1).blk t0_0).view.read (Elt F) f = f :=
  Memref.read_access_unit_zero (Elt F) main_arg2 (funext fun _ => Nat.zero_mul _) _ f
theorem blk_read2 (f : (v1R).ty.Contents (Elt F)) : ((cfg0.win 2).blk t0_0).view.read (Elt F) f = f :=
  Memref.read_access_unit_zero (Elt F) main_v1 (funext fun _ => Nat.zero_mul _) _ f
theorem blk_set2 : ((cfg0.win 2).blk t0_0).view.set = Finset.univ :=
  set_access_unit_zero main_v1 (funext fun _ => Nat.zero_mul _) _

theorem before_in0 (d : Dev nD) (x : (cfg0.win 0).block.Idx → Elt F (cfg0.win 0).elt) : (dat W d).before 0 t0_0 x = W v0R := by
  unfold Pipeline.Dat.before
  exact (if_pos (fetch0_0 t0_0)).trans (blk_read0 (W v0R))
theorem before_in1 (d : Dev nD) (x : (cfg0.win 1).block.Idx → Elt F (cfg0.win 1).elt) : (dat W d).before 1 t0_0 x = W posR := by
  unfold Pipeline.Dat.before
  exact (if_pos (fetch0_1 t0_0)).trans (blk_read1 (W posR))
theorem before_out2 (d : Dev nD) (x : (cfg0.win 2).block.Idx → Elt F (cfg0.win 2).elt) : (dat W d).before 2 t0_0 x = x := by
  have h2 : (cfg0.win 2).fetch t0_0 = false := rfl
  unfold Pipeline.Dat.before
  exact (if_neg (by rw [h2]; exact Bool.false_ne_true)).trans (if_pos rfl)

/-- The result array after the region: the fused table. -/
theorem arrAt2 (d : Dev nD) : (dat W d).arrAt 2 cfg0.N = FUS W :=
  Pipeline.Dat.arrAt_eq_of_cover (dat W d) 2 (FUS W) (fun t _ => by obtain rfl := fin_N0 t; exact (blk_read2 (FUS W)).symm)
    (fun i => ⟨t0_0, flush0_2 t0_0, by rw [blk_set2]; exact Finset.mem_univ i⟩)

omit [FloatOps F] hK in
/-- Owning a whole buffer through its memref at contents `X` is holding it at `X`. -/
theorem owns_whole_eq (d : Dev nD) (b : Ref sig .tc) (X : b.ty.Contents (Elt F)) :
    (owns (Ix := HIx 1) (Name := ℕ) (U := UU) (Lvl := ℕ) (d : Thread nD τ) (Memref.whole b) fullShare X : sProp 𝕄)
      = iprop(∃ f : Buf (Elt F) (((d : Dev nD) : Thread nD τ).loc b), ⌜f = X⌝ ∗ (((d : Thread nD τ).loc b) ↦{fullShare} f)) := by
  unfold owns; simp only [Memref.view_whole, View.read_whole, View.set_whole]

set_option maxRecDepth 4000 in
/-- The body obligation at the one point. -/
theorem body_obligation (d : Dev nD) : Pipeline.BodyObligation (dat (F := F) W d) (defs₀ (F := F)) 𝒱₀ (none : HIx 1) Set.univ := fun t => by
  obtain rfl := fin_N0 t
  rw [bigSep_W0, bigSep_W0]
  simp only [owns_whole_eq]
  rw [show (dat W d).Φ t0_0.castSucc = iprop(emp) from rfl, show (dat W d).Φ t0_0.succ = iprop(emp) from rfl,
    show (dat W d).owesAt (none : HIx 1) t0_0.succ = (dat W d).owesAt (none : HIx 1) t0_0.castSucc from rfl]
  iintro ⟨-, HO, ⟨%x0, %f0, %hf0, H0⟩, ⟨%x1, %f1, %hf1, H1⟩, ⟨%x2, %f2, %hf2, H2⟩⟩
  obtain rfl : f0 = W v0R := hf0.trans (before_in0 W d x0)
  obtain rfl : f1 = W posR := hf1.trans (before_in1 W d x1)
  iapply (tableRun d (W v0R) (W posR) f2 _)
  isplitl [H0]; · iexact H0
  isplitl [H1]; · iexact H1
  isplitl [H2]; · iexact H2
  iintro ⟨H0, H1, H2⟩
  isplitr; · iempintro
  isplitl [HO]; · iexact HO
  isplitl [H0]
  · iexists _; isplitr; swap; (· iexact H0); ipureintro; rfl
  isplitl [H1]
  · iexists _; isplitr; swap; (· iexact H1); ipureintro; rfl
  iexists _; isplitr; swap; (· iexact H2); ipureintro; rfl

/-! ## The region as @main enters it -/

/-- What the TensorCore owes before a SparseCore call is owed at a call's index only. -/
theorem Otc_none (d : Dev nD) (n : ℕ) (g : GSem nD τ sig) : (K (F := F)).Otc d n g none = 0 :=
  Nat.eq_zero_of_not_pos fun h => by
    have h' := SparseCore.Cfg.lev_of_Otc_pos (K := K (F := F)) h
    rw [SparseCore.Cfg.lev_none] at h'; omega

/-- The TensorCore before the SparseCore call: owing the call's start signals, its recorded waits all at level zero. -/
abbrev tcOwes (d : Dev nD) : sProp 𝕄 :=
  iprop(∃ Ws, ⌜(K (F := F)).WBelow (T d) Ws 0⌝ ∗ owes (T d) ((K (F := F)).Otc d 0) Ws)

/-- The valuation after the region: the result array at the fused table. -/
abbrev Wr : Valuation τ sig (Elt F) := Function.update W v1R (FUS W)

theorem share_full (d : Dev nD) (w : Fin (pcfg (F := F) 0).W) : (pdats W 0 d).share w = fullShare :=
  (pdats W 0 d).share_full (fun _ => rfl) w

theorem owesAt_intro (d : Dev nD) (t : Fin ((pcfg (F := F) 0).N + 1)) : tcOwes (F := F) d ⊢ (pdats W 0 d).owesAt (none : HIx 1) t := by
  unfold Pipeline.Dat.owesAt Pipeline.owesWithin
  iintro ⟨%Ws, %hW, HO⟩
  iexists Ws; isplitr; · ipureintro; exact fun p hp => Or.inl (hW p hp)
  iexact HO

theorem owesAt_elim (d : Dev nD) (t : Fin ((pcfg (F := F) 0).N + 1)) : (pdats W 0 d).owesAt (none : HIx 1) t ⊢ tcOwes (F := F) d := by
  unfold Pipeline.Dat.owesAt Pipeline.owesWithin
  iintro ⟨%Ws, %hW, HO⟩
  iexists Ws; isplitr
  · ipureintro
    intro p hp
    rcases hW hp with h | ⟨w, s, rfl⟩
    · exact h
    · exact le_of_eq (SparseCore.Cfg.lev_none _ _)
  iexact HO

abbrev KL : GSem nD τ sig → Finset (HIx 1) := (K (F := F)).L
abbrev Klev : GSem nD τ sig → HIx 1 → ℕ := (K (F := F)).lev

/-- The arrays at the region's exit are the valuation's after it. -/
theorem arrAt_Wr (d : Dev nD) (w : Fin (pcfg (F := F) 0).W) :
    (pdats W 0 d).arrAt w (pcfg (F := F) 0).N = Wr W (Pipeline.arrRef (pcfg (F := F) 0).spec w) := by
  match w with
  | ⟨0, _⟩ => exact ((dat W d).arrAt_in 0 rfl _).trans (Function.update_of_ne (show v0R ≠ v1R by decide) (FUS W) W).symm
  | ⟨1, _⟩ => exact ((dat W d).arrAt_in 1 rfl _).trans (Function.update_of_ne (show posR ≠ v1R by decide) (FUS W) W).symm
  | ⟨2, _⟩ => exact (arrAt2 W d).trans (Function.update_self v1R (FUS W) W).symm

/-- The region: entered from the TensorCore's unscoped buffers at `W` and what it owes; left with the result array at
    the fused table, everything else as it was. -/
def reg : Pipeline.RegionSeg (pcfgs (F := F)) adm (pdats W) (none : HIx 1) defs₀ 𝒱₀ (KL (F := F)) (Klev (F := F)) 0 where
  win := launch0.win.to₀
  block_pos := launch0.block_pos
  stage_whole := launch0.stage_whole
  K := PEmpty
  osem k := k.elim
  ho := Pipeline.OwnSemFacts.none _
  hbody d := (body_obligation W d).loose
  hwaits d := Pipeline.cellsWaits_intro _ (pdats W) (none : HIx 1) 0 d fun w s t =>
    (K (F := F)).mayWait_none (thr := T d) _ (Otc_none d 0)
  pre d := iprop(unscopedBufs d (fun b => W b) ∗ tcOwes d)
  post d := iprop(unscopedBufs d (fun b => Wr W b) ∗ tcOwes d)
  X _ := iprop(emp)
  Y _ := iprop(emp)
  Z d := Pipeline.unscopedRest (Ix := HIx 1) (Name := ℕ) (U := UU) (Lvl := ℕ) spec0 d (fun b => W b)
  hentry d := by
    rw [Pipeline.ownSems0_none]
    have hsplit := Pipeline.arrays_of_unscopedBufs (pcfgs (F := F)) adm (pdats W) launch0.win launch0.arr_whole d
      (share_full W d) (fun b => W b) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]; · iapply (owesAt_intro W d 0); iexact HO
    isplitr; · iempintro
    iexact Hr
  hin d := by iintro -; iempintro
  hout d := by
    rw [Pipeline.ownSems0_none, scopedRest0_eq]
    iintro -; isplitr; · iempintro
    isplitr <;> iempintro
  hexit d := by
    have hjoin := Pipeline.unscopedBufs_of_arrays (pcs := pcfgs (F := F)) (a := adm) (p := 0) launch0.win launch0.arr_whole d (pdats W)
      (share_full W d) (fun b => W b) (fun b => Wr W b) (fun w => (pdats W 0 d).arrAt w (pcfg (F := F) 0).N) (arrAt_Wr W d)
      (fun b hb => Function.update_of_ne (StableHlo.devRef_ne_of_ne (fun e => hb (by subst e; exact Finset.mem_image.mpr ⟨2, Finset.mem_univ _, rfl⟩))) (FUS W) W)
    iintro ⟨Ha, HO, -, Hr⟩
    imodintro
    isplitl [Ha Hr]
    · iapply hjoin; isplitl [Ha] <;> iassumption
    iapply (owesAt_elim W d _); iexact HO

set_option backward.isDefEq.respectTransparency.types false in
/-- The pallas_call in the program's own signature: from the boundary, the unscoped buffers at `W`, what the TensorCore owes
    and the staging cells' ghost state, to the boundary and the same with the result array at the fused table. -/
theorem wp_region_inner (d : Dev nD) (Φ : PUnit → sProp 𝕄) :
    iprop(levAts (K (F := F)).L (K (F := F)).lev ∗ boundary (T d) ∗ StableHlo.held (T d) (Pipeline.ucRefs τ sig) W ∗ tcOwes (F := F) d ∗ GG (F := F) d
        ∗ (iprop(boundary (T d) ∗ StableHlo.held (T d) (Pipeline.ucRefs τ sig) (Wr W) ∗ tcOwes (F := F) d) -∗ Φ ⟨⟩))
      ⊢ wp frame (wpE (D (F := F)) 𝒱 (T d) none) Set.univ
          (Prog.lift (.customCall (Pipeline.entry 0) ()) : Prog (TpuEff nD τ sig (Elt F) (ΛP (F := F)) .tc) PUnit) Φ := by
  unfold GG
  iintro ⟨#Hla, Hbd, Hh, HO, ⟨Hg, Ht⟩, Hk⟩
  iapply (Pipeline.RegionSeg.wp (pcfgs (F := F)) adm (pdats W) (none : HIx 1) Gen.cellOf_inj EP defs₀ 𝒱₀ (K (F := F)).L (K (F := F)).lev
    (reg W) d none (by intro u hu; cases hu) Prog.ret Φ)
  rw [show (reg W).post d = iprop(unscopedBufs d (fun b => Wr W b) ∗ tcOwes (F := F) d) from rfl,
    show (reg W).pre d = iprop(unscopedBufs d (fun b => W b) ∗ tcOwes (F := F) d) from rfl]
  isplitl [Hk]
  · iintro ⟨Hbd, Hub, HO⟩
    rw [wp_ret]; imodintro
    iapply Hk
    isplitl [Hbd]; · iexact Hbd
    isplitl [Hub]
    · iapply (Entails.of_eq (Pipeline.unscopedBufs_held d (Wr W))); iexact Hub
    iexact HO
  isplitl [Hbd]; · iexact Hbd
  isplitl [Hh HO]
  · isplitl [Hh]
    · iapply (Entails.of_eq (Pipeline.unscopedBufs_held d W).symm); iexact Hh
    iexact HO
  isplitr; · iexact Hla
  isplitl [Hg] <;> iassumption

set_option backward.isDefEq.respectTransparency.types false in
/-- The same as @main spells the call, under the extended body table. -/
theorem wp_region (d : Dev nD) (Φ : PUnit → sProp 𝕄) :
    iprop(levAts (K (F := F)).L (K (F := F)).lev ∗ boundary (T d) ∗ StableHlo.held (T d) (Pipeline.ucRefs τ sig) W ∗ tcOwes (F := F) d ∗ GG (F := F) d
        ∗ (iprop(boundary (T d) ∗ StableHlo.held (T d) (Pipeline.ucRefs τ sig) (Wr W) ∗ tcOwes (F := F) d) -∗ Φ ⟨⟩))
      ⊢ wp frame (wpE ((K (F := F)).defs (D (F := F))) 𝒱 (T d) none) Set.univ
          (Prog.lift (.customCall (SparseCore.inner (Pipeline.entry 0)) ())) Φ := by
  have hp : (Prog.lift (.customCall (SparseCore.inner (Pipeline.entry 0)) ()) : Prog (TpuEff nD τ sig (Elt F) (SparseCore.Sig (ΛP (F := F)) 1) .tc) PUnit)
      = SparseCore.liftProg (Prog.lift (.customCall (Pipeline.entry 0) ()) : Prog (TpuEff nD τ sig (Elt F) (ΛP (F := F)) .tc) PUnit) := rfl
  rw [hp]
  exact (wp_region_inner W d Φ).trans ((K (F := F)).wp_liftProg (D (F := F)) 𝒱 (T d) Set.univ none _ Φ)

end Cert.Proof.KB

end
-- ==== Proof.HMainKB.lean ====
/-
  @main on the TensorCore of the word-level kernel program.

  @main pads the token table to sixteen rows, builds the fused table in one pipelined region, flattens the table to
  3200 rows and the ids to 819200, hands both with the output to the two SparseCores, and reshapes what comes back.
  The TensorCore's unscoped buffers are tracked whole at a valuation that each step updates:
    V1 = the launch contents after the constant, its conversion and the pad      (main_v0 = the padded table)
    V2 = V1 with main_v1 at the fused table
    V3 = V2 after the two reshapes                                               (main_v2 = TAB, main_v3 = XF)
    V4 = V3 with main_v4 at the gathered rows
    V5 = V4 after the last reshape                                               (main_v5 = the result)
  At the SparseCore call the ids and the output are cut into the thirty-two workers' pieces and the table into the
  two cores' halves; they come back with the output's pieces at the gathered rows.
-/
import proofs.«206439_g51874615001410_cont_9to1_m_433_33_alg».proof.Proof.RegionKB
import proofs.«206439_g51874615001410_cont_9to1_m_433_33_alg».proof.Proof.FinKB

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F] [hK : Cert.Kernel.Facts]

/-! ## The host operations and the valuations between them -/

abbrev xR : DevRef τ sig := Proc.devRef .tc (main_arg0 : Ref sig .tc)
abbrev tokR : DevRef τ sig := Proc.devRef .tc (main_arg1 : Ref sig .tc)
abbrev v2R : DevRef τ sig := Proc.devRef .tc (main_v2 : Ref sig .tc)
abbrev v3R : DevRef τ sig := Proc.devRef .tc (main_v3 : Ref sig .tc)
abbrev v4R : DevRef τ sig := Proc.devRef .tc (main_v4 : Ref sig .tc)
abbrev v5R : DevRef τ sig := Proc.devRef .tc (main_v5 : Ref sig .tc)

abbrev a1T : StableHlo.TRef sig ⟨S15x128, .f32⟩ := .of main_arg1
abbrev cT : StableHlo.TRef sig ⟨S_, .i32⟩ := .of main_c

abbrev opC : HloOp τ sig (Elt F) := StableHlo.nullary main_c (constantI S_ 32 0#32)
abbrev opCv : HloOp τ sig (Elt F) := StableHlo.TRef.unary cT main_call0.v0 (sitofp .f32)
abbrev opPad : HloOp τ sig (Elt F) := StableHlo.TRef.binary a1T main_call0.v0 main_call0.v1
  (fun x v => pad S16x128 ![0, 0] ![1, 0] ![0, 0] x v hK.pads_S15x128_S16x128_010_000 hK.h_S_)
abbrev opR2 : HloOp τ sig (Elt F) := StableHlo.reshape main_v1 main_v2 rfl hK.shapeCasts_S200x16x128_S3200x128
abbrev opR3 : HloOp τ sig (Elt F) := StableHlo.reshape main_arg0 main_v3 rfl hK.shapeCasts_S4096x200_S819200
abbrev opR5 : HloOp τ sig (Elt F) := StableHlo.reshape main_v4 main_v5 rfl hK.shapeCasts_S819200x128_S4096x200x128

def V0 (d : Dev nD) : Valuation τ sig (Elt F) := fun b => m (d, b)
def V1 (d : Dev nD) : Valuation τ sig (Elt F) := StableHlo.after [opC (F := F), opCv (F := F), opPad (F := F)] (V0 m d)
def V2 (d : Dev nD) : Valuation τ sig (Elt F) := Wr (V1 m d)
def V3 (d : Dev nD) : Valuation τ sig (Elt F) := StableHlo.after [opR2 (F := F), opR3 (F := F)] (V2 m d)
def V4 (d : Dev nD) : Valuation τ sig (Elt F) := Function.update (V3 m d) v4R (OUTF m d)
def V5 (d : Dev nD) : Valuation τ sig (Elt F) := StableHlo.after [opR5 (F := F)] (V4 m d)

theorem V1_v0 (d : Dev nD) : V1 m d v0R = TOKPAD m d := by
  unfold V1 TOKPAD; after_results; rfl
theorem V1_pos (d : Dev nD) : V1 m d posR = m (posLoc d) := by
  unfold V1; after_results; rfl
theorem V2_v1 (d : Dev nD) : V2 m d v1R = FUS (V1 m d) := by unfold V2; exact Function.update_self v1R (FUS (V1 m d)) (V1 m d)
theorem V3_tab (d : Dev nD) : V3 m d v2R = TAB m d := by
  unfold V3; after_results
  rw [V2_v1]; unfold FUS; rw [V1_v0, V1_pos]; rfl
theorem V3_xf (d : Dev nD) : V3 m d v3R = XF m d := by
  have e : V2 m d xR = V1 m d xR := by unfold V2; exact Function.update_of_ne (show xR ≠ v1R by decide) _ _
  unfold V3; after_results
  rw [e]; unfold V1; after_results; rfl
theorem V3_out (d : Dev nD) : V3 m d v4R = m (outLoc d) := by
  have e : V2 m d v4R = V1 m d v4R := by unfold V2; exact Function.update_of_ne (show v4R ≠ v1R by decide) _ _
  unfold V3; after_results
  rw [e]; unfold V1; after_results; rfl

/-! ## The call's operands, cut into the workers' pieces and the cores' halves -/

theorem xPiece_disjoint : ∀ i ∈ (Finset.univ : Finset (Fin 32)), ∀ j ∈ (Finset.univ : Finset (Fin 32)), i ≠ j → Disjoint (xPiece i) (xPiece j) :=
  fun _ _ _ _ h => Rect.part_disjoint hdivX h
theorem xPiece_cover : (Finset.univ : Finset (Fin 32)).biUnion xPiece = Finset.univ := Rect.biUnion_part hdivX
theorem oPiece_disjoint : ∀ i ∈ (Finset.univ : Finset (Fin 32)), ∀ j ∈ (Finset.univ : Finset (Fin 32)), i ≠ j → Disjoint (oPiece i) (oPiece j) :=
  fun _ _ _ _ h => Rect.part_disjoint hdivO h
theorem oPiece_cover : (Finset.univ : Finset (Fin 32)).biUnion oPiece = Finset.univ := Rect.biUnion_part hdivO

/-- The flat ids held whole are the thirty-two workers' pieces; -/
theorem xf_pieces (d : Dev nD) (f : Buf (Elt F) (xfLoc d)) :
    (xfLoc d ↦{fullShare} f : sProp 𝕄) = bigSep Finset.univ fun w : Fin 32 => xfLoc d ↦[xPiece w]{fullShare} f := by
  rw [← pointsTo_biUnion Finset.univ (ℓ := xfLoc d) xPiece xPiece_disjoint, xPiece_cover]; try rfl
/-- the output's rows likewise. -/
theorem out_pieces (d : Dev nD) (f : Buf (Elt F) (outLoc d)) :
    (outLoc d ↦{fullShare} f : sProp 𝕄) = bigSep Finset.univ fun w : Fin 32 => outLoc d ↦[oPiece w]{fullShare} f := by
  rw [← pointsTo_biUnion Finset.univ (ℓ := outLoc d) oPiece oPiece_disjoint, oPiece_cover]; try rfl

/-- The worker numbers i·2 + c enumerate the thirty-two workers once. -/
theorem wid_inj : Set.InjOn (fun x : Fin 2 × Fin 16 => wid x.1 x.2) (((Finset.univ : Finset (Fin 2)) ×ˢ (Finset.univ : Finset (Fin 16)) : Finset (Fin 2 × Fin 16)) : Set (Fin 2 × Fin 16)) := by
  rintro ⟨c, i⟩ - ⟨c', i'⟩ - e
  have h : i.val * 2 + c.val = i'.val * 2 + c'.val := congrArg Fin.val e
  have hc := c.isLt; have hc' := c'.isLt
  exact Prod.ext (Fin.ext (by show c.val = c'.val; omega)) (Fin.ext (by show i.val = i'.val; omega))
theorem wid_image : ((Finset.univ : Finset (Fin 2)) ×ˢ (Finset.univ : Finset (Fin 16))).image (fun x : Fin 2 × Fin 16 => wid x.1 x.2) = (Finset.univ : Finset (Fin 32)) :=
  Finset.eq_univ_iff_forall.mpr fun w => Finset.mem_image.mpr
    ⟨(⟨w.val % 2, Nat.mod_lt _ (by decide)⟩, ⟨w.val / 2, by have := w.isLt; omega⟩),
      Finset.mem_product.mpr ⟨Finset.mem_univ _, Finset.mem_univ _⟩, Fin.ext (by show w.val / 2 * 2 + w.val % 2 = w.val; omega)⟩
theorem bigSep_wid (Φ : Fin 32 → sProp 𝕄) :
    bigSep Finset.univ Φ = bigSep Finset.univ fun c : Fin 2 => bigSep Finset.univ fun i : Fin 16 => Φ (wid c i) := by
  rw [← wid_image, SparseCore.bigSep_image_of_injOn wid_inj, SparseCore.bigSep_product]

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- One core's share of the call's operands, the output's pieces at `o`. -/
abbrev forCore (d : Dev nD) (o : Buf (Elt F) (outLoc d)) (c : Fin 2) : sProp 𝕄 :=
  iprop((bigSep Finset.univ fun i : Fin 16 => iprop((xfLoc d ↦[xPiece (wid c i)]{fullShare} XF m d) ∗ (outLoc d ↦[oPiece (wid c i)]{fullShare} o)))
    ∗ (tabLoc d ↦{shr c} TAB m d))

/-- The two cores' shares are the three arrays held whole. -/
theorem forCores_eq (d : Dev nD) (o : Buf (Elt F) (outLoc d)) :
    (bigSep Finset.univ fun c : Fin 2 => forCore m d o c)
      = iprop(((xfLoc d ↦{fullShare} XF m d) ∗ (outLoc d ↦{fullShare} o)) ∗ (tabLoc d ↦{fullShare} TAB m d)) := by
  have htab : (bigSep Finset.univ fun c : Fin 2 => (tabLoc d ↦{shr c} TAB m d : sProp 𝕄)) = (tabLoc d ↦{fullShare} TAB m d) := by
    rw [bigSep_fin2]
    exact (BI.Entails.antisymm (pointsTo_share (PosShare.mem_left_op_right fullShare)).1 (pointsTo_share (PosShare.mem_left_op_right fullShare)).2).symm
  rw [bigSep_sep', htab]
  simp only [bigSep_sep']
  rw [← bigSep_wid (fun w => (xfLoc d ↦[xPiece w]{fullShare} XF m d : sProp 𝕄)), ← bigSep_wid (fun w => (outLoc d ↦[oPiece w]{fullShare} o : sProp 𝕄)),
    ← xf_pieces, ← out_pieces]

theorem st0_eq (d : Dev nD) :
    (bigSep Finset.univ fun c : Fin ((K (F := F)).nCore 0) => (P m).st 0 d c) = bigSep Finset.univ fun c : Fin 2 => forCore m d (m (outLoc d)) c := rfl
theorem dn0_eq (d : Dev nD) :
    (bigSep Finset.univ fun c : Fin ((K (F := F)).nCore 0) => (P m).dn 0 d c) = bigSep Finset.univ fun c : Fin 2 => forCore m d (OUTF m d) c := rfl

/-! ## The sets of buffers the steps work on -/

abbrev UC : Finset (DevRef τ sig) := Pipeline.ucRefs τ sig
/-- The SparseCore call's three arrays; -/
abbrev callRefs : Finset (DevRef τ sig) := {v2R, v3R, v4R}
/-- the arguments and the result. -/
abbrev finRefs : Finset (DevRef τ sig) := {xR, tokR, posR, v5R}

theorem callRefs_sub : (callRefs : Finset (DevRef τ sig)) ⊆ UC := by decide
theorem finRefs_sub : (finRefs : Finset (DevRef τ sig)) ⊆ UC := by decide

theorem held_call (d : Dev nD) (Vv : Valuation τ sig (Elt F)) :
    (held (T d) callRefs Vv : sProp 𝕄) = iprop((tabLoc d ↦{fullShare} Vv v2R) ∗ (xfLoc d ↦{fullShare} Vv v3R) ∗ (outLoc d ↦{fullShare} Vv v4R)) := by
  unfold held callRefs
  rw [SparseCore.bigSep_insert' (by decide), SparseCore.bigSep_insert' (by decide), bigSep_singleton]
theorem held_fin (d : Dev nD) (Vv : Valuation τ sig (Elt F)) :
    (held (T d) finRefs Vv : sProp 𝕄) = iprop((xLoc d ↦{fullShare} Vv xR) ∗ (tokLoc d ↦{fullShare} Vv tokR) ∗ (posLoc d ↦{fullShare} Vv posR) ∗ (resLoc d ↦{fullShare} Vv v5R)) := by
  unfold held finRefs
  rw [SparseCore.bigSep_insert' (by decide), SparseCore.bigSep_insert' (by decide), SparseCore.bigSep_insert' (by decide), bigSep_singleton]

/-- After the call the valuation differs at the output alone. -/
theorem V4_tab (d : Dev nD) : V4 m d v2R = TAB m d := by
  unfold V4; rw [Function.update_of_ne (show v2R ≠ v4R by decide)]; exact V3_tab m d
theorem V4_xf (d : Dev nD) : V4 m d v3R = XF m d := by
  unfold V4; rw [Function.update_of_ne (show v3R ≠ v4R by decide)]; exact V3_xf m d
theorem V4_out (d : Dev nD) : V4 m d v4R = OUTF m d := by
  unfold V4; exact Function.update_self v4R (OUTF m d) (V3 m d)
theorem V4_rest (d : Dev nD) : (held (T d) (UC \ callRefs) (V3 m d) : sProp 𝕄) = held (T d) (UC \ callRefs) (V4 m d) :=
  StableHlo.held_congr (T d) fun b hb => by
    unfold V4
    rw [Function.update_of_ne (fun e => (Finset.mem_sdiff.mp hb).2 (by rw [e]; decide))]

theorem V5_x (d : Dev nD) : V5 m d xR = m (xLoc d) := by
  have e4 : V4 m d xR = V3 m d xR := by unfold V4; exact Function.update_of_ne (show xR ≠ v4R by decide) _ _
  have e2 : V2 m d xR = V1 m d xR := by unfold V2; exact Function.update_of_ne (show xR ≠ v1R by decide) _ _
  unfold V5; after_results; rw [e4]; unfold V3; after_results; rw [e2]; unfold V1; after_results; rfl
theorem V5_tok (d : Dev nD) : V5 m d tokR = m (tokLoc d) := by
  have e4 : V4 m d tokR = V3 m d tokR := by unfold V4; exact Function.update_of_ne (show tokR ≠ v4R by decide) _ _
  have e2 : V2 m d tokR = V1 m d tokR := by unfold V2; exact Function.update_of_ne (show tokR ≠ v1R by decide) _ _
  unfold V5; after_results; rw [e4]; unfold V3; after_results; rw [e2]; unfold V1; after_results; rfl
theorem V5_pos (d : Dev nD) : V5 m d posR = m (posLoc d) := by
  have e4 : V4 m d posR = V3 m d posR := by unfold V4; exact Function.update_of_ne (show posR ≠ v4R by decide) _ _
  have e2 : V2 m d posR = V1 m d posR := by unfold V2; exact Function.update_of_ne (show posR ≠ v1R by decide) _ _
  unfold V5; after_results; rw [e4]; unfold V3; after_results; rw [e2]; unfold V1; after_results; rfl
theorem V5_res (d : Dev nD) :
    V5 m d v5R = (shapeCast S4096x200x128 (OUTF m d) hK.shapeCasts_S819200x128_S4096x200x128 : Buf (Elt F) (resLoc d)) := by
  unfold V5; after_results; rw [V4_out]; rfl

/-- The TensorCore's state before the call is what it owes and a rest. -/
theorem tcSt_split (d : Dev nD) : ∃ R : sProp 𝕄, ((K (F := F)).tcSt EH d 0 ⊢ iprop(tcOwes (F := F) d ∗ R)) ∧ (iprop(tcOwes (F := F) d ∗ R) ⊢ (K (F := F)).tcSt EH d 0) := by
  unfold SparseCore.Cfg.tcSt
  exact ⟨_, BI.Entails.refl _, BI.Entails.refl _⟩

/-! ## @main -/

theorem sub_uc (op : HloOp τ sig (Elt F)) (h : op.bufs ⊆ StableHlo.tcRefs τ sig) : op.bufs ⊆ UC := Pipeline.sub_ucRefs op h

set_option backward.isDefEq.respectTransparency.types false in
set_option maxRecDepth 8192 in
/-- @main on device `d`'s TensorCore: the pad, the region, the two reshapes, the SparseCore call over the workers' pieces,
    the last reshape; the arguments kept, the result at the gathered rows reshaped. -/
theorem hmain (κ : GSem nD τ sig → ℕ) (d : Dev nD) :
    iprop((K (F := F)).ctx EH (P m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d) := by
  obtain ⟨R, hR1, hR2⟩ := tcSt_split (F := F) d
  unfold SparseCore.Cfg.tcRes
  rw [show (unscopedBufs d (fun b => m ((SparseCore.T d).loc b)) : sProp 𝕄) = held (T d) UC (V0 m d) from Pipeline.unscopedBufs_held d (V0 m d)]
  simp only [main, fn_pad.body, wp_bind, wp_pure]
  iintro ⟨#Hctx, Hst, ⟨Hb, Hh, -, -⟩, HG⟩
  ihave Hst' := hR1 $$ Hst
  icases Hst' with ⟨HO, HR⟩
  -- the constant, its conversion, the pad
  iapply (wp_hlo_within 𝒱 (SparseCore.T d) none Set.univ (op := opC (F := F)) (S := UC) (sub_uc _ (by simp)) (V := V0 m d)) $$ [Hb Hh]
  · isplitl [Hb] <;> iassumption
  iintro ⟨Hb, Hh⟩
  rw [wp_ret]; imodintro
  iapply (wp_hlo_within 𝒱 (SparseCore.T d) none Set.univ (op := opCv (F := F)) (S := UC) (sub_uc _ (by simp)) (V := (opC (F := F)).result (V0 m d))) $$ [Hb Hh]
  · isplitl [Hb] <;> iassumption
  iintro ⟨Hb, Hh⟩
  rw [wp_ret]; imodintro
  iapply (wp_hlo_within 𝒱 (SparseCore.T d) none Set.univ (op := opPad (F := F)) (S := UC) (sub_uc _ (by simp))
    (V := (opCv (F := F)).result ((opC (F := F)).result (V0 m d)))) $$ [Hb Hh]
  · isplitl [Hb] <;> iassumption
  iintro ⟨Hb, Hh⟩
  rw [wp_ret]; imodintro

  imodintro
  -- the region: main_v1 to the fused table
  ihave Hlv := (SparseCore.Cfg.ctx_levAts (K := K (F := F)) (EH := EH) (P := P m) κ) $$ Hctx
  iapply (wp_region (V1 m d) d _)
  isplitl [Hlv]; · iexact Hlv
  isplitl [Hb]; · iexact Hb
  isplitl [Hh]; · iexact Hh
  isplitl [HO]; · iexact HO
  isplitl [HG]; · iexact HG
  iintro ⟨Hb, Hh, HO⟩
  -- the two reshapes: the table flattened, the ids flattened
  iapply (wp_hlo_within 𝒱 (SparseCore.T d) none Set.univ (op := opR2 (F := F)) (S := UC) (sub_uc _ (by simp)) (V := V2 m d)) $$ [Hb Hh]
  · isplitl [Hb]; · iexact Hb
    iexact Hh
  iintro ⟨Hb, Hh⟩
  rw [wp_ret]; imodintro
  iapply (wp_hlo_within 𝒱 (SparseCore.T d) none Set.univ (op := opR3 (F := F)) (S := UC) (sub_uc _ (by simp)) (V := (opR2 (F := F)).result (V2 m d))) $$ [Hb Hh]
  · isplitl [Hb]; · iexact Hb
    iexact Hh
  iintro ⟨Hb, Hh⟩
  rw [wp_ret]; imodintro
  -- the call's three arrays out of the held set, cut for the two SparseCores
  ihave Hh3 := (Entails.of_eq (show (held (T d) UC ((opR3 (F := F)).result ((opR2 (F := F)).result (V2 m d))) : sProp 𝕄) = held (T d) UC (V3 m d) from rfl)) $$ Hh
  ihave Hs := (Entails.of_eq (StableHlo.held_sub_split (T d) callRefs_sub (V3 m d))) $$ Hh3
  icases Hs with ⟨Hc, Hrest⟩
  ihave Hc' := (Entails.of_eq (held_call d (V3 m d))) $$ Hc
  rw [V3_tab, V3_xf, V3_out]
  icases Hc' with ⟨Htab, Hxf, Hout⟩
  ihave Hst := hR2 $$ [HO HR]
  · isplitl [HO]; · iexact HO
    iexact HR
  iapply ((K (F := F)).wp_run (D (F := F)) 𝒱 (EH := EH) (P := P m) κ d 0)
  isplitr; · iexact Hctx
  isplitl [Hst]; · iexact Hst
  isplitl [Htab Hxf Hout]
  · rw [st0_eq, forCores_eq]
    isplitl [Hxf Hout]
    · isplitl [Hxf]; · iexact Hxf
      iexact Hout
    iexact Htab
  iintro ⟨Hst, Hdn⟩
  ihave Hdn' := (Entails.of_eq ((dn0_eq m d).trans (forCores_eq m d (OUTF m d)))) $$ Hdn
  icases Hdn' with ⟨⟨Hxf, Hout⟩, Htab⟩
  -- back among the unscoped buffers, the output at the gathered rows
  ihave Hc := (Entails.of_eq (held_call d (V4 m d)).symm) $$ [Htab Hxf Hout]
  · rw [V4_tab, V4_xf, V4_out]
    isplitl [Htab]; · iexact Htab
    isplitl [Hxf]; · iexact Hxf
    iexact Hout
  ihave Hrest' := (Entails.of_eq (V4_rest m d)) $$ Hrest
  ihave Hh := (Entails.of_eq (StableHlo.held_sub_split (T d) callRefs_sub (V4 m d)).symm) $$ [Hc Hrest']
  · isplitl [Hc]; · iexact Hc
    iexact Hrest'
  -- the last reshape
  iapply (wp_hlo_within 𝒱 (SparseCore.T d) none Set.univ (op := opR5 (F := F)) (S := UC) (sub_uc _ (by simp)) (V := V4 m d)) $$ [Hb Hh]
  · isplitl [Hb]; · iexact Hb
    iexact Hh
  iintro ⟨Hb, Hh⟩
  rw [wp_ret]; imodintro
  imodintro
  -- the arguments and the result out of the held set
  ihave Hh5 := (Entails.of_eq (show (held (T d) UC ((opR5 (F := F)).result (V4 m d)) : sProp 𝕄) = held (T d) UC (V5 m d) from rfl)) $$ Hh
  ihave Hs := (Entails.of_eq (StableHlo.held_sub_split (T d) finRefs_sub (V5 m d))) $$ Hh5
  icases Hs with ⟨Hf, -⟩
  ihave Hf' := (Entails.of_eq (held_fin d (V5 m d))) $$ Hf
  rw [V5_x, V5_tok, V5_pos, V5_res]
  isplitl [Hst]; · iexact Hst
  unfold FIN
  iexact Hf'

end Cert.Proof.KB

end
-- ==== Proof.OblKB.lean ====
/-
  The vector subcores' obligation, from the task's body.

  The launch theorem asks, for every device, core and subcore of the kernel's grid, that the label the SparseCore
  configuration names as the kernel's body, run by that vector subcore from its share of the call's operands, its
  barrier kit and its scoped storage, ends with its share of the results. That label is the kernel function applied
  to the subcore's grid coordinates and the whole operand and scratch buffers, lifted through the pipeline's label
  signature; so the obligation is the body's theorem at the coordinates (core, subcore), whose shares are the ones
  the launch deals (the two spellings of a coordinate agree as numbers).
-/
import proofs.«206439_g51874615001410_cont_9to1_m_433_33_alg».proof.Proof.SetupKB
import proofs.«206439_g51874615001410_cont_9to1_m_433_33_alg».proof.Proof.TileResKB
import proofs.«206439_g51874615001410_cont_9to1_m_433_33_alg».proof.Proof.GeomKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F] [hK : Cert.Kernel.Facts]

/-! ## The body's theorem, as a statement -/

/-- What the task's body proves at a symbolic task `L` of the kernel's grid, on core `(L 0)` and subcore `(L 1)`:
    from the level bounds, the barrier kit, the task's share of the operands, its scoped storage at rest and what it
    owes, the kernel function's call ends with the task's share of the results, its scoped storage at rest again
    and the barrier's dues paid. -/
abbrev TileBody : Prop :=
  ∀ (d : Dev nD) (L : grid1.Coords) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (hxf : ∀ n, ((XF m d) n).toNat ≤ 14),
    iprop(levAts (K (F := F)).L (K (F := F)).lev ∗ bkit m d ((L 0).castLE hcore1) ((L 1).castLE hsub1)
        ∗ goRes m d (cL L) ((L 0).castLE hcore1) (jL L)
        ∗ scopedBufs (V d ((L 0).castLE hcore1) ((L 1).castLE hsub1)) ∗ scopedSems0 (V d ((L 0).castLE hcore1) ((L 1).castLE hsub1)) ∗ owes (V d ((L 0).castLE hcore1) ((L 1).castLE hsub1)) (O + oxV d ((L 0).castLE hcore1)) W)
      ⊢ wp frame (wpE (defs₀ (F := F)) 𝒱₀ (V d ((L 0).castLE hcore1) ((L 1).castLE hsub1)) none) Set.univ
          (cc1__sc_body L (Memref.whole main_v3_scv) (Memref.isWhole_whole _) (Memref.whole main_v2_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scratch34 cc1_scoped0)
          fun _ => iprop(tdRes m d (cL L) ((L 0).castLE hcore1) (jL L) ∗ scopedBufs (V d ((L 0).castLE hcore1) ((L 1).castLE hsub1)) ∗ scopedSems0 (V d ((L 0).castLE hcore1) ((L 1).castLE hsub1))
            ∗ ∃ W', ⌜∀ p ∈ W', p ∈ W ∨ p.2 = none ∨ p.2 = some (0 : Fin 1)⌝ ∗ owes (V d ((L 0).castLE hcore1) ((L 1).castLE hsub1)) O W')

/-! ## The obligation -/

/-- The grid coordinates of core `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The body label at a vector subcore is the kernel function at the subcore's coordinates, where the subcore is
    one of the grid. -/
theorem defs₀_vector (c : Fin τ.nSC) (s : Fin τ.nSub) :
    defs₀ (F := F) (.scVector c s) 1 ⟨⟩
      = SparseCore.onTile hcore1 hsub1 (fun c s => cc1__sc_body (coordsV c s)
          (Memref.whole main_v3_scv) (Memref.isWhole_whole _) (Memref.whole main_v2_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scratch34 cc1_scoped0) ⟨⟩ c s := rfl

set_option maxRecDepth 16384 in
/-- The launch theorem's obligation for the vector subcores, from the body's theorem and the ids' range. -/
theorem tileObl_of (htile_body : TileBody (F := F) m) (hx : ∀ (d : Dev nD) j, ((m (xLoc d)) j).toNat ≤ 14) :
    (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact htile_body d (coordsV ⟨_, hci.1⟩ ⟨_, hci.2⟩) facts O W hO hOlev (fun _ => hx d _)

end Cert.Proof.KB

end
-- ==== Proof.RunAllKB.lean ====
/-
  The kernel program's run, closed but for the task's body.

  The launch theorem's parts are all at hand: the configuration's facts, the split of a SparseCore's operands among
  its sixteen tasks, the launch element and what funds @main's staging cells, @main's own proof on the TensorCore
  (the pad, the fused-table region, the reshapes, the SparseCore call, the last reshape), and how the final memory
  reads the claim. What remains is the vector subcores' obligation, which is the task's body at the grid's
  coordinates. So, given the body's theorem: where every token id is at most 14, every weakly fair execution of the
  whole family of threads from the launch memory terminates without a fault, the result holding the gathered rows
  of the fused table reshaped to 4096 x 200 x 128 and the three arguments unchanged.
-/
import proofs.«206439_g51874615001410_cont_9to1_m_433_33_alg».proof.Proof.RunKB
import proofs.«206439_g51874615001410_cont_9to1_m_433_33_alg».proof.Proof.HMainKB
import proofs.«206439_g51874615001410_cont_9to1_m_433_33_alg».proof.Proof.OblKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable (ρ : Dev nD → PrngReg)

variable [FloatOps F] [hK : Cert.Kernel.Facts]

/-- The run, from the task's body and the ids' range. -/
theorem run_main_of_body [∀ e, Nonempty (Elt F e)] (htile_body : TileBody (F := F) m)
    (hx : ∀ (d : Dev nD) j, ((m (xLoc d)) j).toNat ≤ 14) :
    θ_run (Cert.Kernel.defs (F := F)) (Cert.Kernel.threads (F := F)) ⟨m, fun _ => 0, ρ⟩ (QC m) :=
  run_main_of m ρ (GG (F := F)) uP₀ (fund_GG (F := F)) (tileObl_of m htile_body hx) (hmain m ρ)

end Cert.Proof.KB

end
-- ==== Proof.KValue.lean ====
/-
  The kernel's value as pure mathematics, at any float instance.

  The result array is a chain of re-indexings around one pointwise computation:
    * the 15-row token table is padded by one row to 16 rows;
    * the fused table fused[p, v, d] = tokpad[v, d] · c + pos[p, d] of shape [200, 16, 128] is flattened to [3200, 128]:
      row p · 16 + v of the flat table is entry (p, v) of the fused one;
    * the ids x of shape [4096, 200] are flattened to [819200]: flat position n = b · 200 + s holds x[b, s];
    * row n of the gathered array [819200, 128] is row (n mod 200) · 16 + x_flat[n] of the flat table;
    * the gathered array is cut back into [4096, 200, 128]: entry (b, s, d) is row b · 200 + s at column d.
  For n = b · 200 + s with s < 200 one has n mod 200 = s, so entry (b, s, d) of the result is entry (s, x[b,s], d) of the
  fused table, that is tokpad[x[b,s], d] · c + pos[s, d]; and an id x[b,s] ≤ 14 names one of the 15 rows the padding kept,
  so tokpad[x[b,s], d] = tok[x[b,s], d]. That is the specification's function G.
-/
import Idealize.ShloMosaic.PureOps
import Idealize.ShloMosaic.Lib.ValueIdx
import Idealize.ShloMosaic.Lib.Pipeline.Value
import Idealize.ShloMosaic.Lib.ValueLayout
import proofs.«206439_g51874615001410_cont_9to1_m_433_33_alg».proof.Proof.Spec
import proofs.«206439_g51874615001410_cont_9to1_m_433_33_alg».proof.Proof.KSpec

noncomputable section

namespace Cert.KValue

open Idealize.ShloMosaic Idealize.ShloMosaic.ValueIdx Cert.KSpec

/-! ## The fused table at an index -/

/-- fused[p, v, d] = tokpad[v, d] · c + pos[p, d]. -/
theorem fused_apply {F : FTy → Type} [FloatOps F] (tokpad : FVec F S16x128 .f32) (pos : FVec F S200x128 .f32)
    (h1 : S16x128.ShapeCasts S16x128) (h2 : S16x128.ShapeCasts S1x16x128) (h3 : S200x128.ShapeCasts S200x1x128)
    (h4 : S1x16x128.Broadcasts S200x16x128) (h5 : S200x1x128.Broadcasts S200x16x128)
    (p : Fin 200) (v : Fin 16) (d : Fin 128) :
    fused tokpad pos h1 h2 h3 h4 h5 (ix3 p v d)
      = FloatOps.addf (FloatOps.mulf (tokpad (ix2 v d)) (FloatOps.ofBits .f32 0x413504F3#32)) (pos (ix2 p d)) := by
  unfold fused
  -- the sum and the product are pointwise
  show FloatOps.addf
      (broadcastTo S200x16x128 (shapeCast S1x16x128 (mulf (shapeCast S16x128 tokpad h1)
        (broadcast S16x128 (Scalar.ofBits .f32 0x413504F3#32))) h2) h4 (ix3 p v d))
      (broadcastTo S200x16x128 (shapeCast S200x1x128 pos h3) h5 (ix3 p v d)) = _
  -- the token side: [1, 16, 128] broadcast along the leading axis, then the unit axis dropped
  have e1 : broadcastTo S200x16x128 (shapeCast S1x16x128 (mulf (shapeCast S16x128 tokpad h1)
        (broadcast S16x128 (Scalar.ofBits .f32 0x413504F3#32))) h2) h4 (ix3 p v d)
      = FloatOps.mulf (tokpad (ix2 v d)) (FloatOps.ofBits .f32 0x413504F3#32) := by
    refine (broadcastTo_apply _ h4 (ix3 p v d) (ix3 (0 : Fin 1) v d) fun a => ?_).trans ?_
    · match a with
      | ⟨0, _⟩ => rfl
      | ⟨1, _⟩ => rfl
      | ⟨2, _⟩ => rfl
    · rw [shapeCast_ab_1ab_apply, shapeCast_self]
      rfl
  -- the position side: [200, 1, 128] broadcast along the middle axis, then the unit axis dropped
  have e2 : broadcastTo S200x16x128 (shapeCast S200x1x128 pos h3) h5 (ix3 p v d) = pos (ix2 p d) := by
    refine (broadcastTo_apply _ h5 (ix3 p v d) (ix3 p (0 : Fin 1) d) fun a => ?_).trans ?_
    · match a with
      | ⟨0, _⟩ => rfl
      | ⟨1, _⟩ => rfl
      | ⟨2, _⟩ => rfl
    · refine shapeCast_apply pos h3 _ (ix2 p d) ?_
      rw [Shape.rowMajor_val_three, Shape.rowMajor_val_two]
      show p.val * 128 + d.val = (p.val * 1 + 0) * 128 + d.val
      omega
  rw [e1, e2]

/-! ## The padded table inside the unpadded rows -/

/-- A row below 15 of the padded table is that row of the table. -/
theorem pad_apply_of_lt {α : Type} (tok : (⟨2, ![15, 128]⟩ : Shape).Idx → α) (z : (⟨0, ![]⟩ : Shape).Idx → α)
    (hp : (⟨2, ![15, 128]⟩ : Shape).Pads (![0, 0] : Fin 2 → Nat) ![1, 0] ![0, 0] S16x128) (hz : 0 < (⟨0, ![]⟩ : Shape).numel)
    (v : Fin 16) (d : Fin 128) (hv : v.val < 15) :
    pad S16x128 ![0, 0] ![1, 0] ![0, 0] tok z hp hz (ix2 v d) = tok (ix2 (⟨v.val, hv⟩ : Fin 15) d) := by
  unfold pad
  have hd := d.isLt
  rw [dif_pos (fun a => by
    match a with
    | ⟨0, _⟩ => exact (show 0 ≤ v.val ∧ (v.val - 0) % (0 + 1) = 0 ∧ (v.val - 0) / (0 + 1) < 15 by omega)
    | ⟨1, _⟩ => exact (show 0 ≤ d.val ∧ (d.val - 0) % (0 + 1) = 0 ∧ (d.val - 0) / (0 + 1) < 128 by omega))]
  refine congrArg tok (funext fun a => ?_)
  match a with
  | ⟨0, _⟩ => exact Fin.ext (show (v.val - 0) / (0 + 1) = v.val by omega)
  | ⟨1, _⟩ => exact Fin.ext (show (d.val - 0) / (0 + 1) = d.val by omega)

/-! ## The three flattenings at an index -/

/-- Row p · 16 + v of the flat table is entry (p, v) of the table of shape [200, 16, 128]. -/
theorem flat3200_apply {α : Type} (T : S200x16x128.Idx → α) (h6 : S200x16x128.ShapeCasts S3200x128)
    (p : Fin 200) (v : Fin 16) (d : Fin 128) (hr : p.val * 16 + v.val < 3200) :
    shapeCast S3200x128 T h6 (ix2 (⟨p.val * 16 + v.val, hr⟩ : Fin 3200) d) = T (ix3 p v d) := by
  refine shapeCast_apply T h6 _ (ix3 p v d) ?_
  rw [Shape.rowMajor_val_three, Shape.rowMajor_val_two]
  show (p.val * 16 + v.val) * 128 + d.val = (p.val * 16 + v.val) * 128 + d.val
  rfl

/-- Flat position b · 200 + s of the flattened ids holds x[b, s]. -/
theorem xflat_apply {α : Type} (x : (⟨2, ![4096, 200]⟩ : Shape).Idx → α) (h7 : (⟨2, ![4096, 200]⟩ : Shape).ShapeCasts S819200)
    (b : Fin 4096) (s : Fin 200) (hn : b.val * 200 + s.val < 819200) :
    shapeCast S819200 x h7 (ix1 (⟨b.val * 200 + s.val, hn⟩ : Fin 819200)) = x (ix2 b s) := by
  refine shapeCast_apply x h7 _ (ix2 b s) ?_
  rw [Shape.rowMajor_val_two, Shape.rowMajor_val_one]
  show b.val * 200 + s.val = b.val * 200 + s.val
  rfl

/-- Entry (b, s, d) of an array of rows cut into [4096, 200, 128] is row b · 200 + s at column d. -/
theorem out_apply {α : Type} (Y : S819200x128.Idx → α) (h8 : S819200x128.ShapeCasts (⟨3, ![4096, 200, 128]⟩ : Shape))
    (b : Fin 4096) (s : Fin 200) (d : Fin 128) (hn : b.val * 200 + s.val < 819200) :
    shapeCast (⟨3, ![4096, 200, 128]⟩ : Shape) Y h8 (ix3 b s d) = Y (ix2 (⟨b.val * 200 + s.val, hn⟩ : Fin 819200) d) := by
  refine shapeCast_apply Y h8 _ _ ?_
  rw [Shape.rowMajor_val_three, Shape.rowMajor_val_two]
  show (b.val * 200 + s.val) * 128 + d.val = (b.val * 200 + s.val) * 128 + d.val
  rfl

/-! ## The result is the specification's function -/

/-- A flat position below 819200 from a batch row and a sequence position. -/
theorem flat_lt (b : Fin 4096) (s : Fin 200) : b.val * 200 + s.val < 819200 := by
  have := b.isLt; have := s.isLt; omega

theorem out_eq_G {F : FTy → Type} [FloatOps F]
    (x : IVec (⟨2, ![4096, 200]⟩ : Shape) 32) (tok : FVec F (⟨2, ![15, 128]⟩ : Shape) .f32) (pos : FVec F S200x128 .f32)
    (z : FVec F (⟨0, ![]⟩ : Shape) .f32)
    (hx : ∀ j, (x j).toNat ≤ 14)
    (hp : (⟨2, ![15, 128]⟩ : Shape).Pads (![0, 0] : Fin 2 → Nat) ![1, 0] ![0, 0] S16x128) (hz : 0 < (⟨0, ![]⟩ : Shape).numel)
    (h1 : S16x128.ShapeCasts S16x128) (h2 : S16x128.ShapeCasts S1x16x128) (h3 : S200x128.ShapeCasts S200x1x128)
    (h4 : S1x16x128.Broadcasts S200x16x128) (h5 : S200x1x128.Broadcasts S200x16x128)
    (h6 : S200x16x128.ShapeCasts S3200x128) (h7 : (⟨2, ![4096, 200]⟩ : Shape).ShapeCasts S819200)
    (h8 : S819200x128.ShapeCasts (⟨3, ![4096, 200, 128]⟩ : Shape)) :
    shapeCast (⟨3, ![4096, 200, 128]⟩ : Shape)
      (gatherRows (shapeCast S3200x128 (fused (pad S16x128 ![0, 0] ![1, 0] ![0, 0] tok z hp hz) pos h1 h2 h3 h4 h5) h6)
        (shapeCast S819200 x h7)) h8
    = Cert.Spec.G x tok pos := by
  funext i
  obtain ⟨b, s, d, rfl⟩ : ∃ (b : Fin 4096) (s : Fin 200) (d : Fin 128), i = ix3 b s d := ⟨i 0, i 1, i 2, eq_ix3 i⟩
  have hb := b.isLt
  have hs := s.isLt
  have hw : (x (ix2 b s)).toNat ≤ 14 := hx _
  -- the id as a row of the 16-row table, of the 15-row table, and the flat row it names
  have hv16 : (x (ix2 b s)).toNat < 16 := by omega
  have hv15 : (x (ix2 b s)).toNat < 15 := by omega
  have hrow : s.val * 16 + (x (ix2 b s)).toNat < 3200 := by omega
  rw [out_apply _ h8 b s d (flat_lt b s), gatherRows_apply, xflat_apply x h7 b s (flat_lt b s)]
  -- n mod 200 = s for n = b · 200 + s
  have er : rowOf (b.val * 200 + s.val) (x (ix2 b s))
      = (⟨s.val * 16 + ((⟨(x (ix2 b s)).toNat, hv16⟩ : Fin 16)).val, hrow⟩ : Fin 3200) := by
    refine Fin.ext ?_
    rw [rowOf_val _ _ hw]
    show (b.val * 200 + s.val) % 200 * 16 + (x (ix2 b s)).toNat = s.val * 16 + (x (ix2 b s)).toNat
    omega
  rw [er, flat3200_apply _ h6 s ⟨(x (ix2 b s)).toNat, hv16⟩ d hrow, fused_apply,
    pad_apply_of_lt tok z hp hz ⟨(x (ix2 b s)).toNat, hv16⟩ d hv15, Cert.Spec.G_apply]
  -- the capped row is the id itself
  have et : Cert.Spec.tokRow (x (ix2 b s)) = (⟨(x (ix2 b s)).toNat, hv15⟩ : Fin 15) :=
    Fin.ext (Cert.Spec.tokRow_val_of_le _ hw)
  rw [et]

end Cert.KValue

end
-- ==== Proof.PreIds.lean ====
/-
  The integer part of the precondition, read back.

  The precondition's last conjunct is the conjunction, over every entry v of the id array, of
  (0 ≤ v, read signed) and (v ≤ 14, read signed). A 32-bit word that is nonnegative read signed
  has the same value read unsigned, so every entry, read as a natural number, is at most 14.
  Nothing here depends on the float instance: the float conjuncts are dropped.
-/
import proofs.«206439_g51874615001410_cont_9to1_m_433_33_alg».proof.Pre_input_domain
import proofs.«206439_g51874615001410_cont_9to1_m_433_33_alg».proof.Proof.Gen.Pre_input_domain
import Idealize.ShloMosaic.Lib.ReduceAll
import Idealize.ShloMosaic.Lib.ValueIdx

namespace Cert.PreIds

open Idealize.ShloMosaic

/-- A rank-0 shape has one index. -/
instance subsingleton_S_ : Subsingleton Cert.Pre_input_domain.S_.Idx :=
  ⟨fun a b => funext fun d => d.elim0⟩

/-- A 32-bit word between 0 and 14 read signed is at most 14 read unsigned. -/
theorem toNat_le_of_signed (v : BitVec 32)
    (h0 : (0#32 : BitVec 32).toInt ≤ v.toInt) (h1 : v.toInt ≤ (14#32 : BitVec 32).toInt) :
    v.toNat ≤ 14 := by
  have e0 : (0#32 : BitVec 32).toInt = 0 := by decide
  have e14 : (14#32 : BitVec 32).toInt = 14 := by decide
  rw [e0] at h0
  rw [e14] at h1
  have hlt : 2 * v.toNat < 2 ^ 32 := BitVec.toInt_pos_iff.1 h0
  rw [BitVec.toInt_eq_toNat_of_lt hlt] at h1
  omega

/-- Under the precondition every token id, read as a natural number, is at most 14. -/
theorem ids_le {F : FTy → Type} [FloatOps F] [Cert.Pre_input_domain.Facts]
    (x : IVec Cert.Pre_input_domain.S4096x200 32)
    (tok : FVec F Cert.Pre_input_domain.S15x128 .f32)
    (pos : FVec F Cert.Pre_input_domain.S200x128 .f32)
    (h : Cert.Pre_input_domain.fn (F := F) x tok pos = fun _ => 1#1) :
    ∀ j, (x j).toNat ≤ 14 := by
  intro j
  have h0 := congrFun h ValueIdx.ix0
  dsimp only [Cert.Pre_input_domain.fn] at h0
  -- the outer conjunction: (float conjuncts) ∧ (all ids in range)
  obtain ⟨-, hall⟩ := IntOp.andi_eq_one.1 h0
  -- the reduction over all entries
  have hj := Host.reduce_andi_all _ _ _ _ _ hall j
  -- the entry at j: (0 ≤ x j) ∧ (x j ≤ 14), both signed
  obtain ⟨hge, hle⟩ := IntOp.andi_eq_one.1 hj
  exact toNat_le_of_signed (x j) (IntOp.cmpi_sge.1 hge) (IntOp.cmpi_sle.1 hle)

end Cert.PreIds
-- ==== Proof.RefOps.lean ====
/-
  The reference program's @main as one straight line of its 53 host operations, the two calls of the
  outlined gather-with-fill function (and the select function each of them calls) listed in place over
  the calls' own buffers, and its run: every weakly fair execution terminates with each buffer at the
  fold of the operations' results over the launch contents.
-/
import proofs.«206439_g51874615001410_cont_9to1_m_433_33_alg».proof.Defs
import proofs.«206439_g51874615001410_cont_9to1_m_433_33_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- @main's 53 operations, in order: the position ids (an iota); the token gather's 23 (the wrap of a
    negative id, the bounds mask reduced over its unit axis, the gather, the select against the fill);
    the literal, its broadcast and the product; the position gather's 23; the two broadcasts of the
    position rows and the sum. -/
abbrev ops : List (HloOp τ sig (Elt F)) :=
  [ nullary main_v0 (iotaInDim S200 32 0),
    TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 15#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 14#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S15x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select,
    nullary main_cst (constant S_ .f32 0x413504F3#32),
    unary main_cst main_v2 (broadcastInDim S4096x200x128 ![] bcast_S_S4096x200x128 : (⟨S_, .f32⟩ : BufTy).Contents (Elt F) → (⟨S4096x200x128, .f32⟩ : BufTy).Contents (Elt F)),
    binary main_v1 main_v2 main_v3 (mulf : (⟨S4096x200x128, .f32⟩ : BufTy).Contents (Elt F) → (⟨S4096x200x128, .f32⟩ : BufTy).Contents (Elt F) → (⟨S4096x200x128, .f32⟩ : BufTy).Contents (Elt F)),
    TRef.nullary main_call1.c (constantI S_ 32 0#32),
    TRef.unary main_call1.c main_call1.v0 (broadcastInDim S200 ![] bcast_S_S200),
    TRef.binary (.of main_v0) main_call1.v0 main_call1.v1 (cmpi .slt),
    TRef.nullary main_call1.c_0 (constantI S_ 32 200#32),
    TRef.unary main_call1.c_0 main_call1.v2 (broadcastInDim S200 ![] bcast_S_S200),
    TRef.binary (.of main_v0) main_call1.v2 main_call1.v3 addi,
    TRef.ternary main_call1.v1 main_call1.v3 (.of main_v0) main_call1.call0.v0 select,
    TRef.unary main_call1.call0.v0 main_call1.v5 (broadcastInDim S200x1 ![0] bcast_S200_S200x1_0),
    TRef.nullary main_call1.c_1 (constantI S1 32 199#32),
    TRef.nullary main_call1.c_2 (constantI S_ 32 0#32),
    TRef.unary main_call1.c_2 main_call1.v6 (broadcastInDim S200x1 ![] bcast_S_S200x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S200x1 ![0, 1] bcast_S1x1_S200x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S200x1_S200_d1 h_S_),
    TRef.binary (.of main_arg2) main_call1.v5 main_call1.v13 (fun x i => Host.gather gather_S200x128_S200x1_S200x128_1_0_n_n_0_1_1128 x i),
    TRef.unary main_call1.v12 main_call1.v14 (broadcastInDim S200x128 ![0] bcast_S200_S200x128_0),
    TRef.nullary main_call1.cst (constant S_ .f32 0x7FC00000#32),
    TRef.unary main_call1.cst main_call1.v15 (broadcastInDim S200x128 ![] bcast_S_S200x128),
    TRef.ternary main_call1.v14 main_call1.v13 main_call1.v15 main_call1.v16 select,
    unary main_v4 main_v5 (broadcastInDim S1x200x128 ![1, 2] bcast_S200x128_S1x200x128_1_2 : (⟨S200x128, .f32⟩ : BufTy).Contents (Elt F) → (⟨S1x200x128, .f32⟩ : BufTy).Contents (Elt F)),
    unary main_v5 main_v6 (broadcastInDim S4096x200x128 ![0, 1, 2] bcast_S1x200x128_S4096x200x128_0_1_2 : (⟨S1x200x128, .f32⟩ : BufTy).Contents (Elt F) → (⟨S4096x200x128, .f32⟩ : BufTy).Contents (Elt F)),
    binary main_v3 main_v6 main_v7 (addf : (⟨S4096x200x128, .f32⟩ : BufTy).Contents (Elt F) → (⟨S4096x200x128, .f32⟩ : BufTy).Contents (Elt F) → (⟨S4096x200x128, .f32⟩ : BufTy).Contents (Elt F)) ]

-- fifty-three binds re-associated: the rewrite under the chain recurses once per statement
set_option maxRecDepth 2048 in
/-- @main is that straight line: the functions unfolded at their calls, sequencing re-associated. -/
theorem main_eq (c : Dev nD) : main (F := F) c = seq ops := by
  simp only [main, fn_take.body, fn_where.body, fn_take_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., unary_bufs_sub .., unary_bufs_sub .., binary_bufs_sub ..⟩

/-- From any memory with zero counters every weakly fair execution of @main terminates, each buffer at
    the fold of the operations' results over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefPlain.lean ====
/-
  The reference's 53 operations once more, each written with the plain builder over its literal
  buffers (a call's operation over the call's own buffer, as @main's own lines are), and that this
  list is the one @main unfolds to. Over literal buffers a typed reference's transport of contents
  is the identity, so each pair of operations is equal by computation; the reductions and gathers
  are kept folded meanwhile (their bodies are folds over every index of the operand).
-/
import proofs.«206439_g51874615001410_cont_9to1_m_433_33_alg».proof.Proof.RefOps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- @main's 53 operations over the literal buffers. -/
abbrev opsP : List (HloOp τ sig (Elt F)) :=
  [ nullary main_v0 (iotaInDim S200 32 0),
    nullary main_call0_c (constantI S_ 32 0#32 : (⟨S_, .i32⟩ : BufTy).Contents (Elt F)),
    unary main_call0_c main_call0_v0 (broadcastInDim S4096x200 ![] bcast_S_S4096x200 : (⟨S_, .i32⟩ : BufTy).Contents (Elt F) → (⟨S4096x200, .i32⟩ : BufTy).Contents (Elt F)),
    binary main_arg0 main_call0_v0 main_call0_v1 (cmpi .slt : (⟨S4096x200, .i32⟩ : BufTy).Contents (Elt F) → (⟨S4096x200, .i32⟩ : BufTy).Contents (Elt F) → (⟨S4096x200, .i1⟩ : BufTy).Contents (Elt F)),
    nullary main_call0_c_0 (constantI S_ 32 15#32 : (⟨S_, .i32⟩ : BufTy).Contents (Elt F)),
    unary main_call0_c_0 main_call0_v2 (broadcastInDim S4096x200 ![] bcast_S_S4096x200 : (⟨S_, .i32⟩ : BufTy).Contents (Elt F) → (⟨S4096x200, .i32⟩ : BufTy).Contents (Elt F)),
    binary main_arg0 main_call0_v2 main_call0_v3 (addi : (⟨S4096x200, .i32⟩ : BufTy).Contents (Elt F) → (⟨S4096x200, .i32⟩ : BufTy).Contents (Elt F) → (⟨S4096x200, .i32⟩ : BufTy).Contents (Elt F)),
    ternary main_call0_v1 main_call0_v3 main_arg0 main_call0_v4 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_call0_v4 main_call0_v5 (broadcastInDim S4096x200x1 ![0, 1] bcast_S4096x200_S4096x200x1_0_1 : (⟨S4096x200, .i32⟩ : BufTy).Contents (Elt F) → (⟨S4096x200x1, .i32⟩ : BufTy).Contents (Elt F)),
    nullary main_call0_c_1 (constantI S1 32 14#32 : (⟨S1, .i32⟩ : BufTy).Contents (Elt F)),
    nullary main_call0_c_2 (constantI S_ 32 0#32 : (⟨S_, .i32⟩ : BufTy).Contents (Elt F)),
    unary main_call0_c_2 main_call0_v6 (broadcastInDim S4096x200x1 ![] bcast_S_S4096x200x1 : (⟨S_, .i32⟩ : BufTy).Contents (Elt F) → (⟨S4096x200x1, .i32⟩ : BufTy).Contents (Elt F)),
    binary main_call0_v5 main_call0_v6 main_call0_v7 (cmpi .sge : (⟨S4096x200x1, .i32⟩ : BufTy).Contents (Elt F) → (⟨S4096x200x1, .i32⟩ : BufTy).Contents (Elt F) → (⟨S4096x200x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S4096x200x1 ![0, 1, 2] bcast_S1x1x1_S4096x200x1_0_1_2 : (⟨S1x1x1, .i32⟩ : BufTy).Contents (Elt F) → (⟨S4096x200x1, .i32⟩ : BufTy).Contents (Elt F)),
    binary main_call0_v5 main_call0_v9 main_call0_v10 (cmpi .sle : (⟨S4096x200x1, .i32⟩ : BufTy).Contents (Elt F) → (⟨S4096x200x1, .i32⟩ : BufTy).Contents (Elt F) → (⟨S4096x200x1, .i1⟩ : BufTy).Contents (Elt F)),
    binary main_call0_v7 main_call0_v10 main_call0_v11 (andi : (⟨S4096x200x1, .i1⟩ : BufTy).Contents (Elt F) → (⟨S4096x200x1, .i1⟩ : BufTy).Contents (Elt F) → (⟨S4096x200x1, .i1⟩ : BufTy).Contents (Elt F)),
    nullary main_call0_c_3 (constantI S_ 1 1#1 : (⟨S_, .i1⟩ : BufTy).Contents (Elt F)),
    binary main_call0_v11 main_call0_c_3 main_call0_v12 (fun x v => Host.reduce IntOp.andi x v reducesTo_S4096x200x1_S4096x200_d2 h_S_ : (⟨S4096x200x1, .i1⟩ : BufTy).Contents (Elt F) → (⟨S_, .i1⟩ : BufTy).Contents (Elt F) → (⟨S4096x200, .i1⟩ : BufTy).Contents (Elt F)),
    binary main_arg1 main_call0_v5 main_call0_v13 (fun x i => Host.gather gather_S15x128_S4096x200x1_S4096x200x128_2_0_n_n_0_2_1128 x i : (⟨S15x128, .f32⟩ : BufTy).Contents (Elt F) → (⟨S4096x200x1, .i32⟩ : BufTy).Contents (Elt F) → (⟨S4096x200x128, .f32⟩ : BufTy).Contents (Elt F)),
    unary main_call0_v12 main_call0_v14 (broadcastInDim S4096x200x128 ![0, 1] bcast_S4096x200_S4096x200x128_0_1 : (⟨S4096x200, .i1⟩ : BufTy).Contents (Elt F) → (⟨S4096x200x128, .i1⟩ : BufTy).Contents (Elt F)),
    nullary main_call0_cst (constant S_ .f32 0x7FC00000#32 : (⟨S_, .f32⟩ : BufTy).Contents (Elt F)),
    unary main_call0_cst main_call0_v15 (broadcastInDim S4096x200x128 ![] bcast_S_S4096x200x128 : (⟨S_, .f32⟩ : BufTy).Contents (Elt F) → (⟨S4096x200x128, .f32⟩ : BufTy).Contents (Elt F)),
    ternary main_call0_v14 main_call0_v13 main_call0_v15 main_v1 (select : (⟨S4096x200x128, .i1⟩ : BufTy).Contents (Elt F) → (⟨S4096x200x128, .f32⟩ : BufTy).Contents (Elt F) → (⟨S4096x200x128, .f32⟩ : BufTy).Contents (Elt F) → (⟨S4096x200x128, .f32⟩ : BufTy).Contents (Elt F)),
    nullary main_cst (constant S_ .f32 0x413504F3#32),
    unary main_cst main_v2 (broadcastInDim S4096x200x128 ![] bcast_S_S4096x200x128 : (⟨S_, .f32⟩ : BufTy).Contents (Elt F) → (⟨S4096x200x128, .f32⟩ : BufTy).Contents (Elt F)),
    binary main_v1 main_v2 main_v3 (mulf : (⟨S4096x200x128, .f32⟩ : BufTy).Contents (Elt F) → (⟨S4096x200x128, .f32⟩ : BufTy).Contents (Elt F) → (⟨S4096x200x128, .f32⟩ : BufTy).Contents (Elt F)),
    nullary main_call1_c (constantI S_ 32 0#32 : (⟨S_, .i32⟩ : BufTy).Contents (Elt F)),
    unary main_call1_c main_call1_v0 (broadcastInDim S200 ![] bcast_S_S200 : (⟨S_, .i32⟩ : BufTy).Contents (Elt F) → (⟨S200, .i32⟩ : BufTy).Contents (Elt F)),
    binary main_v0 main_call1_v0 main_call1_v1 (cmpi .slt : (⟨S200, .i32⟩ : BufTy).Contents (Elt F) → (⟨S200, .i32⟩ : BufTy).Contents (Elt F) → (⟨S200, .i1⟩ : BufTy).Contents (Elt F)),
    nullary main_call1_c_0 (constantI S_ 32 200#32 : (⟨S_, .i32⟩ : BufTy).Contents (Elt F)),
    unary main_call1_c_0 main_call1_v2 (broadcastInDim S200 ![] bcast_S_S200 : (⟨S_, .i32⟩ : BufTy).Contents (Elt F) → (⟨S200, .i32⟩ : BufTy).Contents (Elt F)),
    binary main_v0 main_call1_v2 main_call1_v3 (addi : (⟨S200, .i32⟩ : BufTy).Contents (Elt F) → (⟨S200, .i32⟩ : BufTy).Contents (Elt F) → (⟨S200, .i32⟩ : BufTy).Contents (Elt F)),
    ternary main_call1_v1 main_call1_v3 main_v0 main_call1_v4 (select : (⟨S200, .i1⟩ : BufTy).Contents (Elt F) → (⟨S200, .i32⟩ : BufTy).Contents (Elt F) → (⟨S200, .i32⟩ : BufTy).Contents (Elt F) → (⟨S200, .i32⟩ : BufTy).Contents (Elt F)),
    unary main_call1_v4 main_call1_v5 (broadcastInDim S200x1 ![0] bcast_S200_S200x1_0 : (⟨S200, .i32⟩ : BufTy).Contents (Elt F) → (⟨S200x1, .i32⟩ : BufTy).Contents (Elt F)),
    nullary main_call1_c_1 (constantI S1 32 199#32 : (⟨S1, .i32⟩ : BufTy).Contents (Elt F)),
    nullary main_call1_c_2 (constantI S_ 32 0#32 : (⟨S_, .i32⟩ : BufTy).Contents (Elt F)),
    unary main_call1_c_2 main_call1_v6 (broadcastInDim S200x1 ![] bcast_S_S200x1 : (⟨S_, .i32⟩ : BufTy).Contents (Elt F) → (⟨S200x1, .i32⟩ : BufTy).Contents (Elt F)),
    binary main_call1_v5 main_call1_v6 main_call1_v7 (cmpi .sge : (⟨S200x1, .i32⟩ : BufTy).Contents (Elt F) → (⟨S200x1, .i32⟩ : BufTy).Contents (Elt F) → (⟨S200x1, .i1⟩ : BufTy).Contents (Elt F)),
    unary main_call1_c_1 main_call1_v8 (broadcastInDim S1x1 ![1] bcast_S1_S1x1_1 : (⟨S1, .i32⟩ : BufTy).Contents (Elt F) → (⟨S1x1, .i32⟩ : BufTy).Contents (Elt F)),
    unary main_call1_v8 main_call1_v9 (broadcastInDim S200x1 ![0, 1] bcast_S1x1_S200x1_0_1 : (⟨S1x1, .i32⟩ : BufTy).Contents (Elt F) → (⟨S200x1, .i32⟩ : BufTy).Contents (Elt F)),
    binary main_call1_v5 main_call1_v9 main_call1_v10 (cmpi .sle : (⟨S200x1, .i32⟩ : BufTy).Contents (Elt F) → (⟨S200x1, .i32⟩ : BufTy).Contents (Elt F) → (⟨S200x1, .i1⟩ : BufTy).Contents (Elt F)),
    binary main_call1_v7 main_call1_v10 main_call1_v11 (andi : (⟨S200x1, .i1⟩ : BufTy).Contents (Elt F) → (⟨S200x1, .i1⟩ : BufTy).Contents (Elt F) → (⟨S200x1, .i1⟩ : BufTy).Contents (Elt F)),
    nullary main_call1_c_3 (constantI S_ 1 1#1 : (⟨S_, .i1⟩ : BufTy).Contents (Elt F)),
    binary main_call1_v11 main_call1_c_3 main_call1_v12 (fun x v => Host.reduce IntOp.andi x v reducesTo_S200x1_S200_d1 h_S_ : (⟨S200x1, .i1⟩ : BufTy).Contents (Elt F) → (⟨S_, .i1⟩ : BufTy).Contents (Elt F) → (⟨S200, .i1⟩ : BufTy).Contents (Elt F)),
    binary main_arg2 main_call1_v5 main_call1_v13 (fun x i => Host.gather gather_S200x128_S200x1_S200x128_1_0_n_n_0_1_1128 x i : (⟨S200x128, .f32⟩ : BufTy).Contents (Elt F) → (⟨S200x1, .i32⟩ : BufTy).Contents (Elt F) → (⟨S200x128, .f32⟩ : BufTy).Contents (Elt F)),
    unary main_call1_v12 main_call1_v14 (broadcastInDim S200x128 ![0] bcast_S200_S200x128_0 : (⟨S200, .i1⟩ : BufTy).Contents (Elt F) → (⟨S200x128, .i1⟩ : BufTy).Contents (Elt F)),
    nullary main_call1_cst (constant S_ .f32 0x7FC00000#32 : (⟨S_, .f32⟩ : BufTy).Contents (Elt F)),
    unary main_call1_cst main_call1_v15 (broadcastInDim S200x128 ![] bcast_S_S200x128 : (⟨S_, .f32⟩ : BufTy).Contents (Elt F) → (⟨S200x128, .f32⟩ : BufTy).Contents (Elt F)),
    ternary main_call1_v14 main_call1_v13 main_call1_v15 main_v4 (select : (⟨S200x128, .i1⟩ : BufTy).Contents (Elt F) → (⟨S200x128, .f32⟩ : BufTy).Contents (Elt F) → (⟨S200x128, .f32⟩ : BufTy).Contents (Elt F) → (⟨S200x128, .f32⟩ : BufTy).Contents (Elt F)),
    unary main_v4 main_v5 (broadcastInDim S1x200x128 ![1, 2] bcast_S200x128_S1x200x128_1_2 : (⟨S200x128, .f32⟩ : BufTy).Contents (Elt F) → (⟨S1x200x128, .f32⟩ : BufTy).Contents (Elt F)),
    unary main_v5 main_v6 (broadcastInDim S4096x200x128 ![0, 1, 2] bcast_S1x200x128_S4096x200x128_0_1_2 : (⟨S1x200x128, .f32⟩ : BufTy).Contents (Elt F) → (⟨S4096x200x128, .f32⟩ : BufTy).Contents (Elt F)),
    binary main_v3 main_v6 main_v7 (addf : (⟨S4096x200x128, .f32⟩ : BufTy).Contents (Elt F) → (⟨S4096x200x128, .f32⟩ : BufTy).Contents (Elt F) → (⟨S4096x200x128, .f32⟩ : BufTy).Contents (Elt F)) ]

/-! ## Operation by operation -/

attribute [local irreducible] Host.reduce Host.gather in
theorem op_eq_0 : (nullary main_v0 (iotaInDim S200 32 0) : HloOp τ sig (Elt F))
    = nullary main_v0 (iotaInDim S200 32 0) := rfl
attribute [local irreducible] Host.reduce Host.gather in
theorem op_eq_1 : (TRef.nullary main_call0.c (constantI S_ 32 0#32) : HloOp τ sig (Elt F))
    = nullary main_call0_c (constantI S_ 32 0#32 : (⟨S_, .i32⟩ : BufTy).Contents (Elt F)) := rfl
attribute [local irreducible] Host.reduce Host.gather in
theorem op_eq_2 : (TRef.unary main_call0.c main_call0.v0 (broadcastInDim S4096x200 ![] bcast_S_S4096x200) : HloOp τ sig (Elt F))
    = unary main_call0_c main_call0_v0 (broadcastInDim S4096x200 ![] bcast_S_S4096x200 : (⟨S_, .i32⟩ : BufTy).Contents (Elt F) → (⟨S4096x200, .i32⟩ : BufTy).Contents (Elt F)) := rfl
attribute [local irreducible] Host.reduce Host.gather in
theorem op_eq_3 : (TRef.binary (.of main_arg0) main_call0.v0 main_call0.v1 (cmpi .slt) : HloOp τ sig (Elt F))
    = binary main_arg0 main_call0_v0 main_call0_v1 (cmpi .slt : (⟨S4096x200, .i32⟩ : BufTy).Contents (Elt F) → (⟨S4096x200, .i32⟩ : BufTy).Contents (Elt F) → (⟨S4096x200, .i1⟩ : BufTy).Contents (Elt F)) := rfl
attribute [local irreducible] Host.reduce Host.gather in
theorem op_eq_4 : (TRef.nullary main_call0.c_0 (constantI S_ 32 15#32) : HloOp τ sig (Elt F))
    = nullary main_call0_c_0 (constantI S_ 32 15#32 : (⟨S_, .i32⟩ : BufTy).Contents (Elt F)) := rfl
attribute [local irreducible] Host.reduce Host.gather in
theorem op_eq_5 : (TRef.unary main_call0.c_0 main_call0.v2 (broadcastInDim S4096x200 ![] bcast_S_S4096x200) : HloOp τ sig (Elt F))
    = unary main_call0_c_0 main_call0_v2 (broadcastInDim S4096x200 ![] bcast_S_S4096x200 : (⟨S_, .i32⟩ : BufTy).Contents (Elt F) → (⟨S4096x200, .i32⟩ : BufTy).Contents (Elt F)) := rfl
attribute [local irreducible] Host.reduce Host.gather in
theorem op_eq_6 : (TRef.binary (.of main_arg0) main_call0.v2 main_call0.v3 addi : HloOp τ sig (Elt F))
    = binary main_arg0 main_call0_v2 main_call0_v3 (addi : (⟨S4096x200, .i32⟩ : BufTy).Contents (Elt F) → (⟨S4096x200, .i32⟩ : BufTy).Contents (Elt F) → (⟨S4096x200, .i32⟩ : BufTy).Contents (Elt F)) := rfl
attribute [local irreducible] Host.reduce Host.gather in
theorem op_eq_7 : (TRef.ternary main_call0.v1 main_call0.v3 (.of main_arg0) main_call0.call0.v0 select : HloOp τ sig (Elt F))
    = ternary main_call0_v1 main_call0_v3 main_arg0 main_call0_v4 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)) := rfl
attribute [local irreducible] Host.reduce Host.gather in
theorem op_eq_8 : (TRef.unary main_call0.call0.v0 main_call0.v5 (broadcastInDim S4096x200x1 ![0, 1] bcast_S4096x200_S4096x200x1_0_1) : HloOp τ sig (Elt F))
    = unary main_call0_v4 main_call0_v5 (broadcastInDim S4096x200x1 ![0, 1] bcast_S4096x200_S4096x200x1_0_1 : (⟨S4096x200, .i32⟩ : BufTy).Contents (Elt F) → (⟨S4096x200x1, .i32⟩ : BufTy).Contents (Elt F)) := rfl
attribute [local irreducible] Host.reduce Host.gather in
theorem op_eq_9 : (TRef.nullary main_call0.c_1 (constantI S1 32 14#32) : HloOp τ sig (Elt F))
    = nullary main_call0_c_1 (constantI S1 32 14#32 : (⟨S1, .i32⟩ : BufTy).Contents (Elt F)) := rfl
attribute [local irreducible] Host.reduce Host.gather in
theorem op_eq_10 : (TRef.nullary main_call0.c_2 (constantI S_ 32 0#32) : HloOp τ sig (Elt F))
    = nullary main_call0_c_2 (constantI S_ 32 0#32 : (⟨S_, .i32⟩ : BufTy).Contents (Elt F)) := rfl
attribute [local irreducible] Host.reduce Host.gather in
theorem op_eq_11 : (TRef.unary main_call0.c_2 main_call0.v6 (broadcastInDim S4096x200x1 ![] bcast_S_S4096x200x1) : HloOp τ sig (Elt F))
    = unary main_call0_c_2 main_call0_v6 (broadcastInDim S4096x200x1 ![] bcast_S_S4096x200x1 : (⟨S_, .i32⟩ : BufTy).Contents (Elt F) → (⟨S4096x200x1, .i32⟩ : BufTy).Contents (Elt F)) := rfl
attribute [local irreducible] Host.reduce Host.gather in
theorem op_eq_12 : (TRef.binary main_call0.v5 main_call0.v6 main_call0.v7 (cmpi .sge) : HloOp τ sig (Elt F))
    = binary main_call0_v5 main_call0_v6 main_call0_v7 (cmpi .sge : (⟨S4096x200x1, .i32⟩ : BufTy).Contents (Elt F) → (⟨S4096x200x1, .i32⟩ : BufTy).Contents (Elt F) → (⟨S4096x200x1, .i1⟩ : BufTy).Contents (Elt F)) := rfl
attribute [local irreducible] Host.reduce Host.gather in
theorem op_eq_13 : (TRef.unary main_call0.c_1 main_call0.v8 (broadcastInDim S1x1x1 ![2] bcast_S1_S1x1x1_2) : HloOp τ sig (Elt F))
    = unary main_call0_c_1 main_call0_v8 (broadcastInDim S1x1x1 ![2] bcast_S1_S1x1x1_2 : (⟨S1, .i32⟩ : BufTy).Contents (Elt F) → (⟨S1x1x1, .i32⟩ : BufTy).Contents (Elt F)) := rfl
attribute [local irreducible] Host.reduce Host.gather in
theorem op_eq_14 : (TRef.unary main_call0.v8 main_call0.v9 (broadcastInDim S4096x200x1 ![0, 1, 2] bcast_S1x1x1_S4096x200x1_0_1_2) : HloOp τ sig (Elt F))
    = unary main_call0_v8 main_call0_v9 (broadcastInDim S4096x200x1 ![0, 1, 2] bcast_S1x1x1_S4096x200x1_0_1_2 : (⟨S1x1x1, .i32⟩ : BufTy).Contents (Elt F) → (⟨S4096x200x1, .i32⟩ : BufTy).Contents (Elt F)) := rfl
attribute [local irreducible] Host.reduce Host.gather in
theorem op_eq_15 : (TRef.binary main_call0.v5 main_call0.v9 main_call0.v10 (cmpi .sle) : HloOp τ sig (Elt F))
    = binary main_call0_v5 main_call0_v9 main_call0_v10 (cmpi .sle : (⟨S4096x200x1, .i32⟩ : BufTy).Contents (Elt F) → (⟨S4096x200x1, .i32⟩ : BufTy).Contents (Elt F) → (⟨S4096x200x1, .i1⟩ : BufTy).Contents (Elt F)) := rfl
attribute [local irreducible] Host.reduce Host.gather in
theorem op_eq_16 : (TRef.binary main_call0.v7 main_call0.v10 main_call0.v11 andi : HloOp τ sig (Elt F))
    = binary main_call0_v7 main_call0_v10 main_call0_v11 (andi : (⟨S4096x200x1, .i1⟩ : BufTy).Contents (Elt F) → (⟨S4096x200x1, .i1⟩ : BufTy).Contents (Elt F) → (⟨S4096x200x1, .i1⟩ : BufTy).Contents (Elt F)) := rfl
attribute [local irreducible] Host.reduce Host.gather in
theorem op_eq_17 : (TRef.nullary main_call0.c_3 (constantI S_ 1 1#1) : HloOp τ sig (Elt F))
    = nullary main_call0_c_3 (constantI S_ 1 1#1 : (⟨S_, .i1⟩ : BufTy).Contents (Elt F)) := rfl
attribute [local irreducible] Host.reduce Host.gather in
theorem op_eq_18 : (TRef.binary main_call0.v11 main_call0.c_3 main_call0.v12 (fun x v => Host.reduce IntOp.andi x v reducesTo_S4096x200x1_S4096x200_d2 h_S_) : HloOp τ sig (Elt F))
    = binary main_call0_v11 main_call0_c_3 main_call0_v12 (fun x v => Host.reduce IntOp.andi x v reducesTo_S4096x200x1_S4096x200_d2 h_S_ : (⟨S4096x200x1, .i1⟩ : BufTy).Contents (Elt F) → (⟨S_, .i1⟩ : BufTy).Contents (Elt F) → (⟨S4096x200, .i1⟩ : BufTy).Contents (Elt F)) := rfl
attribute [local irreducible] Host.reduce Host.gather in
theorem op_eq_19 : (TRef.binary (.of main_arg1) main_call0.v5 main_call0.v13 (fun x i => Host.gather gather_S15x128_S4096x200x1_S4096x200x128_2_0_n_n_0_2_1128 x i) : HloOp τ sig (Elt F))
    = binary main_arg1 main_call0_v5 main_call0_v13 (fun x i => Host.gather gather_S15x128_S4096x200x1_S4096x200x128_2_0_n_n_0_2_1128 x i : (⟨S15x128, .f32⟩ : BufTy).Contents (Elt F) → (⟨S4096x200x1, .i32⟩ : BufTy).Contents (Elt F) → (⟨S4096x200x128, .f32⟩ : BufTy).Contents (Elt F)) := rfl
attribute [local irreducible] Host.reduce Host.gather in
theorem op_eq_20 : (TRef.unary main_call0.v12 main_call0.v14 (broadcastInDim S4096x200x128 ![0, 1] bcast_S4096x200_S4096x200x128_0_1) : HloOp τ sig (Elt F))
    = unary main_call0_v12 main_call0_v14 (broadcastInDim S4096x200x128 ![0, 1] bcast_S4096x200_S4096x200x128_0_1 : (⟨S4096x200, .i1⟩ : BufTy).Contents (Elt F) → (⟨S4096x200x128, .i1⟩ : BufTy).Contents (Elt F)) := rfl
attribute [local irreducible] Host.reduce Host.gather in
theorem op_eq_21 : (TRef.nullary main_call0.cst (constant S_ .f32 0x7FC00000#32) : HloOp τ sig (Elt F))
    = nullary main_call0_cst (constant S_ .f32 0x7FC00000#32 : (⟨S_, .f32⟩ : BufTy).Contents (Elt F)) := rfl
attribute [local irreducible] Host.reduce Host.gather in
theorem op_eq_22 : (TRef.unary main_call0.cst main_call0.v15 (broadcastInDim S4096x200x128 ![] bcast_S_S4096x200x128) : HloOp τ sig (Elt F))
    = unary main_call0_cst main_call0_v15 (broadcastInDim S4096x200x128 ![] bcast_S_S4096x200x128 : (⟨S_, .f32⟩ : BufTy).Contents (Elt F) → (⟨S4096x200x128, .f32⟩ : BufTy).Contents (Elt F)) := rfl
attribute [local irreducible] Host.reduce Host.gather in
theorem op_eq_23 : (TRef.ternary main_call0.v14 main_call0.v13 main_call0.v15 main_call0.v16 select : HloOp τ sig (Elt F))
    = ternary main_call0_v14 main_call0_v13 main_call0_v15 main_v1 (select : (⟨S4096x200x128, .i1⟩ : BufTy).Contents (Elt F) → (⟨S4096x200x128, .f32⟩ : BufTy).Contents (Elt F) → (⟨S4096x200x128, .f32⟩ : BufTy).Contents (Elt F) → (⟨S4096x200x128, .f32⟩ : BufTy).Contents (Elt F)) := rfl
attribute [local irreducible] Host.reduce Host.gather in
theorem op_eq_24 : (nullary main_cst (constant S_ .f32 0x413504F3#32) : HloOp τ sig (Elt F))
    = nullary main_cst (constant S_ .f32 0x413504F3#32) := rfl
attribute [local irreducible] Host.reduce Host.gather in
theorem op_eq_25 : (unary main_cst main_v2 (broadcastInDim S4096x200x128 ![] bcast_S_S4096x200x128 : (⟨S_, .f32⟩ : BufTy).Contents (Elt F) → (⟨S4096x200x128, .f32⟩ : BufTy).Contents (Elt F)) : HloOp τ sig (Elt F))
    = unary main_cst main_v2 (broadcastInDim S4096x200x128 ![] bcast_S_S4096x200x128 : (⟨S_, .f32⟩ : BufTy).Contents (Elt F) → (⟨S4096x200x128, .f32⟩ : BufTy).Contents (Elt F)) := rfl
attribute [local irreducible] Host.reduce Host.gather in
theorem op_eq_26 : (binary main_v1 main_v2 main_v3 (mulf : (⟨S4096x200x128, .f32⟩ : BufTy).Contents (Elt F) → (⟨S4096x200x128, .f32⟩ : BufTy).Contents (Elt F) → (⟨S4096x200x128, .f32⟩ : BufTy).Contents (Elt F)) : HloOp τ sig (Elt F))
    = binary main_v1 main_v2 main_v3 (mulf : (⟨S4096x200x128, .f32⟩ : BufTy).Contents (Elt F) → (⟨S4096x200x128, .f32⟩ : BufTy).Contents (Elt F) → (⟨S4096x200x128, .f32⟩ : BufTy).Contents (Elt F)) := rfl
attribute [local irreducible] Host.reduce Host.gather in
theorem op_eq_27 : (TRef.nullary main_call1.c (constantI S_ 32 0#32) : HloOp τ sig (Elt F))
    = nullary main_call1_c (constantI S_ 32 0#32 : (⟨S_, .i32⟩ : BufTy).Contents (Elt F)) := rfl
attribute [local irreducible] Host.reduce Host.gather in
theorem op_eq_28 : (TRef.unary main_call1.c main_call1.v0 (broadcastInDim S200 ![] bcast_S_S200) : HloOp τ sig (Elt F))
    = unary main_call1_c main_call1_v0 (broadcastInDim S200 ![] bcast_S_S200 : (⟨S_, .i32⟩ : BufTy).Contents (Elt F) → (⟨S200, .i32⟩ : BufTy).Contents (Elt F)) := rfl
attribute [local irreducible] Host.reduce Host.gather in
theorem op_eq_29 : (TRef.binary (.of main_v0) main_call1.v0 main_call1.v1 (cmpi .slt) : HloOp τ sig (Elt F))
    = binary main_v0 main_call1_v0 main_call1_v1 (cmpi .slt : (⟨S200, .i32⟩ : BufTy).Contents (Elt F) → (⟨S200, .i32⟩ : BufTy).Contents (Elt F) → (⟨S200, .i1⟩ : BufTy).Contents (Elt F)) := rfl
attribute [local irreducible] Host.reduce Host.gather in
theorem op_eq_30 : (TRef.nullary main_call1.c_0 (constantI S_ 32 200#32) : HloOp τ sig (Elt F))
    = nullary main_call1_c_0 (constantI S_ 32 200#32 : (⟨S_, .i32⟩ : BufTy).Contents (Elt F)) := rfl
attribute [local irreducible] Host.reduce Host.gather in
theorem op_eq_31 : (TRef.unary main_call1.c_0 main_call1.v2 (broadcastInDim S200 ![] bcast_S_S200) : HloOp τ sig (Elt F))
    = unary main_call1_c_0 main_call1_v2 (broadcastInDim S200 ![] bcast_S_S200 : (⟨S_, .i32⟩ : BufTy).Contents (Elt F) → (⟨S200, .i32⟩ : BufTy).Contents (Elt F)) := rfl
attribute [local irreducible] Host.reduce Host.gather in
theorem op_eq_32 : (TRef.binary (.of main_v0) main_call1.v2 main_call1.v3 addi : HloOp τ sig (Elt F))
    = binary main_v0 main_call1_v2 main_call1_v3 (addi : (⟨S200, .i32⟩ : BufTy).Contents (Elt F) → (⟨S200, .i32⟩ : BufTy).Contents (Elt F) → (⟨S200, .i32⟩ : BufTy).Contents (Elt F)) := rfl
attribute [local irreducible] Host.reduce Host.gather in
theorem op_eq_33 : (TRef.ternary main_call1.v1 main_call1.v3 (.of main_v0) main_call1.call0.v0 select : HloOp τ sig (Elt F))
    = ternary main_call1_v1 main_call1_v3 main_v0 main_call1_v4 (select : (⟨S200, .i1⟩ : BufTy).Contents (Elt F) → (⟨S200, .i32⟩ : BufTy).Contents (Elt F) → (⟨S200, .i32⟩ : BufTy).Contents (Elt F) → (⟨S200, .i32⟩ : BufTy).Contents (Elt F)) := rfl
attribute [local irreducible] Host.reduce Host.gather in
theorem op_eq_34 : (TRef.unary main_call1.call0.v0 main_call1.v5 (broadcastInDim S200x1 ![0] bcast_S200_S200x1_0) : HloOp τ sig (Elt F))
    = unary main_call1_v4 main_call1_v5 (broadcastInDim S200x1 ![0] bcast_S200_S200x1_0 : (⟨S200, .i32⟩ : BufTy).Contents (Elt F) → (⟨S200x1, .i32⟩ : BufTy).Contents (Elt F)) := rfl
attribute [local irreducible] Host.reduce Host.gather in
theorem op_eq_35 : (TRef.nullary main_call1.c_1 (constantI S1 32 199#32) : HloOp τ sig (Elt F))
    = nullary main_call1_c_1 (constantI S1 32 199#32 : (⟨S1, .i32⟩ : BufTy).Contents (Elt F)) := rfl
attribute [local irreducible] Host.reduce Host.gather in
theorem op_eq_36 : (TRef.nullary main_call1.c_2 (constantI S_ 32 0#32) : HloOp τ sig (Elt F))
    = nullary main_call1_c_2 (constantI S_ 32 0#32 : (⟨S_, .i32⟩ : BufTy).Contents (Elt F)) := rfl
attribute [local irreducible] Host.reduce Host.gather in
theorem op_eq_37 : (TRef.unary main_call1.c_2 main_call1.v6 (broadcastInDim S200x1 ![] bcast_S_S200x1) : HloOp τ sig (Elt F))
    = unary main_call1_c_2 main_call1_v6 (broadcastInDim S200x1 ![] bcast_S_S200x1 : (⟨S_, .i32⟩ : BufTy).Contents (Elt F) → (⟨S200x1, .i32⟩ : BufTy).Contents (Elt F)) := rfl
attribute [local irreducible] Host.reduce Host.gather in
theorem op_eq_38 : (TRef.binary main_call1.v5 main_call1.v6 main_call1.v7 (cmpi .sge) : HloOp τ sig (Elt F))
    = binary main_call1_v5 main_call1_v6 main_call1_v7 (cmpi .sge : (⟨S200x1, .i32⟩ : BufTy).Contents (Elt F) → (⟨S200x1, .i32⟩ : BufTy).Contents (Elt F) → (⟨S200x1, .i1⟩ : BufTy).Contents (Elt F)) := rfl
attribute [local irreducible] Host.reduce Host.gather in
theorem op_eq_39 : (TRef.unary main_call1.c_1 main_call1.v8 (broadcastInDim S1x1 ![1] bcast_S1_S1x1_1) : HloOp τ sig (Elt F))
    = unary main_call1_c_1 main_call1_v8 (broadcastInDim S1x1 ![1] bcast_S1_S1x1_1 : (⟨S1, .i32⟩ : BufTy).Contents (Elt F) → (⟨S1x1, .i32⟩ : BufTy).Contents (Elt F)) := rfl
attribute [local irreducible] Host.reduce Host.gather in
theorem op_eq_40 : (TRef.unary main_call1.v8 main_call1.v9 (broadcastInDim S200x1 ![0, 1] bcast_S1x1_S200x1_0_1) : HloOp τ sig (Elt F))
    = unary main_call1_v8 main_call1_v9 (broadcastInDim S200x1 ![0, 1] bcast_S1x1_S200x1_0_1 : (⟨S1x1, .i32⟩ : BufTy).Contents (Elt F) → (⟨S200x1, .i32⟩ : BufTy).Contents (Elt F)) := rfl
attribute [local irreducible] Host.reduce Host.gather in
theorem op_eq_41 : (TRef.binary main_call1.v5 main_call1.v9 main_call1.v10 (cmpi .sle) : HloOp τ sig (Elt F))
    = binary main_call1_v5 main_call1_v9 main_call1_v10 (cmpi .sle : (⟨S200x1, .i32⟩ : BufTy).Contents (Elt F) → (⟨S200x1, .i32⟩ : BufTy).Contents (Elt F) → (⟨S200x1, .i1⟩ : BufTy).Contents (Elt F)) := rfl
attribute [local irreducible] Host.reduce Host.gather in
theorem op_eq_42 : (TRef.binary main_call1.v7 main_call1.v10 main_call1.v11 andi : HloOp τ sig (Elt F))
    = binary main_call1_v7 main_call1_v10 main_call1_v11 (andi : (⟨S200x1, .i1⟩ : BufTy).Contents (Elt F) → (⟨S200x1, .i1⟩ : BufTy).Contents (Elt F) → (⟨S200x1, .i1⟩ : BufTy).Contents (Elt F)) := rfl
attribute [local irreducible] Host.reduce Host.gather in
theorem op_eq_43 : (TRef.nullary main_call1.c_3 (constantI S_ 1 1#1) : HloOp τ sig (Elt F))
    = nullary main_call1_c_3 (constantI S_ 1 1#1 : (⟨S_, .i1⟩ : BufTy).Contents (Elt F)) := rfl
attribute [local irreducible] Host.reduce Host.gather in
theorem op_eq_44 : (TRef.binary main_call1.v11 main_call1.c_3 main_call1.v12 (fun x v => Host.reduce IntOp.andi x v reducesTo_S200x1_S200_d1 h_S_) : HloOp τ sig (Elt F))
    = binary main_call1_v11 main_call1_c_3 main_call1_v12 (fun x v => Host.reduce IntOp.andi x v reducesTo_S200x1_S200_d1 h_S_ : (⟨S200x1, .i1⟩ : BufTy).Contents (Elt F) → (⟨S_, .i1⟩ : BufTy).Contents (Elt F) → (⟨S200, .i1⟩ : BufTy).Contents (Elt F)) := rfl
attribute [local irreducible] Host.reduce Host.gather in
theorem op_eq_45 : (TRef.binary (.of main_arg2) main_call1.v5 main_call1.v13 (fun x i => Host.gather gather_S200x128_S200x1_S200x128_1_0_n_n_0_1_1128 x i) : HloOp τ sig (Elt F))
    = binary main_arg2 main_call1_v5 main_call1_v13 (fun x i => Host.gather gather_S200x128_S200x1_S200x128_1_0_n_n_0_1_1128 x i : (⟨S200x128, .f32⟩ : BufTy).Contents (Elt F) → (⟨S200x1, .i32⟩ : BufTy).Contents (Elt F) → (⟨S200x128, .f32⟩ : BufTy).Contents (Elt F)) := rfl
attribute [local irreducible] Host.reduce Host.gather in
theorem op_eq_46 : (TRef.unary main_call1.v12 main_call1.v14 (broadcastInDim S200x128 ![0] bcast_S200_S200x128_0) : HloOp τ sig (Elt F))
    = unary main_call1_v12 main_call1_v14 (broadcastInDim S200x128 ![0] bcast_S200_S200x128_0 : (⟨S200, .i1⟩ : BufTy).Contents (Elt F) → (⟨S200x128, .i1⟩ : BufTy).Contents (Elt F)) := rfl
attribute [local irreducible] Host.reduce Host.gather in
theorem op_eq_47 : (TRef.nullary main_call1.cst (constant S_ .f32 0x7FC00000#32) : HloOp τ sig (Elt F))
    = nullary main_call1_cst (constant S_ .f32 0x7FC00000#32 : (⟨S_, .f32⟩ : BufTy).Contents (Elt F)) := rfl
attribute [local irreducible] Host.reduce Host.gather in
theorem op_eq_48 : (TRef.unary main_call1.cst main_call1.v15 (broadcastInDim S200x128 ![] bcast_S_S200x128) : HloOp τ sig (Elt F))
    = unary main_call1_cst main_call1_v15 (broadcastInDim S200x128 ![] bcast_S_S200x128 : (⟨S_, .f32⟩ : BufTy).Contents (Elt F) → (⟨S200x128, .f32⟩ : BufTy).Contents (Elt F)) := rfl
attribute [local irreducible] Host.reduce Host.gather in
theorem op_eq_49 : (TRef.ternary main_call1.v14 main_call1.v13 main_call1.v15 main_call1.v16 select : HloOp τ sig (Elt F))
    = ternary main_call1_v14 main_call1_v13 main_call1_v15 main_v4 (select : (⟨S200x128, .i1⟩ : BufTy).Contents (Elt F) → (⟨S200x128, .f32⟩ : BufTy).Contents (Elt F) → (⟨S200x128, .f32⟩ : BufTy).Contents (Elt F) → (⟨S200x128, .f32⟩ : BufTy).Contents (Elt F)) := rfl
attribute [local irreducible] Host.reduce Host.gather in
theorem op_eq_50 : (unary main_v4 main_v5 (broadcastInDim S1x200x128 ![1, 2] bcast_S200x128_S1x200x128_1_2 : (⟨S200x128, .f32⟩ : BufTy).Contents (Elt F) → (⟨S1x200x128, .f32⟩ : BufTy).Contents (Elt F)) : HloOp τ sig (Elt F))
    = unary main_v4 main_v5 (broadcastInDim S1x200x128 ![1, 2] bcast_S200x128_S1x200x128_1_2 : (⟨S200x128, .f32⟩ : BufTy).Contents (Elt F) → (⟨S1x200x128, .f32⟩ : BufTy).Contents (Elt F)) := rfl
attribute [local irreducible] Host.reduce Host.gather in
theorem op_eq_51 : (unary main_v5 main_v6 (broadcastInDim S4096x200x128 ![0, 1, 2] bcast_S1x200x128_S4096x200x128_0_1_2 : (⟨S1x200x128, .f32⟩ : BufTy).Contents (Elt F) → (⟨S4096x200x128, .f32⟩ : BufTy).Contents (Elt F)) : HloOp τ sig (Elt F))
    = unary main_v5 main_v6 (broadcastInDim S4096x200x128 ![0, 1, 2] bcast_S1x200x128_S4096x200x128_0_1_2 : (⟨S1x200x128, .f32⟩ : BufTy).Contents (Elt F) → (⟨S4096x200x128, .f32⟩ : BufTy).Contents (Elt F)) := rfl
attribute [local irreducible] Host.reduce Host.gather in
theorem op_eq_52 : (binary main_v3 main_v6 main_v7 (addf : (⟨S4096x200x128, .f32⟩ : BufTy).Contents (Elt F) → (⟨S4096x200x128, .f32⟩ : BufTy).Contents (Elt F) → (⟨S4096x200x128, .f32⟩ : BufTy).Contents (Elt F)) : HloOp τ sig (Elt F))
    = binary main_v3 main_v6 main_v7 (addf : (⟨S4096x200x128, .f32⟩ : BufTy).Contents (Elt F) → (⟨S4096x200x128, .f32⟩ : BufTy).Contents (Elt F) → (⟨S4096x200x128, .f32⟩ : BufTy).Contents (Elt F)) := rfl

/-! ## The two lists are one -/

theorem cons_congr {α : Type} {a b : α} {l m : List α} (h : a = b) (t : l = m) : a :: l = b :: m := by
  subst h; subst t; rfl

attribute [local irreducible] Host.reduce Host.gather in
theorem ops_eq : (ops : List (HloOp τ sig (Elt F))) = opsP :=
cons_congr op_eq_0
    (cons_congr op_eq_1
    (cons_congr op_eq_2
    (cons_congr op_eq_3
    (cons_congr op_eq_4
    (cons_congr op_eq_5
    (cons_congr op_eq_6
    (cons_congr op_eq_7
    (cons_congr op_eq_8
    (cons_congr op_eq_9
    (cons_congr op_eq_10
    (cons_congr op_eq_11
    (cons_congr op_eq_12
    (cons_congr op_eq_13
    (cons_congr op_eq_14
    (cons_congr op_eq_15
    (cons_congr op_eq_16
    (cons_congr op_eq_17
    (cons_congr op_eq_18
    (cons_congr op_eq_19
    (cons_congr op_eq_20
    (cons_congr op_eq_21
    (cons_congr op_eq_22
    (cons_congr op_eq_23
    (cons_congr op_eq_24
    (cons_congr op_eq_25
    (cons_congr op_eq_26
    (cons_congr op_eq_27
    (cons_congr op_eq_28
    (cons_congr op_eq_29
    (cons_congr op_eq_30
    (cons_congr op_eq_31
    (cons_congr op_eq_32
    (cons_congr op_eq_33
    (cons_congr op_eq_34
    (cons_congr op_eq_35
    (cons_congr op_eq_36
    (cons_congr op_eq_37
    (cons_congr op_eq_38
    (cons_congr op_eq_39
    (cons_congr op_eq_40
    (cons_congr op_eq_41
    (cons_congr op_eq_42
    (cons_congr op_eq_43
    (cons_congr op_eq_44
    (cons_congr op_eq_45
    (cons_congr op_eq_46
    (cons_congr op_eq_47
    (cons_congr op_eq_48
    (cons_congr op_eq_49
    (cons_congr op_eq_50
    (cons_congr op_eq_51
    (cons_congr op_eq_52 (rfl)))))))))))))))))))))))))))))))))))))))))))))))))))))

end Cert.ReferenceIdeal.RefRun

end
-- ==== Proof.RefVal.lean ====
/-
  The reference's result as one pure function of its argument arrays, named piece by piece.

  Each of the two table lookups is: the ids with a negative one wrapped by the table's row count, a
  trailing unit axis added; a bounds mask 0 ≤ id ≤ last row, reduced by "and" over that unit axis;
  the gather of the table's rows at the ids (each start index clamped into the table); and a select
  that keeps the gathered row where the mask holds and puts the fill word's value elsewhere. The
  result is the token lookup times the literal's value plus the position lookup at ids 0, 1, …, 199,
  broadcast over the batch.
-/
import proofs.«206439_g51874615001410_cont_9to1_m_433_33_alg».proof.Proof.RefOps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The token ids with a negative one wrapped by +15. -/
def tokWrap (x : IVec S4096x200 32) : IVec S4096x200 32 :=
  select (cmpi .slt x (broadcastInDim S4096x200 ![] bcast_S_S4096x200 (constantI S_ 32 0#32)))
    (addi x (broadcastInDim S4096x200 ![] bcast_S_S4096x200 (constantI S_ 32 15#32))) x

/-- The wrapped ids as start indices: a trailing unit axis added. -/
def tokIds1 (x : IVec S4096x200 32) : IVec S4096x200x1 32 :=
  broadcastInDim S4096x200x1 ![0, 1] bcast_S4096x200_S4096x200x1_0_1 (tokWrap x)

/-- The bounds mask before its reduction: 0 ≤ id and id ≤ 14, both signed. -/
def tokMask1 (x : IVec S4096x200 32) : IVec S4096x200x1 1 :=
  andi (cmpi .sge (tokIds1 x) (broadcastInDim S4096x200x1 ![] bcast_S_S4096x200x1 (constantI S_ 32 0#32)))
    (cmpi .sle (tokIds1 x) (broadcastInDim S4096x200x1 ![0, 1, 2] bcast_S1x1x1_S4096x200x1_0_1_2
      (broadcastInDim S1x1x1 ![2] bcast_S1_S1x1x1_2 (constantI S1 32 14#32))))

/-- The bounds mask: the conjunction over the unit axis. -/
def tokMask (x : IVec S4096x200 32) : IVec S4096x200 1 :=
  Host.reduce IntOp.andi (tokMask1 x) (constantI S_ 1 1#1) reducesTo_S4096x200x1_S4096x200_d2 h_S_

/-- The gather with fill: the gathered row where the mask holds, the fill word's value elsewhere. -/
def tokTake (x : IVec S4096x200 32) (tab : FVec F S15x128 .f32) : FVec F S4096x200x128 .f32 :=
  select (broadcastInDim S4096x200x128 ![0, 1] bcast_S4096x200_S4096x200x128_0_1 (tokMask x))
    (Host.gather gather_S15x128_S4096x200x1_S4096x200x128_2_0_n_n_0_2_1128 tab (tokIds1 x))
    (broadcastInDim S4096x200x128 ![] bcast_S_S4096x200x128 (constant S_ .f32 0x7FC00000#32))

/-- The position ids with a negative one wrapped by +200. -/
def posWrap (x : IVec S200 32) : IVec S200 32 :=
  select (cmpi .slt x (broadcastInDim S200 ![] bcast_S_S200 (constantI S_ 32 0#32)))
    (addi x (broadcastInDim S200 ![] bcast_S_S200 (constantI S_ 32 200#32))) x

/-- The wrapped ids as start indices: a trailing unit axis added. -/
def posIds1 (x : IVec S200 32) : IVec S200x1 32 :=
  broadcastInDim S200x1 ![0] bcast_S200_S200x1_0 (posWrap x)

/-- The bounds mask before its reduction: 0 ≤ id and id ≤ 199, both signed. -/
def posMask1 (x : IVec S200 32) : IVec S200x1 1 :=
  andi (cmpi .sge (posIds1 x) (broadcastInDim S200x1 ![] bcast_S_S200x1 (constantI S_ 32 0#32)))
    (cmpi .sle (posIds1 x) (broadcastInDim S200x1 ![0, 1] bcast_S1x1_S200x1_0_1
      (broadcastInDim S1x1 ![1] bcast_S1_S1x1_1 (constantI S1 32 199#32))))

/-- The bounds mask: the conjunction over the unit axis. -/
def posMask (x : IVec S200 32) : IVec S200 1 :=
  Host.reduce IntOp.andi (posMask1 x) (constantI S_ 1 1#1) reducesTo_S200x1_S200_d1 h_S_

/-- The gather with fill: the gathered row where the mask holds, the fill word's value elsewhere. -/
def posTake (x : IVec S200 32) (tab : FVec F S200x128 .f32) : FVec F S200x128 .f32 :=
  select (broadcastInDim S200x128 ![0] bcast_S200_S200x128_0 (posMask x))
    (Host.gather gather_S200x128_S200x1_S200x128_1_0_n_n_0_1_1128 tab (posIds1 x))
    (broadcastInDim S200x128 ![] bcast_S_S200x128 (constant S_ .f32 0x7FC00000#32))

/-- The reference's result: token lookup · literal + position lookup at ids 0 … 199, over the batch. -/
def refVal (x : IVec S4096x200 32) (tok : FVec F S15x128 .f32) (pos : FVec F S200x128 .f32) : FVec F S4096x200x128 .f32 :=
  addf (mulf (tokTake x tok) (broadcastInDim S4096x200x128 ![] bcast_S_S4096x200x128 (constant S_ .f32 0x413504F3#32)))
    (broadcastInDim S4096x200x128 ![0, 1, 2] bcast_S1x200x128_S4096x200x128_0_1_2
      (broadcastInDim S1x200x128 ![1, 2] bcast_S200x128_S1x200x128_1_2 (posTake (iotaInDim S200 32 0) pos)))

end Cert.ReferenceIdeal.RefRun

end
-- ==== Proof.RefIdx.lean ====
/-
  The reference's two table lookups read at an index.

  Where every id is in the table's range, read as a natural number: the wrap of negative ids changes
  nothing (no id is negative), the bounds mask is 1 everywhere (so is its reduction by "and"), the
  select keeps the gathered row, and the gather's clamp of the start index into the table is the
  identity. So the lookup at (…, d) is the table at (row named by the id, d).
-/
import proofs.«206439_g51874615001410_cont_9to1_m_433_33_alg».proof.Proof.RefVal
import proofs.«206439_g51874615001410_cont_9to1_m_433_33_alg».proof.Proof.Spec
import Idealize.ShloMosaic.Lib.ValueIdx
import Idealize.ShloMosaic.Lib.Pipeline.Value
import Idealize.ShloMosaic.Lib.ReduceAll

noncomputable section

namespace Cert.ReferenceIdeal.RefRun

open Cert.ReferenceIdeal Idealize.ShloMosaic Idealize.ShloMosaic.ValueIdx
open Cert.ReferenceIdeal.Facts₀ Cert.ReferenceIdeal.Facts

variable {F : FTy → Type} [FloatOps F] [Cert.ReferenceIdeal.Facts]

/-! ## Words -/

/-- A word below 2³¹ does not test negative. -/
theorem cmpi_slt_zero {v : BitVec 32} (h : 2 * v.toNat < 2 ^ 32) : IntOp.cmpi .slt v 0#32 = 0#1 := by
  apply eq_zero_of_ne_one
  intro e
  have h1 := IntOp.cmpi_slt.1 e
  rw [BitVec.toInt_eq_toNat_of_lt h, show (0#32 : BitVec 32).toInt = 0 from by decide] at h1
  omega

/-- A word below 2³¹ tests nonnegative. -/
theorem cmpi_sge_zero {v : BitVec 32} (h : 2 * v.toNat < 2 ^ 32) : IntOp.cmpi .sge v 0#32 = 1#1 := by
  rw [IntOp.cmpi_sge, BitVec.toInt_eq_toNat_of_lt h, show (0#32 : BitVec 32).toInt = 0 from by decide]
  omega

/-- A word at most the literal n, n below 2³¹, tests at most n read signed. -/
theorem cmpi_sle_lit {v : BitVec 32} (n : Nat) (hn : 2 * n < 2 ^ 32) (h : v.toNat ≤ n) :
    IntOp.cmpi .sle v (BitVec.ofNat 32 n) = 1#1 := by
  have hm : (BitVec.ofNat 32 n).toNat = n := by rw [BitVec.toNat_ofNat]; exact Nat.mod_eq_of_lt (by omega)
  rw [IntOp.cmpi_sle, BitVec.toInt_eq_toNat_of_lt (by omega), BitVec.toInt_eq_toNat_of_lt (by rw [hm]; exact hn), hm]
  omega

/-- The gather's clamp of a start index: of a word at most n it is the word's natural number. -/
theorem clamp_of_le {v : BitVec 32} (n : Nat) (hn : 2 * n < 2 ^ 32) (h : v.toNat ≤ n) : min v.toInt.toNat n = v.toNat := by
  rw [BitVec.toInt_eq_toNat_of_lt (by omega)]
  omega

/-! ## A reduction by "and" of an array of ones -/

/-- A `stablehlo.reduce` by "and" from 1 over an array that is 1 everywhere is 1 everywhere. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : ∀ i, init i = 1#1) :
    Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx a, show IntOp.andi 1#1 1#1 = 1#1 from by decide]
    exact ih

/-! ## The token lookup -/

theorem tokWrap_eq (x : IVec S4096x200 32) (h : ∀ j, 2 * (x j).toNat < 2 ^ 32) : tokWrap x = x := by
  funext j
  show Scalar.select (IntOp.cmpi .slt (x j) 0#32) _ (x j) = x j
  rw [cmpi_slt_zero (h j), select_zero]

theorem tokIds1_apply (x : IVec S4096x200 32) (k : S4096x200x1.Idx) : tokIds1 x k = tokWrap x (ix2 (k 0) (k 1)) := by
  unfold tokIds1
  refine broadcastInDim_apply _ _ _ _ _ fun a => ?_
  match a with
  | ⟨0, _⟩ => rfl
  | ⟨1, _⟩ => rfl

theorem tokMask1_one (x : IVec S4096x200 32) (h : ∀ j, (x j).toNat ≤ 14) (k : S4096x200x1.Idx) : tokMask1 x k = 1#1 := by
  have hs : ∀ j, 2 * (x j).toNat < 2 ^ 32 := fun j => by have := h j; omega
  show IntOp.andi (IntOp.cmpi .sge (tokIds1 x k) 0#32) (IntOp.cmpi .sle (tokIds1 x k) (BitVec.ofNat 32 14)) = 1#1
  rw [tokIds1_apply, tokWrap_eq x hs, cmpi_sge_zero (hs _), cmpi_sle_lit 14 (by norm_num) (h _)]
  decide

theorem tokMask_one (x : IVec S4096x200 32) (h : ∀ j, (x j).toNat ≤ 14) (j : S4096x200.Idx) : tokMask x j = 1#1 :=
  reduce_andi_of_all _ _ _ _ j (tokMask1_one x h) (fun _ => rfl)

/-- The token table's gather at (b, s, d): the table at (the start index at (b, s, 0) read signed and clamped into
    [0, 14], d). -/
theorem tokGather_apply {α : Type} (tab : S15x128.Idx → α) (idx : IVec S4096x200x1 32) (b : Fin 4096) (s : Fin 200) (d : Fin 128) :
    Host.gather gather_S15x128_S4096x200x1_S4096x200x128_2_0_n_n_0_2_1128 tab idx (ix3 b s d)
      = tab (ix2 ⟨min (idx (ix3 b s (⟨0, Nat.one_pos⟩ : Fin 1))).toInt.toNat 14, by omega⟩ d) := by
  unfold Host.gather
  congr 1
  funext a
  refine Fin.ext ?_
  match a with
  | ⟨0, _⟩ =>
    show gather_S15x128_S4096x200x1_S4096x200x128_2_0_n_n_0_2_1128.start (ix3 b s d) idx 0 + gather_S15x128_S4096x200x1_S4096x200x128_2_0_n_n_0_2_1128.batchCoord (ix3 b s d) 0 + gather_S15x128_S4096x200x1_S4096x200x128_2_0_n_n_0_2_1128.offCoord (ix3 b s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S15x128_S4096x200x1_S4096x200x128_2_0_n_n_0_2_1128.startIndexMap from List.mem_singleton.mpr rfl)]
    have hsi : gather_S15x128_S4096x200x1_S4096x200x128_2_0_n_n_0_2_1128.siIdx (ix3 b s d) ⟨List.idxOf (0 : Fin 2) gather_S15x128_S4096x200x1_S4096x200x128_2_0_n_n_0_2_1128.startIndexMap,
        List.idxOf_lt_length_iff.2 (List.mem_singleton.mpr rfl)⟩ = ix3 b s (⟨0, Nat.one_pos⟩ : Fin 1) := by
      funext c; refine Fin.ext ?_
      match c with
      | ⟨0, _⟩ => rfl
      | ⟨1, _⟩ => rfl
      | ⟨2, _⟩ => rfl
    rw [hsi]
    rfl
  | ⟨1, _⟩ =>
    show gather_S15x128_S4096x200x1_S4096x200x128_2_0_n_n_0_2_1128.start (ix3 b s d) idx 1 + gather_S15x128_S4096x200x1_S4096x200x128_2_0_n_n_0_2_1128.batchCoord (ix3 b s d) 1 + gather_S15x128_S4096x200x1_S4096x200x128_2_0_n_n_0_2_1128.offCoord (ix3 b s d) 1 = d.val
    rw [GatherDims.batchCoord_eq_zero _ _ _ List.not_mem_nil]
    unfold GatherDims.start
    rw [dif_neg (show (1 : Fin 2) ∉ gather_S15x128_S4096x200x1_S4096x200x128_2_0_n_n_0_2_1128.startIndexMap from by decide)]
    simp only [Nat.add_zero, Nat.zero_add]
    rfl

/-- THE TOKEN LOOKUP AT (b, s, d), every id at most 14: the table at (the id's row, d). -/
theorem tokTake_apply (x : IVec S4096x200 32) (tab : FVec F S15x128 .f32) (h : ∀ j, (x j).toNat ≤ 14)
    (b : Fin 4096) (s : Fin 200) (d : Fin 128) :
    tokTake x tab (ix3 b s d) = tab (ix2 ⟨min (x (ix2 b s)).toNat 14, by omega⟩ d) := by
  have hs : ∀ j, 2 * (x j).toNat < 2 ^ 32 := fun j => by have := h j; omega
  unfold tokTake
  rw [select_apply]
  have hm : broadcastInDim S4096x200x128 ![0, 1] bcast_S4096x200_S4096x200x128_0_1 (tokMask x) (ix3 b s d) = 1#1 := by
    rw [broadcastInDim_apply _ _ _ _ (ix2 b s) (fun a => by match a with | ⟨0, _⟩ => rfl | ⟨1, _⟩ => rfl)]
    exact tokMask_one x h _
  have hid : tokIds1 x (ix3 b s (⟨0, Nat.one_pos⟩ : Fin 1)) = x (ix2 b s) :=
    (tokIds1_apply x _).trans (congrFun (tokWrap_eq x hs) _)
  rw [hm, select_one, tokGather_apply]
  refine congrArg tab (congrArg (fun r => ix2 r d) (Fin.ext ?_))
  show min (tokIds1 x (ix3 b s (⟨0, Nat.one_pos⟩ : Fin 1))).toInt.toNat 14 = min (x (ix2 b s)).toNat 14
  rw [hid, clamp_of_le 14 (by norm_num) (h _), Nat.min_eq_left (h _)]

/-! ## The position lookup -/

theorem posWrap_eq (x : IVec S200 32) (h : ∀ j, 2 * (x j).toNat < 2 ^ 32) : posWrap x = x := by
  funext j
  show Scalar.select (IntOp.cmpi .slt (x j) 0#32) _ (x j) = x j
  rw [cmpi_slt_zero (h j), select_zero]

theorem posIds1_apply (x : IVec S200 32) (k : S200x1.Idx) : posIds1 x k = posWrap x (ix1 (k 0)) := by
  unfold posIds1
  refine broadcastInDim_apply _ _ _ _ _ fun a => ?_
  match a with
  | ⟨0, _⟩ => rfl

theorem posMask1_one (x : IVec S200 32) (h : ∀ j, (x j).toNat ≤ 199) (k : S200x1.Idx) : posMask1 x k = 1#1 := by
  have hs : ∀ j, 2 * (x j).toNat < 2 ^ 32 := fun j => by have := h j; omega
  show IntOp.andi (IntOp.cmpi .sge (posIds1 x k) 0#32) (IntOp.cmpi .sle (posIds1 x k) (BitVec.ofNat 32 199)) = 1#1
  rw [posIds1_apply, posWrap_eq x hs, cmpi_sge_zero (hs _), cmpi_sle_lit 199 (by norm_num) (h _)]
  decide

theorem posMask_one (x : IVec S200 32) (h : ∀ j, (x j).toNat ≤ 199) (j : S200.Idx) : posMask x j = 1#1 :=
  reduce_andi_of_all _ _ _ _ j (posMask1_one x h) (fun _ => rfl)

/-- The position table's gather at (s, d): the table at (the start index at (s, 0) read signed and clamped into
    [0, 199], d). -/
theorem posGather_apply {α : Type} (tab : S200x128.Idx → α) (idx : IVec S200x1 32) (s : Fin 200) (d : Fin 128) :
    Host.gather gather_S200x128_S200x1_S200x128_1_0_n_n_0_1_1128 tab idx (ix2 s d)
      = tab (ix2 ⟨min (idx (ix2 s (⟨0, Nat.one_pos⟩ : Fin 1))).toInt.toNat 199, by omega⟩ d) := by
  unfold Host.gather
  congr 1
  funext a
  refine Fin.ext ?_
  match a with
  | ⟨0, _⟩ =>
    show gather_S200x128_S200x1_S200x128_1_0_n_n_0_1_1128.start (ix2 s d) idx 0 + gather_S200x128_S200x1_S200x128_1_0_n_n_0_1_1128.batchCoord (ix2 s d) 0 + gather_S200x128_S200x1_S200x128_1_0_n_n_0_1_1128.offCoord (ix2 s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S200x128_S200x1_S200x128_1_0_n_n_0_1_1128.startIndexMap from List.mem_singleton.mpr rfl)]
    have hsi : gather_S200x128_S200x1_S200x128_1_0_n_n_0_1_1128.siIdx (ix2 s d) ⟨List.idxOf (0 : Fin 2) gather_S200x128_S200x1_S200x128_1_0_n_n_0_1_1128.startIndexMap,
        List.idxOf_lt_length_iff.2 (List.mem_singleton.mpr rfl)⟩ = ix2 s (⟨0, Nat.one_pos⟩ : Fin 1) := by
      funext c; refine Fin.ext ?_
      match c with
      | ⟨0, _⟩ => rfl
      | ⟨1, _⟩ => rfl
    rw [hsi]
    rfl
  | ⟨1, _⟩ =>
    show gather_S200x128_S200x1_S200x128_1_0_n_n_0_1_1128.start (ix2 s d) idx 1 + gather_S200x128_S200x1_S200x128_1_0_n_n_0_1_1128.batchCoord (ix2 s d) 1 + gather_S200x128_S200x1_S200x128_1_0_n_n_0_1_1128.offCoord (ix2 s d) 1 = d.val
    rw [GatherDims.batchCoord_eq_zero _ _ _ List.not_mem_nil]
    unfold GatherDims.start
    rw [dif_neg (show (1 : Fin 2) ∉ gather_S200x128_S200x1_S200x128_1_0_n_n_0_1_1128.startIndexMap from by decide)]
    simp only [Nat.add_zero, Nat.zero_add]
    rfl

/-- THE POSITION LOOKUP AT (s, d), every id at most 199: the table at (the id's row, d). -/
theorem posTake_apply (x : IVec S200 32) (tab : FVec F S200x128 .f32) (h : ∀ j, (x j).toNat ≤ 199)
    (s : Fin 200) (d : Fin 128) :
    posTake x tab (ix2 s d) = tab (ix2 ⟨min (x (ix1 s)).toNat 199, by omega⟩ d) := by
  have hs : ∀ j, 2 * (x j).toNat < 2 ^ 32 := fun j => by have := h j; omega
  unfold posTake
  rw [select_apply]
  have hm : broadcastInDim S200x128 ![0] bcast_S200_S200x128_0 (posMask x) (ix2 s d) = 1#1 := by
    rw [broadcastInDim_apply _ _ _ _ (ix1 s) (fun a => by match a with | ⟨0, _⟩ => rfl)]
    exact posMask_one x h _
  have hid : posIds1 x (ix2 s (⟨0, Nat.one_pos⟩ : Fin 1)) = x (ix1 s) :=
    (posIds1_apply x _).trans (congrFun (posWrap_eq x hs) _)
  rw [hm, select_one, posGather_apply]
  refine congrArg tab (congrArg (fun r => ix2 r d) (Fin.ext ?_))
  show min (posIds1 x (ix2 s (⟨0, Nat.one_pos⟩ : Fin 1))).toInt.toNat 199 = min (x (ix1 s)).toNat 199
  rw [hid, clamp_of_le 199 (by norm_num) (h _), Nat.min_eq_left (h _)]

/-- The position ids 0, 1, …, 199 as natural numbers. -/
theorem iota_toNat (j : S200.Idx) : (iotaInDim S200 32 0 j).toNat = (j 0).val := by
  have hlt : (j 0).val < 200 := (j 0).isLt
  show (BitVec.ofNat 32 (j 0).val).toNat = _
  rw [BitVec.toNat_ofNat]
  exact Nat.mod_eq_of_lt (by omega)

/-- The position lookup at the ids 0, 1, …, 199 is the position table itself. -/
theorem posTake_iota (tab : FVec F S200x128 .f32) (s : Fin 200) (d : Fin 128) :
    posTake (iotaInDim S200 32 0) tab (ix2 s d) = tab (ix2 s d) := by
  have h : ∀ j, (iotaInDim S200 32 0 j).toNat ≤ 199 := fun j => by
    rw [iota_toNat]; have hlt : (j 0).val < 200 := (j 0).isLt; omega
  rw [posTake_apply _ tab h]
  refine congrArg tab (congrArg (fun r => ix2 r d) (Fin.ext ?_))
  show min (iotaInDim S200 32 0 (ix1 s)).toNat 199 = s.val
  rw [iota_toNat]
  have hlt : s.val < 200 := s.isLt
  show min s.val 199 = s.val
  omega

/-! ## The reference's result at an index, and as the shared function -/

/-- THE REFERENCE'S RESULT AT (b, s, d), every token id at most 14:
    tok[x[b,s], d] · c + pos[s, d]. -/
theorem refVal_apply (x : IVec S4096x200 32) (tok : FVec F S15x128 .f32) (pos : FVec F S200x128 .f32)
    (h : ∀ j, (x j).toNat ≤ 14) (b : Fin 4096) (s : Fin 200) (d : Fin 128) :
    refVal x tok pos (ix3 b s d)
      = FloatOps.addf (FloatOps.mulf (tok (ix2 ⟨min (x (ix2 b s)).toNat 14, by omega⟩ d)) (FloatOps.ofBits .f32 0x413504F3#32))
          (pos (ix2 s d)) := by
  show FloatOps.addf (FloatOps.mulf (tokTake x tok (ix3 b s d)) (FloatOps.ofBits .f32 0x413504F3#32))
      (broadcastInDim S4096x200x128 ![0, 1, 2] bcast_S1x200x128_S4096x200x128_0_1_2
        (broadcastInDim S1x200x128 ![1, 2] bcast_S200x128_S1x200x128_1_2 (posTake (iotaInDim S200 32 0) pos)) (ix3 b s d)) = _
  rw [tokTake_apply x tok h,
    broadcastInDim_apply _ _ _ _ (ix3 (⟨0, Nat.one_pos⟩ : Fin 1) s d)
      (fun a => by match a with | ⟨0, _⟩ => rfl | ⟨1, _⟩ => rfl | ⟨2, _⟩ => rfl),
    broadcastInDim_apply _ _ _ _ (ix2 s d) (fun a => by match a with | ⟨0, _⟩ => rfl | ⟨1, _⟩ => rfl),
    posTake_iota]

/-- Where every token id is at most 14 the reference's result is the shared function of the three arrays. -/
theorem refVal_eq_G (x : IVec S4096x200 32) (tok : FVec F S15x128 .f32) (pos : FVec F S200x128 .f32)
    (h : ∀ j, (x j).toNat ≤ 14) : refVal x tok pos = Cert.Spec.G x tok pos := by
  funext i
  obtain ⟨b, s, d, rfl⟩ : ∃ b s d, i = ix3 b s d := ⟨i 0, i 1, i 2, eq_ix3 i⟩
  rw [refVal_apply x tok pos h, Cert.Spec.G_apply]
  rfl

end Cert.ReferenceIdeal.RefRun

end
-- ==== Proof.RefRun.lean ====
/-
  The reference's run, with its result named: from any memory with zero counters in which every token id,
  read as a natural number, is at most 14, every weakly fair execution of the reference's @main
  terminates, the result buffer holding
      out[b,s,d] = tok[x[b,s], d] · c + pos[s, d]
  (the shared function `Cert.Spec.G` of the three argument buffers' launch contents) and the three
  argument buffers unchanged.

  The run's fold at the result buffer is computed over the list of plain operations (one pass, every
  shared intermediate visited once), which is the list @main unfolds to; it is the pure function
  `refVal` of the arguments, and `refVal` is `G` index by index where the ids are in range.
-/
import proofs.«206439_g51874615001410_cont_9to1_m_433_33_alg».proof.Defs
import proofs.«206439_g51874615001410_cont_9to1_m_433_33_alg».proof.Proof.Gen.ReferenceIdeal
import proofs.«206439_g51874615001410_cont_9to1_m_433_33_alg».proof.Proof.Spec
import proofs.«206439_g51874615001410_cont_9to1_m_433_33_alg».proof.Proof.RefPlain
import proofs.«206439_g51874615001410_cont_9to1_m_433_33_alg».proof.Proof.RefIdx

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! ## The fold at the result and argument buffers -/

attribute [local irreducible] Host.reduce Host.gather in
set_option maxRecDepth 8192 in
/-- The fold at the result buffer is the reference's function of the three argument buffers. -/
theorem after_v7 (V : Valuation τ sig (Elt F)) :
    after ops V (main_v7 : DevRef τ sig)
      = refVal (V (main_arg0 : DevRef τ sig)) (V (main_arg1 : DevRef τ sig)) (V (main_arg2 : DevRef τ sig)) := by
  rw [ops_eq]
  unfold refVal tokTake tokMask tokMask1 tokIds1 tokWrap posTake posMask posMask1 posIds1 posWrap
  after_results_simp

/-- No operation writes an argument buffer. -/
theorem after_arg0 (V : Valuation τ sig (Elt F)) : after ops V (main_arg0 : DevRef τ sig) = V (main_arg0 : DevRef τ sig) := by
  rw [ops_eq]; after_results_simp
theorem after_arg1 (V : Valuation τ sig (Elt F)) : after ops V (main_arg1 : DevRef τ sig) = V (main_arg1 : DevRef τ sig) := by
  rw [ops_eq]; after_results_simp
theorem after_arg2 (V : Valuation τ sig (Elt F)) : after ops V (main_arg2 : DevRef τ sig) = V (main_arg2 : DevRef τ sig) := by
  rw [ops_eq]; after_results_simp

/-! ## The run -/

/-- At any float instance: where every token id is at most 14, every weakly fair execution of @main
    terminates with the result buffer at `G` of the arguments' launch contents, the arguments unchanged. -/
theorem run_gen
    (m : (ℓ : Loc nD τ sig) → Buf (Elt F) ℓ) (g : Dev nD → PrngReg)
    (hx : ∀ (c : Dev nD) j, ((m ((c.tc : Thread nD τ).loc main_arg0)) j).toNat ≤ 14) :
    θ_run (defs (F := F)) (onTc (τ := τ) (main (F := F))) ⟨m, fun _ => 0, g⟩
      (fun r => ∀ c : Dev nD,
        r.2.mem ((c.tc : Thread nD τ).loc main_v7) = Cert.Spec.G (F := F) (m ((c.tc : Thread nD τ).loc main_arg0)) (m ((c.tc : Thread nD τ).loc main_arg1)) (m ((c.tc : Thread nD τ).loc main_arg2))
        ∧ r.2.mem ((c.tc : Thread nD τ).loc main_arg0) = (m ((c.tc : Thread nD τ).loc main_arg0))
        ∧ r.2.mem ((c.tc : Thread nD τ).loc main_arg1) = (m ((c.tc : Thread nD τ).loc main_arg1))
        ∧ r.2.mem ((c.tc : Thread nD τ).loc main_arg2) = (m ((c.tc : Thread nD τ).loc main_arg2))) :=
  (θ_run (defs (F := F)) _ _).mono
    (fun _ h c =>
      ⟨(h c main_v7).trans ((after_v7 _).trans (refVal_eq_G _ _ _ (hx c))),
        (h c main_arg0).trans (after_arg0 _),
        (h c main_arg1).trans (after_arg1 _),
        (h c main_arg2).trans (after_arg2 _)⟩)
    (run_after m g)

/-- THE REFERENCE'S RUN at the ideal instance. -/
theorem run
    (m : (ℓ : Loc Cert.ReferenceIdeal.nD Cert.ReferenceIdeal.τ Cert.ReferenceIdeal.sig) → Buf (Elt Ideal) ℓ)
    (g : Dev Cert.ReferenceIdeal.nD → PrngReg)
    (hx : ∀ (c : Dev Cert.ReferenceIdeal.nD) j, ((m ((c.tc : Thread nD τ).loc main_arg0)) j).toNat ≤ 14) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread nD τ).loc main_v7) = Cert.Spec.G (F := Ideal) (m ((c.tc : Thread nD τ).loc main_arg0)) (m ((c.tc : Thread nD τ).loc main_arg1)) (m ((c.tc : Thread nD τ).loc main_arg2))
        ∧ r.2.mem ((c.tc : Thread nD τ).loc main_arg0) = (m ((c.tc : Thread nD τ).loc main_arg0))
        ∧ r.2.mem ((c.tc : Thread nD τ).loc main_arg1) = (m ((c.tc : Thread nD τ).loc main_arg1))
        ∧ r.2.mem ((c.tc : Thread nD τ).loc main_arg2) = (m ((c.tc : Thread nD τ).loc main_arg2))) :=
  run_gen m g hx

end Cert.ReferenceIdeal.RefRun

end
-- ==== Proof.ClaimsKI.lean ====
/-
  The claims of the idealized pair, from the two runs.

  The kernel program's run (taken here as a hypothesis of the stated shape) ends with the result buffer at the
  gathered rows of the fused table reshaped to 4096 x 200 x 128 and the three arguments unchanged; the reference's
  run ends with its result at out[b,s,d] = tok[x[b,s], d] · c + pos[s, d]. Under the precondition every token id
  is in [0, 14], and there both results are the one function G of the argument arrays: the gathered row
  (s·16 + x[b,s]) of the fused table is tokpad[x[b,s], :] · c + pos[s, :], and the padding row is never named.
-/
import proofs.«206439_g51874615001410_cont_9to1_m_433_33_alg».proof.Defs
import proofs.«206439_g51874615001410_cont_9to1_m_433_33_alg».proof.Proof.Gen.Pre_input_domain
import proofs.«206439_g51874615001410_cont_9to1_m_433_33_alg».proof.Proof.FinKI
import proofs.«206439_g51874615001410_cont_9to1_m_433_33_alg».proof.Proof.KValue
import proofs.«206439_g51874615001410_cont_9to1_m_433_33_alg».proof.Proof.Spec
import proofs.«206439_g51874615001410_cont_9to1_m_433_33_alg».proof.Proof.PreIds
import proofs.«206439_g51874615001410_cont_9to1_m_433_33_alg».proof.Proof.RefRun

noncomputable section

namespace Cert.Proof.KI

open Cert.KernelIdeal Cert.KernelIdeal.Gen

open Idealize.ShloMosaic
open Idealize.ShloMosaic.SparseCore (S V T)
open Idealize.SL.Sem

/-! ## The precondition, read: every token id is at most 14 -/

/-- Under the precondition every token id of the launch memory, read as a natural number, is at most 14. -/
theorem ki_ids (m : (ℓ : Loc nD τ sig) → Buf (Elt Ideal) ℓ) (hpre : Cert.Pre_KernelIdeal m) :
    ∀ (d : Dev nD) j, ((m (xLoc d)) j).toNat ≤ 14 :=
  fun d j => Cert.PreIds.ids_le (F := Ideal) _ _ _ (hpre d) j

/-! ## The kernel's result is the shared function -/

/-- The gathered rows of the fused table, reshaped, are G of the three argument arrays where every id is at most 14. -/
theorem res_eq_G {F : FTy → Type} [FloatOps F] [hK : Cert.KernelIdeal.Facts]
    (m : (ℓ : Loc nD τ sig) → Buf (Elt F) ℓ) (d : Dev nD) (hx : ∀ j, ((m (xLoc d)) j).toNat ≤ 14) :
    (shapeCast S4096x200x128 (OUTF m d) hK.shapeCasts_S819200x128_S4096x200x128 : Buf (Elt F) (resLoc d))
      = Cert.Spec.G (m (xLoc d)) (m (tokLoc d)) (m (posLoc d)) := by
  unfold OUTF TAB XF TOKPAD
  exact Cert.KValue.out_eq_G _ _ _ _ hx _ _ _ _ _ _ _ _ _ _

/-! ## The claims -/

section Claims

/- The kernel program's closed run, as a hypothesis: where every token id is at most 14, every weakly fair
   execution of the whole family of threads terminates without a fault, the result at the gathered rows
   reshaped and the arguments unchanged. -/
variable (hrun : ∀ (m : (ℓ : Loc Cert.KernelIdeal.nD Cert.KernelIdeal.τ Cert.KernelIdeal.sig) → Buf (Elt Ideal) ℓ)
    (ρ : Dev Cert.KernelIdeal.nD → PrngReg), (∀ (d : Dev nD) j, ((m (xLoc d)) j).toNat ≤ 14) →
    θ_run (Cert.KernelIdeal.defs (F := Ideal)) (Cert.KernelIdeal.threads (F := Ideal)) ⟨m, fun _ => 0, ρ⟩ (QC m))

include hrun in
/-- The idealized kernel program runs and leaves its arguments unchanged: its run with the result dropped. -/
theorem frame_pi : Cert.frame_KernelIdeal := fun m g hpre =>
  (θ_run (Cert.KernelIdeal.defs (F := Ideal)) _ _).mono (fun _ h c => ⟨(h c).2.1, (h c).2.2.1, (h c).2.2.2⟩)
    (hrun m g (ki_ids m hpre))

/-- The reference runs and leaves its arguments unchanged: its run with the result dropped. -/
theorem frame_ri : Cert.frame_ReferenceIdeal := fun m g hpre =>
  (θ_run (Cert.ReferenceIdeal.defs (F := Ideal)) _ _).mono (fun _ h c => (h c).2)
    (Cert.ReferenceIdeal.RefRun.run m g (fun c j => Cert.PreIds.ids_le (F := Ideal) _ _ _ (hpre c) j))

/-- The ideal pass rewrote nothing: there is nothing to preserve. -/
theorem preserves : Cert.preserves_Kernel_KernelIdeal := trivial

include hrun in
/-- From memories agreeing on the arguments both programs end, on every device, with their results at G of the
    arguments: the kernel's by its run and `res_eq_G`, the reference's by its run at the agreeing arguments. -/
theorem algebraic : Cert.algebraic_KernelIdeal_ReferenceIdeal := by
  intro m g m' g' hpre hagree
  have hx := ki_ids m hpre
  have hx' : ∀ (c : Dev Cert.ReferenceIdeal.nD) j,
      ((m' ((c.tc : Thread Cert.ReferenceIdeal.nD Cert.ReferenceIdeal.τ).loc Cert.ReferenceIdeal.main_arg0)) j).toNat ≤ 14 := by
    intro c j
    rw [(hagree c).1]
    exact hx c j
  refine ⟨fun c => Cert.Spec.G (F := Ideal) (m (xLoc c)) (m (tokLoc c)) (m (posLoc c)), ?_, ?_⟩
  · exact (θ_run (Cert.KernelIdeal.defs (F := Ideal)) _ _).mono
      (fun _ h c => ⟨(h c).1.trans (res_eq_G m c (hx c)), (h c).2⟩) (hrun m g hx)
  · refine (θ_run (Cert.ReferenceIdeal.defs (F := Ideal)) _ _).mono (fun _ h c => ⟨(h c).1.trans ?_, (h c).2⟩)
      (Cert.ReferenceIdeal.RefRun.run m' g' hx')
    rw [(hagree c).1, (hagree c).2.1, (hagree c).2.2]

end Claims

end Cert.Proof.KI

end
-- ==== Proof.ClaimsKB.lean ====
/-
  The word-level kernel program's frame, from its run.

  The run (taken here as a hypothesis of the stated shape) ends with the three arguments unchanged wherever every
  token id is in [0, 14]; under the precondition every id is, so the program runs and leaves its arguments unchanged.
-/
import proofs.«206439_g51874615001410_cont_9to1_m_433_33_alg».proof.Defs
import proofs.«206439_g51874615001410_cont_9to1_m_433_33_alg».proof.Proof.Gen.Pre_input_domain
import proofs.«206439_g51874615001410_cont_9to1_m_433_33_alg».proof.Proof.FinKB
import proofs.«206439_g51874615001410_cont_9to1_m_433_33_alg».proof.Proof.PreIds

noncomputable section

namespace Cert.Proof.KB

open Cert.Kernel Cert.Kernel.Gen

open Idealize.ShloMosaic
open Idealize.ShloMosaic.SparseCore (S V T)
open Idealize.SL.Sem

/-- Under the precondition every token id of the launch memory, read as a natural number, is at most 14. -/
theorem kb_ids (m : (ℓ : Loc nD τ sig) → Buf (Elt Bits) ℓ) (hpre : Cert.Pre_Kernel m) :
    ∀ (d : Dev nD) j, ((m (xLoc d)) j).toNat ≤ 14 :=
  fun d j => Cert.PreIds.ids_le (F := Bits) _ _ _ (hpre d) j

section Claims

/- The kernel program's closed run at the word level, as a hypothesis: where every token id is at most 14, every
   weakly fair execution of the whole family of threads terminates without a fault, the result at the gathered
   rows reshaped and the arguments unchanged. -/
variable (hrunB : ∀ (m : (ℓ : Loc Cert.Kernel.nD Cert.Kernel.τ Cert.Kernel.sig) → Buf (Elt Bits) ℓ)
    (ρ : Dev Cert.Kernel.nD → PrngReg), (∀ (d : Dev nD) j, ((m (xLoc d)) j).toNat ≤ 14) →
    θ_run (Cert.Kernel.defs (F := Bits)) (Cert.Kernel.threads (F := Bits)) ⟨m, fun _ => 0, ρ⟩ (QC m))

include hrunB in
/-- The kernel program runs and leaves its arguments unchanged: its run with the result dropped. -/
theorem frame_p : Cert.frame_Kernel := fun m g hpre =>
  (θ_run (Cert.Kernel.defs (F := Bits)) _ _).mono (fun _ h c => ⟨(h c).2.1, (h c).2.2.1, (h c).2.2.2⟩)
    (hrunB m g (kb_ids m hpre))

end Claims

end Cert.Proof.KB

end
-- ==== Proof.lean ====
/-
  The proof of `Cert.Claim`: the three frames, `preserves` and `algebraic`.

  WHAT IS COMPUTED. With x the 4096 x 200 token ids, tok the 15-row token table, pos the 200-row position table
  (rows of 128 floats) and c the binary32 value of the word 0x413504F3, both programs compute
      out[b, s, d] = tok[x[b,s], d] · c + pos[s, d].
  The reference does it by two table lookups (each: negative ids wrapped, a bounds mask, the gather, a select
  against a fill value), a product with the literal and a sum. The kernel first builds, on the TensorCore, the fused
  table fused[p, v, :] = tokpad[v, :] · c + pos[p, :] over the 200 positions p and the 16 rows v of the token table
  padded by one row, and reshapes it to 3200 rows; then, on the 32 vector subcores of the two SparseCores, worker w
  gathers for each of its 25600 flat positions n the row (n mod 200)·16 + x[n] of that table into out[n, :]. Each
  SparseCore first copies the table into its shared memory, 200 rows per subcore, and its sixteen subcores meet at the
  subcore barrier before any of them gathers. Under the precondition every id is in [0, 14], so the padding row is
  never named and no lookup of the reference is out of range.

  THE STAGES.
  1. The specification (Spec): the function G of the three argument arrays both programs are shown to compute.
  2. The precondition, read (PreIds): every token id, as a natural number, is at most 14.
  3. The reference's run (RefOps, RefPlain, RefVal, RefIdx, RefRun): @main as one straight line of its 53 host
     operations, its run's fold at the result buffer as a pure function of the arguments, and that function read at
     an index: it is G where the ids are in range.
  4. The kernel's whole-array function (KSpec, KValue): the gathered rows of the fused table, reshaped, are G where
     the ids are in range.
  5. The launch (SetupKI, SplitKI, ElemKI, FinKI, RunKI, RegionKI, HMainKI): the configuration and resource algebra
     and the arrays' contents as functions of the launch memory; the split of a SparseCore's operands among its
     sixteen tasks; the launch element of the ghost state; how the final memory reads the claim; the run from those
     parts; the one pipelined region that builds the fused table; @main on the TensorCore.
  6. The subcore barrier (BarrierKI): a task's arrival carries read tokens of the 200 rows it copied, so that after
     its own wait a task holds a read token of the whole shared table.
  7. The task's body (TileResKI, GeomKI, IdxChunk, ValsKI, BookKI, InvKI, TripKI, BodyKI): a subcore's own storage
     item by item; which elements each slice of the body covers; an index chunk's arithmetic on words; what the
     buffers hold as functions of the launch memory; the read tokens and the output rows done and still to do; the
     loop invariant; one step group of the loop; and the body at a symbolic task, from what the launch hands it to
     what it hands back. From it the launch theorem's obligation for the vector subcores (OblKI) and the closed run
     (RunAllKI).
  8. Both instances: every kernel-side module is generic in the float instance and is stated twice, over the
     idealized program's names (…KI) and over the word-level program's (…KB).
  9. The claims (ClaimsKI, ClaimsKB): each frame is a run with the result dropped; `preserves` is trivial, the ideal
     pass having rewritten nothing; `algebraic` pairs the two runs at G of agreeing arguments.
-/
import proofs.«206439_g51874615001410_cont_9to1_m_433_33_alg».proof.Defs
import proofs.«206439_g51874615001410_cont_9to1_m_433_33_alg».proof.Proof.Gen.Kernel
import proofs.«206439_g51874615001410_cont_9to1_m_433_33_alg».proof.Proof.Gen.KernelIdeal
import proofs.«206439_g51874615001410_cont_9to1_m_433_33_alg».proof.Proof.Gen.ReferenceIdeal
import proofs.«206439_g51874615001410_cont_9to1_m_433_33_alg».proof.Proof.Gen.Pre_input_domain
import proofs.«206439_g51874615001410_cont_9to1_m_433_33_alg».proof.Proof.BodyKI
import proofs.«206439_g51874615001410_cont_9to1_m_433_33_alg».proof.Proof.BodyKB
import proofs.«206439_g51874615001410_cont_9to1_m_433_33_alg».proof.Proof.RunAllKI
import proofs.«206439_g51874615001410_cont_9to1_m_433_33_alg».proof.Proof.RunAllKB
import proofs.«206439_g51874615001410_cont_9to1_m_433_33_alg».proof.Proof.ClaimsKI
import proofs.«206439_g51874615001410_cont_9to1_m_433_33_alg».proof.Proof.ClaimsKB

noncomputable section

namespace Cert.Proof

open Idealize.ShloMosaic Idealize.SL.Sem

/-- The idealized kernel program's closed run: the launch's parts with the task's body. -/
theorem hrunI (m : (ℓ : Loc Cert.KernelIdeal.nD Cert.KernelIdeal.τ Cert.KernelIdeal.sig) → Buf (Elt Ideal) ℓ)
    (ρ : Dev Cert.KernelIdeal.nD → PrngReg)
    (hx : ∀ (d : Dev Cert.KernelIdeal.nD) j, ((m (Cert.Proof.KI.xLoc d)) j).toNat ≤ 14) :
    θ_run (Cert.KernelIdeal.defs (F := Ideal)) (Cert.KernelIdeal.threads (F := Ideal)) ⟨m, fun _ => 0, ρ⟩ (Cert.Proof.KI.QC m) :=
  Cert.Proof.KI.run_main_of_body m ρ
    (fun d L hF O W hO hOlev hxf => Cert.Proof.KI.tile_body m d L hF O W hO hOlev hxf) hx

/-- The word-level kernel program's closed run. -/
theorem hrunB (m : (ℓ : Loc Cert.Kernel.nD Cert.Kernel.τ Cert.Kernel.sig) → Buf (Elt Bits) ℓ)
    (ρ : Dev Cert.Kernel.nD → PrngReg)
    (hx : ∀ (d : Dev Cert.Kernel.nD) j, ((m (Cert.Proof.KB.xLoc d)) j).toNat ≤ 14) :
    θ_run (Cert.Kernel.defs (F := Bits)) (Cert.Kernel.threads (F := Bits)) ⟨m, fun _ => 0, ρ⟩ (Cert.Proof.KB.QC m) :=
  Cert.Proof.KB.run_main_of_body m ρ
    (fun d L hF O W hO hOlev hxf => Cert.Proof.KB.tile_body m d L hF O W hO hOlev hxf) hx

theorem claim : Cert.Claim :=
  ⟨Cert.Kernel.Gen.facts, Cert.KernelIdeal.Gen.facts, Cert.ReferenceIdeal.Gen.facts, Cert.Pre_input_domain.Gen.facts,
    Cert.Proof.KB.frame_p hrunB,
    Cert.Proof.KI.frame_pi hrunI,
    Cert.Proof.KI.frame_ri,
    Cert.Proof.KI.preserves,
    Cert.Proof.KI.algebraic hrunI⟩

end Cert.Proof

end
